-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S16384x16384 : Shape := ⟨2, ![16384, 16384]⟩
abbrev S16384x500 : Shape := ⟨2, ![16384, 500]⟩
abbrev S128x1000 : Shape := ⟨2, ![128, 1000]⟩
abbrev S128 : Shape := ⟨1, ![128]⟩
abbrev S128x256 : Shape := ⟨2, ![128, 256]⟩
abbrev S128x128 : Shape := ⟨2, ![128, 128]⟩
abbrev S10x128 : Shape := ⟨2, ![10, 128]⟩
abbrev S10 : Shape := ⟨1, ![10]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x500 : S_.BroadcastsInDim S16384x500 (![] : Fin 0 → Fin S16384x500.rank)
  reducesTo_S16384x500_S_d0_1 : S16384x500.ReducesTo [0, 1] S_
  bcast_S_S128x1000 : S_.BroadcastsInDim S128x1000 (![] : Fin 0 → Fin S128x1000.rank)
  reducesTo_S128x1000_S_d0_1 : S128x1000.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S128 .f32) (main_arg9 : FVec F S10x128 .f32) (main_arg10 : FVec F S10 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S10x128 .f32 := Host.absf main_arg9
  let main_cst_14 : FVec F S_ .f32 := constant S_ .f32 0x7F800000#32
  let main_v40 : FVec F S10x128 .f32 := broadcastInDim S10x128 ![] bcast_S_S10x128 main_cst_14
  let main_v41 : IVec S10x128 1 := cmpf .olt main_v39 main_v40
  let main_c_15 : IVec S_ 1 := constantI S_ 1 1#1
  let main_v42 : IVec S_ 1 := (fun x v => Host.reduce IntOp.andi x v reducesTo_S10x128_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg5 : FVec F S128x256 .f32) (main_arg6 : FVec F S128 .f32) (main_arg7 : FVec F S128x128 .f32) (main_arg8 : FVec F S128 .f32) (main_arg9 : FVec F S10x128 .f32) (main_arg10 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : IVec S4096 32) (main_arg1 : FVec F S16384x16384 .f32) (main_arg2 : FVec F S16384x500 .f32) (main_arg3 : FVec F S128x1000 .f32) (main_arg4 : FVec F S128 .f32) (main_arg5 : FVec F S128x256 .f32) (main_arg6 : FVec F S128 .f32) (main_arg7 : FVec F S128x128 .f32) (main_arg8 : FVec F S128 .f32) (main_arg9 : FVec F S10x128 .f32) (main_arg10 : FVec F S10 .f32) : IVec S_ 1 :=
  let main_v0 : FVec F S16384x16384 .f32 := Host.absf main_arg1
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x500 .f32 := Host.absf main_arg2
  let main_cst_0 : FVec F S_ .f32 := constant S_ .f32 0x7F800000#32
  let main_v5 : FVec F S16384x500 .f32 := broadcastInDim S16384x500 ![] bcast_S_S16384x500 main_cst_0
  let main_v6 : IVec S16384x500 1 := cmpf .olt main_v4 main_v5
  let main_c_1 : IVec S_ 1 := constantI S_ 1 1#1
  let main_v7 : IVec S_ 1 := (fun x v => Host.reduce IntOp.andi x v reducesTo_S16384x500_S_d0_1 h_S_) main_v6 main_c_1
  let main_v8 : IVec S_ 1 := andi main_v3 main_v7
  let main_v9 : FVec F S128x1000 .f32 := Host.absf main_arg3
  let main_cst_2 : FVec F S_ .f32 := constant S_ .f32 0x7F800000#32
  let main_v10 : FVec F S128x1000 .f32 := broadcastInDim S128x1000 ![] bcast_S_S128x1000 main_cst_2
  let main_v11 : IVec S128x1000 1 := cmpf .olt main_v9 main_v10
  let main_c_3 : IVec S_ 1 := constantI S_ 1 1#1
  let main_v12 : IVec S_ 1 := (fun x v => Host.reduce IntOp.andi x v reducesTo_S128x1000_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S4096 : Shape := ⟨1, ![4096]⟩
abbrev S16384x16384 : Shape := ⟨2, ![16384, 16384]⟩
abbrev S16384x500 : Shape := ⟨2, ![16384, 500]⟩
abbrev S128x1000 : Shape := ⟨2, ![128, 1000]⟩
abbrev S128 : Shape := ⟨1, ![128]⟩
abbrev S128x256 : Shape := ⟨2, ![128, 256]⟩
abbrev S128x128 : Shape := ⟨2, ![128, 128]⟩
abbrev S10x128 : Shape := ⟨2, ![10, 128]⟩
abbrev S10 : Shape := ⟨1, ![10]⟩
abbrev S1000x128 : Shape := ⟨2, ![1000, 128]⟩
abbrev S500x128 : Shape := ⟨2, ![500, 128]⟩
abbrev S1x128 : Shape := ⟨2, ![1, 128]⟩
abbrev S16384x128 : Shape := ⟨2, ![16384, 128]⟩
abbrev S1024x2048 : Shape := ⟨2, ![1024, 2048]⟩
abbrev S1024x500 : Shape := ⟨2, ![1024, 500]⟩
abbrev S2048x500 : Shape := ⟨2, ![2048, 500]⟩
abbrev S1024x128 : Shape := ⟨2, ![1024, 128]⟩
abbrev S1024x1 : Shape := ⟨2, ![1024, 1]⟩
abbrev S1024 : Shape := ⟨1, ![1024]⟩
abbrev S256x128 : Shape := ⟨2, ![256, 128]⟩
abbrev S2048x128 : Shape := ⟨2, ![2048, 128]⟩
abbrev S_ : Shape := ⟨0, ![]⟩
abbrev S4096x1 : Shape := ⟨2, ![4096, 1]⟩
abbrev S4096x128 : Shape := ⟨2, ![4096, 128]⟩
abbrev S128x10 : Shape := ⟨2, ![128, 10]⟩
abbrev S4096x10 : Shape := ⟨2, ![4096, 10]⟩
abbrev S1x10 : Shape := ⟨2, ![1, 10]⟩

abbrev nBuf : Space → Nat
  | .hbm => 54
  | .vmem => 26
  | .smem => 0
  | _ => 0

abbrev bufTy : (tb : Table) → Fin (tcTables nBuf tb) → BufTy
  | .hbm, ⟨0, _⟩ => ⟨S4096, .i32⟩
  | .hbm, ⟨1, _⟩ => ⟨S16384x16384, .f32⟩
  | .hbm, ⟨2, _⟩ => ⟨S16384x500, .f32⟩
  | .hbm, ⟨3, _⟩ => ⟨S128x1000, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S10x128, .f32⟩
  | .hbm, ⟨10, _⟩ => ⟨S10, .f32⟩
  | .hbm, ⟨11, _⟩ => ⟨S1000x128, .f32⟩
  | .hbm, ⟨12, _⟩ => ⟨S500x128, .f32⟩
  | .hbm, ⟨13, _⟩ => ⟨S500x128, .f32⟩
  | .hbm, ⟨14, _⟩ => ⟨S1x128, .f32⟩
  | .hbm, ⟨15, _⟩ => ⟨S16384x128, .f32⟩
  | .hbm, ⟨16, _⟩ => ⟨S256x128, .f32⟩
  | .hbm, ⟨17, _⟩ => ⟨S128x128, .f32⟩
  | .hbm, ⟨18, _⟩ => ⟨S128x128, .f32⟩
  | .hbm, ⟨19, _⟩ => ⟨S1x128, .f32⟩
  | .hbm, ⟨20, _⟩ => ⟨S16384x128, .f32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x128, .f32⟩
  | .hbm, ⟨30, _⟩ => ⟨S128x128, .f32⟩
  | .hbm, ⟨31, _⟩ => ⟨S4096x128, .f32⟩
  | .hbm, ⟨32, _⟩ => ⟨S1x128, .f32⟩
  | .hbm, ⟨33, _⟩ => ⟨S4096x128, .f32⟩
  | .hbm, ⟨34, _⟩ => ⟨S4096x128, .f32⟩
  | .hbm, ⟨35, _⟩ => ⟨S128x10, .f32⟩
  | .hbm, ⟨36, _⟩ => ⟨S4096x10, .f32⟩
  | .hbm, ⟨37, _⟩ => ⟨S1x10, .f32⟩
  | .hbm, ⟨38, _⟩ => ⟨S4096x10, .f32⟩
  | .hbm, ⟨39, _⟩ => ⟨S4096x10, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1, .f32⟩
  | .hbm, ⟨46, _⟩ => ⟨S4096x10, .f32⟩
  | .hbm, ⟨47, _⟩ => ⟨S4096x10, .f32⟩
  | .hbm, ⟨48, _⟩ => ⟨S4096x10, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x10, .f32⟩
  | .hbm, ⟨53, _⟩ => ⟨S4096x10, .f32⟩
  | .local _ .vmem, ⟨0, _⟩ => ⟨S1024x2048, .f32⟩
  | .local _ .vmem, ⟨1, _⟩ => ⟨S1024x2048, .f32⟩
  | .local _ .vmem, ⟨2, _⟩ => ⟨S1024x500, .f32⟩
  | .local _ .vmem, ⟨3, _⟩ => ⟨S1024x500, .f32⟩
  | .local _ .vmem, ⟨4, _⟩ => ⟨S2048x500, .f32⟩
  | .local _ .vmem, ⟨5, _⟩ => ⟨S2048x500, .f32⟩
  | .local _ .vmem, ⟨6, _⟩ => ⟨S500x128, .f32⟩
  | .local _ .vmem, ⟨7, _⟩ => ⟨S500x128, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S1024x500, .f32⟩
  | .local _ .vmem, ⟨12, _⟩ => ⟨S1024x1, .f32⟩
  | .local _ .vmem, ⟨13, _⟩ => ⟨S1024x2048, .f32⟩
  | .local _ .vmem, ⟨14, _⟩ => ⟨S1024x2048, .f32⟩
  | .local _ .vmem, ⟨15, _⟩ => ⟨S1024x128, .f32⟩
  | .local _ .vmem, ⟨16, _⟩ => ⟨S1024x128, .f32⟩
  | .local _ .vmem, ⟨17, _⟩ => ⟨S2048x128, .f32⟩
  | .local _ .vmem, ⟨18, _⟩ => ⟨S2048x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S500x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S500x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  transposes_S128x1000_S1000x128_1_0 : S128x1000.Transposes [1, 0] S1000x128
  slices_S1000x128_S500x128_0_0 : S1000x128.Slices ![0, 0] S500x128
  slices_S1000x128_S500x128_500_0 : S1000x128.Slices ![500, 0] S500x128
  shapeCasts_S128_S1x128 : S128.ShapeCasts S1x128
  inb_S1024x500_S1024x500_0_0 : ∀ a, (![0, 0] : Fin 2 → Nat) a + S1024x500.size a ≤ S1024x500.size a
  h_S1024x500 : 0 < S1024x500.numel
  shapeCasts_S1024x500_S1024x500 : S1024x500.ShapeCasts S1024x500
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x500_S2048x500_0_0 : ∀ a, (![0, 0] : Fin 2 → Nat) a + S2048x500.size a ≤ S2048x500.size a
  h_S2048x500 : 0 < S2048x500.numel
  reduces_S1024x2048_S1024 : S1024x2048.Reduces [1] S1024
  shapeCasts_S1024_S1024x1 : S1024.ShapeCasts S1024x1
  broadcasts_S1024x1_S1024x500 : S1024x1.Broadcasts S1024x500
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S4096 : S_.BroadcastsInDim S4096 (![] : Fin 0 → Fin S4096.rank)
  bcast_S4096_S4096x1_0 : S4096.BroadcastsInDim S4096x1 (![0] : Fin 1 → Fin S4096x1.rank)
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  transposes_S10x128_S128x10_1_0 : S10x128.Transposes [1, 0] S128x10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  reducesTo_S4096x10_S4096_d1 : S4096x10.ReducesTo [1] S4096
  h_S_ : 0 < S_.numel
  bcast_S4096x1_S4096x10_0_1 : S4096x1.BroadcastsInDim S4096x10 (![0, 1] : Fin 2 → Fin S4096x10.rank)
  dot_S1024x2048_S2048x500_S1024x500_1_0_0_1_n_n_wf : DotDims.WF S1024x2048 S2048x500 S1024x500 [1] [0] [0] [1] [] []
  dot_S1024x500_S500x128_S1024x128_1_0_0_1_n_n_wf : DotDims.WF S1024x500 S500x128 S1024x128 [1] [0] [0] [1] [] []
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  gather_S16384x128_S4096x1_S4096x128_1_0_n_n_0_1_1128_wf : GatherDims.WF S16384x128 S4096x1 S4096x128 [1] [0] [] [0] [] 1 ![1, 128]
  dot_S4096x128_S128x128_S4096x128_1_0_0_1_n_n_wf : DotDims.WF S4096x128 S128x128 S4096x128 [1] [0] [0] [1] [] []
  dot_S4096x128_S128x10_S4096x10_1_0_0_1_n_n_wf : DotDims.WF S4096x128 S128x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x500.size a ≤ S16384x500.size a
  hwx0_1 : ∀ i : grid0.Coords, EltTy.bits .f32 = 32 ∨ (Rect.block (s := S16384x500) S1024x500.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x500.size a ≤ S16384x500.size a
  hwx0_2 : ∀ i : grid0.Coords, EltTy.bits .f32 = 32 ∨ (Rect.block (s := S16384x500) S2048x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S500x128.size a ≤ S500x128.size a
  hwx0_3 : ∀ i : grid0.Coords, EltTy.bits .f32 = 32 ∨ (Rect.block (s := S500x128) S500x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S500x128.size a ≤ S500x128.size a
  hwx0_4 : ∀ i : grid0.Coords, EltTy.bits .f32 = 32 ∨ (Rect.block (s := S500x128) S500x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S16384x128.size a
  hwx0_6 : ∀ i : grid0.Coords, EltTy.bits .f32 = 32 ∨ (Rect.block (s := S16384x128) S1024x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x128.size a
  hwx1_1 : ∀ i : grid1.Coords, EltTy.bits .f32 = 32 ∨ (Rect.block (s := S16384x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S16384x128.size a
  hwx1_2 : ∀ i : grid1.Coords, EltTy.bits .f32 = 32 ∨ (Rect.block (s := S16384x128) S2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S16384x128.size a
  hwx1_6 : ∀ i : grid1.Coords, EltTy.bits .f32 = 32 ∨ (Rect.block (s := S16384x128) S1024x128.size (cc1_transform_6 i) (hinb1_6 i)).WholeWords (EltTy.packing .f32)

variable [Facts₀]

def dot_S1024x2048_S2048x500_S1024x500_1_0_0_1_n_n : DotDims S1024x2048 S2048x500 S1024x500 where
  lhsContracting := [1]
  rhsContracting := [0]
  lhsNonContracting := [0]
  rhsNonContracting := [1]
  lhsBatch := []
  rhsBatch := []
  wf := dot_S1024x2048_S2048x500_S1024x500_1_0_0_1_n_n_wf
def dot_S1024x500_S500x128_S1024x128_1_0_0_1_n_n : DotDims S1024x500 S500x128 S1024x128 where
  lhsContracting := [1]
  rhsContracting := [0]
  lhsNonContracting := [0]
  rhsNonContracting := [1]
  lhsBatch := []
  rhsBatch := []
  wf := dot_S1024x500_S500x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S16384x128_S4096x1_S4096x128_1_0_n_n_0_1_1128 : GatherDims S16384x128 S4096x1 S4096x128 where
  offsetDims := [1]
  collapsedSliceDims := [0]
  operandBatchingDims := []
  startIndicesBatchingDims := []
  startIndexMap := [0]
  indexVectorDim := 1
  sliceSizes := ![1, 128]
  wf := gather_S16384x128_S4096x1_S4096x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x10_S4096x10_1_0_0_1_n_n : DotDims S4096x128 S128x10 S4096x10 where
  lhsContracting := [1]
  rhsContracting := [0]
  lhsNonContracting := [0]
  rhsNonContracting := [1]
  lhsBatch := []
  rhsBatch := []
  wf := dot_S4096x128_S128x10_S4096x10_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x500.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x500.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S500x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S500x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096 : Shape := ⟨1, ![4096]⟩
abbrev S16384x16384 : Shape := ⟨2, ![16384, 16384]⟩
abbrev S16384x500 : Shape := ⟨2, ![16384, 500]⟩
abbrev S128x1000 : Shape := ⟨2, ![128, 1000]⟩
abbrev S128 : Shape := ⟨1, ![128]⟩
abbrev S128x256 : Shape := ⟨2, ![128, 256]⟩
abbrev S128x128 : Shape := ⟨2, ![128, 128]⟩
abbrev S10x128 : Shape := ⟨2, ![10, 128]⟩
abbrev S10 : Shape := ⟨1, ![10]⟩
abbrev S_ : Shape := ⟨0, ![]⟩
abbrev S16384 : Shape := ⟨1, ![16384]⟩
abbrev S16384x1 : Shape := ⟨2, ![16384, 1]⟩
abbrev S16384x1000 : Shape := ⟨2, ![16384, 1000]⟩
abbrev S1000x128 : Shape := ⟨2, ![1000, 128]⟩
abbrev S16384x128 : Shape := ⟨2, ![16384, 128]⟩
abbrev S1x128 : Shape := ⟨2, ![1, 128]⟩
abbrev S4096x1 : Shape := ⟨2, ![4096, 1]⟩
abbrev S4096x16384 : Shape := ⟨2, ![4096, 16384]⟩
abbrev S4096x128 : Shape := ⟨2, ![4096, 128]⟩
abbrev S4096x256 : Shape := ⟨2, ![4096, 256]⟩
abbrev S256x128 : Shape := ⟨2, ![256, 128]⟩
abbrev S128x10 : Shape := ⟨2, ![128, 10]⟩
abbrev S4096x10 : Shape := ⟨2, ![4096, 10]⟩
abbrev S1x10 : Shape := ⟨2, ![1, 10]⟩

abbrev nBuf : Space → Nat
  | .hbm => 109
  | .vmem => 0
  | .smem => 0
  | _ => 0

abbrev bufTy : (tb : Table) → Fin (tcTables nBuf tb) → BufTy
  | .hbm, ⟨0, _⟩ => ⟨S4096, .i32⟩
  | .hbm, ⟨1, _⟩ => ⟨S16384x16384, .f32⟩
  | .hbm, ⟨2, _⟩ => ⟨S16384x500, .f32⟩
  | .hbm, ⟨3, _⟩ => ⟨S128x1000, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S10x128, .f32⟩
  | .hbm, ⟨10, _⟩ => ⟨S10, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x500, .f32⟩
  | .hbm, ⟨15, _⟩ => ⟨S16384x500, .f32⟩
  | .hbm, ⟨16, _⟩ => ⟨S16384x500, .f32⟩
  | .hbm, ⟨17, _⟩ => ⟨S16384x1000, .f32⟩
  | .hbm, ⟨18, _⟩ => ⟨S1000x128, .f32⟩
  | .hbm, ⟨19, _⟩ => ⟨S16384x128, .f32⟩
  | .hbm, ⟨20, _⟩ => ⟨S1x128, .f32⟩
  | .hbm, ⟨21, _⟩ => ⟨S16384x128, .f32⟩
  | .hbm, ⟨22, _⟩ => ⟨S16384x128, .f32⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x128, .f32⟩
  | .hbm, ⟨35, _⟩ => ⟨S16384x128, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x16384, .f32⟩
  | .hbm, ⟨45, _⟩ => ⟨S4096x128, .f32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096x1, .i32⟩
  | .hbm, ⟨54, _⟩ => ⟨S4096x1, .f32⟩
  | .hbm, ⟨55, _⟩ => ⟨S4096x128, .f32⟩
  | .hbm, ⟨56, _⟩ => ⟨S4096x128, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x128, .f32⟩
  | .hbm, ⟨66, _⟩ => ⟨S4096x256, .f32⟩
  | .hbm, ⟨67, _⟩ => ⟨S256x128, .f32⟩
  | .hbm, ⟨68, _⟩ => ⟨S4096x128, .f32⟩
  | .hbm, ⟨69, _⟩ => ⟨S1x128, .f32⟩
  | .hbm, ⟨70, _⟩ => ⟨S4096x128, .f32⟩
  | .hbm, ⟨71, _⟩ => ⟨S4096x128, .f32⟩
  | .hbm, ⟨72, _⟩ => ⟨S_, .f32⟩
  | .hbm, ⟨73, _⟩ => ⟨S4096x128, .f32⟩
  | .hbm, ⟨74, _⟩ => ⟨S4096x128, .f32⟩
  | .hbm, ⟨75, _⟩ => ⟨S4096x128, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x128, .f32⟩
  | .hbm, ⟨84, _⟩ => ⟨S4096x128, .f32⟩
  | .hbm, ⟨85, _⟩ => ⟨S128x128, .f32⟩
  | .hbm, ⟨86, _⟩ => ⟨S4096x128, .f32⟩
  | .hbm, ⟨87, _⟩ => ⟨S1x128, .f32⟩
  | .hbm, ⟨88, _⟩ => ⟨S4096x128, .f32⟩
  | .hbm, ⟨89, _⟩ => ⟨S4096x128, .f32⟩
  | .hbm, ⟨90, _⟩ => ⟨S128x10, .f32⟩
  | .hbm, ⟨91, _⟩ => ⟨S4096x10, .f32⟩
  | .hbm, ⟨92, _⟩ => ⟨S1x10, .f32⟩
  | .hbm, ⟨93, _⟩ => ⟨S4096x10, .f32⟩
  | .hbm, ⟨94, _⟩ => ⟨S4096x10, .f32⟩
  | .hbm, ⟨95, _⟩ => ⟨S_, .f32⟩
  | .hbm, ⟨96, _⟩ => ⟨S4096, .f32⟩
  | .hbm, ⟨97, _⟩ => ⟨S_, .f32⟩
  | .hbm, ⟨98, _⟩ => ⟨S4096, .f32⟩
  | .hbm, ⟨99, _⟩ => ⟨S4096, .f32⟩
  | .hbm, ⟨100, _⟩ => ⟨S4096x1, .f32⟩
  | .hbm, ⟨101, _⟩ => ⟨S4096x10, .f32⟩
  | .hbm, ⟨102, _⟩ => ⟨S4096x10, .f32⟩
  | .hbm, ⟨103, _⟩ => ⟨S4096x10, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x10, .f32⟩
  | .hbm, ⟨108, _⟩ => ⟨S4096x10, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_v11 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call2_cst : Ref sig .tc := ⟨.hbm, 72, rfl⟩
abbrev main_call2_v0 : Ref sig .tc := ⟨.hbm, 73, rfl⟩
abbrev main_v47 : Ref sig .tc := ⟨.hbm, 74, rfl⟩
abbrev main_call3_v0 : Ref sig .tc := ⟨.hbm, 75, rfl⟩
abbrev main_call3_cst : Ref sig .tc := ⟨.hbm, 76, rfl⟩
abbrev main_call3_v1 : Ref sig .tc := ⟨.hbm, 77, rfl⟩
abbrev main_call3_v2 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_7 : Ref sig .tc := ⟨.hbm, 95, rfl⟩
abbrev main_v63 : Ref sig .tc := ⟨.hbm, 96, rfl⟩
abbrev main_cst_8 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_9 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S16384x1_S16384x500_0_1 : S16384x1.BroadcastsInDim S16384x500 (![0, 1] : Fin 2 → Fin S16384x500.rank)
  concatenates_S16384x500_S16384x500_S16384x1000_d1 : Shape.Concatenates [S16384x500, S16384x500] S16384x1000 1
  transposes_S128x1000_S1000x128_1_0 : S128x1000.Transposes [1, 0] S1000x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  reducesTo_S16384x128_S16384_d1 : S16384x128.ReducesTo [1] S16384
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  concatenates_S4096x128_S4096x128_S4096x256_d1 : Shape.Concatenates [S4096x128, S4096x128] S4096x256 1
  transposes_S128x256_S256x128_1_0 : S128x256.Transposes [1, 0] S256x128
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  reducesTo_S4096x128_S4096_d1 : S4096x128.ReducesTo [1] S4096
  bcast_S_S4096x1 : S_.BroadcastsInDim S4096x1 (![] : Fin 0 → Fin S4096x1.rank)
  transposes_S128x128_S128x128_1_0 : S128x128.Transposes [1, 0] S128x128
  transposes_S10x128_S128x10_1_0 : S10x128.Transposes [1, 0] S128x10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  reducesTo_S4096x10_S4096_d1 : S4096x10.ReducesTo [1] S4096
  bcast_S4096x1_S4096x10_0_1 : S4096x1.BroadcastsInDim S4096x10 (![0, 1] : Fin 2 → Fin S4096x10.rank)
  dot_S16384x16384_S16384x500_S16384x500_1_0_0_1_n_n_wf : DotDims.WF S16384x16384 S16384x500 S16384x500 [1] [0] [0] [1] [] []
  dot_S16384x1000_S1000x128_S16384x128_1_0_0_1_n_n_wf : DotDims.WF S16384x1000 S1000x128 S16384x128 [1] [0] [0] [1] [] []
  gather_S16384x16384_S4096x1_S4096x16384_1_0_n_n_0_1_116384_wf : GatherDims.WF S16384x16384 S4096x1 S4096x16384 [1] [0] [] [0] [] 1 ![1, 16384]
  dot_S4096x16384_S16384x128_S4096x128_1_0_0_1_n_n_wf : DotDims.WF S4096x16384 S16384x128 S4096x128 [1] [0] [0] [1] [] []
  gather_S16384x1_S4096x1_S4096x1_1_0_n_n_0_1_11_wf : GatherDims.WF S16384x1 S4096x1 S4096x1 [1] [0] [] [0] [] 1 ![1, 1]
  gather_S16384x128_S4096x1_S4096x128_1_0_n_n_0_1_1128_wf : GatherDims.WF S16384x128 S4096x1 S4096x128 [1] [0] [] [0] [] 1 ![1, 128]
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []
  dot_S4096x128_S128x10_S4096x10_1_0_0_1_n_n_wf : DotDims.WF S4096x128 S128x10 S4096x10 [1] [0] [0] [1] [] []

variable [Facts₀]

def dot_S16384x16384_S16384x500_S16384x500_1_0_0_1_n_n : DotDims S16384x16384 S16384x500 S16384x500 where
  lhsContracting := [1]
  rhsContracting := [0]
  lhsNonContracting := [0]
  rhsNonContracting := [1]
  lhsBatch := []
  rhsBatch := []
  wf := dot_S16384x16384_S16384x500_S16384x500_1_0_0_1_n_n_wf
def dot_S16384x1000_S1000x128_S16384x128_1_0_0_1_n_n : DotDims S16384x1000 S1000x128 S16384x128 where
  lhsContracting := [1]
  rhsContracting := [0]
  lhsNonContracting := [0]
  rhsNonContracting := [1]
  lhsBatch := []
  rhsBatch := []
  wf := dot_S16384x1000_S1000x128_S16384x128_1_0_0_1_n_n_wf
def gather_S16384x16384_S4096x1_S4096x16384_1_0_n_n_0_1_116384 : GatherDims S16384x16384 S4096x1 S4096x16384 where
  offsetDims := [1]
  collapsedSliceDims := [0]
  operandBatchingDims := []
  startIndicesBatchingDims := []
  startIndexMap := [0]
  indexVectorDim := 1
  sliceSizes := ![1, 16384]
  wf := gather_S16384x16384_S4096x1_S4096x16384_1_0_n_n_0_1_116384_wf
def dot_S4096x16384_S16384x128_S4096x128_1_0_0_1_n_n : DotDims S4096x16384 S16384x128 S4096x128 where
  lhsContracting := [1]
  rhsContracting := [0]
  lhsNonContracting := [0]
  rhsNonContracting := [1]
  lhsBatch := []
  rhsBatch := []
  wf := dot_S4096x16384_S16384x128_S4096x128_1_0_0_1_n_n_wf
def gather_S16384x1_S4096x1_S4096x1_1_0_n_n_0_1_11 : GatherDims S16384x1 S4096x1 S4096x1 where
  offsetDims := [1]
  collapsedSliceDims := [0]
  operandBatchingDims := []
  startIndicesBatchingDims := []
  startIndexMap := [0]
  indexVectorDim := 1
  sliceSizes := ![1, 1]
  wf := gather_S16384x1_S4096x1_S4096x1_1_0_n_n_0_1_11_wf
def gather_S16384x128_S4096x1_S4096x128_1_0_n_n_0_1_1128 : GatherDims S16384x128 S4096x1 S4096x128 where
  offsetDims := [1]
  collapsedSliceDims := [0]
  operandBatchingDims := []
  startIndicesBatchingDims := []
  startIndexMap := [0]
  indexVectorDim := 1
  sliceSizes := ![1, 128]
  wf := gather_S16384x128_S4096x1_S4096x128_1_0_n_n_0_1_1128_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x10_S4096x10_1_0_0_1_n_n : DotDims S4096x128 S128x10 S4096x10 where
  lhsContracting := [1]
  rhsContracting := [0]
  lhsNonContracting := [0]
  rhsNonContracting := [1]
  lhsBatch := []
  rhsBatch := []
  wf := dot_S4096x128_S128x10_S4096x10_1_0_0_1_n_n_wf

class Facts : Prop extends Facts₀ where

variable [Facts]
-- ==== Proof.KernelBody0Defs.lean ====
/-
  The bookkeeping of region 0 (the first aggregation-and-encoding layer's pallas_call), for any float instance `F`.

  The call runs on a 16 × 8 grid: point t = 8·i + k handles row block i (1024 rows) and column block k (2048 columns) of
  the adjacency. Two scratch buffers are carried from point to point: the running neighbour sum (`S1024x500`) and the
  running degree (1024 × 1). At k = 0 both restart from zero; at every point the block's product and row sums are added;
  at k = 7 the encoded block is stored into the output window, which is written back there and nowhere else.
  `accAt` is that recursion over the points, written with the body's own arithmetic (the payload terms); `outAt` is
  the block stored at a point with k = 7 (at other points a term nothing consults: the output window is idle there).
  `dat` is the pipeline's proof data over the buffer contents `V` the region is entered with: each input window leaves
  its block in place, the output window ends at `outAt`, and between points the invariant `PhiS` holds the two scratch
  buffers at `accAt` of the point before (before the first point: at anything) beside the core's other scoped buffers
  and its generator register. The feature array is read through two windows (own rows, neighbour rows), so those two hold
  its buffer at half the full share each.
-/
import proofs.«128407_j39814346834350_1_alg».proof.Proof.Gen.Kernel.Launch
import proofs.«128407_j39814346834350_1_alg».proof.Proof.Gen.Kernel.Skeleton
import proofs.«128407_j39814346834350_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two carried accumulators after the body at point `n`: (neighbour sum, degree). At a point with k = 0 (n ≡ 0 mod 8)
    they restart from the zero payloads, otherwise they continue from the point before. -/
def accAt (c : Dev nD) : (n : ℕ) → n < cfg0.N → Vec F S1024x500 .f32 × Vec F S1024x1 .f32
  | 0, hn => (k0_pay3 (iblk V c 0 ⟨0, hn⟩) (k0_pay1 (F := F)) (iblk V c 2 ⟨0, hn⟩), k0_pay4 (iblk V c 0 ⟨0, hn⟩) (k0_pay2 (F := F)))
  | n + 1, hn =>
    if (n + 1) % 8 = 0 then
      (k0_pay3 (iblk V c 0 ⟨n + 1, hn⟩) (k0_pay1 (F := F)) (iblk V c 2 ⟨n + 1, hn⟩), k0_pay4 (iblk V c 0 ⟨n + 1, hn⟩) (k0_pay2 (F := F)))
    else
      (k0_pay3 (iblk V c 0 ⟨n + 1, hn⟩) (accAt c n (Nat.lt_of_succ_lt hn)).1 (iblk V c 2 ⟨n + 1, hn⟩),
        k0_pay4 (iblk V c 0 ⟨n + 1, hn⟩) (accAt c n (Nat.lt_of_succ_lt hn)).2)

/-- The encoded block a point with k = 7 stores into the output window: the last payload at that point's accumulators,
    the own-feature block and the three resident operands (the two weight halves and the bias row). -/
def outAt (c : Dev nD) (t : Fin cfg0.N) : Vec F S1024x128 .f32 :=
  k0_pay5 (accAt V c t.val t.isLt).1 (accAt V c t.val t.isLt).2 (iblk V c 1 t) (iblk V c 3 t) (iblk V c 4 t) (iblk V c 5 t)

/-- The scratch operands as memrefs: whole scoped buffers of the kernel's own. -/
abbrev scM0 : Memref sig .tc .vmem S1024x500 .f32 := Memref.whole cc0_scratch0
abbrev scM1 : Memref sig .tc .vmem S1024x1 .f32 := Memref.whole cc0_scratch1

/-- Each window's current staging memref at point `t`, spelled as the pipeline passes it, and its wholeness. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x500 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x500 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S500x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S500x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x128 .f32 := win0_6.stage (cfg0.slots t 6)
abbrev hs6 (t : Fin cfg0.N) : (ms6 t).IsWhole := hstage0_6 ((cfg0.slots t 6).cast nbuf0_6)

/-- The core's scoped buffers that are neither this call's staging buffers nor its two scratch buffers (the other call's
    staging and scratch buffers), each whole at some contents: they ride through the region untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region invariant before position `n`: before the first point every scoped buffer the call does not stage at
    anything; afterwards the two scratch buffers at what the point before left in them. The generator register rides along. -/
def PhiS (c : Dev nD) : (n : ℕ) → n ≤ cfg0.N → sProp 𝕄
  | 0, _ => Pipeline.ΦA spec0 c
  | n + 1, hn => iprop(iprop(owns (c : Thread nD τ) scM0 fullShare (accAt V c n hn).1 ∗ owns (c : Thread nD τ) scM1 fullShare (accAt V c n hn).2 ∗ others (F := F) c) ∗ (∃ r, prngReg c r))

/-- The shares the input windows hold their arrays at: the feature array is read through windows 1 and 2, half each. -/
def qsh : Fin cfg0.W → PosShare TreeShare := fun w => if w = 1 then fullShare.left else if w = 2 then fullShare.right else fullShare

/-- The pipeline's proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := PhiS V c t.val (Nat.le_of_lt_succ t.isLt)
  q := qsh
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = outAt V c t := by dsimp only [dat]

theorem owed_zero (c : Dev nD) (t : Fin (cfg0.N + 1)) : (dat V c).owed t = 0 := rfl

end Cert.Kernel.Body0

end
-- ==== Proof.KernelBody1Defs.lean ====
/-
  The bookkeeping of region 1 (the second aggregation-and-encoding layer's pallas_call), for any float instance `F`.

  The call runs on a 16 × 8 grid: point t = 8·i + k handles row block i (1024 rows) and column block k (2048 columns) of
  the adjacency. Two scratch buffers are carried from point to point: the running neighbour sum (`S1024x128`) and the
  running degree (1024 × 1). At k = 0 both restart from zero; at every point the block's product and row sums are added;
  at k = 7 the encoded block is stored into the output window, which is written back there and nowhere else.
  `accAt` is that recursion over the points, written with the body's own arithmetic (the payload terms); `outAt` is
  the block stored at a point with k = 7 (at other points a term nothing consults: the output window is idle there).
  `dat` is the pipeline's proof data over the buffer contents `V` the region is entered with: each input window leaves
  its block in place, the output window ends at `outAt`, and between points the invariant `PhiS` holds the two scratch
  buffers at `accAt` of the point before (before the first point: at anything) beside the core's other scoped buffers
  and its generator register. The feature array is read through two windows (own rows, neighbour rows), so those two hold
  its buffer at half the full share each.
-/
import proofs.«128407_j39814346834350_1_alg».proof.Proof.Gen.Kernel.Launch
import proofs.«128407_j39814346834350_1_alg».proof.Proof.Gen.Kernel.Skeleton
import proofs.«128407_j39814346834350_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two carried accumulators after the body at point `n`: (neighbour sum, degree). At a point with k = 0 (n ≡ 0 mod 8)
    they restart from the zero payloads, otherwise they continue from the point before. -/
def accAt (c : Dev nD) : (n : ℕ) → n < cfg1.N → Vec F S1024x128 .f32 × Vec F S1024x1 .f32
  | 0, hn => (k1_pay3 (iblk V c 0 ⟨0, hn⟩) (k1_pay1 (F := F)) (iblk V c 2 ⟨0, hn⟩), k1_pay4 (iblk V c 0 ⟨0, hn⟩) (k1_pay2 (F := F)))
  | n + 1, hn =>
    if (n + 1) % 8 = 0 then
      (k1_pay3 (iblk V c 0 ⟨n + 1, hn⟩) (k1_pay1 (F := F)) (iblk V c 2 ⟨n + 1, hn⟩), k1_pay4 (iblk V c 0 ⟨n + 1, hn⟩) (k1_pay2 (F := F)))
    else
      (k1_pay3 (iblk V c 0 ⟨n + 1, hn⟩) (accAt c n (Nat.lt_of_succ_lt hn)).1 (iblk V c 2 ⟨n + 1, hn⟩),
        k1_pay4 (iblk V c 0 ⟨n + 1, hn⟩) (accAt c n (Nat.lt_of_succ_lt hn)).2)

/-- The encoded block a point with k = 7 stores into the output window: the last payload at that point's accumulators,
    the own-feature block and the three resident operands (the two weight halves and the bias row). -/
def outAt (c : Dev nD) (t : Fin cfg1.N) : Vec F S1024x128 .f32 :=
  k1_pay5 (accAt V c t.val t.isLt).1 (accAt V c t.val t.isLt).2 (iblk V c 1 t) (iblk V c 3 t) (iblk V c 4 t) (iblk V c 5 t)

/-- The scratch operands as memrefs: whole scoped buffers of the kernel's own. -/
abbrev scM0 : Memref sig .tc .vmem S1024x128 .f32 := Memref.whole cc1_scratch0
abbrev scM1 : Memref sig .tc .vmem S1024x1 .f32 := Memref.whole cc1_scratch1

/-- Each window's current staging memref at point `t`, spelled as the pipeline passes it, and its wholeness. -/
abbrev ms0 (t : Fin cfg1.N) : Memref sig .tc .vmem S1024x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x128 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S128x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S128x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x128 .f32 := win1_6.stage (cfg1.slots t 6)
abbrev hs6 (t : Fin cfg1.N) : (ms6 t).IsWhole := hstage1_6 ((cfg1.slots t 6).cast nbuf1_6)

/-- The core's scoped buffers that are neither this call's staging buffers nor its two scratch buffers (the other call's
    staging and scratch buffers), each whole at some contents: they ride through the region untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region invariant before position `n`: before the first point every scoped buffer the call does not stage at
    anything; afterwards the two scratch buffers at what the point before left in them. The generator register rides along. -/
def PhiS (c : Dev nD) : (n : ℕ) → n ≤ cfg1.N → sProp 𝕄
  | 0, _ => Pipeline.ΦA spec1 c
  | n + 1, hn => iprop(iprop(owns (c : Thread nD τ) scM0 fullShare (accAt V c n hn).1 ∗ owns (c : Thread nD τ) scM1 fullShare (accAt V c n hn).2 ∗ others (F := F) c) ∗ (∃ r, prngReg c r))

/-- The shares the input windows hold their arrays at: the feature array is read through windows 1 and 2, half each. -/
def qsh : Fin cfg1.W → PosShare TreeShare := fun w => if w = 1 then fullShare.left else if w = 2 then fullShare.right else fullShare

/-- The pipeline's proof data on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := PhiS V c t.val (Nat.le_of_lt_succ t.isLt)
  q := qsh
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outAt V c t := by dsimp only [dat]

theorem owed_zero (c : Dev nD) (t : Fin (cfg1.N + 1)) : (dat V c).owed t = 0 := rfl

end Cert.Kernel.Body1

end
-- ==== Proof.KernelLaunchDefs.lean ====
/-
  The contents the two regions leave in their output arrays, the buffer contents between the items of the program, and
  the proof data of the two pipelines, for any float instance `F`.

  Region 0 is entered with every unscoped buffer at `Gen.V1 m` (the launch memory after the first host stretch) and
  leaves its output array `main_v4` at `X2 m c`: what the pipeline's write-backs leave there. The next host stretch runs
  from that valuation (`W2`) to `W3`; region 1 is entered there and leaves `main_v9` at `X4 m c` (`W4`). `outs` packs the
  two contents as the family the conditional frame is stated over, and `V2_eq` … `V4_eq` identify its valuations with
  the ones here.
-/
import proofs.«128407_j39814346834350_1_alg».proof.Proof.Gen.Kernel.Regions
import proofs.«128407_j39814346834350_1_alg».proof.Proof.KernelBody0Defs
import proofs.«128407_j39814346834350_1_alg».proof.Proof.KernelBody1Defs

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The TensorCore's buffer contents when region 0 is entered: the launch memory after the first host stretch. -/
abbrev E0 : (c : Dev nD) → (b : Ref sig .tc) → Buf (Elt F) ((c : Thread nD τ).loc b) := fun c b => Gen.V1 m c (Proc.devRef .tc b)

/-- What region 0 leaves in its output array `main_v4`: the array after every write-back of the pipeline. -/
def X2 (c : Dev nD) : Buf (Elt F) ((c : Thread nD τ).loc main_v4) := (Body0.dat (E0 m) c).arrAt 6 cfg0.N

theorem X2_def (c : Dev nD) : X2 m c = (Body0.dat (E0 m) c).arrAt 6 cfg0.N := rfl

/-- Core `c`'s unscoped buffers after region 0: as entered, but `main_v4` at `X2`. -/
abbrev W2 (c : Dev nD) : Valuation τ sig (Elt F) := Function.update (Gen.V1 m c) main_v4 (X2 m c)
/-- Core `c`'s unscoped buffers after the second host stretch. -/
abbrev W3 (c : Dev nD) : Valuation τ sig (Elt F) := StableHlo.after hostOps1 (W2 m c)

/-- The TensorCore's buffer contents when region 1 is entered. -/
abbrev E1 : (c : Dev nD) → (b : Ref sig .tc) → Buf (Elt F) ((c : Thread nD τ).loc b) := fun c b => W3 m c (Proc.devRef .tc b)

/-- What region 1 leaves in its output array `main_v9`. -/
def X4 (c : Dev nD) : Buf (Elt F) ((c : Thread nD τ).loc main_v9) := (Body1.dat (E1 m) c).arrAt 6 cfg1.N

theorem X4_def (c : Dev nD) : X4 m c = (Body1.dat (E1 m) c).arrAt 6 cfg1.N := rfl

/-- Core `c`'s unscoped buffers after region 1: as entered, but `main_v9` at `X4`. -/
abbrev W4 (c : Dev nD) : Valuation τ sig (Elt F) := Function.update (W3 m c) main_v9 (X4 m c)

/-- The contents the regions leave, as the family the conditional frame reads: `main_v4` at `X2`, `main_v9` at `X4`
    (at any other reference, which nothing reads, the launch contents). -/
def outs : Gen.Outs (F := F) := fun _ r c =>
  if h : r = main_v4 then h ▸ X2 m c else if h' : r = main_v9 then h' ▸ X4 m c else m ((c : Thread nD τ).loc r)

theorem outs_v4 (c : Dev nD) : outs m 2 main_v4 c = X2 m c := by
  unfold outs; rw [dif_pos rfl]

theorem outs_v9 (c : Dev nD) : outs m 4 main_v9 c = X4 m c := by
  unfold outs; rw [dif_neg (by decide), dif_pos rfl]

theorem V2_eq (c : Dev nD) : Gen.V2 m (outs m) c = W2 m c := by
  show Function.update (Gen.V1 m c) main_v4 (outs m 2 main_v4 c) = _
  rw [outs_v4]

theorem V3_eq (c : Dev nD) : Gen.V3 m (outs m) c = W3 m c := by
  show StableHlo.after hostOps1 (Gen.V2 m (outs m) c) = _
  rw [V2_eq]

theorem V4_eq (c : Dev nD) : Gen.V4 m (outs m) c = W4 m c := by
  show Function.update (Gen.V3 m (outs m) c) main_v9 (outs m 4 main_v9 c) = _
  rw [V3_eq, outs_v9]

/-- Every pipeline's proof data, each at its region's entry contents. -/
def pdats : (p : Fin 2) → (c : Dev nD) → Dat τ (Elt F) Unit ℕ (UR sig nD τ) ℕ (cfgs p) c
  | ⟨0, _⟩ => fun c => Body0.dat (E0 m) c
  | ⟨1, _⟩ => fun c => Body1.dat (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

end Cert.Kernel.Launch

end
-- ==== Proof.KernelLaunchShare.lean ====
/-
  The two regions' windows and the buffers behind them, for any float instance `F`.

  A pipeline holds one points-to per WINDOW: window `w`'s array at the share its proof data name. The thread state between
  the program's items holds one points-to per BUFFER, at the full share. In each region windows 1 and 2 read the same
  array (region 0: `main_arg2`; region 1: `main_v4`), at the left and the right half of the full share: the buffer's full
  points-to is the two halves side by side (at the same contents), every other window's array is a buffer of its own at
  the full share. Hence the windows' arrays at contents read off a valuation ARE the distinct buffers behind them at that
  valuation (`arrays_eq0`, `arrays_eq1`), and with the buffers no window reads they are the thread state's unscoped
  buffers (`held_eq0`, `held_eq1`): the region's entry reads the equation from left to right, its exit from right to left.
-/
import proofs.«128407_j39814346834350_1_alg».proof.Proof.KernelLaunchDefs

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share0

variable (c : Dev nD) (d : Dat τ (Elt F) Unit ℕ (UR sig nD τ) ℕ cfg0 c)

/-- One window's array at the pipeline's share is its buffer's points-to at that share: the array is the whole buffer. -/
theorem pt_eq0 (w : Fin 7) (q : PosShare TreeShare) (hs : d.share w = q) (hw : (cfg0.win w).arr.IsWhole)
    (V : (b : Ref sig .tc) → Buf (Elt F) ((c : Thread nD τ).loc b))
    (Fw : (w : Fin cfg0.W) → Buf (Elt F) ((cfg0.win w).arr.view.loc (c : Thread nD τ))) (hF : Fw w = V (Pipeline.arrRef spec0 w)) :
    (((cfg0.win w).arr.view.loc (c : Thread nD τ)) ↦[(cfg0.win w).arr.view.set]{d.share w} Fw w : sProp 𝕄)
      = (((c : Thread nD τ).loc (Pipeline.arrRef spec0 w)) ↦{q} V (Pipeline.arrRef spec0 w)) := by
  rw [hw.set_eq_univ, hs, hF]

/-- The shares: the two windows on the shared array hold a half each, every other window its array whole. -/
theorem share0 (hq : d.q = Body0.qsh) :
    d.share 0 = fullShare ∧ d.share 1 = fullShare.left ∧ d.share 2 = fullShare.right ∧ d.share 3 = fullShare
      ∧ d.share 4 = fullShare ∧ d.share 5 = fullShare ∧ d.share 6 = fullShare := by
  unfold Dat.share; rw [hq]
  exact ⟨rfl, rfl, rfl, rfl, rfl, rfl, rfl⟩

/-- The windows' arrays at contents read off `V` are the distinct buffers behind them, each whole at `V`. -/
theorem arrays_eq0 (hq : d.q = Body0.qsh) (V : (b : Ref sig .tc) → Buf (Elt F) ((c : Thread nD τ).loc b))
    (Fw : (w : Fin cfg0.W) → Buf (Elt F) ((cfg0.win w).arr.view.loc (c : Thread nD τ))) (hF : ∀ w, Fw w = V (Pipeline.arrRef spec0 w)) :
    (d.arrays Fw : sProp 𝕄) = Pipeline.arrBufs spec0 c V := by
  obtain ⟨h0, h1, h2, h3, h4, h5, h6⟩ := share0 c d hq
  unfold Dat.arrays Pipeline.arrBufs
  rw [Gen.bigSep_W0, bigSep_eq_bigSepL_of_eq [main_arg1, main_arg2, main_v1, main_v2, main_v3, main_v4] (by decide) (by decide),
    pt_eq0 c d 0 _ h0 (Memref.isWhole_whole _) V Fw (hF 0), pt_eq0 c d 1 _ h1 (Memref.isWhole_whole _) V Fw (hF 1),
    pt_eq0 c d 2 _ h2 (Memref.isWhole_whole _) V Fw (hF 2), pt_eq0 c d 3 _ h3 (Memref.isWhole_whole _) V Fw (hF 3),
    pt_eq0 c d 4 _ h4 (Memref.isWhole_whole _) V Fw (hF 4), pt_eq0 c d 5 _ h5 (Memref.isWhole_whole _) V Fw (hF 5),
    pt_eq0 c d 6 _ h6 (Memref.isWhole_whole _) V Fw (hF 6)]
  -- the shared buffer's full points-to is its two halves
  have hsh : ((((c : Thread nD τ).loc main_arg2) ↦{fullShare} V main_arg2) : sProp 𝕄)
      = iprop((((c : Thread nD τ).loc main_arg2) ↦{fullShare.left} V main_arg2) ∗ (((c : Thread nD τ).loc main_arg2) ↦{fullShare.right} V main_arg2)) :=
    BI.equiv_iff.mp ⟨(pointsTo_share (PosShare.mem_left_op_right fullShare)).1, (pointsTo_share (PosShare.mem_left_op_right fullShare)).2⟩
  show _ = iprop((((c : Thread nD τ).loc main_arg1) ↦{fullShare} V main_arg1) ∗ (((c : Thread nD τ).loc main_arg2) ↦{fullShare} V main_arg2) ∗ _)
  have hassoc : ∀ P Q S : sProp 𝕄, iprop((P ∗ Q) ∗ S) = iprop(P ∗ Q ∗ S) :=
    fun P Q S => BI.equiv_iff.mp ⟨Idealize.SL.BI.sep_assoc, Idealize.SL.BI.sep_assoc'⟩
  rw [hsh, hassoc]
  rfl

end Share0

section Held0

variable (c : Dev nD) (d : Dat τ (Elt F) Unit ℕ (UR sig nD τ) ℕ cfg0 c)

/-- The thread state's unscoped buffers at a valuation `W` are the windows' arrays at the contents `W` gives them beside
    the buffers no window reads at contents `V`, for any `V` that agrees with `W` off the arrays. -/
theorem held_eq0 (hq : d.q = Body0.qsh) (W : Valuation τ sig (Elt F)) (V : (b : Ref sig .tc) → Buf (Elt F) ((c : Thread nD τ).loc b))
    (Fw : (w : Fin cfg0.W) → Buf (Elt F) ((cfg0.win w).arr.view.loc (c : Thread nD τ)))
    (hF : ∀ w, Fw w = W (Proc.devRef .tc (Pipeline.arrRef spec0 w)))
    (hrest : ∀ b, b ∉ Finset.univ.image (Pipeline.arrRef spec0) → W (Proc.devRef .tc b) = V b) :
    (StableHlo.held (c : Thread nD τ) (Pipeline.ucRefs τ sig) W : sProp 𝕄) = iprop(d.arrays Fw ∗ Pipeline.unscopedRest spec0 c V) := by
  rw [← Pipeline.unscopedBufs_held (Ix := Unit) (Name := ℕ) (U := UR sig nD τ) (Lvl := ℕ) c W,
    show (unscopedBufs c (fun b => W (Proc.devRef .tc b)) : sProp 𝕄)
        = iprop(Pipeline.arrBufs spec0 c (fun b => W (Proc.devRef .tc b)) ∗ Pipeline.unscopedRest spec0 c (fun b => W (Proc.devRef .tc b)))
      from Pipeline.unscopedBufs_split₀ cfgs (0 : Fin 2) winFacts₀0.arr_unscoped c _,
    ← arrays_eq0 c d hq (fun b => W (Proc.devRef .tc b)) Fw hF]
  refine congrArg _ ?_
  unfold Pipeline.unscopedRest
  exact bigSep_congr fun b hb => by beta_reduce; rw [hrest b (Finset.mem_sdiff.mp hb).2]

end Held0

section Share1

variable (c : Dev nD) (d : Dat τ (Elt F) Unit ℕ (UR sig nD τ) ℕ cfg1 c)

/-- One window's array at the pipeline's share is its buffer's points-to at that share: the array is the whole buffer. -/
theorem pt_eq1 (w : Fin 7) (q : PosShare TreeShare) (hs : d.share w = q) (hw : (cfg1.win w).arr.IsWhole)
    (V : (b : Ref sig .tc) → Buf (Elt F) ((c : Thread nD τ).loc b))
    (Fw : (w : Fin cfg1.W) → Buf (Elt F) ((cfg1.win w).arr.view.loc (c : Thread nD τ))) (hF : Fw w = V (Pipeline.arrRef spec1 w)) :
    (((cfg1.win w).arr.view.loc (c : Thread nD τ)) ↦[(cfg1.win w).arr.view.set]{d.share w} Fw w : sProp 𝕄)
      = (((c : Thread nD τ).loc (Pipeline.arrRef spec1 w)) ↦{q} V (Pipeline.arrRef spec1 w)) := by
  rw [hw.set_eq_univ, hs, hF]

/-- The shares: the two windows on the shared array hold a half each, every other window its array whole. -/
theorem share1 (hq : d.q = Body1.qsh) :
    d.share 0 = fullShare ∧ d.share 1 = fullShare.left ∧ d.share 2 = fullShare.right ∧ d.share 3 = fullShare
      ∧ d.share 4 = fullShare ∧ d.share 5 = fullShare ∧ d.share 6 = fullShare := by
  unfold Dat.share; rw [hq]
  exact ⟨rfl, rfl, rfl, rfl, rfl, rfl, rfl⟩

/-- The windows' arrays at contents read off `V` are the distinct buffers behind them, each whole at `V`. -/
theorem arrays_eq1 (hq : d.q = Body1.qsh) (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (d.arrays Fw : sProp 𝕄) = Pipeline.arrBufs spec1 c V := by
  obtain ⟨h0, h1, h2, h3, h4, h5, h6⟩ := share1 c d hq
  unfold Dat.arrays Pipeline.arrBufs
  rw [Gen.bigSep_W1, bigSep_eq_bigSepL_of_eq [main_arg1, main_v4, main_v6, main_v7, main_v8, main_v9] (by decide) (by decide),
    pt_eq1 c d 0 _ h0 (Memref.isWhole_whole _) V Fw (hF 0), pt_eq1 c d 1 _ h1 (Memref.isWhole_whole _) V Fw (hF 1),
    pt_eq1 c d 2 _ h2 (Memref.isWhole_whole _) V Fw (hF 2), pt_eq1 c d 3 _ h3 (Memref.isWhole_whole _) V Fw (hF 3),
    pt_eq1 c d 4 _ h4 (Memref.isWhole_whole _) V Fw (hF 4), pt_eq1 c d 5 _ h5 (Memref.isWhole_whole _) V Fw (hF 5),
    pt_eq1 c d 6 _ h6 (Memref.isWhole_whole _) V Fw (hF 6)]
  -- the shared buffer's full points-to is its two halves
  have hsh : ((((c : Thread nD τ).loc main_v4) ↦{fullShare} V main_v4) : sProp 𝕄)
      = iprop((((c : Thread nD τ).loc main_v4) ↦{fullShare.left} V main_v4) ∗ (((c : Thread nD τ).loc main_v4) ↦{fullShare.right} V main_v4)) :=
    BI.equiv_iff.mp ⟨(pointsTo_share (PosShare.mem_left_op_right fullShare)).1, (pointsTo_share (PosShare.mem_left_op_right fullShare)).2⟩
  show _ = iprop((((c : Thread nD τ).loc main_arg1) ↦{fullShare} V main_arg1) ∗ (((c : Thread nD τ).loc main_v4) ↦{fullShare} V main_v4) ∗ _)
  have hassoc : ∀ P Q S : sProp 𝕄, iprop((P ∗ Q) ∗ S) = iprop(P ∗ Q ∗ S) :=
    fun P Q S => BI.equiv_iff.mp ⟨Idealize.SL.BI.sep_assoc, Idealize.SL.BI.sep_assoc'⟩
  rw [hsh, hassoc]
  rfl

end Share1

section Held1

variable (c : Dev nD) (d : Dat τ (Elt F) Unit ℕ (UR sig nD τ) ℕ cfg1 c)

/-- The thread state's unscoped buffers at a valuation `W` are the windows' arrays at the contents `W` gives them beside
    the buffers no window reads at contents `V`, for any `V` that agrees with `W` off the arrays. -/
theorem held_eq1 (hq : d.q = Body1.qsh) (W : Valuation τ sig (Elt F)) (V : (b : Ref sig .tc) → Buf (Elt F) ((c : Thread nD τ).loc b))
    (Fw : (w : Fin cfg1.W) → Buf (Elt F) ((cfg1.win w).arr.view.loc (c : Thread nD τ)))
    (hF : ∀ w, Fw w = W (Proc.devRef .tc (Pipeline.arrRef spec1 w)))
    (hrest : ∀ b, b ∉ Finset.univ.image (Pipeline.arrRef spec1) → W (Proc.devRef .tc b) = V b) :
    (StableHlo.held (c : Thread nD τ) (Pipeline.ucRefs τ sig) W : sProp 𝕄) = iprop(d.arrays Fw ∗ Pipeline.unscopedRest spec1 c V) := by
  rw [← Pipeline.unscopedBufs_held (Ix := Unit) (Name := ℕ) (U := UR sig nD τ) (Lvl := ℕ) c W,
    show (unscopedBufs c (fun b => W (Proc.devRef .tc b)) : sProp 𝕄)
        = iprop(Pipeline.arrBufs spec1 c (fun b => W (Proc.devRef .tc b)) ∗ Pipeline.unscopedRest spec1 c (fun b => W (Proc.devRef .tc b)))
      from Pipeline.unscopedBufs_split₀ cfgs (1 : Fin 2) winFacts₀1.arr_unscoped c _,
    ← arrays_eq1 c d hq (fun b => W (Proc.devRef .tc b)) Fw hF]
  refine congrArg _ ?_
  unfold Pipeline.unscopedRest
  exact bigSep_congr fun b hb => by beta_reduce; rw [hrest b (Finset.mem_sdiff.mp hb).2]

end Held1

end Cert.Kernel.Launch

end
-- ==== Proof.KernelBody0Conds.lean ====
/-
  Region 0's control cases. The body branches twice on the column-block coordinate k of the point t = 8·i + k:
  at k = 0 it restarts the two accumulators, at k = 7 it encodes and stores the output block. Decided over the
  16 × 8 grid, the first condition holds exactly where t ≡ 0 (mod 8) and the second where t ≡ 7 (mod 8). The
  output window is idle (nothing stored, nothing written back) at every point with k ≠ 7 and live at k = 7.
-/
import proofs.«128407_j39814346834350_1_alg».proof.Proof.Gen.Kernel.Launch
import proofs.«128407_j39814346834350_1_alg».proof.Proof.Gen.Kernel.Skeleton
import proofs.«128407_j39814346834350_1_alg».proof.Proof.Gen.Kernel.Points
import Idealize.ShloMosaic.Lib.Pipeline.FrameBody
import Idealize.ShloMosaic.Lib.Tactic

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (k = 0), as the body computes it from the grid coordinates. -/
abbrev cond0 (i : grid0.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-- The second branch's condition (k = 7). -/
abbrev cond1 (i : grid0.Coords) : Prop := k0_cond2 i = 1#1
/-- It holds at the points ≡ 7 (mod 8). -/
theorem hcond1 : ∀ t : Fin cfg0.N, cond1 (grid0.coords t) ↔ t.val % 8 = 7 :=
  (by decide +kernel : ∀ t : Fin grid0.N, cond1 (grid0.coords t) ↔ t.val % 8 = 7)

/-- Where the second condition fails the output window is idle and its block is not written back. -/
theorem idleAt6 : ∀ t : Fin cfg0.N, ¬cond1 (grid0.coords t) → cfg0.idle 6 (grid0.coords t) = true := by decide +kernel
theorem noFlush6 : ∀ t : Fin cfg0.N, ¬cond1 (grid0.coords t) → (cfg0.win 6).flush t = false := by decide +kernel
/-- Where it holds the output window is live. -/
theorem liveAt6 : ∀ t : Fin cfg0.N, cond1 (grid0.coords t) → cfg0.idle 6 (grid0.coords t) = false := by decide +kernel

end Cert.Kernel.Body0

end
-- ==== Proof.KernelBody0Pre.lean ====
/-
  Region 0: what the body is handed and what it must return at a point, and the facts about the bookkeeping that
  every control case uses. Each input window's current buffer holds that window's block of its array, fetched at
  the point or not (the own-feature block moves only with the row block, the weights and the bias never). The
  accumulators' recursion is read off by the case of the point: at k = 0 it restarts from the zero blocks, otherwise
  it continues from the point before. Before the first point the invariant is the region's own (every scoped buffer
  the call does not stage at anything, the two accumulators first); afterwards it names the accumulators' contents.
-/
import proofs.«128407_j39814346834350_1_alg».proof.Proof.KernelBody0Defs
import proofs.«128407_j39814346834350_1_alg».proof.Proof.KernelBody0Conds

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers hold their blocks -/

theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The accumulators' recursion, by the case of the point -/

/-- At a point with k = 0 the accumulators restart from the zero blocks. -/
theorem accAt_first (c : Dev nD) (t : Fin cfg0.N) (h0 : t.val % 8 = 0) :
    accAt V c t.val t.isLt = (k0_pay3 (iblk V c 0 t) (k0_pay1 (F := F)) (iblk V c 2 t), k0_pay4 (iblk V c 0 t) (k0_pay2 (F := F))) := by
  obtain ⟨n, hn⟩ := t
  cases n with
  | zero => exact rfl
  | succ n => exact (if_pos h0).trans rfl

/-- At any other point they continue from what the point before left. -/
theorem accAt_next (c : Dev nD) (t : Fin cfg0.N) (h0 : ¬t.val % 8 = 0) :
    accAt V c t.val t.isLt = (k0_pay3 (iblk V c 0 t) (accAt V c (t.val - 1) (Nat.lt_of_le_of_lt (Nat.sub_le _ _) t.isLt)).1 (iblk V c 2 t),
      k0_pay4 (iblk V c 0 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The invariant, position by position -/

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn).1 ∗ owns (c : Thread nD τ) scM1 fullShare (accAt V c n hn).2 ∗ others (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)).1 ∗ owns (c : Thread nD τ) scM1 fullShare (accAt V c (n - 1) (by omega)).2 ∗ others (F := F) c) ∗ (∃ r, prngReg c r)) := by
  cases n with
  | zero => exact absurd rfl hz
  | succ n => rfl

theorem PhiS_castSucc (c : Dev nD) (t : Fin cfg0.N) :
    (dat V c).Φ t.castSucc = PhiS V c t.val (Nat.le_of_lt t.isLt) := by
  dsimp only [dat]; simp only [Fin.coe_castSucc]

/-- The region's own invariant with the two accumulators as memrefs owned at some contents, the call's other scoped
    buffers beside them. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ others (F := F) c) ∗ (∃ r, prngReg c r)) := by
  unfold Pipeline.ΦA others; rw [scopedRest0_eq]; simp only [scM0, scM1, owns_whole]; try rfl

/-! ## The body obligation's two sides at a point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

/-- An input window's buffer is handed back at its block. -/
theorem leaves_0 (c : Dev nD) (t : Fin cfg0.N) : (dat V c).leavesExact 0 t = owns (c : Thread nD τ) (ms0 t) fullShare (iblk V c 0 t) := by
  unfold Dat.leavesExact; rw [show cfg0.idle 0 (cfg0.grid.coords t) = false from rfl, after_0]
theorem leaves_1 (c : Dev nD) (t : Fin cfg0.N) : (dat V c).leavesExact 1 t = owns (c : Thread nD τ) (ms1 t) fullShare (iblk V c 1 t) := by
  unfold Dat.leavesExact; rw [show cfg0.idle 1 (cfg0.grid.coords t) = false from rfl, after_1]
theorem leaves_2 (c : Dev nD) (t : Fin cfg0.N) : (dat V c).leavesExact 2 t = owns (c : Thread nD τ) (ms2 t) fullShare (iblk V c 2 t) := by
  unfold Dat.leavesExact; rw [show cfg0.idle 2 (cfg0.grid.coords t) = false from rfl, after_2]
theorem leaves_3 (c : Dev nD) (t : Fin cfg0.N) : (dat V c).leavesExact 3 t = owns (c : Thread nD τ) (ms3 t) fullShare (iblk V c 3 t) := by
  unfold Dat.leavesExact; rw [show cfg0.idle 3 (cfg0.grid.coords t) = false from rfl, after_3]
theorem leaves_4 (c : Dev nD) (t : Fin cfg0.N) : (dat V c).leavesExact 4 t = owns (c : Thread nD τ) (ms4 t) fullShare (iblk V c 4 t) := by
  unfold Dat.leavesExact; rw [show cfg0.idle 4 (cfg0.grid.coords t) = false from rfl, after_4]
theorem leaves_5 (c : Dev nD) (t : Fin cfg0.N) : (dat V c).leavesExact 5 t = owns (c : Thread nD τ) (ms5 t) fullShare (iblk V c 5 t) := by
  unfold Dat.leavesExact; rw [show cfg0.idle 5 (cfg0.grid.coords t) = false from rfl, after_5]

/-- Where the second branch is not taken the output window's buffer is handed back as it was found. -/
theorem leaves_6_idle (c : Dev nD) (t : Fin cfg0.N) (h1 : ¬cond1 (grid0.coords t)) :
    (dat V c).leavesExact 6 t = iprop(∃ d, owns (c : Thread nD τ) (ms6 t) fullShare ((dat V c).before 6 t d)) :=
  Dat.leavesExact_idle (dat V c) 6 t (idleAt6 t h1) (noFlush6 t h1)

/-- Where it is taken the buffer is handed back at the encoded block. -/
theorem leaves_6_live (c : Dev nD) (t : Fin cfg0.N) (h1 : cond1 (grid0.coords t)) :
    (dat V c).leavesExact 6 t = owns (c : Thread nD τ) (ms6 t) fullShare (outAt V c t) := by
  unfold Dat.leavesExact; rw [liveAt6 t h1, after_6]

end Cert.Kernel.Body0

end
-- ==== Proof.KernelBody0RunA.lean ====
/-
  Region 0's body at a point with k = 0 (first branch taken, second not), run on whole memrefs: it restarts both
  accumulators from zero and adds the point's product and row sums. The run needs the adjacency block and the
  neighbour-feature block at their contents and the two accumulators at anything; it hands the two blocks back as
  they were and each accumulator with the stores it made written, as a list of pieces (last store first) that the
  run finds.
-/
import proofs.«128407_j39814346834350_1_alg».proof.Proof.KernelBody0Conds

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at k = 0, with the pieces each accumulator ends with as the witness. -/
noncomputable def kernelRun0_A (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : cond0 i) (hc1 : ¬cond1 i)
    (x0 : Vec F S1024x2048 .f32) (x2 : Vec F S2048x500 .f32) :
    Σ' (LS0 : List (View.Piece (Elt F) S1024x500 .f32)), { LS1 : List (View.Piece (Elt F) S1024x1 .f32) //
      ∀ (E : Set ℕ) (K : PUnit → sProp 𝕄),
        iprop(owns (c : Thread nD τ) arg2 fullShare x0 ∗ owns (c : Thread nD τ) arg4 fullShare x2 ∗ (∃ d, owns (c : Thread nD τ) arg9 fullShare d) ∗ (∃ d, owns (c : Thread nD τ) arg10 fullShare d)
            ∗ (iprop(owns (c : Thread nD τ) arg2 fullShare x0 ∗ owns (c : Thread nD τ) arg4 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__agg_encode_kernel i arg2 harg2 arg3 harg3 arg4 harg4 arg5 harg5 arg6 harg6 arg7 harg7 arg8 harg8 arg9 harg9 arg10 harg10) K } := by
  refine ⟨?_, ?_, fun E K => ?run⟩
  case run =>
    simp only [cc0__agg_encode_kernel_eq_skeleton]; unfold cc0__agg_encode_kernel_skel
    unfold owns
    iintro ⟨⟨%f0, %hf0, H0⟩, ⟨%f2, %hf2, H2⟩, ⟨%ds0, %fs0, -, HS0⟩, ⟨%ds1, %fs1, -, HS1⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    isplitl [HS0]; · iexists _; iexact HS0
    iexists _; iexact HS1

end Cert.Kernel.Body0

end
-- ==== Proof.KernelBody0PiecesA.lean ====
/-
  What the body leaves in the two accumulators at a point with k = 0, as closed terms. Each accumulator is stored
  twice through its whole extent (the zero block, then the sum), so the later store alone decides its contents; the
  sum's second operand is the accumulator read back after the zero store, which is the zero block. Hence the
  neighbour sum ends at (zero block + adjacency block · neighbour block) and the degree at (zero column + row sums),
  spelt with the body's own arithmetic.
-/
import proofs.«128407_j39814346834350_1_alg».proof.Proof.KernelBody0RunA
import Idealize.ShloMosaic.Lib.Ring
import Idealize.ShloMosaic.Lib.Pipeline.Value

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : cond0 i) (hc1 : ¬cond1 i)
  (x0 : Vec F S1024x2048 .f32) (x2 : Vec F S2048x500 .f32)

/-- The stores into the neighbour-sum accumulator cover it. -/
theorem coverS0_A (y : S1024x500.Idx) :
    ∃ pc ∈ (kernelRun0_A c i arg2 harg2 arg3 harg3 arg4 harg4 arg5 harg5 arg6 harg6 arg7 harg7 arg8 harg8 arg9 harg9 arg10 harg10 hc0 hc1 x0 x2).1, y ∈ pc.1.set :=
  View.cover_of_tiledL (kernelRun0_A c i arg2 harg2 arg3 harg3 arg4 harg4 arg5 harg5 arg6 harg6 arg7 harg7 arg8 harg8 arg9 harg9 arg10 harg10 hc0 hc1 x0 x2).1 S1024x500.size (by sl_kernel_rfl) y

/-- The stores into the degree accumulator cover it. -/
theorem coverS1_A (y : S1024x1.Idx) :
    ∃ pc ∈ (kernelRun0_A c i arg2 harg2 arg3 harg3 arg4 harg4 arg5 harg5 arg6 harg6 arg7 harg7 arg8 harg8 arg9 harg9 arg10 harg10 hc0 hc1 x0 x2).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x2).2.1 S1024x1.size (by sl_kernel_rfl) y

/-- The neighbour-sum accumulator ends at the sum over the zero block. -/
theorem canonS0_A :
    View.canon (kernelRun0_A c i arg2 harg2 arg3 harg3 arg4 harg4 arg5 harg5 arg6 harg6 arg7 harg7 arg8 harg8 arg9 harg9 arg10 harg10 hc0 hc1 x0 x2).1 = k0_pay3 x0 (k0_pay1 (F := F)) x2 := by
  unfold kernelRun0_A
  dsimp only
  sl_unfold_words
  rw [View.canon_cons_unit_zero (S := S1024x500) hz, View.readCov_unit_zero (S := S1024x500) _ hz]
  simp only [View.readAt_eq_ld, harg2.read_unread, harg4.read_unread, View.ld_unit_zero (S := S1024x2048) hz, View.ld_unit_zero (S := S2048x500) hz]

/-- The degree accumulator ends at the row sums over the zero column. -/
theorem canonS1_A :
    View.canon (kernelRun0_A c i arg2 harg2 arg3 harg3 arg4 harg4 arg5 harg5 arg6 harg6 arg7 harg7 arg8 harg8 arg9 harg9 arg10 harg10 hc0 hc1 x0 x2).2.1 = k0_pay4 x0 (k0_pay2 (F := F)) := by
  unfold kernelRun0_A
  dsimp only
  sl_unfold_words
  rw [View.canon_cons_unit_zero (S := S1024x1) hz, View.readCov_unit_zero (S := S1024x1) _ hz]
  simp only [View.readAt_eq_ld, harg2.read_unread, View.ld_unit_zero (S := S1024x2048) hz]

/-- Read through any view over any prior contents, the written neighbour-sum accumulator is that term; -/
theorem readS0_A {sig' : RefSig} {κ' : Kind} {sp' : Space} (v : View sig' κ' sp' S1024x500 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 hc0 hc1 x0 x2).1) = k0_pay3 x0 (k0_pay1 (F := F)) x2 :=
  (View.read_writes_eq_canon v f _ (coverS0_A c i arg2 harg2 arg3 harg3 arg4 harg4 arg5 harg5 arg6 harg6 arg7 harg7 arg8 harg8 arg9 harg9 arg10 harg10 hc0 hc1 x0 x2)).trans (canonS0_A c i arg2 harg2 arg3 harg3 arg4 harg4 arg5 harg5 arg6 harg6 arg7 harg7 arg8 harg8 arg9 harg9 arg10 harg10 hc0 hc1 x0 x2)

/-- and the written degree accumulator likewise. -/
theorem readS1_A {sig' : RefSig} {κ' : Kind} {sp' : Space} (v : View sig' κ' sp' S1024x1 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 hc0 hc1 x0 x2).2.1) = k0_pay4 x0 (k0_pay2 (F := F)) :=
  (View.read_writes_eq_canon v f _ (coverS1_A c i arg2 harg2 arg3 harg3 arg4 harg4 arg5 harg5 arg6 harg6 arg7 harg7 arg8 harg8 arg9 harg9 arg10 harg10 hc0 hc1 x0 x2)).trans (canonS1_A c i arg2 harg2 arg3 harg3 arg4 harg4 arg5 harg5 arg6 harg6 arg7 harg7 arg8 harg8 arg9 harg9 arg10 harg10 hc0 hc1 x0 x2)

end

end Cert.Kernel.Body0

end
-- ==== Proof.KernelBody0SoundA.lean ====
/-
  Region 0's body obligation at a point with k = 0. The two accumulators come from the invariant — at anything before
  the first point, at the point before's contents afterwards; either way the body overwrites them — and go back at
  this point's contents, (zero block + product, zero column + row sums). The input windows' buffers pass through at
  their blocks; the output window's buffer is not touched and is handed back as found.
-/
import proofs.«128407_j39814346834350_1_alg».proof.Proof.KernelBody0Pre
import proofs.«128407_j39814346834350_1_alg».proof.Proof.KernelBody0PiecesA

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_A (c : Dev nD) (t : Fin cfg0.N) (h0 : t.val % 8 = 0) :
    bodyPre V c t ⊢ wp frame (wpE (defs₀ (F := F)) Variants.none c none) Set.univ (bodyAt0 t) (fun _ => bodyPost V c t) := by
  have hN : t.val < 128 := lt_of_lt_of_eq t.isLt (show cfg0.N = 128 from N_0)
  have h1 : ¬t.val % 8 = 7 := by omega
  have hc0 : cond0 (grid0.coords t) := (hcond0 t).mpr h0
  have hc1 : ¬cond1 (grid0.coords t) := fun h => h1 ((hcond1 t).mp h)
  unfold bodyPre bodyPost bodyAt0
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_idle V c t hc1]
  rw [accAt_first V c t h0]
  (try dsimp only)
  by_cases hz : t.val = 0
  · rw [PhiS_castSucc V c t, PhiS_zero V c _ _ hz, PhiA_eq]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t)).2.2 Set.univ _)
    isplitl [H0]; · iexact H0
    isplitl [H2]; · iexact H2
    isplitl [HS0]; · iexact HS0
    isplitl [HS1]; · iexact HS1
    iintro ⟨H0, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact readS0_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        isplitl [HS1]
        · unfold owns; iexists _; isplitr
          swap; · iexact HS1
          ipureintro; exact readS1_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [PhiS_castSucc V c t, PhiS_pos V c _ _ hz]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t)).2.2 Set.univ _)
    isplitl [H0]; · iexact H0
    isplitl [H2]; · iexact H2
    isplitl [HS0]; · iexists _; iexact HS0
    isplitl [HS1]; · iexists _; iexact HS1
    iintro ⟨H0, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact readS0_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        isplitl [HS1]
        · unfold owns; iexists _; isplitr
          swap; · iexact HS1
          ipureintro; exact readS1_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

end Cert.Kernel.Body0

end
-- ==== Proof.KernelBody0RunB.lean ====
/-
  Region 0's body at a point with 0 < k < 7 (neither branch taken), run on whole memrefs: it adds the point's product
  and row sums to the two accumulators, which it needs at the contents the point before left. It hands the adjacency
  block and the neighbour-feature block back as they were and each accumulator with its one store written.
-/
import proofs.«128407_j39814346834350_1_alg».proof.Proof.KernelBody0RunA

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at 0 < k < 7, with the pieces each accumulator ends with as the witness. -/
noncomputable def kernelRun0_B (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : ¬cond0 i) (hc1 : ¬cond1 i)
    (x0 : Vec F S1024x2048 .f32) (x2 : Vec F S2048x500 .f32) (xs0 : Vec F S1024x500 .f32) (xs1 : Vec F S1024x1 .f32) :
    Σ' (LS0 : List (View.Piece (Elt F) S1024x500 .f32)), { LS1 : List (View.Piece (Elt F) S1024x1 .f32) //
      ∀ (E : Set ℕ) (K : PUnit → sProp 𝕄),
        iprop(owns (c : Thread nD τ) arg2 fullShare x0 ∗ owns (c : Thread nD τ) arg4 fullShare x2 ∗ owns (c : Thread nD τ) arg9 fullShare xs0 ∗ owns (c : Thread nD τ) arg10 fullShare xs1
            ∗ (iprop(owns (c : Thread nD τ) arg2 fullShare x0 ∗ owns (c : Thread nD τ) arg4 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__agg_encode_kernel i arg2 harg2 arg3 harg3 arg4 harg4 arg5 harg5 arg6 harg6 arg7 harg7 arg8 harg8 arg9 harg9 arg10 harg10) K } := by
  refine ⟨?_, ?_, fun E K => ?run⟩
  case run =>
    simp only [cc0__agg_encode_kernel_eq_skeleton]; unfold cc0__agg_encode_kernel_skel
    unfold owns
    iintro ⟨⟨%f0, %hf0, H0⟩, ⟨%f2, %hf2, H2⟩, ⟨%fs0, %hfs0, HS0⟩, ⟨%fs1, %hfs1, HS1⟩, Hk⟩
    obtain rfl := harg2.eq_unread hf0; obtain rfl := harg4.eq_unread hf2
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    isplitl [HS0]; · iexists _; iexact HS0
    iexists _; iexact HS1

end Cert.Kernel.Body0

end
-- ==== Proof.KernelBody0PiecesB.lean ====
/-
  What the body leaves in the two accumulators at a point with 0 < k < 7, as closed terms: each is stored once
  through its whole extent, at (what it held + adjacency block · neighbour block) and (what it held + row sums).
-/
import proofs.«128407_j39814346834350_1_alg».proof.Proof.KernelBody0RunB
import Idealize.ShloMosaic.Lib.Ring
import Idealize.ShloMosaic.Lib.Pipeline.Value

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : ¬cond0 i) (hc1 : ¬cond1 i)
  (x0 : Vec F S1024x2048 .f32) (x2 : Vec F S2048x500 .f32) (xs0 : Vec F S1024x500 .f32) (xs1 : Vec F S1024x1 .f32)

/-- The store into the neighbour-sum accumulator covers it. -/
theorem coverS0_B (y : S1024x500.Idx) :
    ∃ pc ∈ (kernelRun0_B c i arg2 harg2 arg3 harg3 arg4 harg4 arg5 harg5 arg6 harg6 arg7 harg7 arg8 harg8 arg9 harg9 arg10 harg10 hc0 hc1 x0 x2 xs0 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x2 xs0 xs1).1 S1024x500.size (by sl_kernel_rfl) y

/-- The store into the degree accumulator covers it. -/
theorem coverS1_B (y : S1024x1.Idx) :
    ∃ pc ∈ (kernelRun0_B c i arg2 harg2 arg3 harg3 arg4 harg4 arg5 harg5 arg6 harg6 arg7 harg7 arg8 harg8 arg9 harg9 arg10 harg10 hc0 hc1 x0 x2 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x2 xs0 xs1).2.1 S1024x1.size (by sl_kernel_rfl) y

/-- The neighbour-sum accumulator ends at the sum over what it held. -/
theorem canonS0_B :
    View.canon (kernelRun0_B c i arg2 harg2 arg3 harg3 arg4 harg4 arg5 harg5 arg6 harg6 arg7 harg7 arg8 harg8 arg9 harg9 arg10 harg10 hc0 hc1 x0 x2 xs0 xs1).1 = k0_pay3 x0 xs0 x2 := by
  unfold kernelRun0_B
  dsimp only
  sl_unfold_words
  rw [View.canon_unit_zero (S := S1024x500) hz]
  simp only [View.readAt_eq_ld, harg2.read_unread, harg4.read_unread, harg9.read_unread, View.ld_unit_zero (S := S1024x2048) hz, View.ld_unit_zero (S := S2048x500) hz, View.ld_unit_zero (S := S1024x500) hz]

/-- The degree accumulator ends at the row sums over what it held. -/
theorem canonS1_B :
    View.canon (kernelRun0_B c i arg2 harg2 arg3 harg3 arg4 harg4 arg5 harg5 arg6 harg6 arg7 harg7 arg8 harg8 arg9 harg9 arg10 harg10 hc0 hc1 x0 x2 xs0 xs1).2.1 = k0_pay4 x0 xs1 := by
  unfold kernelRun0_B
  dsimp only
  sl_unfold_words
  rw [View.canon_unit_zero (S := S1024x1) hz]
  simp only [View.readAt_eq_ld, harg2.read_unread, harg10.read_unread, View.ld_unit_zero (S := S1024x2048) hz, View.ld_unit_zero (S := S1024x1) hz]

theorem readS0_B {sig' : RefSig} {κ' : Kind} {sp' : Space} (v : View sig' κ' sp' S1024x500 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 hc0 hc1 x0 x2 xs0 xs1).1) = k0_pay3 x0 xs0 x2 :=
  (View.read_writes_eq_canon v f _ (coverS0_B c i arg2 harg2 arg3 harg3 arg4 harg4 arg5 harg5 arg6 harg6 arg7 harg7 arg8 harg8 arg9 harg9 arg10 harg10 hc0 hc1 x0 x2 xs0 xs1)).trans (canonS0_B c i arg2 harg2 arg3 harg3 arg4 harg4 arg5 harg5 arg6 harg6 arg7 harg7 arg8 harg8 arg9 harg9 arg10 harg10 hc0 hc1 x0 x2 xs0 xs1)

theorem readS1_B {sig' : RefSig} {κ' : Kind} {sp' : Space} (v : View sig' κ' sp' S1024x1 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 hc0 hc1 x0 x2 xs0 xs1).2.1) = k0_pay4 x0 xs1 :=
  (View.read_writes_eq_canon v f _ (coverS1_B c i arg2 harg2 arg3 harg3 arg4 harg4 arg5 harg5 arg6 harg6 arg7 harg7 arg8 harg8 arg9 harg9 arg10 harg10 hc0 hc1 x0 x2 xs0 xs1)).trans (canonS1_B c i arg2 harg2 arg3 harg3 arg4 harg4 arg5 harg5 arg6 harg6 arg7 harg7 arg8 harg8 arg9 harg9 arg10 harg10 hc0 hc1 x0 x2 xs0 xs1)

end

end Cert.Kernel.Body0

end
-- ==== Proof.KernelBody0SoundB.lean ====
/-
  Region 0's body obligation at a point with 0 < k < 7. The invariant hands the two accumulators at what the point
  before left; they go back with this point's product and row sums added. The input windows' buffers pass through at
  their blocks; the output window's buffer is not touched and is handed back as found.
-/
import proofs.«128407_j39814346834350_1_alg».proof.Proof.KernelBody0Pre
import proofs.«128407_j39814346834350_1_alg».proof.Proof.KernelBody0PiecesB

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_B (c : Dev nD) (t : Fin cfg0.N) (h0 : ¬t.val % 8 = 0) (h1 : ¬t.val % 8 = 7) :
    bodyPre V c t ⊢ wp frame (wpE (defs₀ (F := F)) Variants.none c none) Set.univ (bodyAt0 t) (fun _ => bodyPost V c t) := by
  have hz : t.val ≠ 0 := fun e => h0 (by rw [e])
  have hlt : t.val - 1 < cfg0.N := Nat.lt_of_le_of_lt (Nat.sub_le _ _) t.isLt
  have hc0 : ¬cond0 (grid0.coords t) := fun h => h0 ((hcond0 t).mp h)
  have hc1 : ¬cond1 (grid0.coords t) := fun h => h1 ((hcond1 t).mp h)
  unfold bodyPre bodyPost bodyAt0
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_idle V c t hc1]
  rw [accAt_next V c t h0]
  (try dsimp only)
  rw [PhiS_castSucc V c t, PhiS_pos V c _ _ hz]
  iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_B c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2).2.2 Set.univ _)
  isplitl [H0]; · iexact H0
  isplitl [H2]; · iexact H2
  isplitl [HS0]; · iexact HS0
  isplitl [HS1]; · iexact HS1
  iintro ⟨H0, H2, ⟨%es0, HS0⟩, ⟨%es1, HS1⟩⟩
  isplitl [HS0 HS1 Hoth Hg]
  · isplitl [HS0 HS1 Hoth]
    · isplitl [HS0]
      · unfold owns; iexists _; isplitr
        swap; · iexact HS0
        ipureintro; exact readS0_B c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2 _ _
      isplitl [HS1]
      · unfold owns; iexists _; isplitr
        swap; · iexact HS1
        ipureintro; exact readS1_B c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2 _ _
      iexact Hoth
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

end Cert.Kernel.Body0

end
-- ==== Proof.KernelBody0RunC.lean ====
/-
  Region 0's body at a point with k = 7 (first branch not taken, second taken), run on whole memrefs: it adds the
  point's product and row sums to the two accumulators, then encodes — the mean of the neighbours, the two products
  with the weight halves, the bias, the rectifier and the row normalisation — and stores the block into the output
  window's buffer, which it needs at anything. Every input block is handed back as it was; the two accumulators and
  the output buffer each with its one store written.
-/
import proofs.«128407_j39814346834350_1_alg».proof.Proof.KernelBody0RunB

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at k = 7, with the pieces the output buffer and each accumulator end with as the witness. -/
noncomputable def kernelRun0_C (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : ¬cond0 i) (hc1 : cond1 i)
    (x0 : Vec F S1024x2048 .f32) (x1 : Vec F S1024x500 .f32) (x2 : Vec F S2048x500 .f32) (x3 : Vec F S500x128 .f32) (x4 : Vec F S500x128 .f32) (x5 : Vec F S1x128 .f32)
    (xs0 : Vec F S1024x500 .f32) (xs1 : Vec F S1024x1 .f32) :
    Σ' (L6 : List (View.Piece (Elt F) S1024x128 .f32)) (LS0 : List (View.Piece (Elt F) S1024x500 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__agg_encode_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__agg_encode_kernel_eq_skeleton]; unfold cc0__agg_encode_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Body0

end
-- ==== Proof.KernelBody0PiecesC.lean ====
/-
  What the body leaves at a point with k = 7, as closed terms: the two accumulators as at the points before
  (what each held plus this point's addend), and the output window's buffer at the encoding of those two sums, the
  own-feature block and the three resident operands — the sums being read back from the accumulators after their
  stores.
-/
import proofs.«128407_j39814346834350_1_alg».proof.Proof.KernelBody0RunC
import Idealize.ShloMosaic.Lib.Ring
import Idealize.ShloMosaic.Lib.Pipeline.Value

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : ¬cond0 i) (hc1 : cond1 i)
  (x0 : Vec F S1024x2048 .f32) (x1 : Vec F S1024x500 .f32) (x2 : Vec F S2048x500 .f32) (x3 : Vec F S500x128 .f32) (x4 : Vec F S500x128 .f32) (x5 : Vec F S1x128 .f32)
  (xs0 : Vec F S1024x500 .f32) (xs1 : Vec F S1024x1 .f32)

/-- The store into the output window's buffer covers it. -/
theorem cover6_C (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S1024x128.size (by sl_kernel_rfl) y

/-- The store into the neighbour-sum accumulator covers it. -/
theorem coverS0_C (y : S1024x500.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S1024x500.size (by sl_kernel_rfl) y

/-- The store into the degree accumulator covers it. -/
theorem coverS1_C (y : S1024x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y

theorem canonS0_C :
    View.canon (kernelRun0_C c i arg2 harg2 arg3 harg3 arg4 harg4 arg5 harg5 arg6 harg6 arg7 harg7 arg8 harg8 arg9 harg9 arg10 harg10 hc0 hc1 x0 x1 x2 x3 x4 x5 xs0 xs1).2.1 = k0_pay3 x0 xs0 x2 := by
  unfold kernelRun0_C
  dsimp only
  sl_unfold_words
  rw [View.canon_unit_zero (S := S1024x500) hz]
  simp only [View.readAt_eq_ld, harg2.read_unread, harg4.read_unread, harg9.read_unread, View.ld_unit_zero (S := S1024x2048) hz, View.ld_unit_zero (S := S2048x500) hz, View.ld_unit_zero (S := S1024x500) hz]

theorem canonS1_C :
    View.canon (kernelRun0_C c i arg2 harg2 arg3 harg3 arg4 harg4 arg5 harg5 arg6 harg6 arg7 harg7 arg8 harg8 arg9 harg9 arg10 harg10 hc0 hc1 x0 x1 x2 x3 x4 x5 xs0 xs1).2.2.1 = k0_pay4 x0 xs1 := by
  unfold kernelRun0_C
  dsimp only
  sl_unfold_words
  rw [View.canon_unit_zero (S := S1024x1) hz]
  simp only [View.readAt_eq_ld, harg2.read_unread, harg10.read_unread, View.ld_unit_zero (S := S1024x2048) hz, View.ld_unit_zero (S := S1024x1) hz]

/-- The output window's buffer ends at the encoding of the two sums as this point leaves them. -/
theorem canon6_C :
    View.canon (kernelRun0_C c i arg2 harg2 arg3 harg3 arg4 harg4 arg5 harg5 arg6 harg6 arg7 harg7 arg8 harg8 arg9 harg9 arg10 harg10 hc0 hc1 x0 x1 x2 x3 x4 x5 xs0 xs1).1 = k0_pay5 (k0_pay3 x0 xs0 x2) (k0_pay4 x0 xs1) x1 x3 x4 x5 := by
  unfold kernelRun0_C
  dsimp only
  sl_unfold_words
  rw [View.canon_unit_zero (S := S1024x128) hz, View.readCov_unit_zero (S := S1024x500) _ hz, View.readCov_unit_zero (S := S1024x1) _ hz]
  simp only [View.readAt_eq_ld, harg2.read_unread, harg3.read_unread, harg4.read_unread, harg5.read_unread, harg6.read_unread, harg7.read_unread, harg9.read_unread, harg10.read_unread, View.ld_unit_zero (S := S1024x2048) hz, View.ld_unit_zero (S := S2048x500) hz, View.ld_unit_zero (S := S1024x500) hz, View.ld_unit_zero (S := S1024x1) hz, View.ld_unit_zero (S := S500x128) hz, View.ld_unit_zero (S := S1x128) hz]

theorem read6_C {sig' : RefSig} {κ' : Kind} {sp' : Space} (v : View sig' κ' sp' S1024x128 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 hc0 hc1 x0 x1 x2 x3 x4 x5 xs0 xs1).1) = k0_pay5 (k0_pay3 x0 xs0 x2) (k0_pay4 x0 xs1) x1 x3 x4 x5 :=
  (View.read_writes_eq_canon v f _ (cover6_C c i arg2 harg2 arg3 harg3 arg4 harg4 arg5 harg5 arg6 harg6 arg7 harg7 arg8 harg8 arg9 harg9 arg10 harg10 hc0 hc1 x0 x1 x2 x3 x4 x5 xs0 xs1)).trans (canon6_C c i arg2 harg2 arg3 harg3 arg4 harg4 arg5 harg5 arg6 harg6 arg7 harg7 arg8 harg8 arg9 harg9 arg10 harg10 hc0 hc1 x0 x1 x2 x3 x4 x5 xs0 xs1)

theorem readS0_C {sig' : RefSig} {κ' : Kind} {sp' : Space} (v : View sig' κ' sp' S1024x500 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 hc0 hc1 x0 x1 x2 x3 x4 x5 xs0 xs1).2.1) = k0_pay3 x0 xs0 x2 :=
  (View.read_writes_eq_canon v f _ (coverS0_C c i arg2 harg2 arg3 harg3 arg4 harg4 arg5 harg5 arg6 harg6 arg7 harg7 arg8 harg8 arg9 harg9 arg10 harg10 hc0 hc1 x0 x1 x2 x3 x4 x5 xs0 xs1)).trans (canonS0_C c i arg2 harg2 arg3 harg3 arg4 harg4 arg5 harg5 arg6 harg6 arg7 harg7 arg8 harg8 arg9 harg9 arg10 harg10 hc0 hc1 x0 x1 x2 x3 x4 x5 xs0 xs1)

theorem readS1_C {sig' : RefSig} {κ' : Kind} {sp' : Space} (v : View sig' κ' sp' S1024x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 hc0 hc1 x0 x1 x2 x3 x4 x5 xs0 xs1).2.2.1) = k0_pay4 x0 xs1 :=
  (View.read_writes_eq_canon v f _ (coverS1_C c i arg2 harg2 arg3 harg3 arg4 harg4 arg5 harg5 arg6 harg6 arg7 harg7 arg8 harg8 arg9 harg9 arg10 harg10 hc0 hc1 x0 x1 x2 x3 x4 x5 xs0 xs1)).trans (canonS1_C c i arg2 harg2 arg3 harg3 arg4 harg4 arg5 harg5 arg6 harg6 arg7 harg7 arg8 harg8 arg9 harg9 arg10 harg10 hc0 hc1 x0 x1 x2 x3 x4 x5 xs0 xs1)

end

end Cert.Kernel.Body0

end
-- ==== Proof.KernelBody0SoundC.lean ====
/-
  Region 0's body obligation at a point with k = 7. The invariant hands the two accumulators at what the point before
  left; they go back with this point's product and row sums added, and the output window's buffer — handed over at
  whatever it held — goes back at the encoding of those sums, the own-feature block and the resident operands, which
  is the block the bookkeeping names for this point. The input windows' buffers pass through at their blocks.
-/
import proofs.«128407_j39814346834350_1_alg».proof.Proof.KernelBody0Pre
import proofs.«128407_j39814346834350_1_alg».proof.Proof.KernelBody0PiecesC

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_C (c : Dev nD) (t : Fin cfg0.N) (h1 : t.val % 8 = 7) :
    bodyPre V c t ⊢ wp frame (wpE (defs₀ (F := F)) Variants.none c none) Set.univ (bodyAt0 t) (fun _ => bodyPost V c t) := by
  have h0 : ¬t.val % 8 = 0 := by omega
  have hz : t.val ≠ 0 := fun e => h0 (by rw [e])
  have hlt : t.val - 1 < cfg0.N := Nat.lt_of_le_of_lt (Nat.sub_le _ _) t.isLt
  have hc0 : ¬cond0 (grid0.coords t) := fun h => h0 ((hcond0 t).mp h)
  have hc1 : cond1 (grid0.coords t) := (hcond1 t).mpr h1
  unfold bodyPre bodyPost bodyAt0
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_live V c t hc1]
  unfold outAt
  rw [accAt_next V c t h0]
  (try dsimp only)
  rw [PhiS_castSucc V c t, PhiS_pos V c _ _ hz]
  iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_C c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, ⟨%es0, HS0⟩, ⟨%es1, HS1⟩⟩
  isplitl [HS0 HS1 Hoth Hg]
  · isplitl [HS0 HS1 Hoth]
    · isplitl [HS0]
      · unfold owns; iexists _; isplitr
        swap; · iexact HS0
        ipureintro; exact readS0_C c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _
      isplitl [HS1]
      · unfold owns; iexists _; isplitr
        swap; · iexact HS1
        ipureintro; exact readS1_C c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _
      iexact Hoth
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact read6_C c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _

end Cert.Kernel.Body0

end
-- ==== Proof.KernelBody0.lean ====
/-
  Region 0's body obligation, and the invariant's two ends. A point t = 8·i + k is in exactly one of three control
  cases — k = 0, 0 < k < 7, k = 7 — decided by t mod 8; each case's run of the body meets what the bookkeeping of
  the region says the point leaves. What the launch hands the region is the invariant before the first point; after
  the last point the invariant gives it back, forgetting what the two accumulators hold.
-/
import proofs.«128407_j39814346834350_1_alg».proof.Proof.KernelBody0SoundA
import proofs.«128407_j39814346834350_1_alg».proof.Proof.KernelBody0SoundB
import proofs.«128407_j39814346834350_1_alg».proof.Proof.KernelBody0SoundC

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body at any point: by the case of the point. -/
theorem sound_body (c : Dev nD) (t : Fin cfg0.N) :
    bodyPre V c t ⊢ wp frame (wpE (defs₀ (F := F)) Variants.none c none) Set.univ (bodyAt0 t) (fun _ => bodyPost V c t) := by
  by_cases h0 : t.val % 8 = 0
  · exact sound_A V c t h0
  · by_cases h1 : t.val % 8 = 7
    · exact sound_C V c t h1
    · exact sound_B V c t h0 h1

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA (U := UR sig nD τ) spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the region's own back: the accumulators' named contents are forgotten. -/
theorem Phi_out (c : Dev nD) (t : Fin (cfg0.N + 1)) (ht : t.val ≠ 0) : (dat V c).Φ t ⊢ (Pipeline.ΦA (U := UR sig nD τ) spec0 c : sProp 𝕄) := by
  rw [show (dat V c).Φ t = PhiS V c t.val (Nat.le_of_lt_succ t.isLt) from rfl, PhiS_pos V c _ _ ht, PhiA_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last point. -/
theorem hout (c : Dev nD) : (dat V c).Φ (Fin.last cfg0.N) ⊢ (Pipeline.ΦA (U := UR sig nD τ) spec0 c : sProp 𝕄) :=
  Phi_out V c _ (by rw [Fin.val_last]; have : cfg0.N = 128 := N_0; omega)

end Cert.Kernel.Body0

end
-- ==== Proof.KernelLaunch0.lean ====
/-
  Region 0 (the first pallas_call) as an item of the program, for any float instance `F`.

  The region is entered from the thread state "every unscoped buffer at `Gen.V1 m` (the launch memory after the first host stretch), the generator register at some state, nothing
  owed" and left at the same with the output array `main_v4` at `X2`. At entry the unscoped buffers split into the windows'
  arrays (the shared array's buffer as its two halves) and the buffers no window reads; the generator register goes
  into the pipeline's invariant with the scoped buffers the call does not stage. At exit the input arrays are as entered
  (no write-back touches an input window's array), the output array is at what the write-backs leave, and the pieces are put
  back together.
-/
import proofs.«128407_j39814346834350_1_alg».proof.Proof.KernelLaunchShare
import proofs.«128407_j39814346834350_1_alg».proof.Proof.KernelBody0

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each window's array holds what the valuation after the region gives its buffer: an input array what
    it held at entry (which the valuation keeps), the output array `X2`. -/
theorem hF0 (c : Dev nD) : ∀ w : Fin cfg0.W, (pdats m 0 c).arrAt w cfg0.N = W2 m c (Proc.devRef .tc (Pipeline.arrRef spec0 w))
  | 0 => ((Body0.dat (E0 m) c).arrAt_in 0 rfl _).trans ((Body0.A_eq (E0 m) c 0).trans (Function.update_of_ne (StableHlo.devRef_ne_of_ne (by decide)) _ _).symm)
  | 1 => ((Body0.dat (E0 m) c).arrAt_in 1 rfl _).trans ((Body0.A_eq (E0 m) c 1).trans (Function.update_of_ne (StableHlo.devRef_ne_of_ne (by decide)) _ _).symm)
  | 2 => ((Body0.dat (E0 m) c).arrAt_in 2 rfl _).trans ((Body0.A_eq (E0 m) c 2).trans (Function.update_of_ne (StableHlo.devRef_ne_of_ne (by decide)) _ _).symm)
  | 3 => ((Body0.dat (E0 m) c).arrAt_in 3 rfl _).trans ((Body0.A_eq (E0 m) c 3).trans (Function.update_of_ne (StableHlo.devRef_ne_of_ne (by decide)) _ _).symm)
  | 4 => ((Body0.dat (E0 m) c).arrAt_in 4 rfl _).trans ((Body0.A_eq (E0 m) c 4).trans (Function.update_of_ne (StableHlo.devRef_ne_of_ne (by decide)) _ _).symm)
  | 5 => ((Body0.dat (E0 m) c).arrAt_in 5 rfl _).trans ((Body0.A_eq (E0 m) c 5).trans (Function.update_of_ne (StableHlo.devRef_ne_of_ne (by decide)) _ _).symm)
  | 6 => (X2_def m c).symm.trans (Function.update_self (Proc.devRef .tc main_v4 : DevRef τ sig) (X2 m c) (Gen.V1 m c)).symm
  | ⟨_ + 7, h⟩ => absurd h (Nat.not_lt.2 (Nat.le_add_left _ _))

/-- Off the windows' arrays the valuation after the region is the one before it. -/
theorem hrest0 (c : Dev nD) : ∀ b, b ∉ Finset.univ.image (Pipeline.arrRef spec0) → W2 m c (Proc.devRef .tc b) = E0 m c b :=
  fun b hb => Function.update_of_ne (StableHlo.devRef_ne_of_ne fun e : b = main_v4 => hb (by rw [e]; exact Finset.mem_image.mpr ⟨6, Finset.mem_univ _, rfl⟩)) _ _

set_option backward.isDefEq.respectTransparency.types false in
/-- REGION 0 over the thread state. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (Body0.body_obligation (E0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit : (StableHlo.held (c : Thread nD τ) (Pipeline.ucRefs τ sig) (Gen.V1 m c) : sProp 𝕄)
        ⊢ iprop((pdats m 0 c).arrays ((pdats m 0 c).arrAt · 0) ∗ Pipeline.unscopedRest spec0 c (E0 m c)) := by
      exact Entails.of_eq (held_eq0 c (pdats m 0 c) rfl _ (E0 m c) ((pdats m 0 c).arrAt · 0) (fun w => Body0.A_eq (E0 m) c w) (fun _ _ => rfl))
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Body0.hin (E0 m) c)
    unfold Pipeline.ΦA
    iintro ⟨Hp, -, Hr⟩
    isplitl [Hr]; · iexact Hr
    iexact Hp
  hout c := by
    rw [Pipeline.ownSems0_none]
    refine (Body0.hout (E0 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (E0 m c))
        ⊢ (StableHlo.held (c : Thread nD τ) (Pipeline.ucRefs τ sig) (Gen.V2 m (outs m) c) : sProp 𝕄) := by
      rw [V2_eq]
      exact Entails.of_eq (held_eq0 c (pdats m 0 c) rfl _ (E0 m c) ((pdats m 0 c).arrAt · cfg0.N) (hF0 m c) (hrest0 m c)).symm
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Launch

end
-- ==== Proof.KernelBody1Conds.lean ====
/-
  Region 1's control cases. The body branches twice on the column-block coordinate k of the point t = 8·i + k:
  at k = 0 it restarts the two accumulators, at k = 7 it encodes and stores the output block. Decided over the
  16 × 8 grid, the first condition holds exactly where t ≡ 0 (mod 8) and the second where t ≡ 7 (mod 8). The
  output window is idle (nothing stored, nothing written back) at every point with k ≠ 7 and live at k = 7.
-/
import proofs.«128407_j39814346834350_1_alg».proof.Proof.Gen.Kernel.Launch
import proofs.«128407_j39814346834350_1_alg».proof.Proof.Gen.Kernel.Skeleton
import proofs.«128407_j39814346834350_1_alg».proof.Proof.Gen.Kernel.Points
import Idealize.ShloMosaic.Lib.Pipeline.FrameBody
import Idealize.ShloMosaic.Lib.Tactic

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (k = 0), as the body computes it from the grid coordinates. -/
abbrev cond0 (i : grid1.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg1.N, cond0 (grid1.coords t) ↔ t.val % 8 = 0 :=
  (by decide +kernel : ∀ t : Fin grid1.N, cond0 (grid1.coords t) ↔ t.val % 8 = 0)

/-- The second branch's condition (k = 7). -/
abbrev cond1 (i : grid1.Coords) : Prop := k1_cond2 i = 1#1
/-- It holds at the points ≡ 7 (mod 8). -/
theorem hcond1 : ∀ t : Fin cfg1.N, cond1 (grid1.coords t) ↔ t.val % 8 = 7 :=
  (by decide +kernel : ∀ t : Fin grid1.N, cond1 (grid1.coords t) ↔ t.val % 8 = 7)

/-- Where the second condition fails the output window is idle and its block is not written back. -/
theorem idleAt6 : ∀ t : Fin cfg1.N, ¬cond1 (grid1.coords t) → cfg1.idle 6 (grid1.coords t) = true := by decide +kernel
theorem noFlush6 : ∀ t : Fin cfg1.N, ¬cond1 (grid1.coords t) → (cfg1.win 6).flush t = false := by decide +kernel
/-- Where it holds the output window is live. -/
theorem liveAt6 : ∀ t : Fin cfg1.N, cond1 (grid1.coords t) → cfg1.idle 6 (grid1.coords t) = false := by decide +kernel

end Cert.Kernel.Body1

end
-- ==== Proof.KernelBody1Pre.lean ====
/-
  Region 1: what the body is handed and what it must return at a point, and the facts about the bookkeeping that
  every control case uses. Each input window's current buffer holds that window's block of its array, fetched at
  the point or not (the own-feature block moves only with the row block, the weights and the bias never). The
  accumulators' recursion is read off by the case of the point: at k = 0 it restarts from the zero blocks, otherwise
  it continues from the point before. Before the first point the invariant is the region's own (every scoped buffer
  the call does not stage at anything, the two accumulators last); afterwards it names the accumulators' contents.
-/
import proofs.«128407_j39814346834350_1_alg».proof.Proof.KernelBody1Defs
import proofs.«128407_j39814346834350_1_alg».proof.Proof.KernelBody1Conds

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers hold their blocks -/

theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The accumulators' recursion, by the case of the point -/

/-- At a point with k = 0 the accumulators restart from the zero blocks. -/
theorem accAt_first (c : Dev nD) (t : Fin cfg1.N) (h0 : t.val % 8 = 0) :
    accAt V c t.val t.isLt = (k1_pay3 (iblk V c 0 t) (k1_pay1 (F := F)) (iblk V c 2 t), k1_pay4 (iblk V c 0 t) (k1_pay2 (F := F))) := by
  obtain ⟨n, hn⟩ := t
  cases n with
  | zero => exact rfl
  | succ n => exact (if_pos h0).trans rfl

/-- At any other point they continue from what the point before left. -/
theorem accAt_next (c : Dev nD) (t : Fin cfg1.N) (h0 : ¬t.val % 8 = 0) :
    accAt V c t.val t.isLt = (k1_pay3 (iblk V c 0 t) (accAt V c (t.val - 1) (Nat.lt_of_le_of_lt (Nat.sub_le _ _) t.isLt)).1 (iblk V c 2 t),
      k1_pay4 (iblk V c 0 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The invariant, position by position -/

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM0 fullShare (accAt V c n hn).1 ∗ owns (c : Thread nD τ) scM1 fullShare (accAt V c n hn).2 ∗ others (F := F) c) ∗ (∃ r, prngReg c r)) := rfl

theorem PhiS_pos (c : Dev nD) (n : ℕ) (h : n ≤ cfg1.N) (hz : n ≠ 0) :
    PhiS V c n h = iprop(iprop(owns (c : Thread nD τ) scM0 fullShare (accAt V c (n - 1) (by omega)).1 ∗ owns (c : Thread nD τ) scM1 fullShare (accAt V c (n - 1) (by omega)).2 ∗ others (F := F) c) ∗ (∃ r, prngReg c r)) := by
  cases n with
  | zero => exact absurd rfl hz
  | succ n => rfl

theorem PhiS_castSucc (c : Dev nD) (t : Fin cfg1.N) :
    (dat V c).Φ t.castSucc = PhiS V c t.val (Nat.le_of_lt t.isLt) := by
  dsimp only [dat]; simp only [Fin.coe_castSucc]

/-- The region's own invariant with the two accumulators as memrefs owned at some contents, the call's other scoped
    buffers beside them. -/
theorem PhiA_eq (c : Dev nD) :
    (Pipeline.ΦA spec1 c : sProp 𝕄)
      = iprop(iprop((∃ d, owns (c : Thread nD τ) scM0 fullShare d) ∗ (∃ d, owns (c : Thread nD τ) scM1 fullShare d) ∗ others (F := F) c) ∗ (∃ r, prngReg c r)) := by
  unfold Pipeline.ΦA others; rw [scopedRest1_eq]; simp only [scM0, scM1, owns_whole]
  -- the region's own list names this call's two accumulators last; the invariant names them first
  refine BI.equiv_iff.mp ⟨?_, ?_⟩
  · show (_ : sProp 𝕄) ⊢ (_ : sProp 𝕄)
    iintro ⟨⟨A1, A2, A3, A4, A5, A6, A7, A8, A9, A10, A11, A12, A13, S0, S1⟩, Hg⟩
    isplitl [A1 A2 A3 A4 A5 A6 A7 A8 A9 A10 A11 A12 A13 S0 S1]
    · isplitl [S0]; · iexact S0
      isplitl [S1]; · iexact S1
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      iexact A13
    iexact Hg
  · show (_ : sProp 𝕄) ⊢ (_ : sProp 𝕄)
    iintro ⟨⟨S0, S1, A1, A2, A3, A4, A5, A6, A7, A8, A9, A10, A11, A12, A13⟩, Hg⟩
    isplitl [A1 A2 A3 A4 A5 A6 A7 A8 A9 A10 A11 A12 A13 S0 S1]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [S0]; · iexact S0
      iexact S1
    iexact Hg

/-! ## The body obligation's two sides at a point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

/-- An input window's buffer is handed back at its block. -/
theorem leaves_0 (c : Dev nD) (t : Fin cfg1.N) : (dat V c).leavesExact 0 t = owns (c : Thread nD τ) (ms0 t) fullShare (iblk V c 0 t) := by
  unfold Dat.leavesExact; rw [show cfg1.idle 0 (cfg1.grid.coords t) = false from rfl, after_0]
theorem leaves_1 (c : Dev nD) (t : Fin cfg1.N) : (dat V c).leavesExact 1 t = owns (c : Thread nD τ) (ms1 t) fullShare (iblk V c 1 t) := by
  unfold Dat.leavesExact; rw [show cfg1.idle 1 (cfg1.grid.coords t) = false from rfl, after_1]
theorem leaves_2 (c : Dev nD) (t : Fin cfg1.N) : (dat V c).leavesExact 2 t = owns (c : Thread nD τ) (ms2 t) fullShare (iblk V c 2 t) := by
  unfold Dat.leavesExact; rw [show cfg1.idle 2 (cfg1.grid.coords t) = false from rfl, after_2]
theorem leaves_3 (c : Dev nD) (t : Fin cfg1.N) : (dat V c).leavesExact 3 t = owns (c : Thread nD τ) (ms3 t) fullShare (iblk V c 3 t) := by
  unfold Dat.leavesExact; rw [show cfg1.idle 3 (cfg1.grid.coords t) = false from rfl, after_3]
theorem leaves_4 (c : Dev nD) (t : Fin cfg1.N) : (dat V c).leavesExact 4 t = owns (c : Thread nD τ) (ms4 t) fullShare (iblk V c 4 t) := by
  unfold Dat.leavesExact; rw [show cfg1.idle 4 (cfg1.grid.coords t) = false from rfl, after_4]
theorem leaves_5 (c : Dev nD) (t : Fin cfg1.N) : (dat V c).leavesExact 5 t = owns (c : Thread nD τ) (ms5 t) fullShare (iblk V c 5 t) := by
  unfold Dat.leavesExact; rw [show cfg1.idle 5 (cfg1.grid.coords t) = false from rfl, after_5]

/-- Where the second branch is not taken the output window's buffer is handed back as it was found. -/
theorem leaves_6_idle (c : Dev nD) (t : Fin cfg1.N) (h1 : ¬cond1 (grid1.coords t)) :
    (dat V c).leavesExact 6 t = iprop(∃ d, owns (c : Thread nD τ) (ms6 t) fullShare ((dat V c).before 6 t d)) :=
  Dat.leavesExact_idle (dat V c) 6 t (idleAt6 t h1) (noFlush6 t h1)

/-- Where it is taken the buffer is handed back at the encoded block. -/
theorem leaves_6_live (c : Dev nD) (t : Fin cfg1.N) (h1 : cond1 (grid1.coords t)) :
    (dat V c).leavesExact 6 t = owns (c : Thread nD τ) (ms6 t) fullShare (outAt V c t) := by
  unfold Dat.leavesExact; rw [liveAt6 t h1, after_6]

end Cert.Kernel.Body1

end
-- ==== Proof.KernelBody1RunA.lean ====
/-
  Region 1's body at a point with k = 0 (first branch taken, second not), run on whole memrefs: it restarts both
  accumulators from zero and adds the point's product and row sums. The run needs the adjacency block and the
  neighbour-feature block at their contents and the two accumulators at anything; it hands the two blocks back as
  they were and each accumulator with the stores it made written, as a list of pieces (last store first) that the
  run finds.
-/
import proofs.«128407_j39814346834350_1_alg».proof.Proof.KernelBody1Conds

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at k = 0, with the pieces each accumulator ends with as the witness. -/
noncomputable def kernelRun1_A (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : cond0 i) (hc1 : ¬cond1 i)
    (x0 : Vec F S1024x2048 .f32) (x2 : Vec F S2048x128 .f32) :
    Σ' (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg4 fullShare x2 ∗ (∃ d, owns (c : Thread nD τ) arg9 fullShare d) ∗ (∃ d, owns (c : Thread nD τ) arg10 fullShare d)
            ∗ (iprop(owns (c : Thread nD τ) arg2 fullShare x0 ∗ owns (c : Thread nD τ) arg4 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_encode_kernel i arg2 harg2 arg3 harg3 arg4 harg4 arg5 harg5 arg6 harg6 arg7 harg7 arg8 harg8 arg9 harg9 arg10 harg10) K } := by
  refine ⟨?_, ?_, fun E K => ?run⟩
  case run =>
    simp only [cc1__agg_encode_kernel_eq_skeleton]; unfold cc1__agg_encode_kernel_skel
    unfold owns
    iintro ⟨⟨%f0, %hf0, H0⟩, ⟨%f2, %hf2, H2⟩, ⟨%ds0, %fs0, -, HS0⟩, ⟨%ds1, %fs1, -, HS1⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    isplitl [HS0]; · iexists _; iexact HS0
    iexists _; iexact HS1

end Cert.Kernel.Body1

end
-- ==== Proof.KernelBody1PiecesA.lean ====
/-
  What the body leaves in the two accumulators at a point with k = 0, as closed terms. Each accumulator is stored
  twice through its whole extent (the zero block, then the sum), so the later store alone decides its contents; the
  sum's second operand is the accumulator read back after the zero store, which is the zero block. Hence the
  neighbour sum ends at (zero block + adjacency block · neighbour block) and the degree at (zero column + row sums),
  spelt with the body's own arithmetic.
-/
import proofs.«128407_j39814346834350_1_alg».proof.Proof.KernelBody1RunA
import Idealize.ShloMosaic.Lib.Ring
import Idealize.ShloMosaic.Lib.Pipeline.Value

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : cond0 i) (hc1 : ¬cond1 i)
  (x0 : Vec F S1024x2048 .f32) (x2 : Vec F S2048x128 .f32)

/-- The stores into the neighbour-sum accumulator cover it. -/
theorem coverS0_A (y : S1024x128.Idx) :
    ∃ pc ∈ (kernelRun1_A c i arg2 harg2 arg3 harg3 arg4 harg4 arg5 harg5 arg6 harg6 arg7 harg7 arg8 harg8 arg9 harg9 arg10 harg10 hc0 hc1 x0 x2).1, y ∈ pc.1.set :=
  View.cover_of_tiledL (kernelRun1_A c i arg2 harg2 arg3 harg3 arg4 harg4 arg5 harg5 arg6 harg6 arg7 harg7 arg8 harg8 arg9 harg9 arg10 harg10 hc0 hc1 x0 x2).1 S1024x128.size (by sl_kernel_rfl) y

/-- The stores into the degree accumulator cover it. -/
theorem coverS1_A (y : S1024x1.Idx) :
    ∃ pc ∈ (kernelRun1_A c i arg2 harg2 arg3 harg3 arg4 harg4 arg5 harg5 arg6 harg6 arg7 harg7 arg8 harg8 arg9 harg9 arg10 harg10 hc0 hc1 x0 x2).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x2).2.1 S1024x1.size (by sl_kernel_rfl) y

/-- The neighbour-sum accumulator ends at the sum over the zero block. -/
theorem canonS0_A :
    View.canon (kernelRun1_A c i arg2 harg2 arg3 harg3 arg4 harg4 arg5 harg5 arg6 harg6 arg7 harg7 arg8 harg8 arg9 harg9 arg10 harg10 hc0 hc1 x0 x2).1 = k1_pay3 x0 (k1_pay1 (F := F)) x2 := by
  unfold kernelRun1_A
  dsimp only
  sl_unfold_words
  rw [View.canon_cons_unit_zero (S := S1024x128) hz, View.readCov_unit_zero (S := S1024x128) _ hz]
  simp only [View.readAt_eq_ld, harg2.read_unread, harg4.read_unread, View.ld_unit_zero (S := S1024x2048) hz, View.ld_unit_zero (S := S2048x128) hz]

/-- The degree accumulator ends at the row sums over the zero column. -/
theorem canonS1_A :
    View.canon (kernelRun1_A c i arg2 harg2 arg3 harg3 arg4 harg4 arg5 harg5 arg6 harg6 arg7 harg7 arg8 harg8 arg9 harg9 arg10 harg10 hc0 hc1 x0 x2).2.1 = k1_pay4 x0 (k1_pay2 (F := F)) := by
  unfold kernelRun1_A
  dsimp only
  sl_unfold_words
  rw [View.canon_cons_unit_zero (S := S1024x1) hz, View.readCov_unit_zero (S := S1024x1) _ hz]
  simp only [View.readAt_eq_ld, harg2.read_unread, View.ld_unit_zero (S := S1024x2048) hz]

/-- Read through any view over any prior contents, the written neighbour-sum accumulator is that term; -/
theorem readS0_A {sig' : RefSig} {κ' : Kind} {sp' : Space} (v : View sig' κ' sp' S1024x128 .f32) (f : v.ty.Contents (Elt F)) :
    v.read (Elt F) (v.writes (Elt F) f (kernelRun1_A c i arg2 harg2 arg3 harg3 arg4 harg4 arg5 harg5 arg6 harg6 arg7 harg7 arg8 harg8 arg9 harg9 arg10 harg10 hc0 hc1 x0 x2).1) = k1_pay3 x0 (k1_pay1 (F := F)) x2 :=
  (View.read_writes_eq_canon v f _ (coverS0_A c i arg2 harg2 arg3 harg3 arg4 harg4 arg5 harg5 arg6 harg6 arg7 harg7 arg8 harg8 arg9 harg9 arg10 harg10 hc0 hc1 x0 x2)).trans (canonS0_A c i arg2 harg2 arg3 harg3 arg4 harg4 arg5 harg5 arg6 harg6 arg7 harg7 arg8 harg8 arg9 harg9 arg10 harg10 hc0 hc1 x0 x2)

/-- and the written degree accumulator likewise. -/
theorem readS1_A {sig' : RefSig} {κ' : Kind} {sp' : Space} (v : View sig' κ' sp' S1024x1 .f32) (f : v.ty.Contents (Elt F)) :
    v.read (Elt F) (v.writes (Elt F) f (kernelRun1_A c i arg2 harg2 arg3 harg3 arg4 harg4 arg5 harg5 arg6 harg6 arg7 harg7 arg8 harg8 arg9 harg9 arg10 harg10 hc0 hc1 x0 x2).2.1) = k1_pay4 x0 (k1_pay2 (F := F)) :=
  (View.read_writes_eq_canon v f _ (coverS1_A c i arg2 harg2 arg3 harg3 arg4 harg4 arg5 harg5 arg6 harg6 arg7 harg7 arg8 harg8 arg9 harg9 arg10 harg10 hc0 hc1 x0 x2)).trans (canonS1_A c i arg2 harg2 arg3 harg3 arg4 harg4 arg5 harg5 arg6 harg6 arg7 harg7 arg8 harg8 arg9 harg9 arg10 harg10 hc0 hc1 x0 x2)

end

end Cert.Kernel.Body1

end
-- ==== Proof.KernelBody1SoundA.lean ====
/-
  Region 1's body obligation at a point with k = 0. The two accumulators come from the invariant — at anything before
  the first point, at the point before's contents afterwards; either way the body overwrites them — and go back at
  this point's contents, (zero block + product, zero column + row sums). The input windows' buffers pass through at
  their blocks; the output window's buffer is not touched and is handed back as found.
-/
import proofs.«128407_j39814346834350_1_alg».proof.Proof.KernelBody1Pre
import proofs.«128407_j39814346834350_1_alg».proof.Proof.KernelBody1PiecesA

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_A (c : Dev nD) (t : Fin cfg1.N) (h0 : t.val % 8 = 0) :
    bodyPre V c t ⊢ wp frame (wpE (defs₀ (F := F)) Variants.none c none) Set.univ (bodyAt1 t) (fun _ => bodyPost V c t) := by
  have hN : t.val < 128 := lt_of_lt_of_eq t.isLt (show cfg1.N = 128 from N_1)
  have h1 : ¬t.val % 8 = 7 := by omega
  have hc0 : cond0 (grid1.coords t) := (hcond0 t).mpr h0
  have hc1 : ¬cond1 (grid1.coords t) := fun h => h1 ((hcond1 t).mp h)
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_idle V c t hc1]
  rw [accAt_first V c t h0]
  (try dsimp only)
  by_cases hz : t.val = 0
  · rw [PhiS_castSucc V c t, PhiS_zero V c _ _ hz, PhiA_eq]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t)).2.2 Set.univ _)
    isplitl [H0]; · iexact H0
    isplitl [H2]; · iexact H2
    isplitl [HS0]; · iexact HS0
    isplitl [HS1]; · iexact HS1
    iintro ⟨H0, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact readS0_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        isplitl [HS1]
        · unfold owns; iexists _; isplitr
          swap; · iexact HS1
          ipureintro; exact readS1_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [PhiS_castSucc V c t, PhiS_pos V c _ _ hz]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t)).2.2 Set.univ _)
    isplitl [H0]; · iexact H0
    isplitl [H2]; · iexact H2
    isplitl [HS0]; · iexists _; iexact HS0
    isplitl [HS1]; · iexists _; iexact HS1
    iintro ⟨H0, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact readS0_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        isplitl [HS1]
        · unfold owns; iexists _; isplitr
          swap; · iexact HS1
          ipureintro; exact readS1_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

end Cert.Kernel.Body1

end
-- ==== Proof.KernelBody1RunB.lean ====
/-
  Region 1's body at a point with 0 < k < 7 (neither branch taken), run on whole memrefs: it adds the point's product
  and row sums to the two accumulators, which it needs at the contents the point before left. It hands the adjacency
  block and the neighbour-feature block back as they were and each accumulator with its one store written.
-/
import proofs.«128407_j39814346834350_1_alg».proof.Proof.KernelBody1RunA

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at 0 < k < 7, with the pieces each accumulator ends with as the witness. -/
noncomputable def kernelRun1_B (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0 i) (hc1 : ¬cond1 i)
    (x0 : Vec F S1024x2048 .f32) (x2 : Vec F S2048x128 .f32) (xs0 : Vec F S1024x128 .f32) (xs1 : Vec F S1024x1 .f32) :
    Σ' (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg4 fullShare x2 ∗ owns (c : Thread nD τ) arg9 fullShare xs0 ∗ owns (c : Thread nD τ) arg10 fullShare xs1
            ∗ (iprop(owns (c : Thread nD τ) arg2 fullShare x0 ∗ owns (c : Thread nD τ) arg4 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_encode_kernel i arg2 harg2 arg3 harg3 arg4 harg4 arg5 harg5 arg6 harg6 arg7 harg7 arg8 harg8 arg9 harg9 arg10 harg10) K } := by
  refine ⟨?_, ?_, fun E K => ?run⟩
  case run =>
    simp only [cc1__agg_encode_kernel_eq_skeleton]; unfold cc1__agg_encode_kernel_skel
    unfold owns
    iintro ⟨⟨%f0, %hf0, H0⟩, ⟨%f2, %hf2, H2⟩, ⟨%fs0, %hfs0, HS0⟩, ⟨%fs1, %hfs1, HS1⟩, Hk⟩
    obtain rfl := harg2.eq_unread hf0; obtain rfl := harg4.eq_unread hf2
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    isplitl [HS0]; · iexists _; iexact HS0
    iexists _; iexact HS1

end Cert.Kernel.Body1

end
-- ==== Proof.KernelBody1PiecesB.lean ====
/-
  What the body leaves in the two accumulators at a point with 0 < k < 7, as closed terms: each is stored once
  through its whole extent, at (what it held + adjacency block · neighbour block) and (what it held + row sums).
-/
import proofs.«128407_j39814346834350_1_alg».proof.Proof.KernelBody1RunB
import Idealize.ShloMosaic.Lib.Ring
import Idealize.ShloMosaic.Lib.Pipeline.Value

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0 i) (hc1 : ¬cond1 i)
  (x0 : Vec F S1024x2048 .f32) (x2 : Vec F S2048x128 .f32) (xs0 : Vec F S1024x128 .f32) (xs1 : Vec F S1024x1 .f32)

/-- The store into the neighbour-sum accumulator covers it. -/
theorem coverS0_B (y : S1024x128.Idx) :
    ∃ pc ∈ (kernelRun1_B c i arg2 harg2 arg3 harg3 arg4 harg4 arg5 harg5 arg6 harg6 arg7 harg7 arg8 harg8 arg9 harg9 arg10 harg10 hc0 hc1 x0 x2 xs0 xs1).1, y ∈ pc.1.set :=
  View.cover_of_tiledL (kernelRun1_B c i arg2 harg2 arg3 harg3 arg4 harg4 arg5 harg5 arg6 harg6 arg7 harg7 arg8 harg8 arg9 harg9 arg10 harg10 hc0 hc1 x0 x2 xs0 xs1).1 S1024x128.size (by sl_kernel_rfl) y

/-- The store into the degree accumulator covers it. -/
theorem coverS1_B (y : S1024x1.Idx) :
    ∃ pc ∈ (kernelRun1_B c i arg2 harg2 arg3 harg3 arg4 harg4 arg5 harg5 arg6 harg6 arg7 harg7 arg8 harg8 arg9 harg9 arg10 harg10 hc0 hc1 x0 x2 xs0 xs1).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x2 xs0 xs1).2.1 S1024x1.size (by sl_kernel_rfl) y

/-- The neighbour-sum accumulator ends at the sum over what it held. -/
theorem canonS0_B :
    View.canon (kernelRun1_B c i arg2 harg2 arg3 harg3 arg4 harg4 arg5 harg5 arg6 harg6 arg7 harg7 arg8 harg8 arg9 harg9 arg10 harg10 hc0 hc1 x0 x2 xs0 xs1).1 = k1_pay3 x0 xs0 x2 := by
  unfold kernelRun1_B
  dsimp only
  sl_unfold_words
  rw [View.canon_unit_zero (S := S1024x128) hz]
  simp only [View.readAt_eq_ld, harg2.read_unread, harg4.read_unread, harg9.read_unread, View.ld_unit_zero (S := S1024x2048) hz, View.ld_unit_zero (S := S2048x128) hz, View.ld_unit_zero (S := S1024x128) hz]

/-- The degree accumulator ends at the row sums over what it held. -/
theorem canonS1_B :
    View.canon (kernelRun1_B c i arg2 harg2 arg3 harg3 arg4 harg4 arg5 harg5 arg6 harg6 arg7 harg7 arg8 harg8 arg9 harg9 arg10 harg10 hc0 hc1 x0 x2 xs0 xs1).2.1 = k1_pay4 x0 xs1 := by
  unfold kernelRun1_B
  dsimp only
  sl_unfold_words
  rw [View.canon_unit_zero (S := S1024x1) hz]
  simp only [View.readAt_eq_ld, harg2.read_unread, harg10.read_unread, View.ld_unit_zero (S := S1024x2048) hz, View.ld_unit_zero (S := S1024x1) hz]

theorem readS0_B {sig' : RefSig} {κ' : Kind} {sp' : Space} (v : View sig' κ' sp' S1024x128 .f32) (f : v.ty.Contents (Elt F)) :
    v.read (Elt F) (v.writes (Elt F) f (kernelRun1_B c i arg2 harg2 arg3 harg3 arg4 harg4 arg5 harg5 arg6 harg6 arg7 harg7 arg8 harg8 arg9 harg9 arg10 harg10 hc0 hc1 x0 x2 xs0 xs1).1) = k1_pay3 x0 xs0 x2 :=
  (View.read_writes_eq_canon v f _ (coverS0_B c i arg2 harg2 arg3 harg3 arg4 harg4 arg5 harg5 arg6 harg6 arg7 harg7 arg8 harg8 arg9 harg9 arg10 harg10 hc0 hc1 x0 x2 xs0 xs1)).trans (canonS0_B c i arg2 harg2 arg3 harg3 arg4 harg4 arg5 harg5 arg6 harg6 arg7 harg7 arg8 harg8 arg9 harg9 arg10 harg10 hc0 hc1 x0 x2 xs0 xs1)

theorem readS1_B {sig' : RefSig} {κ' : Kind} {sp' : Space} (v : View sig' κ' sp' S1024x1 .f32) (f : v.ty.Contents (Elt F)) :
    v.read (Elt F) (v.writes (Elt F) f (kernelRun1_B c i arg2 harg2 arg3 harg3 arg4 harg4 arg5 harg5 arg6 harg6 arg7 harg7 arg8 harg8 arg9 harg9 arg10 harg10 hc0 hc1 x0 x2 xs0 xs1).2.1) = k1_pay4 x0 xs1 :=
  (View.read_writes_eq_canon v f _ (coverS1_B c i arg2 harg2 arg3 harg3 arg4 harg4 arg5 harg5 arg6 harg6 arg7 harg7 arg8 harg8 arg9 harg9 arg10 harg10 hc0 hc1 x0 x2 xs0 xs1)).trans (canonS1_B c i arg2 harg2 arg3 harg3 arg4 harg4 arg5 harg5 arg6 harg6 arg7 harg7 arg8 harg8 arg9 harg9 arg10 harg10 hc0 hc1 x0 x2 xs0 xs1)

end

end Cert.Kernel.Body1

end
-- ==== Proof.KernelBody1SoundB.lean ====
/-
  Region 1's body obligation at a point with 0 < k < 7. The invariant hands the two accumulators at what the point
  before left; they go back with this point's product and row sums added. The input windows' buffers pass through at
  their blocks; the output window's buffer is not touched and is handed back as found.
-/
import proofs.«128407_j39814346834350_1_alg».proof.Proof.KernelBody1Pre
import proofs.«128407_j39814346834350_1_alg».proof.Proof.KernelBody1PiecesB

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_B (c : Dev nD) (t : Fin cfg1.N) (h0 : ¬t.val % 8 = 0) (h1 : ¬t.val % 8 = 7) :
    bodyPre V c t ⊢ wp frame (wpE (defs₀ (F := F)) Variants.none c none) Set.univ (bodyAt1 t) (fun _ => bodyPost V c t) := by
  have hz : t.val ≠ 0 := fun e => h0 (by rw [e])
  have hlt : t.val - 1 < cfg1.N := Nat.lt_of_le_of_lt (Nat.sub_le _ _) t.isLt
  have hc0 : ¬cond0 (grid1.coords t) := fun h => h0 ((hcond0 t).mp h)
  have hc1 : ¬cond1 (grid1.coords t) := fun h => h1 ((hcond1 t).mp h)
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_idle V c t hc1]
  rw [accAt_next V c t h0]
  (try dsimp only)
  rw [PhiS_castSucc V c t, PhiS_pos V c _ _ hz]
  iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_B c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2).2.2 Set.univ _)
  isplitl [H0]; · iexact H0
  isplitl [H2]; · iexact H2
  isplitl [HS0]; · iexact HS0
  isplitl [HS1]; · iexact HS1
  iintro ⟨H0, H2, ⟨%es0, HS0⟩, ⟨%es1, HS1⟩⟩
  isplitl [HS0 HS1 Hoth Hg]
  · isplitl [HS0 HS1 Hoth]
    · isplitl [HS0]
      · unfold owns; iexists _; isplitr
        swap; · iexact HS0
        ipureintro; exact readS0_B c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2 _ _
      isplitl [HS1]
      · unfold owns; iexists _; isplitr
        swap; · iexact HS1
        ipureintro; exact readS1_B c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2 _ _
      iexact Hoth
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

end Cert.Kernel.Body1

end
-- ==== Proof.KernelBody1RunC.lean ====
/-
  Region 1's body at a point with k = 7 (first branch not taken, second taken), run on whole memrefs: it adds the
  point's product and row sums to the two accumulators, then encodes — the mean of the neighbours, the two products
  with the weight halves, the bias, the rectifier and the row normalisation — and stores the block into the output
  window's buffer, which it needs at anything. Every input block is handed back as it was; the two accumulators and
  the output buffer each with its one store written.
-/
import proofs.«128407_j39814346834350_1_alg».proof.Proof.KernelBody1RunB

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at k = 7, with the pieces the output buffer and each accumulator end with as the witness. -/
noncomputable def kernelRun1_C (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0 i) (hc1 : cond1 i)
    (x0 : Vec F S1024x2048 .f32) (x1 : Vec F S1024x128 .f32) (x2 : Vec F S2048x128 .f32) (x3 : Vec F S128x128 .f32) (x4 : Vec F S128x128 .f32) (x5 : Vec F S1x128 .f32)
    (xs0 : Vec F S1024x128 .f32) (xs1 : Vec F S1024x1 .f32) :
    Σ' (L6 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_encode_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__agg_encode_kernel_eq_skeleton]; unfold cc1__agg_encode_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Body1

end
-- ==== Proof.KernelBody1PiecesC.lean ====
/-
  What the body leaves at a point with k = 7, as closed terms: the two accumulators as at the points before
  (what each held plus this point's addend), and the output window's buffer at the encoding of those two sums, the
  own-feature block and the three resident operands — the sums being read back from the accumulators after their
  stores.
-/
import proofs.«128407_j39814346834350_1_alg».proof.Proof.KernelBody1RunC
import Idealize.ShloMosaic.Lib.Ring
import Idealize.ShloMosaic.Lib.Pipeline.Value

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0 i) (hc1 : cond1 i)
  (x0 : Vec F S1024x2048 .f32) (x1 : Vec F S1024x128 .f32) (x2 : Vec F S2048x128 .f32) (x3 : Vec F S128x128 .f32) (x4 : Vec F S128x128 .f32) (x5 : Vec F S1x128 .f32)
  (xs0 : Vec F S1024x128 .f32) (xs1 : Vec F S1024x1 .f32)

/-- The store into the output window's buffer covers it. -/
theorem cover6_C (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).1 S1024x128.size (by sl_kernel_rfl) y

/-- The store into the neighbour-sum accumulator covers it. -/
theorem coverS0_C (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.1 S1024x128.size (by sl_kernel_rfl) y

/-- The store into the degree accumulator covers it. -/
theorem coverS1_C (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y

theorem canonS0_C :
    View.canon (kernelRun1_C c i arg2 harg2 arg3 harg3 arg4 harg4 arg5 harg5 arg6 harg6 arg7 harg7 arg8 harg8 arg9 harg9 arg10 harg10 hc0 hc1 x0 x1 x2 x3 x4 x5 xs0 xs1).2.1 = k1_pay3 x0 xs0 x2 := by
  unfold kernelRun1_C
  dsimp only
  sl_unfold_words
  rw [View.canon_unit_zero (S := S1024x128) hz]
  simp only [View.readAt_eq_ld, harg2.read_unread, harg4.read_unread, harg9.read_unread, View.ld_unit_zero (S := S1024x2048) hz, View.ld_unit_zero (S := S2048x128) hz, View.ld_unit_zero (S := S1024x128) hz]

theorem canonS1_C :
    View.canon (kernelRun1_C c i arg2 harg2 arg3 harg3 arg4 harg4 arg5 harg5 arg6 harg6 arg7 harg7 arg8 harg8 arg9 harg9 arg10 harg10 hc0 hc1 x0 x1 x2 x3 x4 x5 xs0 xs1).2.2.1 = k1_pay4 x0 xs1 := by
  unfold kernelRun1_C
  dsimp only
  sl_unfold_words
  rw [View.canon_unit_zero (S := S1024x1) hz]
  simp only [View.readAt_eq_ld, harg2.read_unread, harg10.read_unread, View.ld_unit_zero (S := S1024x2048) hz, View.ld_unit_zero (S := S1024x1) hz]

/-- The output window's buffer ends at the encoding of the two sums as this point leaves them. -/
theorem canon6_C :
    View.canon (kernelRun1_C c i arg2 harg2 arg3 harg3 arg4 harg4 arg5 harg5 arg6 harg6 arg7 harg7 arg8 harg8 arg9 harg9 arg10 harg10 hc0 hc1 x0 x1 x2 x3 x4 x5 xs0 xs1).1 = k1_pay5 (k1_pay3 x0 xs0 x2) (k1_pay4 x0 xs1) x1 x3 x4 x5 := by
  unfold kernelRun1_C
  dsimp only
  sl_unfold_words
  rw [View.canon_unit_zero (S := S1024x128) hz, View.readCov_unit_zero (S := S1024x128) _ hz, View.readCov_unit_zero (S := S1024x1) _ hz]
  simp only [View.readAt_eq_ld, harg2.read_unread, harg3.read_unread, harg4.read_unread, harg5.read_unread, harg6.read_unread, harg7.read_unread, harg9.read_unread, harg10.read_unread, View.ld_unit_zero (S := S1024x2048) hz, View.ld_unit_zero (S := S2048x128) hz, View.ld_unit_zero (S := S1024x128) hz, View.ld_unit_zero (S := S1024x1) hz, View.ld_unit_zero (S := S128x128) hz, View.ld_unit_zero (S := S1x128) hz]

theorem read6_C {sig' : RefSig} {κ' : Kind} {sp' : Space} (v : View sig' κ' sp' S1024x128 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 hc0 hc1 x0 x1 x2 x3 x4 x5 xs0 xs1).1) = k1_pay5 (k1_pay3 x0 xs0 x2) (k1_pay4 x0 xs1) x1 x3 x4 x5 :=
  (View.read_writes_eq_canon v f _ (cover6_C c i arg2 harg2 arg3 harg3 arg4 harg4 arg5 harg5 arg6 harg6 arg7 harg7 arg8 harg8 arg9 harg9 arg10 harg10 hc0 hc1 x0 x1 x2 x3 x4 x5 xs0 xs1)).trans (canon6_C c i arg2 harg2 arg3 harg3 arg4 harg4 arg5 harg5 arg6 harg6 arg7 harg7 arg8 harg8 arg9 harg9 arg10 harg10 hc0 hc1 x0 x1 x2 x3 x4 x5 xs0 xs1)

theorem readS0_C {sig' : RefSig} {κ' : Kind} {sp' : Space} (v : View sig' κ' sp' S1024x128 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 hc0 hc1 x0 x1 x2 x3 x4 x5 xs0 xs1).2.1) = k1_pay3 x0 xs0 x2 :=
  (View.read_writes_eq_canon v f _ (coverS0_C c i arg2 harg2 arg3 harg3 arg4 harg4 arg5 harg5 arg6 harg6 arg7 harg7 arg8 harg8 arg9 harg9 arg10 harg10 hc0 hc1 x0 x1 x2 x3 x4 x5 xs0 xs1)).trans (canonS0_C c i arg2 harg2 arg3 harg3 arg4 harg4 arg5 harg5 arg6 harg6 arg7 harg7 arg8 harg8 arg9 harg9 arg10 harg10 hc0 hc1 x0 x1 x2 x3 x4 x5 xs0 xs1)

theorem readS1_C {sig' : RefSig} {κ' : Kind} {sp' : Space} (v : View sig' κ' sp' S1024x1 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 hc0 hc1 x0 x1 x2 x3 x4 x5 xs0 xs1).2.2.1) = k1_pay4 x0 xs1 :=
  (View.read_writes_eq_canon v f _ (coverS1_C c i arg2 harg2 arg3 harg3 arg4 harg4 arg5 harg5 arg6 harg6 arg7 harg7 arg8 harg8 arg9 harg9 arg10 harg10 hc0 hc1 x0 x1 x2 x3 x4 x5 xs0 xs1)).trans (canonS1_C c i arg2 harg2 arg3 harg3 arg4 harg4 arg5 harg5 arg6 harg6 arg7 harg7 arg8 harg8 arg9 harg9 arg10 harg10 hc0 hc1 x0 x1 x2 x3 x4 x5 xs0 xs1)

end

end Cert.Kernel.Body1

end
-- ==== Proof.KernelBody1SoundC.lean ====
/-
  Region 1's body obligation at a point with k = 7. The invariant hands the two accumulators at what the point before
  left; they go back with this point's product and row sums added, and the output window's buffer — handed over at
  whatever it held — goes back at the encoding of those sums, the own-feature block and the resident operands, which
  is the block the bookkeeping names for this point. The input windows' buffers pass through at their blocks.
-/
import proofs.«128407_j39814346834350_1_alg».proof.Proof.KernelBody1Pre
import proofs.«128407_j39814346834350_1_alg».proof.Proof.KernelBody1PiecesC

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_C (c : Dev nD) (t : Fin cfg1.N) (h1 : t.val % 8 = 7) :
    bodyPre V c t ⊢ wp frame (wpE (defs₀ (F := F)) Variants.none c none) Set.univ (bodyAt1 t) (fun _ => bodyPost V c t) := by
  have h0 : ¬t.val % 8 = 0 := by omega
  have hz : t.val ≠ 0 := fun e => h0 (by rw [e])
  have hlt : t.val - 1 < cfg1.N := Nat.lt_of_le_of_lt (Nat.sub_le _ _) t.isLt
  have hc0 : ¬cond0 (grid1.coords t) := fun h => h0 ((hcond0 t).mp h)
  have hc1 : cond1 (grid1.coords t) := (hcond1 t).mpr h1
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_live V c t hc1]
  unfold outAt
  rw [accAt_next V c t h0]
  (try dsimp only)
  rw [PhiS_castSucc V c t, PhiS_pos V c _ _ hz]
  iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_C c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, ⟨%es0, HS0⟩, ⟨%es1, HS1⟩⟩
  isplitl [HS0 HS1 Hoth Hg]
  · isplitl [HS0 HS1 Hoth]
    · isplitl [HS0]
      · unfold owns; iexists _; isplitr
        swap; · iexact HS0
        ipureintro; exact readS0_C c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _
      isplitl [HS1]
      · unfold owns; iexists _; isplitr
        swap; · iexact HS1
        ipureintro; exact readS1_C c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _
      iexact Hoth
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact read6_C c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _

end Cert.Kernel.Body1

end
-- ==== Proof.KernelBody1.lean ====
/-
  Region 1's body obligation, and the invariant's two ends. A point t = 8·i + k is in exactly one of three control
  cases — k = 0, 0 < k < 7, k = 7 — decided by t mod 8; each case's run of the body meets what the bookkeeping of
  the region says the point leaves. What the launch hands the region is the invariant before the first point; after
  the last point the invariant gives it back, forgetting what the two accumulators hold.
-/
import proofs.«128407_j39814346834350_1_alg».proof.Proof.KernelBody1SoundA
import proofs.«128407_j39814346834350_1_alg».proof.Proof.KernelBody1SoundB
import proofs.«128407_j39814346834350_1_alg».proof.Proof.KernelBody1SoundC

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body at any point: by the case of the point. -/
theorem sound_body (c : Dev nD) (t : Fin cfg1.N) :
    bodyPre V c t ⊢ wp frame (wpE (defs₀ (F := F)) Variants.none c none) Set.univ (bodyAt1 t) (fun _ => bodyPost V c t) := by
  by_cases h0 : t.val % 8 = 0
  · exact sound_A V c t h0
  · by_cases h1 : t.val % 8 = 7
    · exact sound_C V c t h1
    · exact sound_B V c t h0 h1

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA (U := UR sig nD τ) spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the region's own back: the accumulators' named contents are forgotten. -/
theorem Phi_out (c : Dev nD) (t : Fin (cfg1.N + 1)) (ht : t.val ≠ 0) : (dat V c).Φ t ⊢ (Pipeline.ΦA (U := UR sig nD τ) spec1 c : sProp 𝕄) := by
  rw [show (dat V c).Φ t = PhiS V c t.val (Nat.le_of_lt_succ t.isLt) from rfl, PhiS_pos V c _ _ ht, PhiA_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last point. -/
theorem hout (c : Dev nD) : (dat V c).Φ (Fin.last cfg1.N) ⊢ (Pipeline.ΦA (U := UR sig nD τ) spec1 c : sProp 𝕄) :=
  Phi_out V c _ (by rw [Fin.val_last]; have : cfg1.N = 128 := N_1; omega)

end Cert.Kernel.Body1

end
-- ==== Proof.KernelLaunch1.lean ====
/-
  Region 1 (the second pallas_call) as an item of the program, for any float instance `F`.

  The region is entered from the thread state "every unscoped buffer at `Gen.V3 m (outs m)` (what the second host stretch leaves), the generator register at some state, nothing
  owed" and left at the same with the output array `main_v9` at `X4`. At entry the unscoped buffers split into the windows'
  arrays (the shared array's buffer as its two halves) and the buffers no window reads; the generator register goes
  into the pipeline's invariant with the scoped buffers the call does not stage. At exit the input arrays are as entered
  (no write-back touches an input window's array), the output array is at what the write-backs leave, and the pieces are put
  back together.
-/
import proofs.«128407_j39814346834350_1_alg».proof.Proof.KernelLaunchShare
import proofs.«128407_j39814346834350_1_alg».proof.Proof.KernelBody1

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each window's array holds what the valuation after the region gives its buffer: an input array what
    it held at entry (which the valuation keeps), the output array `X4`. -/
theorem hF1 (c : Dev nD) : ∀ w : Fin cfg1.W, (pdats m 1 c).arrAt w cfg1.N = W4 m c (Proc.devRef .tc (Pipeline.arrRef spec1 w))
  | 0 => ((Body1.dat (E1 m) c).arrAt_in 0 rfl _).trans ((Body1.A_eq (E1 m) c 0).trans (Function.update_of_ne (StableHlo.devRef_ne_of_ne (by decide)) _ _).symm)
  | 1 => ((Body1.dat (E1 m) c).arrAt_in 1 rfl _).trans ((Body1.A_eq (E1 m) c 1).trans (Function.update_of_ne (StableHlo.devRef_ne_of_ne (by decide)) _ _).symm)
  | 2 => ((Body1.dat (E1 m) c).arrAt_in 2 rfl _).trans ((Body1.A_eq (E1 m) c 2).trans (Function.update_of_ne (StableHlo.devRef_ne_of_ne (by decide)) _ _).symm)
  | 3 => ((Body1.dat (E1 m) c).arrAt_in 3 rfl _).trans ((Body1.A_eq (E1 m) c 3).trans (Function.update_of_ne (StableHlo.devRef_ne_of_ne (by decide)) _ _).symm)
  | 4 => ((Body1.dat (E1 m) c).arrAt_in 4 rfl _).trans ((Body1.A_eq (E1 m) c 4).trans (Function.update_of_ne (StableHlo.devRef_ne_of_ne (by decide)) _ _).symm)
  | 5 => ((Body1.dat (E1 m) c).arrAt_in 5 rfl _).trans ((Body1.A_eq (E1 m) c 5).trans (Function.update_of_ne (StableHlo.devRef_ne_of_ne (by decide)) _ _).symm)
  | 6 => (X4_def m c).symm.trans (Function.update_self (Proc.devRef .tc main_v9 : DevRef τ sig) (X4 m c) (W3 m c)).symm
  | ⟨_ + 7, h⟩ => absurd h (Nat.not_lt.2 (Nat.le_add_left _ _))

/-- Off the windows' arrays the valuation after the region is the one before it. -/
theorem hrest1 (c : Dev nD) : ∀ b, b ∉ Finset.univ.image (Pipeline.arrRef spec1) → W4 m c (Proc.devRef .tc b) = E1 m c b :=
  fun b hb => Function.update_of_ne (StableHlo.devRef_ne_of_ne fun e : b = main_v9 => hb (by rw [e]; exact Finset.mem_image.mpr ⟨6, Finset.mem_univ _, rfl⟩)) _ _

set_option backward.isDefEq.respectTransparency.types false in
/-- REGION 1 over the thread state. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Body1.body_obligation (E1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (StableHlo.held (c : Thread nD τ) (Pipeline.ucRefs τ sig) (Gen.V3 m (outs m) c) : sProp 𝕄)
        ⊢ iprop((pdats m 1 c).arrays ((pdats m 1 c).arrAt · 0) ∗ Pipeline.unscopedRest spec1 c (E1 m c)) := by
      rw [V3_eq]
      exact Entails.of_eq (held_eq1 c (pdats m 1 c) rfl _ (E1 m c) ((pdats m 1 c).arrAt · 0) (fun w => Body1.A_eq (E1 m) c w) (fun _ _ => rfl))
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Body1.hin (E1 m) c)
    unfold Pipeline.ΦA
    iintro ⟨Hp, -, Hr⟩
    isplitl [Hr]; · iexact Hr
    iexact Hp
  hout c := by
    rw [Pipeline.ownSems0_none]
    refine (Body1.hout (E1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E1 m c))
        ⊢ (StableHlo.held (c : Thread nD τ) (Pipeline.ucRefs τ sig) (Gen.V4 m (outs m) c) : sProp 𝕄) := by
      rw [V4_eq]
      exact Entails.of_eq (held_eq1 c (pdats m 1 c) rfl _ (E1 m c) ((pdats m 1 c).arrAt · cfg1.N) (hF1 m c) (hrest1 m c)).symm
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Launch

end
-- ==== Proof.KernelLaunch.lean ====
/-
  The run of the program from the launch to the return, for any float instance `F`.

  The program is five items: a host stretch, region 0, a host stretch, region 1, a host stretch. Between two items every core
  holds each unscoped buffer whole at the valuation the items so far leave (`Gen.V0` … `Gen.V5` at the regions' output
  contents `outs m`), its generator register at some state, and owes nothing. Hence every weakly fair execution from memory
  `m` with zero counters terminates, each argument array ends as launched (`frame`), and the result buffer `main_v37` ends at
  what the last valuation gives it (`run_value`): the last host stretch's fold over the contents region 1 leaves.
-/
import proofs.«128407_j39814346834350_1_alg».proof.Proof.KernelLaunch0
import proofs.«128407_j39814346834350_1_alg».proof.Proof.KernelLaunch1

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost state is the pipelines' element and nothing else. -/
theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides beside the buffers ends owing nothing. -/
theorem hR (c : Dev nD) : R (F := F) c ⊢ (iprop(∃ W, owes (c : Thread nD τ) (0 : CellTallies nD τ sig Unit) W) : sProp 𝕄) := by
  iintro ⟨-, H⟩; iexact H

set_option backward.isDefEq.respectTransparency.types false in
/-- THE RUN, WITH THE RESULT: every weakly fair execution of the program from memory `m` with zero counters terminates, and every
    final memory holds the result buffer `main_v37` at the last valuation's contents and each argument as launched. -/
theorem run_value : θ_run defs (onTc (τ := τ) (main (F := F))) ⟨m, fun _ => 0, ρ⟩ (fun r => ∀ c : Dev nD,
      r.2.mem ((c.tc : Thread nD τ).loc main_v37) = Gen.V5 m (outs m) c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) Gen.adm (pdats m) () cellOf_inj (emb₁ : Emb (UR sig nD τ) 𝕄) defs₀ 𝒱₀ L lv m ρ main
    (Gen.segs m (outs m) 𝒱₀ L lv (fun _ c => R c) () (pdats m) (reg0 m) (reg1 m))
    (fun c Q => by
      rewrite [main_chain c, Pipeline.Seg.run_eq_chain,
        show (Gen.segs m (outs m) 𝒱₀ L lv (fun _ c => R c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (fun _ => 0) (fun _ _ => rfl) (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V5 m (outs m) c))
    (hch := fun c => ⟨.rfl, .rfl, .rfl, .rfl, .rfl, sep_mono .rfl (hR c)⟩)
    (hinit := ?_) (QY := fun c s => s.mem ((c.tc : Thread nD τ).loc main_v37) = Gen.V5 m (outs m) c (Proc.devRef .tc main_v37)
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: each core's unscoped buffers are held at the launch valuation, its generator register and its dues ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v37) (Finset.mem_filter.mpr ⟨StableHlo.devRef_mem_tcRefs main_v37, by decide⟩),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        (h (Proc.devRef .tc main_arg6) (Finset.mem_filter.mpr ⟨StableHlo.devRef_mem_tcRefs main_arg6, by decide⟩)).trans (V5_main_arg6 m (outs m) c),
        (h (Proc.devRef .tc main_arg7) (Finset.mem_filter.mpr ⟨StableHlo.devRef_mem_tcRefs main_arg7, by decide⟩)).trans (V5_main_arg7 m (outs m) c),
        (h (Proc.devRef .tc main_arg8) (Finset.mem_filter.mpr ⟨StableHlo.devRef_mem_tcRefs main_arg8, by decide⟩)).trans (V5_main_arg8 m (outs m) c),
        (h (Proc.devRef .tc main_arg9) (Finset.mem_filter.mpr ⟨StableHlo.devRef_mem_tcRefs main_arg9, by decide⟩)).trans (V5_main_arg9 m (outs m) c),
        (h (Proc.devRef .tc main_arg10) (Finset.mem_filter.mpr ⟨StableHlo.devRef_mem_tcRefs main_arg10, by decide⟩)).trans (V5_main_arg10 m (outs m) c)⟩
    · iexact HSI

/-- THE FRAME: every weakly fair execution of the program from memory `m` with zero counters terminates, and every final memory
    holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_value m ρ)

end Cert.Kernel.Launch

end
-- ==== Proof.IdealBody0Defs.lean ====
/-
  The bookkeeping of region 0 (the first aggregation-and-encoding layer's pallas_call), for any float instance `F`.

  The call runs on a 16 × 8 grid: point t = 8·i + k handles row block i (1024 rows) and column block k (2048 columns) of
  the adjacency. Two scratch buffers are carried from point to point: the running neighbour sum (`S1024x500`) and the
  running degree (1024 × 1). At k = 0 both restart from zero; at every point the block's product and row sums are added;
  at k = 7 the encoded block is stored into the output window, which is written back there and nowhere else.
  `accAt` is that recursion over the points, written with the body's own arithmetic (the payload terms); `outAt` is
  the block stored at a point with k = 7 (at other points a term nothing consults: the output window is idle there).
  `dat` is the pipeline's proof data over the buffer contents `V` the region is entered with: each input window leaves
  its block in place, the output window ends at `outAt`, and between points the invariant `PhiS` holds the two scratch
  buffers at `accAt` of the point before (before the first point: at anything) beside the core's other scoped buffers
  and its generator register. The feature array is read through two windows (own rows, neighbour rows), so those two hold
  its buffer at half the full share each.
-/
import proofs.«128407_j39814346834350_1_alg».proof.Proof.Gen.KernelIdeal.Launch
import proofs.«128407_j39814346834350_1_alg».proof.Proof.Gen.KernelIdeal.Skeleton
import proofs.«128407_j39814346834350_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two carried accumulators after the body at point `n`: (neighbour sum, degree). At a point with k = 0 (n ≡ 0 mod 8)
    they restart from the zero payloads, otherwise they continue from the point before. -/
def accAt (c : Dev nD) : (n : ℕ) → n < cfg0.N → Vec F S1024x500 .f32 × Vec F S1024x1 .f32
  | 0, hn => (k0_pay3 (iblk V c 0 ⟨0, hn⟩) (k0_pay1 (F := F)) (iblk V c 2 ⟨0, hn⟩), k0_pay4 (iblk V c 0 ⟨0, hn⟩) (k0_pay2 (F := F)))
  | n + 1, hn =>
    if (n + 1) % 8 = 0 then
      (k0_pay3 (iblk V c 0 ⟨n + 1, hn⟩) (k0_pay1 (F := F)) (iblk V c 2 ⟨n + 1, hn⟩), k0_pay4 (iblk V c 0 ⟨n + 1, hn⟩) (k0_pay2 (F := F)))
    else
      (k0_pay3 (iblk V c 0 ⟨n + 1, hn⟩) (accAt c n (Nat.lt_of_succ_lt hn)).1 (iblk V c 2 ⟨n + 1, hn⟩),
        k0_pay4 (iblk V c 0 ⟨n + 1, hn⟩) (accAt c n (Nat.lt_of_succ_lt hn)).2)

/-- The encoded block a point with k = 7 stores into the output window: the last payload at that point's accumulators,
    the own-feature block and the three resident operands (the two weight halves and the bias row). -/
def outAt (c : Dev nD) (t : Fin cfg0.N) : Vec F S1024x128 .f32 :=
  k0_pay5 (accAt V c t.val t.isLt).1 (accAt V c t.val t.isLt).2 (iblk V c 1 t) (iblk V c 3 t) (iblk V c 4 t) (iblk V c 5 t)

/-- The scratch operands as memrefs: whole scoped buffers of the kernel's own. -/
abbrev scM0 : Memref sig .tc .vmem S1024x500 .f32 := Memref.whole cc0_scratch0
abbrev scM1 : Memref sig .tc .vmem S1024x1 .f32 := Memref.whole cc0_scratch1

/-- Each window's current staging memref at point `t`, spelled as the pipeline passes it, and its wholeness. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x500 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x500 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S500x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S500x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x128 .f32 := win0_6.stage (cfg0.slots t 6)
abbrev hs6 (t : Fin cfg0.N) : (ms6 t).IsWhole := hstage0_6 ((cfg0.slots t 6).cast nbuf0_6)

/-- The core's scoped buffers that are neither this call's staging buffers nor its two scratch buffers (the other call's
    staging and scratch buffers), each whole at some contents: they ride through the region untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region invariant before position `n`: before the first point every scoped buffer the call does not stage at
    anything; afterwards the two scratch buffers at what the point before left in them. The generator register rides along. -/
def PhiS (c : Dev nD) : (n : ℕ) → n ≤ cfg0.N → sProp 𝕄
  | 0, _ => Pipeline.ΦA spec0 c
  | n + 1, hn => iprop(iprop(owns (c : Thread nD τ) scM0 fullShare (accAt V c n hn).1 ∗ owns (c : Thread nD τ) scM1 fullShare (accAt V c n hn).2 ∗ others (F := F) c) ∗ (∃ r, prngReg c r))

/-- The shares the input windows hold their arrays at: the feature array is read through windows 1 and 2, half each. -/
def qsh : Fin cfg0.W → PosShare TreeShare := fun w => if w = 1 then fullShare.left else if w = 2 then fullShare.right else fullShare

/-- The pipeline's proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := PhiS V c t.val (Nat.le_of_lt_succ t.isLt)
  q := qsh
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = outAt V c t := by dsimp only [dat]

theorem owed_zero (c : Dev nD) (t : Fin (cfg0.N + 1)) : (dat V c).owed t = 0 := rfl

end Cert.KernelIdeal.Body0

end
-- ==== Proof.IdealBody1Defs.lean ====
/-
  The bookkeeping of region 1 (the second aggregation-and-encoding layer's pallas_call), for any float instance `F`.

  The call runs on a 16 × 8 grid: point t = 8·i + k handles row block i (1024 rows) and column block k (2048 columns) of
  the adjacency. Two scratch buffers are carried from point to point: the running neighbour sum (`S1024x128`) and the
  running degree (1024 × 1). At k = 0 both restart from zero; at every point the block's product and row sums are added;
  at k = 7 the encoded block is stored into the output window, which is written back there and nowhere else.
  `accAt` is that recursion over the points, written with the body's own arithmetic (the payload terms); `outAt` is
  the block stored at a point with k = 7 (at other points a term nothing consults: the output window is idle there).
  `dat` is the pipeline's proof data over the buffer contents `V` the region is entered with: each input window leaves
  its block in place, the output window ends at `outAt`, and between points the invariant `PhiS` holds the two scratch
  buffers at `accAt` of the point before (before the first point: at anything) beside the core's other scoped buffers
  and its generator register. The feature array is read through two windows (own rows, neighbour rows), so those two hold
  its buffer at half the full share each.
-/
import proofs.«128407_j39814346834350_1_alg».proof.Proof.Gen.KernelIdeal.Launch
import proofs.«128407_j39814346834350_1_alg».proof.Proof.Gen.KernelIdeal.Skeleton
import proofs.«128407_j39814346834350_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two carried accumulators after the body at point `n`: (neighbour sum, degree). At a point with k = 0 (n ≡ 0 mod 8)
    they restart from the zero payloads, otherwise they continue from the point before. -/
def accAt (c : Dev nD) : (n : ℕ) → n < cfg1.N → Vec F S1024x128 .f32 × Vec F S1024x1 .f32
  | 0, hn => (k1_pay3 (iblk V c 0 ⟨0, hn⟩) (k1_pay1 (F := F)) (iblk V c 2 ⟨0, hn⟩), k1_pay4 (iblk V c 0 ⟨0, hn⟩) (k1_pay2 (F := F)))
  | n + 1, hn =>
    if (n + 1) % 8 = 0 then
      (k1_pay3 (iblk V c 0 ⟨n + 1, hn⟩) (k1_pay1 (F := F)) (iblk V c 2 ⟨n + 1, hn⟩), k1_pay4 (iblk V c 0 ⟨n + 1, hn⟩) (k1_pay2 (F := F)))
    else
      (k1_pay3 (iblk V c 0 ⟨n + 1, hn⟩) (accAt c n (Nat.lt_of_succ_lt hn)).1 (iblk V c 2 ⟨n + 1, hn⟩),
        k1_pay4 (iblk V c 0 ⟨n + 1, hn⟩) (accAt c n (Nat.lt_of_succ_lt hn)).2)

/-- The encoded block a point with k = 7 stores into the output window: the last payload at that point's accumulators,
    the own-feature block and the three resident operands (the two weight halves and the bias row). -/
def outAt (c : Dev nD) (t : Fin cfg1.N) : Vec F S1024x128 .f32 :=
  k1_pay5 (accAt V c t.val t.isLt).1 (accAt V c t.val t.isLt).2 (iblk V c 1 t) (iblk V c 3 t) (iblk V c 4 t) (iblk V c 5 t)

/-- The scratch operands as memrefs: whole scoped buffers of the kernel's own. -/
abbrev scM0 : Memref sig .tc .vmem S1024x128 .f32 := Memref.whole cc1_scratch0
abbrev scM1 : Memref sig .tc .vmem S1024x1 .f32 := Memref.whole cc1_scratch1

/-- Each window's current staging memref at point `t`, spelled as the pipeline passes it, and its wholeness. -/
abbrev ms0 (t : Fin cfg1.N) : Memref sig .tc .vmem S1024x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S2048x128 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S128x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S128x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x128 .f32 := win1_6.stage (cfg1.slots t 6)
abbrev hs6 (t : Fin cfg1.N) : (ms6 t).IsWhole := hstage1_6 ((cfg1.slots t 6).cast nbuf1_6)

/-- The core's scoped buffers that are neither this call's staging buffers nor its two scratch buffers (the other call's
    staging and scratch buffers), each whole at some contents: they ride through the region untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region invariant before position `n`: before the first point every scoped buffer the call does not stage at
    anything; afterwards the two scratch buffers at what the point before left in them. The generator register rides along. -/
def PhiS (c : Dev nD) : (n : ℕ) → n ≤ cfg1.N → sProp 𝕄
  | 0, _ => Pipeline.ΦA spec1 c
  | n + 1, hn => iprop(iprop(owns (c : Thread nD τ) scM0 fullShare (accAt V c n hn).1 ∗ owns (c : Thread nD τ) scM1 fullShare (accAt V c n hn).2 ∗ others (F := F) c) ∗ (∃ r, prngReg c r))

/-- The shares the input windows hold their arrays at: the feature array is read through windows 1 and 2, half each. -/
def qsh : Fin cfg1.W → PosShare TreeShare := fun w => if w = 1 then fullShare.left else if w = 2 then fullShare.right else fullShare

/-- The pipeline's proof data on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAt V c t
  Φ t := PhiS V c t.val (Nat.le_of_lt_succ t.isLt)
  q := qsh
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outAt V c t := by dsimp only [dat]

theorem owed_zero (c : Dev nD) (t : Fin (cfg1.N + 1)) : (dat V c).owed t = 0 := rfl

end Cert.KernelIdeal.Body1

end
-- ==== Proof.IdealLaunchDefs.lean ====
/-
  The contents the two regions leave in their output arrays, the buffer contents between the items of the program, and
  the proof data of the two pipelines, for any float instance `F`.

  Region 0 is entered with every unscoped buffer at `Gen.V1 m` (the launch memory after the first host stretch) and
  leaves its output array `main_v4` at `X2 m c`: what the pipeline's write-backs leave there. The next host stretch runs
  from that valuation (`W2`) to `W3`; region 1 is entered there and leaves `main_v9` at `X4 m c` (`W4`). `outs` packs the
  two contents as the family the conditional frame is stated over, and `V2_eq` … `V4_eq` identify its valuations with
  the ones here.
-/
import proofs.«128407_j39814346834350_1_alg».proof.Proof.Gen.KernelIdeal.Regions
import proofs.«128407_j39814346834350_1_alg».proof.Proof.IdealBody0Defs
import proofs.«128407_j39814346834350_1_alg».proof.Proof.IdealBody1Defs

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The TensorCore's buffer contents when region 0 is entered: the launch memory after the first host stretch. -/
abbrev E0 : (c : Dev nD) → (b : Ref sig .tc) → Buf (Elt F) ((c : Thread nD τ).loc b) := fun c b => Gen.V1 m c (Proc.devRef .tc b)

/-- What region 0 leaves in its output array `main_v4`: the array after every write-back of the pipeline. -/
def X2 (c : Dev nD) : Buf (Elt F) ((c : Thread nD τ).loc main_v4) := (Body0.dat (E0 m) c).arrAt 6 cfg0.N

theorem X2_def (c : Dev nD) : X2 m c = (Body0.dat (E0 m) c).arrAt 6 cfg0.N := rfl

/-- Core `c`'s unscoped buffers after region 0: as entered, but `main_v4` at `X2`. -/
abbrev W2 (c : Dev nD) : Valuation τ sig (Elt F) := Function.update (Gen.V1 m c) main_v4 (X2 m c)
/-- Core `c`'s unscoped buffers after the second host stretch. -/
abbrev W3 (c : Dev nD) : Valuation τ sig (Elt F) := StableHlo.after hostOps1 (W2 m c)

/-- The TensorCore's buffer contents when region 1 is entered. -/
abbrev E1 : (c : Dev nD) → (b : Ref sig .tc) → Buf (Elt F) ((c : Thread nD τ).loc b) := fun c b => W3 m c (Proc.devRef .tc b)

/-- What region 1 leaves in its output array `main_v9`. -/
def X4 (c : Dev nD) : Buf (Elt F) ((c : Thread nD τ).loc main_v9) := (Body1.dat (E1 m) c).arrAt 6 cfg1.N

theorem X4_def (c : Dev nD) : X4 m c = (Body1.dat (E1 m) c).arrAt 6 cfg1.N := rfl

/-- Core `c`'s unscoped buffers after region 1: as entered, but `main_v9` at `X4`. -/
abbrev W4 (c : Dev nD) : Valuation τ sig (Elt F) := Function.update (W3 m c) main_v9 (X4 m c)

/-- The contents the regions leave, as the family the conditional frame reads: `main_v4` at `X2`, `main_v9` at `X4`
    (at any other reference, which nothing reads, the launch contents). -/
def outs : Gen.Outs (F := F) := fun _ r c =>
  if h : r = main_v4 then h ▸ X2 m c else if h' : r = main_v9 then h' ▸ X4 m c else m ((c : Thread nD τ).loc r)

theorem outs_v4 (c : Dev nD) : outs m 2 main_v4 c = X2 m c := by
  unfold outs; rw [dif_pos rfl]

theorem outs_v9 (c : Dev nD) : outs m 4 main_v9 c = X4 m c := by
  unfold outs; rw [dif_neg (by decide), dif_pos rfl]

theorem V2_eq (c : Dev nD) : Gen.V2 m (outs m) c = W2 m c := by
  show Function.update (Gen.V1 m c) main_v4 (outs m 2 main_v4 c) = _
  rw [outs_v4]

theorem V3_eq (c : Dev nD) : Gen.V3 m (outs m) c = W3 m c := by
  show StableHlo.after hostOps1 (Gen.V2 m (outs m) c) = _
  rw [V2_eq]

theorem V4_eq (c : Dev nD) : Gen.V4 m (outs m) c = W4 m c := by
  show Function.update (Gen.V3 m (outs m) c) main_v9 (outs m 4 main_v9 c) = _
  rw [V3_eq, outs_v9]

/-- Every pipeline's proof data, each at its region's entry contents. -/
def pdats : (p : Fin 2) → (c : Dev nD) → Dat τ (Elt F) Unit ℕ (UR sig nD τ) ℕ (cfgs p) c
  | ⟨0, _⟩ => fun c => Body0.dat (E0 m) c
  | ⟨1, _⟩ => fun c => Body1.dat (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

end Cert.KernelIdeal.Launch

end
-- ==== Proof.IdealLaunchShare.lean ====
/-
  The two regions' windows and the buffers behind them, for any float instance `F`.

  A pipeline holds one points-to per WINDOW: window `w`'s array at the share its proof data name. The thread state between
  the program's items holds one points-to per BUFFER, at the full share. In each region windows 1 and 2 read the same
  array (region 0: `main_arg2`; region 1: `main_v4`), at the left and the right half of the full share: the buffer's full
  points-to is the two halves side by side (at the same contents), every other window's array is a buffer of its own at
  the full share. Hence the windows' arrays at contents read off a valuation ARE the distinct buffers behind them at that
  valuation (`arrays_eq0`, `arrays_eq1`), and with the buffers no window reads they are the thread state's unscoped
  buffers (`held_eq0`, `held_eq1`): the region's entry reads the equation from left to right, its exit from right to left.
-/
import proofs.«128407_j39814346834350_1_alg».proof.Proof.IdealLaunchDefs

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share0

variable (c : Dev nD) (d : Dat τ (Elt F) Unit ℕ (UR sig nD τ) ℕ cfg0 c)

/-- One window's array at the pipeline's share is its buffer's points-to at that share: the array is the whole buffer. -/
theorem pt_eq0 (w : Fin 7) (q : PosShare TreeShare) (hs : d.share w = q) (hw : (cfg0.win w).arr.IsWhole)
    (V : (b : Ref sig .tc) → Buf (Elt F) ((c : Thread nD τ).loc b))
    (Fw : (w : Fin cfg0.W) → Buf (Elt F) ((cfg0.win w).arr.view.loc (c : Thread nD τ))) (hF : Fw w = V (Pipeline.arrRef spec0 w)) :
    (((cfg0.win w).arr.view.loc (c : Thread nD τ)) ↦[(cfg0.win w).arr.view.set]{d.share w} Fw w : sProp 𝕄)
      = (((c : Thread nD τ).loc (Pipeline.arrRef spec0 w)) ↦{q} V (Pipeline.arrRef spec0 w)) := by
  rw [hw.set_eq_univ, hs, hF]

/-- The shares: the two windows on the shared array hold a half each, every other window its array whole. -/
theorem share0 (hq : d.q = Body0.qsh) :
    d.share 0 = fullShare ∧ d.share 1 = fullShare.left ∧ d.share 2 = fullShare.right ∧ d.share 3 = fullShare
      ∧ d.share 4 = fullShare ∧ d.share 5 = fullShare ∧ d.share 6 = fullShare := by
  unfold Dat.share; rw [hq]
  exact ⟨rfl, rfl, rfl, rfl, rfl, rfl, rfl⟩

/-- The windows' arrays at contents read off `V` are the distinct buffers behind them, each whole at `V`. -/
theorem arrays_eq0 (hq : d.q = Body0.qsh) (V : (b : Ref sig .tc) → Buf (Elt F) ((c : Thread nD τ).loc b))
    (Fw : (w : Fin cfg0.W) → Buf (Elt F) ((cfg0.win w).arr.view.loc (c : Thread nD τ))) (hF : ∀ w, Fw w = V (Pipeline.arrRef spec0 w)) :
    (d.arrays Fw : sProp 𝕄) = Pipeline.arrBufs spec0 c V := by
  obtain ⟨h0, h1, h2, h3, h4, h5, h6⟩ := share0 c d hq
  unfold Dat.arrays Pipeline.arrBufs
  rw [Gen.bigSep_W0, bigSep_eq_bigSepL_of_eq [main_arg1, main_arg2, main_v1, main_v2, main_v3, main_v4] (by decide) (by decide),
    pt_eq0 c d 0 _ h0 (Memref.isWhole_whole _) V Fw (hF 0), pt_eq0 c d 1 _ h1 (Memref.isWhole_whole _) V Fw (hF 1),
    pt_eq0 c d 2 _ h2 (Memref.isWhole_whole _) V Fw (hF 2), pt_eq0 c d 3 _ h3 (Memref.isWhole_whole _) V Fw (hF 3),
    pt_eq0 c d 4 _ h4 (Memref.isWhole_whole _) V Fw (hF 4), pt_eq0 c d 5 _ h5 (Memref.isWhole_whole _) V Fw (hF 5),
    pt_eq0 c d 6 _ h6 (Memref.isWhole_whole _) V Fw (hF 6)]
  -- the shared buffer's full points-to is its two halves
  have hsh : ((((c : Thread nD τ).loc main_arg2) ↦{fullShare} V main_arg2) : sProp 𝕄)
      = iprop((((c : Thread nD τ).loc main_arg2) ↦{fullShare.left} V main_arg2) ∗ (((c : Thread nD τ).loc main_arg2) ↦{fullShare.right} V main_arg2)) :=
    BI.equiv_iff.mp ⟨(pointsTo_share (PosShare.mem_left_op_right fullShare)).1, (pointsTo_share (PosShare.mem_left_op_right fullShare)).2⟩
  show _ = iprop((((c : Thread nD τ).loc main_arg1) ↦{fullShare} V main_arg1) ∗ (((c : Thread nD τ).loc main_arg2) ↦{fullShare} V main_arg2) ∗ _)
  have hassoc : ∀ P Q S : sProp 𝕄, iprop((P ∗ Q) ∗ S) = iprop(P ∗ Q ∗ S) :=
    fun P Q S => BI.equiv_iff.mp ⟨Idealize.SL.BI.sep_assoc, Idealize.SL.BI.sep_assoc'⟩
  rw [hsh, hassoc]
  rfl

end Share0

section Held0

variable (c : Dev nD) (d : Dat τ (Elt F) Unit ℕ (UR sig nD τ) ℕ cfg0 c)

/-- The thread state's unscoped buffers at a valuation `W` are the windows' arrays at the contents `W` gives them beside
    the buffers no window reads at contents `V`, for any `V` that agrees with `W` off the arrays. -/
theorem held_eq0 (hq : d.q = Body0.qsh) (W : Valuation τ sig (Elt F)) (V : (b : Ref sig .tc) → Buf (Elt F) ((c : Thread nD τ).loc b))
    (Fw : (w : Fin cfg0.W) → Buf (Elt F) ((cfg0.win w).arr.view.loc (c : Thread nD τ)))
    (hF : ∀ w, Fw w = W (Proc.devRef .tc (Pipeline.arrRef spec0 w)))
    (hrest : ∀ b, b ∉ Finset.univ.image (Pipeline.arrRef spec0) → W (Proc.devRef .tc b) = V b) :
    (StableHlo.held (c : Thread nD τ) (Pipeline.ucRefs τ sig) W : sProp 𝕄) = iprop(d.arrays Fw ∗ Pipeline.unscopedRest spec0 c V) := by
  rw [← Pipeline.unscopedBufs_held (Ix := Unit) (Name := ℕ) (U := UR sig nD τ) (Lvl := ℕ) c W,
    show (unscopedBufs c (fun b => W (Proc.devRef .tc b)) : sProp 𝕄)
        = iprop(Pipeline.arrBufs spec0 c (fun b => W (Proc.devRef .tc b)) ∗ Pipeline.unscopedRest spec0 c (fun b => W (Proc.devRef .tc b)))
      from Pipeline.unscopedBufs_split₀ cfgs (0 : Fin 2) winFacts₀0.arr_unscoped c _,
    ← arrays_eq0 c d hq (fun b => W (Proc.devRef .tc b)) Fw hF]
  refine congrArg _ ?_
  unfold Pipeline.unscopedRest
  exact bigSep_congr fun b hb => by beta_reduce; rw [hrest b (Finset.mem_sdiff.mp hb).2]

end Held0

section Share1

variable (c : Dev nD) (d : Dat τ (Elt F) Unit ℕ (UR sig nD τ) ℕ cfg1 c)

/-- One window's array at the pipeline's share is its buffer's points-to at that share: the array is the whole buffer. -/
theorem pt_eq1 (w : Fin 7) (q : PosShare TreeShare) (hs : d.share w = q) (hw : (cfg1.win w).arr.IsWhole)
    (V : (b : Ref sig .tc) → Buf (Elt F) ((c : Thread nD τ).loc b))
    (Fw : (w : Fin cfg1.W) → Buf (Elt F) ((cfg1.win w).arr.view.loc (c : Thread nD τ))) (hF : Fw w = V (Pipeline.arrRef spec1 w)) :
    (((cfg1.win w).arr.view.loc (c : Thread nD τ)) ↦[(cfg1.win w).arr.view.set]{d.share w} Fw w : sProp 𝕄)
      = (((c : Thread nD τ).loc (Pipeline.arrRef spec1 w)) ↦{q} V (Pipeline.arrRef spec1 w)) := by
  rw [hw.set_eq_univ, hs, hF]

/-- The shares: the two windows on the shared array hold a half each, every other window its array whole. -/
theorem share1 (hq : d.q = Body1.qsh) :
    d.share 0 = fullShare ∧ d.share 1 = fullShare.left ∧ d.share 2 = fullShare.right ∧ d.share 3 = fullShare
      ∧ d.share 4 = fullShare ∧ d.share 5 = fullShare ∧ d.share 6 = fullShare := by
  unfold Dat.share; rw [hq]
  exact ⟨rfl, rfl, rfl, rfl, rfl, rfl, rfl⟩

/-- The windows' arrays at contents read off `V` are the distinct buffers behind them, each whole at `V`. -/
theorem arrays_eq1 (hq : d.q = Body1.qsh) (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (d.arrays Fw : sProp 𝕄) = Pipeline.arrBufs spec1 c V := by
  obtain ⟨h0, h1, h2, h3, h4, h5, h6⟩ := share1 c d hq
  unfold Dat.arrays Pipeline.arrBufs
  rw [Gen.bigSep_W1, bigSep_eq_bigSepL_of_eq [main_arg1, main_v4, main_v6, main_v7, main_v8, main_v9] (by decide) (by decide),
    pt_eq1 c d 0 _ h0 (Memref.isWhole_whole _) V Fw (hF 0), pt_eq1 c d 1 _ h1 (Memref.isWhole_whole _) V Fw (hF 1),
    pt_eq1 c d 2 _ h2 (Memref.isWhole_whole _) V Fw (hF 2), pt_eq1 c d 3 _ h3 (Memref.isWhole_whole _) V Fw (hF 3),
    pt_eq1 c d 4 _ h4 (Memref.isWhole_whole _) V Fw (hF 4), pt_eq1 c d 5 _ h5 (Memref.isWhole_whole _) V Fw (hF 5),
    pt_eq1 c d 6 _ h6 (Memref.isWhole_whole _) V Fw (hF 6)]
  -- the shared buffer's full points-to is its two halves
  have hsh : ((((c : Thread nD τ).loc main_v4) ↦{fullShare} V main_v4) : sProp 𝕄)
      = iprop((((c : Thread nD τ).loc main_v4) ↦{fullShare.left} V main_v4) ∗ (((c : Thread nD τ).loc main_v4) ↦{fullShare.right} V main_v4)) :=
    BI.equiv_iff.mp ⟨(pointsTo_share (PosShare.mem_left_op_right fullShare)).1, (pointsTo_share (PosShare.mem_left_op_right fullShare)).2⟩
  show _ = iprop((((c : Thread nD τ).loc main_arg1) ↦{fullShare} V main_arg1) ∗ (((c : Thread nD τ).loc main_v4) ↦{fullShare} V main_v4) ∗ _)
  have hassoc : ∀ P Q S : sProp 𝕄, iprop((P ∗ Q) ∗ S) = iprop(P ∗ Q ∗ S) :=
    fun P Q S => BI.equiv_iff.mp ⟨Idealize.SL.BI.sep_assoc, Idealize.SL.BI.sep_assoc'⟩
  rw [hsh, hassoc]
  rfl

end Share1

section Held1

variable (c : Dev nD) (d : Dat τ (Elt F) Unit ℕ (UR sig nD τ) ℕ cfg1 c)

/-- The thread state's unscoped buffers at a valuation `W` are the windows' arrays at the contents `W` gives them beside
    the buffers no window reads at contents `V`, for any `V` that agrees with `W` off the arrays. -/
theorem held_eq1 (hq : d.q = Body1.qsh) (W : Valuation τ sig (Elt F)) (V : (b : Ref sig .tc) → Buf (Elt F) ((c : Thread nD τ).loc b))
    (Fw : (w : Fin cfg1.W) → Buf (Elt F) ((cfg1.win w).arr.view.loc (c : Thread nD τ)))
    (hF : ∀ w, Fw w = W (Proc.devRef .tc (Pipeline.arrRef spec1 w)))
    (hrest : ∀ b, b ∉ Finset.univ.image (Pipeline.arrRef spec1) → W (Proc.devRef .tc b) = V b) :
    (StableHlo.held (c : Thread nD τ) (Pipeline.ucRefs τ sig) W : sProp 𝕄) = iprop(d.arrays Fw ∗ Pipeline.unscopedRest spec1 c V) := by
  rw [← Pipeline.unscopedBufs_held (Ix := Unit) (Name := ℕ) (U := UR sig nD τ) (Lvl := ℕ) c W,
    show (unscopedBufs c (fun b => W (Proc.devRef .tc b)) : sProp 𝕄)
        = iprop(Pipeline.arrBufs spec1 c (fun b => W (Proc.devRef .tc b)) ∗ Pipeline.unscopedRest spec1 c (fun b => W (Proc.devRef .tc b)))
      from Pipeline.unscopedBufs_split₀ cfgs (1 : Fin 2) winFacts₀1.arr_unscoped c _,
    ← arrays_eq1 c d hq (fun b => W (Proc.devRef .tc b)) Fw hF]
  refine congrArg _ ?_
  unfold Pipeline.unscopedRest
  exact bigSep_congr fun b hb => by beta_reduce; rw [hrest b (Finset.mem_sdiff.mp hb).2]

end Held1

end Cert.KernelIdeal.Launch

end
-- ==== Proof.IdealBody0Conds.lean ====
/-
  Region 0's control cases. The body branches twice on the column-block coordinate k of the point t = 8·i + k:
  at k = 0 it restarts the two accumulators, at k = 7 it encodes and stores the output block. Decided over the
  16 × 8 grid, the first condition holds exactly where t ≡ 0 (mod 8) and the second where t ≡ 7 (mod 8). The
  output window is idle (nothing stored, nothing written back) at every point with k ≠ 7 and live at k = 7.
-/
import proofs.«128407_j39814346834350_1_alg».proof.Proof.Gen.KernelIdeal.Launch
import proofs.«128407_j39814346834350_1_alg».proof.Proof.Gen.KernelIdeal.Skeleton
import proofs.«128407_j39814346834350_1_alg».proof.Proof.Gen.KernelIdeal.Points
import Idealize.ShloMosaic.Lib.Pipeline.FrameBody
import Idealize.ShloMosaic.Lib.Tactic

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (k = 0), as the body computes it from the grid coordinates. -/
abbrev cond0 (i : grid0.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-- The second branch's condition (k = 7). -/
abbrev cond1 (i : grid0.Coords) : Prop := k0_cond2 i = 1#1
/-- It holds at the points ≡ 7 (mod 8). -/
theorem hcond1 : ∀ t : Fin cfg0.N, cond1 (grid0.coords t) ↔ t.val % 8 = 7 :=
  (by decide +kernel : ∀ t : Fin grid0.N, cond1 (grid0.coords t) ↔ t.val % 8 = 7)

/-- Where the second condition fails the output window is idle and its block is not written back. -/
theorem idleAt6 : ∀ t : Fin cfg0.N, ¬cond1 (grid0.coords t) → cfg0.idle 6 (grid0.coords t) = true := by decide +kernel
theorem noFlush6 : ∀ t : Fin cfg0.N, ¬cond1 (grid0.coords t) → (cfg0.win 6).flush t = false := by decide +kernel
/-- Where it holds the output window is live. -/
theorem liveAt6 : ∀ t : Fin cfg0.N, cond1 (grid0.coords t) → cfg0.idle 6 (grid0.coords t) = false := by decide +kernel

end Cert.KernelIdeal.Body0

end
-- ==== Proof.IdealBody0Pre.lean ====
/-
  Region 0: what the body is handed and what it must return at a point, and the facts about the bookkeeping that
  every control case uses. Each input window's current buffer holds that window's block of its array, fetched at
  the point or not (the own-feature block moves only with the row block, the weights and the bias never). The
  accumulators' recursion is read off by the case of the point: at k = 0 it restarts from the zero blocks, otherwise
  it continues from the point before. Before the first point the invariant is the region's own (every scoped buffer
  the call does not stage at anything, the two accumulators first); afterwards it names the accumulators' contents.
-/
import proofs.«128407_j39814346834350_1_alg».proof.Proof.IdealBody0Defs
import proofs.«128407_j39814346834350_1_alg».proof.Proof.IdealBody0Conds

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers hold their blocks -/

theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The accumulators' recursion, by the case of the point -/

/-- At a point with k = 0 the accumulators restart from the zero blocks. -/
theorem accAt_first (c : Dev nD) (t : Fin cfg0.N) (h0 : t.val % 8 = 0) :
    accAt V c t.val t.isLt = (k0_pay3 (iblk V c 0 t) (k0_pay1 (F := F)) (iblk V c 2 t), k0_pay4 (iblk V c 0 t) (k0_pay2 (F := F))) := by
  obtain ⟨n, hn⟩ := t
  cases n with
  | zero => exact rfl
  | succ n => exact (if_pos h0).trans rfl

/-- At any other point they continue from what the point before left. -/
theorem accAt_next (c : Dev nD) (t : Fin cfg0.N) (h0 : ¬t.val % 8 = 0) :
    accAt V c t.val t.isLt = (k0_pay3 (iblk V c 0 t) (accAt V c (t.val - 1) (Nat.lt_of_le_of_lt (Nat.sub_le _ _) t.isLt)).1 (iblk V c 2 t),
      k0_pay4 (iblk V c 0 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The invariant, position by position -/

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn).1 ∗ owns (c : Thread nD τ) scM1 fullShare (accAt V c n hn).2 ∗ others (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)).1 ∗ owns (c : Thread nD τ) scM1 fullShare (accAt V c (n - 1) (by omega)).2 ∗ others (F := F) c) ∗ (∃ r, prngReg c r)) := by
  cases n with
  | zero => exact absurd rfl hz
  | succ n => rfl

theorem PhiS_castSucc (c : Dev nD) (t : Fin cfg0.N) :
    (dat V c).Φ t.castSucc = PhiS V c t.val (Nat.le_of_lt t.isLt) := by
  dsimp only [dat]; simp only [Fin.coe_castSucc]

/-- The region's own invariant with the two accumulators as memrefs owned at some contents, the call's other scoped
    buffers beside them. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ others (F := F) c) ∗ (∃ r, prngReg c r)) := by
  unfold Pipeline.ΦA others; rw [scopedRest0_eq]; simp only [scM0, scM1, owns_whole]; try rfl

/-! ## The body obligation's two sides at a point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

/-- An input window's buffer is handed back at its block. -/
theorem leaves_0 (c : Dev nD) (t : Fin cfg0.N) : (dat V c).leavesExact 0 t = owns (c : Thread nD τ) (ms0 t) fullShare (iblk V c 0 t) := by
  unfold Dat.leavesExact; rw [show cfg0.idle 0 (cfg0.grid.coords t) = false from rfl, after_0]
theorem leaves_1 (c : Dev nD) (t : Fin cfg0.N) : (dat V c).leavesExact 1 t = owns (c : Thread nD τ) (ms1 t) fullShare (iblk V c 1 t) := by
  unfold Dat.leavesExact; rw [show cfg0.idle 1 (cfg0.grid.coords t) = false from rfl, after_1]
theorem leaves_2 (c : Dev nD) (t : Fin cfg0.N) : (dat V c).leavesExact 2 t = owns (c : Thread nD τ) (ms2 t) fullShare (iblk V c 2 t) := by
  unfold Dat.leavesExact; rw [show cfg0.idle 2 (cfg0.grid.coords t) = false from rfl, after_2]
theorem leaves_3 (c : Dev nD) (t : Fin cfg0.N) : (dat V c).leavesExact 3 t = owns (c : Thread nD τ) (ms3 t) fullShare (iblk V c 3 t) := by
  unfold Dat.leavesExact; rw [show cfg0.idle 3 (cfg0.grid.coords t) = false from rfl, after_3]
theorem leaves_4 (c : Dev nD) (t : Fin cfg0.N) : (dat V c).leavesExact 4 t = owns (c : Thread nD τ) (ms4 t) fullShare (iblk V c 4 t) := by
  unfold Dat.leavesExact; rw [show cfg0.idle 4 (cfg0.grid.coords t) = false from rfl, after_4]
theorem leaves_5 (c : Dev nD) (t : Fin cfg0.N) : (dat V c).leavesExact 5 t = owns (c : Thread nD τ) (ms5 t) fullShare (iblk V c 5 t) := by
  unfold Dat.leavesExact; rw [show cfg0.idle 5 (cfg0.grid.coords t) = false from rfl, after_5]

/-- Where the second branch is not taken the output window's buffer is handed back as it was found. -/
theorem leaves_6_idle (c : Dev nD) (t : Fin cfg0.N) (h1 : ¬cond1 (grid0.coords t)) :
    (dat V c).leavesExact 6 t = iprop(∃ d, owns (c : Thread nD τ) (ms6 t) fullShare ((dat V c).before 6 t d)) :=
  Dat.leavesExact_idle (dat V c) 6 t (idleAt6 t h1) (noFlush6 t h1)

/-- Where it is taken the buffer is handed back at the encoded block. -/
theorem leaves_6_live (c : Dev nD) (t : Fin cfg0.N) (h1 : cond1 (grid0.coords t)) :
    (dat V c).leavesExact 6 t = owns (c : Thread nD τ) (ms6 t) fullShare (outAt V c t) := by
  unfold Dat.leavesExact; rw [liveAt6 t h1, after_6]

end Cert.KernelIdeal.Body0

end
-- ==== Proof.IdealBody0RunA.lean ====
/-
  Region 0's body at a point with k = 0 (first branch taken, second not), run on whole memrefs: it restarts both
  accumulators from zero and adds the point's product and row sums. The run needs the adjacency block and the
  neighbour-feature block at their contents and the two accumulators at anything; it hands the two blocks back as
  they were and each accumulator with the stores it made written, as a list of pieces (last store first) that the
  run finds.
-/
import proofs.«128407_j39814346834350_1_alg».proof.Proof.IdealBody0Conds

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at k = 0, with the pieces each accumulator ends with as the witness. -/
noncomputable def kernelRun0_A (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : cond0 i) (hc1 : ¬cond1 i)
    (x0 : Vec F S1024x2048 .f32) (x2 : Vec F S2048x500 .f32) :
    Σ' (LS0 : List (View.Piece (Elt F) S1024x500 .f32)), { LS1 : List (View.Piece (Elt F) S1024x1 .f32) //
      ∀ (E : Set ℕ) (K : PUnit → sProp 𝕄),
        iprop(owns (c : Thread nD τ) arg2 fullShare x0 ∗ owns (c : Thread nD τ) arg4 fullShare x2 ∗ (∃ d, owns (c : Thread nD τ) arg9 fullShare d) ∗ (∃ d, owns (c : Thread nD τ) arg10 fullShare d)
            ∗ (iprop(owns (c : Thread nD τ) arg2 fullShare x0 ∗ owns (c : Thread nD τ) arg4 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__agg_encode_kernel i arg2 harg2 arg3 harg3 arg4 harg4 arg5 harg5 arg6 harg6 arg7 harg7 arg8 harg8 arg9 harg9 arg10 harg10) K } := by
  refine ⟨?_, ?_, fun E K => ?run⟩
  case run =>
    simp only [cc0__agg_encode_kernel_eq_skeleton]; unfold cc0__agg_encode_kernel_skel
    unfold owns
    iintro ⟨⟨%f0, %hf0, H0⟩, ⟨%f2, %hf2, H2⟩, ⟨%ds0, %fs0, -, HS0⟩, ⟨%ds1, %fs1, -, HS1⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    isplitl [HS0]; · iexists _; iexact HS0
    iexists _; iexact HS1

end Cert.KernelIdeal.Body0

end
-- ==== Proof.IdealBody0PiecesA.lean ====
/-
  What the body leaves in the two accumulators at a point with k = 0, as closed terms. Each accumulator is stored
  twice through its whole extent (the zero block, then the sum), so the later store alone decides its contents; the
  sum's second operand is the accumulator read back after the zero store, which is the zero block. Hence the
  neighbour sum ends at (zero block + adjacency block · neighbour block) and the degree at (zero column + row sums),
  spelt with the body's own arithmetic.
-/
import proofs.«128407_j39814346834350_1_alg».proof.Proof.IdealBody0RunA
import Idealize.ShloMosaic.Lib.Ring
import Idealize.ShloMosaic.Lib.Pipeline.Value

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : cond0 i) (hc1 : ¬cond1 i)
  (x0 : Vec F S1024x2048 .f32) (x2 : Vec F S2048x500 .f32)

/-- The stores into the neighbour-sum accumulator cover it. -/
theorem coverS0_A (y : S1024x500.Idx) :
    ∃ pc ∈ (kernelRun0_A c i arg2 harg2 arg3 harg3 arg4 harg4 arg5 harg5 arg6 harg6 arg7 harg7 arg8 harg8 arg9 harg9 arg10 harg10 hc0 hc1 x0 x2).1, y ∈ pc.1.set :=
  View.cover_of_tiledL (kernelRun0_A c i arg2 harg2 arg3 harg3 arg4 harg4 arg5 harg5 arg6 harg6 arg7 harg7 arg8 harg8 arg9 harg9 arg10 harg10 hc0 hc1 x0 x2).1 S1024x500.size (by sl_kernel_rfl) y

/-- The stores into the degree accumulator cover it. -/
theorem coverS1_A (y : S1024x1.Idx) :
    ∃ pc ∈ (kernelRun0_A c i arg2 harg2 arg3 harg3 arg4 harg4 arg5 harg5 arg6 harg6 arg7 harg7 arg8 harg8 arg9 harg9 arg10 harg10 hc0 hc1 x0 x2).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x2).2.1 S1024x1.size (by sl_kernel_rfl) y

/-- The neighbour-sum accumulator ends at the sum over the zero block. -/
theorem canonS0_A :
    View.canon (kernelRun0_A c i arg2 harg2 arg3 harg3 arg4 harg4 arg5 harg5 arg6 harg6 arg7 harg7 arg8 harg8 arg9 harg9 arg10 harg10 hc0 hc1 x0 x2).1 = k0_pay3 x0 (k0_pay1 (F := F)) x2 := by
  unfold kernelRun0_A
  dsimp only
  sl_unfold_words
  rw [View.canon_cons_unit_zero (S := S1024x500) hz, View.readCov_unit_zero (S := S1024x500) _ hz]
  simp only [View.readAt_eq_ld, harg2.read_unread, harg4.read_unread, View.ld_unit_zero (S := S1024x2048) hz, View.ld_unit_zero (S := S2048x500) hz]

/-- The degree accumulator ends at the row sums over the zero column. -/
theorem canonS1_A :
    View.canon (kernelRun0_A c i arg2 harg2 arg3 harg3 arg4 harg4 arg5 harg5 arg6 harg6 arg7 harg7 arg8 harg8 arg9 harg9 arg10 harg10 hc0 hc1 x0 x2).2.1 = k0_pay4 x0 (k0_pay2 (F := F)) := by
  unfold kernelRun0_A
  dsimp only
  sl_unfold_words
  rw [View.canon_cons_unit_zero (S := S1024x1) hz, View.readCov_unit_zero (S := S1024x1) _ hz]
  simp only [View.readAt_eq_ld, harg2.read_unread, View.ld_unit_zero (S := S1024x2048) hz]

/-- Read through any view over any prior contents, the written neighbour-sum accumulator is that term; -/
theorem readS0_A {sig' : RefSig} {κ' : Kind} {sp' : Space} (v : View sig' κ' sp' S1024x500 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 hc0 hc1 x0 x2).1) = k0_pay3 x0 (k0_pay1 (F := F)) x2 :=
  (View.read_writes_eq_canon v f _ (coverS0_A c i arg2 harg2 arg3 harg3 arg4 harg4 arg5 harg5 arg6 harg6 arg7 harg7 arg8 harg8 arg9 harg9 arg10 harg10 hc0 hc1 x0 x2)).trans (canonS0_A c i arg2 harg2 arg3 harg3 arg4 harg4 arg5 harg5 arg6 harg6 arg7 harg7 arg8 harg8 arg9 harg9 arg10 harg10 hc0 hc1 x0 x2)

/-- and the written degree accumulator likewise. -/
theorem readS1_A {sig' : RefSig} {κ' : Kind} {sp' : Space} (v : View sig' κ' sp' S1024x1 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 hc0 hc1 x0 x2).2.1) = k0_pay4 x0 (k0_pay2 (F := F)) :=
  (View.read_writes_eq_canon v f _ (coverS1_A c i arg2 harg2 arg3 harg3 arg4 harg4 arg5 harg5 arg6 harg6 arg7 harg7 arg8 harg8 arg9 harg9 arg10 harg10 hc0 hc1 x0 x2)).trans (canonS1_A c i arg2 harg2 arg3 harg3 arg4 harg4 arg5 harg5 arg6 harg6 arg7 harg7 arg8 harg8 arg9 harg9 arg10 harg10 hc0 hc1 x0 x2)

end

end Cert.KernelIdeal.Body0

end
-- ==== Proof.IdealBody0SoundA.lean ====
/-
  Region 0's body obligation at a point with k = 0. The two accumulators come from the invariant — at anything before
  the first point, at the point before's contents afterwards; either way the body overwrites them — and go back at
  this point's contents, (zero block + product, zero column + row sums). The input windows' buffers pass through at
  their blocks; the output window's buffer is not touched and is handed back as found.
-/
import proofs.«128407_j39814346834350_1_alg».proof.Proof.IdealBody0Pre
import proofs.«128407_j39814346834350_1_alg».proof.Proof.IdealBody0PiecesA

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_A (c : Dev nD) (t : Fin cfg0.N) (h0 : t.val % 8 = 0) :
    bodyPre V c t ⊢ wp frame (wpE (defs₀ (F := F)) Variants.none c none) Set.univ (bodyAt0 t) (fun _ => bodyPost V c t) := by
  have hN : t.val < 128 := lt_of_lt_of_eq t.isLt (show cfg0.N = 128 from N_0)
  have h1 : ¬t.val % 8 = 7 := by omega
  have hc0 : cond0 (grid0.coords t) := (hcond0 t).mpr h0
  have hc1 : ¬cond1 (grid0.coords t) := fun h => h1 ((hcond1 t).mp h)
  unfold bodyPre bodyPost bodyAt0
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_idle V c t hc1]
  rw [accAt_first V c t h0]
  (try dsimp only)
  by_cases hz : t.val = 0
  · rw [PhiS_castSucc V c t, PhiS_zero V c _ _ hz, PhiA_eq]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t)).2.2 Set.univ _)
    isplitl [H0]; · iexact H0
    isplitl [H2]; · iexact H2
    isplitl [HS0]; · iexact HS0
    isplitl [HS1]; · iexact HS1
    iintro ⟨H0, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact readS0_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        isplitl [HS1]
        · unfold owns; iexists _; isplitr
          swap; · iexact HS1
          ipureintro; exact readS1_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [PhiS_castSucc V c t, PhiS_pos V c _ _ hz]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t)).2.2 Set.univ _)
    isplitl [H0]; · iexact H0
    isplitl [H2]; · iexact H2
    isplitl [HS0]; · iexists _; iexact HS0
    isplitl [HS1]; · iexists _; iexact HS1
    iintro ⟨H0, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact readS0_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        isplitl [HS1]
        · unfold owns; iexists _; isplitr
          swap; · iexact HS1
          ipureintro; exact readS1_A c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

end Cert.KernelIdeal.Body0

end
-- ==== Proof.IdealBody0RunB.lean ====
/-
  Region 0's body at a point with 0 < k < 7 (neither branch taken), run on whole memrefs: it adds the point's product
  and row sums to the two accumulators, which it needs at the contents the point before left. It hands the adjacency
  block and the neighbour-feature block back as they were and each accumulator with its one store written.
-/
import proofs.«128407_j39814346834350_1_alg».proof.Proof.IdealBody0RunA

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at 0 < k < 7, with the pieces each accumulator ends with as the witness. -/
noncomputable def kernelRun0_B (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : ¬cond0 i) (hc1 : ¬cond1 i)
    (x0 : Vec F S1024x2048 .f32) (x2 : Vec F S2048x500 .f32) (xs0 : Vec F S1024x500 .f32) (xs1 : Vec F S1024x1 .f32) :
    Σ' (LS0 : List (View.Piece (Elt F) S1024x500 .f32)), { LS1 : List (View.Piece (Elt F) S1024x1 .f32) //
      ∀ (E : Set ℕ) (K : PUnit → sProp 𝕄),
        iprop(owns (c : Thread nD τ) arg2 fullShare x0 ∗ owns (c : Thread nD τ) arg4 fullShare x2 ∗ owns (c : Thread nD τ) arg9 fullShare xs0 ∗ owns (c : Thread nD τ) arg10 fullShare xs1
            ∗ (iprop(owns (c : Thread nD τ) arg2 fullShare x0 ∗ owns (c : Thread nD τ) arg4 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__agg_encode_kernel i arg2 harg2 arg3 harg3 arg4 harg4 arg5 harg5 arg6 harg6 arg7 harg7 arg8 harg8 arg9 harg9 arg10 harg10) K } := by
  refine ⟨?_, ?_, fun E K => ?run⟩
  case run =>
    simp only [cc0__agg_encode_kernel_eq_skeleton]; unfold cc0__agg_encode_kernel_skel
    unfold owns
    iintro ⟨⟨%f0, %hf0, H0⟩, ⟨%f2, %hf2, H2⟩, ⟨%fs0, %hfs0, HS0⟩, ⟨%fs1, %hfs1, HS1⟩, Hk⟩
    obtain rfl := harg2.eq_unread hf0; obtain rfl := harg4.eq_unread hf2
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    isplitl [HS0]; · iexists _; iexact HS0
    iexists _; iexact HS1

end Cert.KernelIdeal.Body0

end
-- ==== Proof.IdealBody0PiecesB.lean ====
/-
  What the body leaves in the two accumulators at a point with 0 < k < 7, as closed terms: each is stored once
  through its whole extent, at (what it held + adjacency block · neighbour block) and (what it held + row sums).
-/
import proofs.«128407_j39814346834350_1_alg».proof.Proof.IdealBody0RunB
import Idealize.ShloMosaic.Lib.Ring
import Idealize.ShloMosaic.Lib.Pipeline.Value

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : ¬cond0 i) (hc1 : ¬cond1 i)
  (x0 : Vec F S1024x2048 .f32) (x2 : Vec F S2048x500 .f32) (xs0 : Vec F S1024x500 .f32) (xs1 : Vec F S1024x1 .f32)

/-- The store into the neighbour-sum accumulator covers it. -/
theorem coverS0_B (y : S1024x500.Idx) :
    ∃ pc ∈ (kernelRun0_B c i arg2 harg2 arg3 harg3 arg4 harg4 arg5 harg5 arg6 harg6 arg7 harg7 arg8 harg8 arg9 harg9 arg10 harg10 hc0 hc1 x0 x2 xs0 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x2 xs0 xs1).1 S1024x500.size (by sl_kernel_rfl) y

/-- The store into the degree accumulator covers it. -/
theorem coverS1_B (y : S1024x1.Idx) :
    ∃ pc ∈ (kernelRun0_B c i arg2 harg2 arg3 harg3 arg4 harg4 arg5 harg5 arg6 harg6 arg7 harg7 arg8 harg8 arg9 harg9 arg10 harg10 hc0 hc1 x0 x2 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x2 xs0 xs1).2.1 S1024x1.size (by sl_kernel_rfl) y

/-- The neighbour-sum accumulator ends at the sum over what it held. -/
theorem canonS0_B :
    View.canon (kernelRun0_B c i arg2 harg2 arg3 harg3 arg4 harg4 arg5 harg5 arg6 harg6 arg7 harg7 arg8 harg8 arg9 harg9 arg10 harg10 hc0 hc1 x0 x2 xs0 xs1).1 = k0_pay3 x0 xs0 x2 := by
  unfold kernelRun0_B
  dsimp only
  sl_unfold_words
  rw [View.canon_unit_zero (S := S1024x500) hz]
  simp only [View.readAt_eq_ld, harg2.read_unread, harg4.read_unread, harg9.read_unread, View.ld_unit_zero (S := S1024x2048) hz, View.ld_unit_zero (S := S2048x500) hz, View.ld_unit_zero (S := S1024x500) hz]

/-- The degree accumulator ends at the row sums over what it held. -/
theorem canonS1_B :
    View.canon (kernelRun0_B c i arg2 harg2 arg3 harg3 arg4 harg4 arg5 harg5 arg6 harg6 arg7 harg7 arg8 harg8 arg9 harg9 arg10 harg10 hc0 hc1 x0 x2 xs0 xs1).2.1 = k0_pay4 x0 xs1 := by
  unfold kernelRun0_B
  dsimp only
  sl_unfold_words
  rw [View.canon_unit_zero (S := S1024x1) hz]
  simp only [View.readAt_eq_ld, harg2.read_unread, harg10.read_unread, View.ld_unit_zero (S := S1024x2048) hz, View.ld_unit_zero (S := S1024x1) hz]

theorem readS0_B {sig' : RefSig} {κ' : Kind} {sp' : Space} (v : View sig' κ' sp' S1024x500 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 hc0 hc1 x0 x2 xs0 xs1).1) = k0_pay3 x0 xs0 x2 :=
  (View.read_writes_eq_canon v f _ (coverS0_B c i arg2 harg2 arg3 harg3 arg4 harg4 arg5 harg5 arg6 harg6 arg7 harg7 arg8 harg8 arg9 harg9 arg10 harg10 hc0 hc1 x0 x2 xs0 xs1)).trans (canonS0_B c i arg2 harg2 arg3 harg3 arg4 harg4 arg5 harg5 arg6 harg6 arg7 harg7 arg8 harg8 arg9 harg9 arg10 harg10 hc0 hc1 x0 x2 xs0 xs1)

theorem readS1_B {sig' : RefSig} {κ' : Kind} {sp' : Space} (v : View sig' κ' sp' S1024x1 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 hc0 hc1 x0 x2 xs0 xs1).2.1) = k0_pay4 x0 xs1 :=
  (View.read_writes_eq_canon v f _ (coverS1_B c i arg2 harg2 arg3 harg3 arg4 harg4 arg5 harg5 arg6 harg6 arg7 harg7 arg8 harg8 arg9 harg9 arg10 harg10 hc0 hc1 x0 x2 xs0 xs1)).trans (canonS1_B c i arg2 harg2 arg3 harg3 arg4 harg4 arg5 harg5 arg6 harg6 arg7 harg7 arg8 harg8 arg9 harg9 arg10 harg10 hc0 hc1 x0 x2 xs0 xs1)

end

end Cert.KernelIdeal.Body0

end
-- ==== Proof.IdealBody0SoundB.lean ====
/-
  Region 0's body obligation at a point with 0 < k < 7. The invariant hands the two accumulators at what the point
  before left; they go back with this point's product and row sums added. The input windows' buffers pass through at
  their blocks; the output window's buffer is not touched and is handed back as found.
-/
import proofs.«128407_j39814346834350_1_alg».proof.Proof.IdealBody0Pre
import proofs.«128407_j39814346834350_1_alg».proof.Proof.IdealBody0PiecesB

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_B (c : Dev nD) (t : Fin cfg0.N) (h0 : ¬t.val % 8 = 0) (h1 : ¬t.val % 8 = 7) :
    bodyPre V c t ⊢ wp frame (wpE (defs₀ (F := F)) Variants.none c none) Set.univ (bodyAt0 t) (fun _ => bodyPost V c t) := by
  have hz : t.val ≠ 0 := fun e => h0 (by rw [e])
  have hlt : t.val - 1 < cfg0.N := Nat.lt_of_le_of_lt (Nat.sub_le _ _) t.isLt
  have hc0 : ¬cond0 (grid0.coords t) := fun h => h0 ((hcond0 t).mp h)
  have hc1 : ¬cond1 (grid0.coords t) := fun h => h1 ((hcond1 t).mp h)
  unfold bodyPre bodyPost bodyAt0
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_idle V c t hc1]
  rw [accAt_next V c t h0]
  (try dsimp only)
  rw [PhiS_castSucc V c t, PhiS_pos V c _ _ hz]
  iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_B c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2).2.2 Set.univ _)
  isplitl [H0]; · iexact H0
  isplitl [H2]; · iexact H2
  isplitl [HS0]; · iexact HS0
  isplitl [HS1]; · iexact HS1
  iintro ⟨H0, H2, ⟨%es0, HS0⟩, ⟨%es1, HS1⟩⟩
  isplitl [HS0 HS1 Hoth Hg]
  · isplitl [HS0 HS1 Hoth]
    · isplitl [HS0]
      · unfold owns; iexists _; isplitr
        swap; · iexact HS0
        ipureintro; exact readS0_B c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2 _ _
      isplitl [HS1]
      · unfold owns; iexists _; isplitr
        swap; · iexact HS1
        ipureintro; exact readS1_B c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2 _ _
      iexact Hoth
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

end Cert.KernelIdeal.Body0

end
-- ==== Proof.IdealBody0RunC.lean ====
/-
  Region 0's body at a point with k = 7 (first branch not taken, second taken), run on whole memrefs: it adds the
  point's product and row sums to the two accumulators, then encodes — the mean of the neighbours, the two products
  with the weight halves, the bias, the rectifier and the row normalisation — and stores the block into the output
  window's buffer, which it needs at anything. Every input block is handed back as it was; the two accumulators and
  the output buffer each with its one store written.
-/
import proofs.«128407_j39814346834350_1_alg».proof.Proof.IdealBody0RunB

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at k = 7, with the pieces the output buffer and each accumulator end with as the witness. -/
noncomputable def kernelRun0_C (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : ¬cond0 i) (hc1 : cond1 i)
    (x0 : Vec F S1024x2048 .f32) (x1 : Vec F S1024x500 .f32) (x2 : Vec F S2048x500 .f32) (x3 : Vec F S500x128 .f32) (x4 : Vec F S500x128 .f32) (x5 : Vec F S1x128 .f32)
    (xs0 : Vec F S1024x500 .f32) (xs1 : Vec F S1024x1 .f32) :
    Σ' (L6 : List (View.Piece (Elt F) S1024x128 .f32)) (LS0 : List (View.Piece (Elt F) S1024x500 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__agg_encode_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__agg_encode_kernel_eq_skeleton]; unfold cc0__agg_encode_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Body0

end
-- ==== Proof.IdealBody0PiecesC.lean ====
/-
  What the body leaves at a point with k = 7, as closed terms: the two accumulators as at the points before
  (what each held plus this point's addend), and the output window's buffer at the encoding of those two sums, the
  own-feature block and the three resident operands — the sums being read back from the accumulators after their
  stores.
-/
import proofs.«128407_j39814346834350_1_alg».proof.Proof.IdealBody0RunC
import Idealize.ShloMosaic.Lib.Ring
import Idealize.ShloMosaic.Lib.Pipeline.Value

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid0.Coords) (arg2 : Memref sig .tc .vmem S1024x2048 .f32) (harg2 : arg2.IsWhole) (arg3 : Memref sig .tc .vmem S1024x500 .f32) (harg3 : arg3.IsWhole) (arg4 : Memref sig .tc .vmem S2048x500 .f32) (harg4 : arg4.IsWhole) (arg5 : Memref sig .tc .vmem S500x128 .f32) (harg5 : arg5.IsWhole) (arg6 : Memref sig .tc .vmem S500x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x500 .f32) (harg9 : arg9.IsWhole) (arg10 : Memref sig .tc .vmem S1024x1 .f32) (harg10 : arg10.IsWhole) (hc0 : ¬cond0 i) (hc1 : cond1 i)
  (x0 : Vec F S1024x2048 .f32) (x1 : Vec F S1024x500 .f32) (x2 : Vec F S2048x500 .f32) (x3 : Vec F S500x128 .f32) (x4 : Vec F S500x128 .f32) (x5 : Vec F S1x128 .f32)
  (xs0 : Vec F S1024x500 .f32) (xs1 : Vec F S1024x1 .f32)

/-- The store into the output window's buffer covers it. -/
theorem cover6_C (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S1024x128.size (by sl_kernel_rfl) y

/-- The store into the neighbour-sum accumulator covers it. -/
theorem coverS0_C (y : S1024x500.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S1024x500.size (by sl_kernel_rfl) y

/-- The store into the degree accumulator covers it. -/
theorem coverS1_C (y : S1024x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y

theorem canonS0_C :
    View.canon (kernelRun0_C c i arg2 harg2 arg3 harg3 arg4 harg4 arg5 harg5 arg6 harg6 arg7 harg7 arg8 harg8 arg9 harg9 arg10 harg10 hc0 hc1 x0 x1 x2 x3 x4 x5 xs0 xs1).2.1 = k0_pay3 x0 xs0 x2 := by
  unfold kernelRun0_C
  dsimp only
  sl_unfold_words
  rw [View.canon_unit_zero (S := S1024x500) hz]
  simp only [View.readAt_eq_ld, harg2.read_unread, harg4.read_unread, harg9.read_unread, View.ld_unit_zero (S := S1024x2048) hz, View.ld_unit_zero (S := S2048x500) hz, View.ld_unit_zero (S := S1024x500) hz]

theorem canonS1_C :
    View.canon (kernelRun0_C c i arg2 harg2 arg3 harg3 arg4 harg4 arg5 harg5 arg6 harg6 arg7 harg7 arg8 harg8 arg9 harg9 arg10 harg10 hc0 hc1 x0 x1 x2 x3 x4 x5 xs0 xs1).2.2.1 = k0_pay4 x0 xs1 := by
  unfold kernelRun0_C
  dsimp only
  sl_unfold_words
  rw [View.canon_unit_zero (S := S1024x1) hz]
  simp only [View.readAt_eq_ld, harg2.read_unread, harg10.read_unread, View.ld_unit_zero (S := S1024x2048) hz, View.ld_unit_zero (S := S1024x1) hz]

/-- The output window's buffer ends at the encoding of the two sums as this point leaves them. -/
theorem canon6_C :
    View.canon (kernelRun0_C c i arg2 harg2 arg3 harg3 arg4 harg4 arg5 harg5 arg6 harg6 arg7 harg7 arg8 harg8 arg9 harg9 arg10 harg10 hc0 hc1 x0 x1 x2 x3 x4 x5 xs0 xs1).1 = k0_pay5 (k0_pay3 x0 xs0 x2) (k0_pay4 x0 xs1) x1 x3 x4 x5 := by
  unfold kernelRun0_C
  dsimp only
  sl_unfold_words
  rw [View.canon_unit_zero (S := S1024x128) hz, View.readCov_unit_zero (S := S1024x500) _ hz, View.readCov_unit_zero (S := S1024x1) _ hz]
  simp only [View.readAt_eq_ld, harg2.read_unread, harg3.read_unread, harg4.read_unread, harg5.read_unread, harg6.read_unread, harg7.read_unread, harg9.read_unread, harg10.read_unread, View.ld_unit_zero (S := S1024x2048) hz, View.ld_unit_zero (S := S2048x500) hz, View.ld_unit_zero (S := S1024x500) hz, View.ld_unit_zero (S := S1024x1) hz, View.ld_unit_zero (S := S500x128) hz, View.ld_unit_zero (S := S1x128) hz]

theorem read6_C {sig' : RefSig} {κ' : Kind} {sp' : Space} (v : View sig' κ' sp' S1024x128 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 hc0 hc1 x0 x1 x2 x3 x4 x5 xs0 xs1).1) = k0_pay5 (k0_pay3 x0 xs0 x2) (k0_pay4 x0 xs1) x1 x3 x4 x5 :=
  (View.read_writes_eq_canon v f _ (cover6_C c i arg2 harg2 arg3 harg3 arg4 harg4 arg5 harg5 arg6 harg6 arg7 harg7 arg8 harg8 arg9 harg9 arg10 harg10 hc0 hc1 x0 x1 x2 x3 x4 x5 xs0 xs1)).trans (canon6_C c i arg2 harg2 arg3 harg3 arg4 harg4 arg5 harg5 arg6 harg6 arg7 harg7 arg8 harg8 arg9 harg9 arg10 harg10 hc0 hc1 x0 x1 x2 x3 x4 x5 xs0 xs1)

theorem readS0_C {sig' : RefSig} {κ' : Kind} {sp' : Space} (v : View sig' κ' sp' S1024x500 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 hc0 hc1 x0 x1 x2 x3 x4 x5 xs0 xs1).2.1) = k0_pay3 x0 xs0 x2 :=
  (View.read_writes_eq_canon v f _ (coverS0_C c i arg2 harg2 arg3 harg3 arg4 harg4 arg5 harg5 arg6 harg6 arg7 harg7 arg8 harg8 arg9 harg9 arg10 harg10 hc0 hc1 x0 x1 x2 x3 x4 x5 xs0 xs1)).trans (canonS0_C c i arg2 harg2 arg3 harg3 arg4 harg4 arg5 harg5 arg6 harg6 arg7 harg7 arg8 harg8 arg9 harg9 arg10 harg10 hc0 hc1 x0 x1 x2 x3 x4 x5 xs0 xs1)

theorem readS1_C {sig' : RefSig} {κ' : Kind} {sp' : Space} (v : View sig' κ' sp' S1024x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 hc0 hc1 x0 x1 x2 x3 x4 x5 xs0 xs1).2.2.1) = k0_pay4 x0 xs1 :=
  (View.read_writes_eq_canon v f _ (coverS1_C c i arg2 harg2 arg3 harg3 arg4 harg4 arg5 harg5 arg6 harg6 arg7 harg7 arg8 harg8 arg9 harg9 arg10 harg10 hc0 hc1 x0 x1 x2 x3 x4 x5 xs0 xs1)).trans (canonS1_C c i arg2 harg2 arg3 harg3 arg4 harg4 arg5 harg5 arg6 harg6 arg7 harg7 arg8 harg8 arg9 harg9 arg10 harg10 hc0 hc1 x0 x1 x2 x3 x4 x5 xs0 xs1)

end

end Cert.KernelIdeal.Body0

end
-- ==== Proof.IdealBody0SoundC.lean ====
/-
  Region 0's body obligation at a point with k = 7. The invariant hands the two accumulators at what the point before
  left; they go back with this point's product and row sums added, and the output window's buffer — handed over at
  whatever it held — goes back at the encoding of those sums, the own-feature block and the resident operands, which
  is the block the bookkeeping names for this point. The input windows' buffers pass through at their blocks.
-/
import proofs.«128407_j39814346834350_1_alg».proof.Proof.IdealBody0Pre
import proofs.«128407_j39814346834350_1_alg».proof.Proof.IdealBody0PiecesC

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_C (c : Dev nD) (t : Fin cfg0.N) (h1 : t.val % 8 = 7) :
    bodyPre V c t ⊢ wp frame (wpE (defs₀ (F := F)) Variants.none c none) Set.univ (bodyAt0 t) (fun _ => bodyPost V c t) := by
  have h0 : ¬t.val % 8 = 0 := by omega
  have hz : t.val ≠ 0 := fun e => h0 (by rw [e])
  have hlt : t.val - 1 < cfg0.N := Nat.lt_of_le_of_lt (Nat.sub_le _ _) t.isLt
  have hc0 : ¬cond0 (grid0.coords t) := fun h => h0 ((hcond0 t).mp h)
  have hc1 : cond1 (grid0.coords t) := (hcond1 t).mpr h1
  unfold bodyPre bodyPost bodyAt0
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_live V c t hc1]
  unfold outAt
  rw [accAt_next V c t h0]
  (try dsimp only)
  rw [PhiS_castSucc V c t, PhiS_pos V c _ _ hz]
  iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_C c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, ⟨%es0, HS0⟩, ⟨%es1, HS1⟩⟩
  isplitl [HS0 HS1 Hoth Hg]
  · isplitl [HS0 HS1 Hoth]
    · isplitl [HS0]
      · unfold owns; iexists _; isplitr
        swap; · iexact HS0
        ipureintro; exact readS0_C c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _
      isplitl [HS1]
      · unfold owns; iexists _; isplitr
        swap; · iexact HS1
        ipureintro; exact readS1_C c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _
      iexact Hoth
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact read6_C c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _

end Cert.KernelIdeal.Body0

end
-- ==== Proof.IdealBody0.lean ====
/-
  Region 0's body obligation, and the invariant's two ends. A point t = 8·i + k is in exactly one of three control
  cases — k = 0, 0 < k < 7, k = 7 — decided by t mod 8; each case's run of the body meets what the bookkeeping of
  the region says the point leaves. What the launch hands the region is the invariant before the first point; after
  the last point the invariant gives it back, forgetting what the two accumulators hold.
-/
import proofs.«128407_j39814346834350_1_alg».proof.Proof.IdealBody0SoundA
import proofs.«128407_j39814346834350_1_alg».proof.Proof.IdealBody0SoundB
import proofs.«128407_j39814346834350_1_alg».proof.Proof.IdealBody0SoundC

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body at any point: by the case of the point. -/
theorem sound_body (c : Dev nD) (t : Fin cfg0.N) :
    bodyPre V c t ⊢ wp frame (wpE (defs₀ (F := F)) Variants.none c none) Set.univ (bodyAt0 t) (fun _ => bodyPost V c t) := by
  by_cases h0 : t.val % 8 = 0
  · exact sound_A V c t h0
  · by_cases h1 : t.val % 8 = 7
    · exact sound_C V c t h1
    · exact sound_B V c t h0 h1

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA (U := UR sig nD τ) spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the region's own back: the accumulators' named contents are forgotten. -/
theorem Phi_out (c : Dev nD) (t : Fin (cfg0.N + 1)) (ht : t.val ≠ 0) : (dat V c).Φ t ⊢ (Pipeline.ΦA (U := UR sig nD τ) spec0 c : sProp 𝕄) := by
  rw [show (dat V c).Φ t = PhiS V c t.val (Nat.le_of_lt_succ t.isLt) from rfl, PhiS_pos V c _ _ ht, PhiA_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last point. -/
theorem hout (c : Dev nD) : (dat V c).Φ (Fin.last cfg0.N) ⊢ (Pipeline.ΦA (U := UR sig nD τ) spec0 c : sProp 𝕄) :=
  Phi_out V c _ (by rw [Fin.val_last]; have : cfg0.N = 128 := N_0; omega)

end Cert.KernelIdeal.Body0

end
-- ==== Proof.IdealLaunch0.lean ====
/-
  Region 0 (the first pallas_call) as an item of the program, for any float instance `F`.

  The region is entered from the thread state "every unscoped buffer at `Gen.V1 m` (the launch memory after the first host stretch), the generator register at some state, nothing
  owed" and left at the same with the output array `main_v4` at `X2`. At entry the unscoped buffers split into the windows'
  arrays (the shared array's buffer as its two halves) and the buffers no window reads; the generator register goes
  into the pipeline's invariant with the scoped buffers the call does not stage. At exit the input arrays are as entered
  (no write-back touches an input window's array), the output array is at what the write-backs leave, and the pieces are put
  back together.
-/
import proofs.«128407_j39814346834350_1_alg».proof.Proof.IdealLaunchShare
import proofs.«128407_j39814346834350_1_alg».proof.Proof.IdealBody0

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each window's array holds what the valuation after the region gives its buffer: an input array what
    it held at entry (which the valuation keeps), the output array `X2`. -/
theorem hF0 (c : Dev nD) : ∀ w : Fin cfg0.W, (pdats m 0 c).arrAt w cfg0.N = W2 m c (Proc.devRef .tc (Pipeline.arrRef spec0 w))
  | 0 => ((Body0.dat (E0 m) c).arrAt_in 0 rfl _).trans ((Body0.A_eq (E0 m) c 0).trans (Function.update_of_ne (StableHlo.devRef_ne_of_ne (by decide)) _ _).symm)
  | 1 => ((Body0.dat (E0 m) c).arrAt_in 1 rfl _).trans ((Body0.A_eq (E0 m) c 1).trans (Function.update_of_ne (StableHlo.devRef_ne_of_ne (by decide)) _ _).symm)
  | 2 => ((Body0.dat (E0 m) c).arrAt_in 2 rfl _).trans ((Body0.A_eq (E0 m) c 2).trans (Function.update_of_ne (StableHlo.devRef_ne_of_ne (by decide)) _ _).symm)
  | 3 => ((Body0.dat (E0 m) c).arrAt_in 3 rfl _).trans ((Body0.A_eq (E0 m) c 3).trans (Function.update_of_ne (StableHlo.devRef_ne_of_ne (by decide)) _ _).symm)
  | 4 => ((Body0.dat (E0 m) c).arrAt_in 4 rfl _).trans ((Body0.A_eq (E0 m) c 4).trans (Function.update_of_ne (StableHlo.devRef_ne_of_ne (by decide)) _ _).symm)
  | 5 => ((Body0.dat (E0 m) c).arrAt_in 5 rfl _).trans ((Body0.A_eq (E0 m) c 5).trans (Function.update_of_ne (StableHlo.devRef_ne_of_ne (by decide)) _ _).symm)
  | 6 => (X2_def m c).symm.trans (Function.update_self (Proc.devRef .tc main_v4 : DevRef τ sig) (X2 m c) (Gen.V1 m c)).symm
  | ⟨_ + 7, h⟩ => absurd h (Nat.not_lt.2 (Nat.le_add_left _ _))

/-- Off the windows' arrays the valuation after the region is the one before it. -/
theorem hrest0 (c : Dev nD) : ∀ b, b ∉ Finset.univ.image (Pipeline.arrRef spec0) → W2 m c (Proc.devRef .tc b) = E0 m c b :=
  fun b hb => Function.update_of_ne (StableHlo.devRef_ne_of_ne fun e : b = main_v4 => hb (by rw [e]; exact Finset.mem_image.mpr ⟨6, Finset.mem_univ _, rfl⟩)) _ _

set_option backward.isDefEq.respectTransparency.types false in
/-- REGION 0 over the thread state. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (Body0.body_obligation (E0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit : (StableHlo.held (c : Thread nD τ) (Pipeline.ucRefs τ sig) (Gen.V1 m c) : sProp 𝕄)
        ⊢ iprop((pdats m 0 c).arrays ((pdats m 0 c).arrAt · 0) ∗ Pipeline.unscopedRest spec0 c (E0 m c)) := by
      exact Entails.of_eq (held_eq0 c (pdats m 0 c) rfl _ (E0 m c) ((pdats m 0 c).arrAt · 0) (fun w => Body0.A_eq (E0 m) c w) (fun _ _ => rfl))
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Body0.hin (E0 m) c)
    unfold Pipeline.ΦA
    iintro ⟨Hp, -, Hr⟩
    isplitl [Hr]; · iexact Hr
    iexact Hp
  hout c := by
    rw [Pipeline.ownSems0_none]
    refine (Body0.hout (E0 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (E0 m c))
        ⊢ (StableHlo.held (c : Thread nD τ) (Pipeline.ucRefs τ sig) (Gen.V2 m (outs m) c) : sProp 𝕄) := by
      rw [V2_eq]
      exact Entails.of_eq (held_eq0 c (pdats m 0 c) rfl _ (E0 m c) ((pdats m 0 c).arrAt · cfg0.N) (hF0 m c) (hrest0 m c)).symm
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Launch

end
-- ==== Proof.IdealBody1Conds.lean ====
/-
  Region 1's control cases. The body branches twice on the column-block coordinate k of the point t = 8·i + k:
  at k = 0 it restarts the two accumulators, at k = 7 it encodes and stores the output block. Decided over the
  16 × 8 grid, the first condition holds exactly where t ≡ 0 (mod 8) and the second where t ≡ 7 (mod 8). The
  output window is idle (nothing stored, nothing written back) at every point with k ≠ 7 and live at k = 7.
-/
import proofs.«128407_j39814346834350_1_alg».proof.Proof.Gen.KernelIdeal.Launch
import proofs.«128407_j39814346834350_1_alg».proof.Proof.Gen.KernelIdeal.Skeleton
import proofs.«128407_j39814346834350_1_alg».proof.Proof.Gen.KernelIdeal.Points
import Idealize.ShloMosaic.Lib.Pipeline.FrameBody
import Idealize.ShloMosaic.Lib.Tactic

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (k = 0), as the body computes it from the grid coordinates. -/
abbrev cond0 (i : grid1.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg1.N, cond0 (grid1.coords t) ↔ t.val % 8 = 0 :=
  (by decide +kernel : ∀ t : Fin grid1.N, cond0 (grid1.coords t) ↔ t.val % 8 = 0)

/-- The second branch's condition (k = 7). -/
abbrev cond1 (i : grid1.Coords) : Prop := k1_cond2 i = 1#1
/-- It holds at the points ≡ 7 (mod 8). -/
theorem hcond1 : ∀ t : Fin cfg1.N, cond1 (grid1.coords t) ↔ t.val % 8 = 7 :=
  (by decide +kernel : ∀ t : Fin grid1.N, cond1 (grid1.coords t) ↔ t.val % 8 = 7)

/-- Where the second condition fails the output window is idle and its block is not written back. -/
theorem idleAt6 : ∀ t : Fin cfg1.N, ¬cond1 (grid1.coords t) → cfg1.idle 6 (grid1.coords t) = true := by decide +kernel
theorem noFlush6 : ∀ t : Fin cfg1.N, ¬cond1 (grid1.coords t) → (cfg1.win 6).flush t = false := by decide +kernel
/-- Where it holds the output window is live. -/
theorem liveAt6 : ∀ t : Fin cfg1.N, cond1 (grid1.coords t) → cfg1.idle 6 (grid1.coords t) = false := by decide +kernel

end Cert.KernelIdeal.Body1

end
-- ==== Proof.IdealBody1Pre.lean ====
/-
  Region 1: what the body is handed and what it must return at a point, and the facts about the bookkeeping that
  every control case uses. Each input window's current buffer holds that window's block of its array, fetched at
  the point or not (the own-feature block moves only with the row block, the weights and the bias never). The
  accumulators' recursion is read off by the case of the point: at k = 0 it restarts from the zero blocks, otherwise
  it continues from the point before. Before the first point the invariant is the region's own (every scoped buffer
  the call does not stage at anything, the two accumulators last); afterwards it names the accumulators' contents.
-/
import proofs.«128407_j39814346834350_1_alg».proof.Proof.IdealBody1Defs
import proofs.«128407_j39814346834350_1_alg».proof.Proof.IdealBody1Conds

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers hold their blocks -/

theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The accumulators' recursion, by the case of the point -/

/-- At a point with k = 0 the accumulators restart from the zero blocks. -/
theorem accAt_first (c : Dev nD) (t : Fin cfg1.N) (h0 : t.val % 8 = 0) :
    accAt V c t.val t.isLt = (k1_pay3 (iblk V c 0 t) (k1_pay1 (F := F)) (iblk V c 2 t), k1_pay4 (iblk V c 0 t) (k1_pay2 (F := F))) := by
  obtain ⟨n, hn⟩ := t
  cases n with
  | zero => exact rfl
  | succ n => exact (if_pos h0).trans rfl

/-- At any other point they continue from what the point before left. -/
theorem accAt_next (c : Dev nD) (t : Fin cfg1.N) (h0 : ¬t.val % 8 = 0) :
    accAt V c t.val t.isLt = (k1_pay3 (iblk V c 0 t) (accAt V c (t.val - 1) (Nat.lt_of_le_of_lt (Nat.sub_le _ _) t.isLt)).1 (iblk V c 2 t),
      k1_pay4 (iblk V c 0 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The invariant, position by position -/

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM0 fullShare (accAt V c n hn).1 ∗ owns (c : Thread nD τ) scM1 fullShare (accAt V c n hn).2 ∗ others (F := F) c) ∗ (∃ r, prngReg c r)) := rfl

theorem PhiS_pos (c : Dev nD) (n : ℕ) (h : n ≤ cfg1.N) (hz : n ≠ 0) :
    PhiS V c n h = iprop(iprop(owns (c : Thread nD τ) scM0 fullShare (accAt V c (n - 1) (by omega)).1 ∗ owns (c : Thread nD τ) scM1 fullShare (accAt V c (n - 1) (by omega)).2 ∗ others (F := F) c) ∗ (∃ r, prngReg c r)) := by
  cases n with
  | zero => exact absurd rfl hz
  | succ n => rfl

theorem PhiS_castSucc (c : Dev nD) (t : Fin cfg1.N) :
    (dat V c).Φ t.castSucc = PhiS V c t.val (Nat.le_of_lt t.isLt) := by
  dsimp only [dat]; simp only [Fin.coe_castSucc]

/-- The region's own invariant with the two accumulators as memrefs owned at some contents, the call's other scoped
    buffers beside them. -/
theorem PhiA_eq (c : Dev nD) :
    (Pipeline.ΦA spec1 c : sProp 𝕄)
      = iprop(iprop((∃ d, owns (c : Thread nD τ) scM0 fullShare d) ∗ (∃ d, owns (c : Thread nD τ) scM1 fullShare d) ∗ others (F := F) c) ∗ (∃ r, prngReg c r)) := by
  unfold Pipeline.ΦA others; rw [scopedRest1_eq]; simp only [scM0, scM1, owns_whole]
  -- the region's own list names this call's two accumulators last; the invariant names them first
  refine BI.equiv_iff.mp ⟨?_, ?_⟩
  · show (_ : sProp 𝕄) ⊢ (_ : sProp 𝕄)
    iintro ⟨⟨A1, A2, A3, A4, A5, A6, A7, A8, A9, A10, A11, A12, A13, S0, S1⟩, Hg⟩
    isplitl [A1 A2 A3 A4 A5 A6 A7 A8 A9 A10 A11 A12 A13 S0 S1]
    · isplitl [S0]; · iexact S0
      isplitl [S1]; · iexact S1
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      iexact A13
    iexact Hg
  · show (_ : sProp 𝕄) ⊢ (_ : sProp 𝕄)
    iintro ⟨⟨S0, S1, A1, A2, A3, A4, A5, A6, A7, A8, A9, A10, A11, A12, A13⟩, Hg⟩
    isplitl [A1 A2 A3 A4 A5 A6 A7 A8 A9 A10 A11 A12 A13 S0 S1]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [S0]; · iexact S0
      iexact S1
    iexact Hg

/-! ## The body obligation's two sides at a point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

/-- An input window's buffer is handed back at its block. -/
theorem leaves_0 (c : Dev nD) (t : Fin cfg1.N) : (dat V c).leavesExact 0 t = owns (c : Thread nD τ) (ms0 t) fullShare (iblk V c 0 t) := by
  unfold Dat.leavesExact; rw [show cfg1.idle 0 (cfg1.grid.coords t) = false from rfl, after_0]
theorem leaves_1 (c : Dev nD) (t : Fin cfg1.N) : (dat V c).leavesExact 1 t = owns (c : Thread nD τ) (ms1 t) fullShare (iblk V c 1 t) := by
  unfold Dat.leavesExact; rw [show cfg1.idle 1 (cfg1.grid.coords t) = false from rfl, after_1]
theorem leaves_2 (c : Dev nD) (t : Fin cfg1.N) : (dat V c).leavesExact 2 t = owns (c : Thread nD τ) (ms2 t) fullShare (iblk V c 2 t) := by
  unfold Dat.leavesExact; rw [show cfg1.idle 2 (cfg1.grid.coords t) = false from rfl, after_2]
theorem leaves_3 (c : Dev nD) (t : Fin cfg1.N) : (dat V c).leavesExact 3 t = owns (c : Thread nD τ) (ms3 t) fullShare (iblk V c 3 t) := by
  unfold Dat.leavesExact; rw [show cfg1.idle 3 (cfg1.grid.coords t) = false from rfl, after_3]
theorem leaves_4 (c : Dev nD) (t : Fin cfg1.N) : (dat V c).leavesExact 4 t = owns (c : Thread nD τ) (ms4 t) fullShare (iblk V c 4 t) := by
  unfold Dat.leavesExact; rw [show cfg1.idle 4 (cfg1.grid.coords t) = false from rfl, after_4]
theorem leaves_5 (c : Dev nD) (t : Fin cfg1.N) : (dat V c).leavesExact 5 t = owns (c : Thread nD τ) (ms5 t) fullShare (iblk V c 5 t) := by
  unfold Dat.leavesExact; rw [show cfg1.idle 5 (cfg1.grid.coords t) = false from rfl, after_5]

/-- Where the second branch is not taken the output window's buffer is handed back as it was found. -/
theorem leaves_6_idle (c : Dev nD) (t : Fin cfg1.N) (h1 : ¬cond1 (grid1.coords t)) :
    (dat V c).leavesExact 6 t = iprop(∃ d, owns (c : Thread nD τ) (ms6 t) fullShare ((dat V c).before 6 t d)) :=
  Dat.leavesExact_idle (dat V c) 6 t (idleAt6 t h1) (noFlush6 t h1)

/-- Where it is taken the buffer is handed back at the encoded block. -/
theorem leaves_6_live (c : Dev nD) (t : Fin cfg1.N) (h1 : cond1 (grid1.coords t)) :
    (dat V c).leavesExact 6 t = owns (c : Thread nD τ) (ms6 t) fullShare (outAt V c t) := by
  unfold Dat.leavesExact; rw [liveAt6 t h1, after_6]

end Cert.KernelIdeal.Body1

end
-- ==== Proof.IdealBody1RunA.lean ====
/-
  Region 1's body at a point with k = 0 (first branch taken, second not), run on whole memrefs: it restarts both
  accumulators from zero and adds the point's product and row sums. The run needs the adjacency block and the
  neighbour-feature block at their contents and the two accumulators at anything; it hands the two blocks back as
  they were and each accumulator with the stores it made written, as a list of pieces (last store first) that the
  run finds.
-/
import proofs.«128407_j39814346834350_1_alg».proof.Proof.IdealBody1Conds

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at k = 0, with the pieces each accumulator ends with as the witness. -/
noncomputable def kernelRun1_A (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : cond0 i) (hc1 : ¬cond1 i)
    (x0 : Vec F S1024x2048 .f32) (x2 : Vec F S2048x128 .f32) :
    Σ' (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg4 fullShare x2 ∗ (∃ d, owns (c : Thread nD τ) arg9 fullShare d) ∗ (∃ d, owns (c : Thread nD τ) arg10 fullShare d)
            ∗ (iprop(owns (c : Thread nD τ) arg2 fullShare x0 ∗ owns (c : Thread nD τ) arg4 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_encode_kernel i arg2 harg2 arg3 harg3 arg4 harg4 arg5 harg5 arg6 harg6 arg7 harg7 arg8 harg8 arg9 harg9 arg10 harg10) K } := by
  refine ⟨?_, ?_, fun E K => ?run⟩
  case run =>
    simp only [cc1__agg_encode_kernel_eq_skeleton]; unfold cc1__agg_encode_kernel_skel
    unfold owns
    iintro ⟨⟨%f0, %hf0, H0⟩, ⟨%f2, %hf2, H2⟩, ⟨%ds0, %fs0, -, HS0⟩, ⟨%ds1, %fs1, -, HS1⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    isplitl [HS0]; · iexists _; iexact HS0
    iexists _; iexact HS1

end Cert.KernelIdeal.Body1

end
-- ==== Proof.IdealBody1PiecesA.lean ====
/-
  What the body leaves in the two accumulators at a point with k = 0, as closed terms. Each accumulator is stored
  twice through its whole extent (the zero block, then the sum), so the later store alone decides its contents; the
  sum's second operand is the accumulator read back after the zero store, which is the zero block. Hence the
  neighbour sum ends at (zero block + adjacency block · neighbour block) and the degree at (zero column + row sums),
  spelt with the body's own arithmetic.
-/
import proofs.«128407_j39814346834350_1_alg».proof.Proof.IdealBody1RunA
import Idealize.ShloMosaic.Lib.Ring
import Idealize.ShloMosaic.Lib.Pipeline.Value

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : cond0 i) (hc1 : ¬cond1 i)
  (x0 : Vec F S1024x2048 .f32) (x2 : Vec F S2048x128 .f32)

/-- The stores into the neighbour-sum accumulator cover it. -/
theorem coverS0_A (y : S1024x128.Idx) :
    ∃ pc ∈ (kernelRun1_A c i arg2 harg2 arg3 harg3 arg4 harg4 arg5 harg5 arg6 harg6 arg7 harg7 arg8 harg8 arg9 harg9 arg10 harg10 hc0 hc1 x0 x2).1, y ∈ pc.1.set :=
  View.cover_of_tiledL (kernelRun1_A c i arg2 harg2 arg3 harg3 arg4 harg4 arg5 harg5 arg6 harg6 arg7 harg7 arg8 harg8 arg9 harg9 arg10 harg10 hc0 hc1 x0 x2).1 S1024x128.size (by sl_kernel_rfl) y

/-- The stores into the degree accumulator cover it. -/
theorem coverS1_A (y : S1024x1.Idx) :
    ∃ pc ∈ (kernelRun1_A c i arg2 harg2 arg3 harg3 arg4 harg4 arg5 harg5 arg6 harg6 arg7 harg7 arg8 harg8 arg9 harg9 arg10 harg10 hc0 hc1 x0 x2).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x2).2.1 S1024x1.size (by sl_kernel_rfl) y

/-- The neighbour-sum accumulator ends at the sum over the zero block. -/
theorem canonS0_A :
    View.canon (kernelRun1_A c i arg2 harg2 arg3 harg3 arg4 harg4 arg5 harg5 arg6 harg6 arg7 harg7 arg8 harg8 arg9 harg9 arg10 harg10 hc0 hc1 x0 x2).1 = k1_pay3 x0 (k1_pay1 (F := F)) x2 := by
  unfold kernelRun1_A
  dsimp only
  sl_unfold_words
  rw [View.canon_cons_unit_zero (S := S1024x128) hz, View.readCov_unit_zero (S := S1024x128) _ hz]
  simp only [View.readAt_eq_ld, harg2.read_unread, harg4.read_unread, View.ld_unit_zero (S := S1024x2048) hz, View.ld_unit_zero (S := S2048x128) hz]

/-- The degree accumulator ends at the row sums over the zero column. -/
theorem canonS1_A :
    View.canon (kernelRun1_A c i arg2 harg2 arg3 harg3 arg4 harg4 arg5 harg5 arg6 harg6 arg7 harg7 arg8 harg8 arg9 harg9 arg10 harg10 hc0 hc1 x0 x2).2.1 = k1_pay4 x0 (k1_pay2 (F := F)) := by
  unfold kernelRun1_A
  dsimp only
  sl_unfold_words
  rw [View.canon_cons_unit_zero (S := S1024x1) hz, View.readCov_unit_zero (S := S1024x1) _ hz]
  simp only [View.readAt_eq_ld, harg2.read_unread, View.ld_unit_zero (S := S1024x2048) hz]

/-- Read through any view over any prior contents, the written neighbour-sum accumulator is that term; -/
theorem readS0_A {sig' : RefSig} {κ' : Kind} {sp' : Space} (v : View sig' κ' sp' S1024x128 .f32) (f : v.ty.Contents (Elt F)) :
    v.read (Elt F) (v.writes (Elt F) f (kernelRun1_A c i arg2 harg2 arg3 harg3 arg4 harg4 arg5 harg5 arg6 harg6 arg7 harg7 arg8 harg8 arg9 harg9 arg10 harg10 hc0 hc1 x0 x2).1) = k1_pay3 x0 (k1_pay1 (F := F)) x2 :=
  (View.read_writes_eq_canon v f _ (coverS0_A c i arg2 harg2 arg3 harg3 arg4 harg4 arg5 harg5 arg6 harg6 arg7 harg7 arg8 harg8 arg9 harg9 arg10 harg10 hc0 hc1 x0 x2)).trans (canonS0_A c i arg2 harg2 arg3 harg3 arg4 harg4 arg5 harg5 arg6 harg6 arg7 harg7 arg8 harg8 arg9 harg9 arg10 harg10 hc0 hc1 x0 x2)

/-- and the written degree accumulator likewise. -/
theorem readS1_A {sig' : RefSig} {κ' : Kind} {sp' : Space} (v : View sig' κ' sp' S1024x1 .f32) (f : v.ty.Contents (Elt F)) :
    v.read (Elt F) (v.writes (Elt F) f (kernelRun1_A c i arg2 harg2 arg3 harg3 arg4 harg4 arg5 harg5 arg6 harg6 arg7 harg7 arg8 harg8 arg9 harg9 arg10 harg10 hc0 hc1 x0 x2).2.1) = k1_pay4 x0 (k1_pay2 (F := F)) :=
  (View.read_writes_eq_canon v f _ (coverS1_A c i arg2 harg2 arg3 harg3 arg4 harg4 arg5 harg5 arg6 harg6 arg7 harg7 arg8 harg8 arg9 harg9 arg10 harg10 hc0 hc1 x0 x2)).trans (canonS1_A c i arg2 harg2 arg3 harg3 arg4 harg4 arg5 harg5 arg6 harg6 arg7 harg7 arg8 harg8 arg9 harg9 arg10 harg10 hc0 hc1 x0 x2)

end

end Cert.KernelIdeal.Body1

end
-- ==== Proof.IdealBody1SoundA.lean ====
/-
  Region 1's body obligation at a point with k = 0. The two accumulators come from the invariant — at anything before
  the first point, at the point before's contents afterwards; either way the body overwrites them — and go back at
  this point's contents, (zero block + product, zero column + row sums). The input windows' buffers pass through at
  their blocks; the output window's buffer is not touched and is handed back as found.
-/
import proofs.«128407_j39814346834350_1_alg».proof.Proof.IdealBody1Pre
import proofs.«128407_j39814346834350_1_alg».proof.Proof.IdealBody1PiecesA

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_A (c : Dev nD) (t : Fin cfg1.N) (h0 : t.val % 8 = 0) :
    bodyPre V c t ⊢ wp frame (wpE (defs₀ (F := F)) Variants.none c none) Set.univ (bodyAt1 t) (fun _ => bodyPost V c t) := by
  have hN : t.val < 128 := lt_of_lt_of_eq t.isLt (show cfg1.N = 128 from N_1)
  have h1 : ¬t.val % 8 = 7 := by omega
  have hc0 : cond0 (grid1.coords t) := (hcond0 t).mpr h0
  have hc1 : ¬cond1 (grid1.coords t) := fun h => h1 ((hcond1 t).mp h)
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_idle V c t hc1]
  rw [accAt_first V c t h0]
  (try dsimp only)
  by_cases hz : t.val = 0
  · rw [PhiS_castSucc V c t, PhiS_zero V c _ _ hz, PhiA_eq]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t)).2.2 Set.univ _)
    isplitl [H0]; · iexact H0
    isplitl [H2]; · iexact H2
    isplitl [HS0]; · iexact HS0
    isplitl [HS1]; · iexact HS1
    iintro ⟨H0, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact readS0_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        isplitl [HS1]
        · unfold owns; iexists _; isplitr
          swap; · iexact HS1
          ipureintro; exact readS1_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [PhiS_castSucc V c t, PhiS_pos V c _ _ hz]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t)).2.2 Set.univ _)
    isplitl [H0]; · iexact H0
    isplitl [H2]; · iexact H2
    isplitl [HS0]; · iexists _; iexact HS0
    isplitl [HS1]; · iexists _; iexact HS1
    iintro ⟨H0, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact readS0_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        isplitl [HS1]
        · unfold owns; iexists _; isplitr
          swap; · iexact HS1
          ipureintro; exact readS1_A c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

end Cert.KernelIdeal.Body1

end
-- ==== Proof.IdealBody1RunB.lean ====
/-
  Region 1's body at a point with 0 < k < 7 (neither branch taken), run on whole memrefs: it adds the point's product
  and row sums to the two accumulators, which it needs at the contents the point before left. It hands the adjacency
  block and the neighbour-feature block back as they were and each accumulator with its one store written.
-/
import proofs.«128407_j39814346834350_1_alg».proof.Proof.IdealBody1RunA

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at 0 < k < 7, with the pieces each accumulator ends with as the witness. -/
noncomputable def kernelRun1_B (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0 i) (hc1 : ¬cond1 i)
    (x0 : Vec F S1024x2048 .f32) (x2 : Vec F S2048x128 .f32) (xs0 : Vec F S1024x128 .f32) (xs1 : Vec F S1024x1 .f32) :
    Σ' (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg4 fullShare x2 ∗ owns (c : Thread nD τ) arg9 fullShare xs0 ∗ owns (c : Thread nD τ) arg10 fullShare xs1
            ∗ (iprop(owns (c : Thread nD τ) arg2 fullShare x0 ∗ owns (c : Thread nD τ) arg4 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_encode_kernel i arg2 harg2 arg3 harg3 arg4 harg4 arg5 harg5 arg6 harg6 arg7 harg7 arg8 harg8 arg9 harg9 arg10 harg10) K } := by
  refine ⟨?_, ?_, fun E K => ?run⟩
  case run =>
    simp only [cc1__agg_encode_kernel_eq_skeleton]; unfold cc1__agg_encode_kernel_skel
    unfold owns
    iintro ⟨⟨%f0, %hf0, H0⟩, ⟨%f2, %hf2, H2⟩, ⟨%fs0, %hfs0, HS0⟩, ⟨%fs1, %hfs1, HS1⟩, Hk⟩
    obtain rfl := harg2.eq_unread hf0; obtain rfl := harg4.eq_unread hf2
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    isplitl [HS0]; · iexists _; iexact HS0
    iexists _; iexact HS1

end Cert.KernelIdeal.Body1

end
-- ==== Proof.IdealBody1PiecesB.lean ====
/-
  What the body leaves in the two accumulators at a point with 0 < k < 7, as closed terms: each is stored once
  through its whole extent, at (what it held + adjacency block · neighbour block) and (what it held + row sums).
-/
import proofs.«128407_j39814346834350_1_alg».proof.Proof.IdealBody1RunB
import Idealize.ShloMosaic.Lib.Ring
import Idealize.ShloMosaic.Lib.Pipeline.Value

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0 i) (hc1 : ¬cond1 i)
  (x0 : Vec F S1024x2048 .f32) (x2 : Vec F S2048x128 .f32) (xs0 : Vec F S1024x128 .f32) (xs1 : Vec F S1024x1 .f32)

/-- The store into the neighbour-sum accumulator covers it. -/
theorem coverS0_B (y : S1024x128.Idx) :
    ∃ pc ∈ (kernelRun1_B c i arg2 harg2 arg3 harg3 arg4 harg4 arg5 harg5 arg6 harg6 arg7 harg7 arg8 harg8 arg9 harg9 arg10 harg10 hc0 hc1 x0 x2 xs0 xs1).1, y ∈ pc.1.set :=
  View.cover_of_tiledL (kernelRun1_B c i arg2 harg2 arg3 harg3 arg4 harg4 arg5 harg5 arg6 harg6 arg7 harg7 arg8 harg8 arg9 harg9 arg10 harg10 hc0 hc1 x0 x2 xs0 xs1).1 S1024x128.size (by sl_kernel_rfl) y

/-- The store into the degree accumulator covers it. -/
theorem coverS1_B (y : S1024x1.Idx) :
    ∃ pc ∈ (kernelRun1_B c i arg2 harg2 arg3 harg3 arg4 harg4 arg5 harg5 arg6 harg6 arg7 harg7 arg8 harg8 arg9 harg9 arg10 harg10 hc0 hc1 x0 x2 xs0 xs1).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x2 xs0 xs1).2.1 S1024x1.size (by sl_kernel_rfl) y

/-- The neighbour-sum accumulator ends at the sum over what it held. -/
theorem canonS0_B :
    View.canon (kernelRun1_B c i arg2 harg2 arg3 harg3 arg4 harg4 arg5 harg5 arg6 harg6 arg7 harg7 arg8 harg8 arg9 harg9 arg10 harg10 hc0 hc1 x0 x2 xs0 xs1).1 = k1_pay3 x0 xs0 x2 := by
  unfold kernelRun1_B
  dsimp only
  sl_unfold_words
  rw [View.canon_unit_zero (S := S1024x128) hz]
  simp only [View.readAt_eq_ld, harg2.read_unread, harg4.read_unread, harg9.read_unread, View.ld_unit_zero (S := S1024x2048) hz, View.ld_unit_zero (S := S2048x128) hz, View.ld_unit_zero (S := S1024x128) hz]

/-- The degree accumulator ends at the row sums over what it held. -/
theorem canonS1_B :
    View.canon (kernelRun1_B c i arg2 harg2 arg3 harg3 arg4 harg4 arg5 harg5 arg6 harg6 arg7 harg7 arg8 harg8 arg9 harg9 arg10 harg10 hc0 hc1 x0 x2 xs0 xs1).2.1 = k1_pay4 x0 xs1 := by
  unfold kernelRun1_B
  dsimp only
  sl_unfold_words
  rw [View.canon_unit_zero (S := S1024x1) hz]
  simp only [View.readAt_eq_ld, harg2.read_unread, harg10.read_unread, View.ld_unit_zero (S := S1024x2048) hz, View.ld_unit_zero (S := S1024x1) hz]

theorem readS0_B {sig' : RefSig} {κ' : Kind} {sp' : Space} (v : View sig' κ' sp' S1024x128 .f32) (f : v.ty.Contents (Elt F)) :
    v.read (Elt F) (v.writes (Elt F) f (kernelRun1_B c i arg2 harg2 arg3 harg3 arg4 harg4 arg5 harg5 arg6 harg6 arg7 harg7 arg8 harg8 arg9 harg9 arg10 harg10 hc0 hc1 x0 x2 xs0 xs1).1) = k1_pay3 x0 xs0 x2 :=
  (View.read_writes_eq_canon v f _ (coverS0_B c i arg2 harg2 arg3 harg3 arg4 harg4 arg5 harg5 arg6 harg6 arg7 harg7 arg8 harg8 arg9 harg9 arg10 harg10 hc0 hc1 x0 x2 xs0 xs1)).trans (canonS0_B c i arg2 harg2 arg3 harg3 arg4 harg4 arg5 harg5 arg6 harg6 arg7 harg7 arg8 harg8 arg9 harg9 arg10 harg10 hc0 hc1 x0 x2 xs0 xs1)

theorem readS1_B {sig' : RefSig} {κ' : Kind} {sp' : Space} (v : View sig' κ' sp' S1024x1 .f32) (f : v.ty.Contents (Elt F)) :
    v.read (Elt F) (v.writes (Elt F) f (kernelRun1_B c i arg2 harg2 arg3 harg3 arg4 harg4 arg5 harg5 arg6 harg6 arg7 harg7 arg8 harg8 arg9 harg9 arg10 harg10 hc0 hc1 x0 x2 xs0 xs1).2.1) = k1_pay4 x0 xs1 :=
  (View.read_writes_eq_canon v f _ (coverS1_B c i arg2 harg2 arg3 harg3 arg4 harg4 arg5 harg5 arg6 harg6 arg7 harg7 arg8 harg8 arg9 harg9 arg10 harg10 hc0 hc1 x0 x2 xs0 xs1)).trans (canonS1_B c i arg2 harg2 arg3 harg3 arg4 harg4 arg5 harg5 arg6 harg6 arg7 harg7 arg8 harg8 arg9 harg9 arg10 harg10 hc0 hc1 x0 x2 xs0 xs1)

end

end Cert.KernelIdeal.Body1

end
-- ==== Proof.IdealBody1SoundB.lean ====
/-
  Region 1's body obligation at a point with 0 < k < 7. The invariant hands the two accumulators at what the point
  before left; they go back with this point's product and row sums added. The input windows' buffers pass through at
  their blocks; the output window's buffer is not touched and is handed back as found.
-/
import proofs.«128407_j39814346834350_1_alg».proof.Proof.IdealBody1Pre
import proofs.«128407_j39814346834350_1_alg».proof.Proof.IdealBody1PiecesB

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_B (c : Dev nD) (t : Fin cfg1.N) (h0 : ¬t.val % 8 = 0) (h1 : ¬t.val % 8 = 7) :
    bodyPre V c t ⊢ wp frame (wpE (defs₀ (F := F)) Variants.none c none) Set.univ (bodyAt1 t) (fun _ => bodyPost V c t) := by
  have hz : t.val ≠ 0 := fun e => h0 (by rw [e])
  have hlt : t.val - 1 < cfg1.N := Nat.lt_of_le_of_lt (Nat.sub_le _ _) t.isLt
  have hc0 : ¬cond0 (grid1.coords t) := fun h => h0 ((hcond0 t).mp h)
  have hc1 : ¬cond1 (grid1.coords t) := fun h => h1 ((hcond1 t).mp h)
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_idle V c t hc1]
  rw [accAt_next V c t h0]
  (try dsimp only)
  rw [PhiS_castSucc V c t, PhiS_pos V c _ _ hz]
  iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_B c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2).2.2 Set.univ _)
  isplitl [H0]; · iexact H0
  isplitl [H2]; · iexact H2
  isplitl [HS0]; · iexact HS0
  isplitl [HS1]; · iexact HS1
  iintro ⟨H0, H2, ⟨%es0, HS0⟩, ⟨%es1, HS1⟩⟩
  isplitl [HS0 HS1 Hoth Hg]
  · isplitl [HS0 HS1 Hoth]
    · isplitl [HS0]
      · unfold owns; iexists _; isplitr
        swap; · iexact HS0
        ipureintro; exact readS0_B c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2 _ _
      isplitl [HS1]
      · unfold owns; iexists _; isplitr
        swap; · iexact HS1
        ipureintro; exact readS1_B c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 2 t) (accAt V c (t.val - 1) hlt).1 (accAt V c (t.val - 1) hlt).2 _ _
      iexact Hoth
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

end Cert.KernelIdeal.Body1

end
-- ==== Proof.IdealBody1RunC.lean ====
/-
  Region 1's body at a point with k = 7 (first branch not taken, second taken), run on whole memrefs: it adds the
  point's product and row sums to the two accumulators, then encodes — the mean of the neighbours, the two products
  with the weight halves, the bias, the rectifier and the row normalisation — and stores the block into the output
  window's buffer, which it needs at anything. Every input block is handed back as it was; the two accumulators and
  the output buffer each with its one store written.
-/
import proofs.«128407_j39814346834350_1_alg».proof.Proof.IdealBody1RunB

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at k = 7, with the pieces the output buffer and each accumulator end with as the witness. -/
noncomputable def kernelRun1_C (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0 i) (hc1 : cond1 i)
    (x0 : Vec F S1024x2048 .f32) (x1 : Vec F S1024x128 .f32) (x2 : Vec F S2048x128 .f32) (x3 : Vec F S128x128 .f32) (x4 : Vec F S128x128 .f32) (x5 : Vec F S1x128 .f32)
    (xs0 : Vec F S1024x128 .f32) (xs1 : Vec F S1024x1 .f32) :
    Σ' (L6 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__agg_encode_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__agg_encode_kernel_eq_skeleton]; unfold cc1__agg_encode_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Body1

end
-- ==== Proof.IdealBody1PiecesC.lean ====
/-
  What the body leaves at a point with k = 7, as closed terms: the two accumulators as at the points before
  (what each held plus this point's addend), and the output window's buffer at the encoding of those two sums, the
  own-feature block and the three resident operands — the sums being read back from the accumulators after their
  stores.
-/
import proofs.«128407_j39814346834350_1_alg».proof.Proof.IdealBody1RunC
import Idealize.ShloMosaic.Lib.Ring
import Idealize.ShloMosaic.Lib.Pipeline.Value

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

section
variable (c : Dev nD) (i : grid1.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0 i) (hc1 : cond1 i)
  (x0 : Vec F S1024x2048 .f32) (x1 : Vec F S1024x128 .f32) (x2 : Vec F S2048x128 .f32) (x3 : Vec F S128x128 .f32) (x4 : Vec F S128x128 .f32) (x5 : Vec F S1x128 .f32)
  (xs0 : Vec F S1024x128 .f32) (xs1 : Vec F S1024x1 .f32)

/-- The store into the output window's buffer covers it. -/
theorem cover6_C (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).1 S1024x128.size (by sl_kernel_rfl) y

/-- The store into the neighbour-sum accumulator covers it. -/
theorem coverS0_C (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.1 S1024x128.size (by sl_kernel_rfl) y

/-- The store into the degree accumulator covers it. -/
theorem coverS1_C (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y

theorem canonS0_C :
    View.canon (kernelRun1_C c i arg2 harg2 arg3 harg3 arg4 harg4 arg5 harg5 arg6 harg6 arg7 harg7 arg8 harg8 arg9 harg9 arg10 harg10 hc0 hc1 x0 x1 x2 x3 x4 x5 xs0 xs1).2.1 = k1_pay3 x0 xs0 x2 := by
  unfold kernelRun1_C
  dsimp only
  sl_unfold_words
  rw [View.canon_unit_zero (S := S1024x128) hz]
  simp only [View.readAt_eq_ld, harg2.read_unread, harg4.read_unread, harg9.read_unread, View.ld_unit_zero (S := S1024x2048) hz, View.ld_unit_zero (S := S2048x128) hz, View.ld_unit_zero (S := S1024x128) hz]

theorem canonS1_C :
    View.canon (kernelRun1_C c i arg2 harg2 arg3 harg3 arg4 harg4 arg5 harg5 arg6 harg6 arg7 harg7 arg8 harg8 arg9 harg9 arg10 harg10 hc0 hc1 x0 x1 x2 x3 x4 x5 xs0 xs1).2.2.1 = k1_pay4 x0 xs1 := by
  unfold kernelRun1_C
  dsimp only
  sl_unfold_words
  rw [View.canon_unit_zero (S := S1024x1) hz]
  simp only [View.readAt_eq_ld, harg2.read_unread, harg10.read_unread, View.ld_unit_zero (S := S1024x2048) hz, View.ld_unit_zero (S := S1024x1) hz]

/-- The output window's buffer ends at the encoding of the two sums as this point leaves them. -/
theorem canon6_C :
    View.canon (kernelRun1_C c i arg2 harg2 arg3 harg3 arg4 harg4 arg5 harg5 arg6 harg6 arg7 harg7 arg8 harg8 arg9 harg9 arg10 harg10 hc0 hc1 x0 x1 x2 x3 x4 x5 xs0 xs1).1 = k1_pay5 (k1_pay3 x0 xs0 x2) (k1_pay4 x0 xs1) x1 x3 x4 x5 := by
  unfold kernelRun1_C
  dsimp only
  sl_unfold_words
  rw [View.canon_unit_zero (S := S1024x128) hz, View.readCov_unit_zero (S := S1024x128) _ hz, View.readCov_unit_zero (S := S1024x1) _ hz]
  simp only [View.readAt_eq_ld, harg2.read_unread, harg3.read_unread, harg4.read_unread, harg5.read_unread, harg6.read_unread, harg7.read_unread, harg9.read_unread, harg10.read_unread, View.ld_unit_zero (S := S1024x2048) hz, View.ld_unit_zero (S := S2048x128) hz, View.ld_unit_zero (S := S1024x128) hz, View.ld_unit_zero (S := S1024x1) hz, View.ld_unit_zero (S := S128x128) hz, View.ld_unit_zero (S := S1x128) hz]

theorem read6_C {sig' : RefSig} {κ' : Kind} {sp' : Space} (v : View sig' κ' sp' S1024x128 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 hc0 hc1 x0 x1 x2 x3 x4 x5 xs0 xs1).1) = k1_pay5 (k1_pay3 x0 xs0 x2) (k1_pay4 x0 xs1) x1 x3 x4 x5 :=
  (View.read_writes_eq_canon v f _ (cover6_C c i arg2 harg2 arg3 harg3 arg4 harg4 arg5 harg5 arg6 harg6 arg7 harg7 arg8 harg8 arg9 harg9 arg10 harg10 hc0 hc1 x0 x1 x2 x3 x4 x5 xs0 xs1)).trans (canon6_C c i arg2 harg2 arg3 harg3 arg4 harg4 arg5 harg5 arg6 harg6 arg7 harg7 arg8 harg8 arg9 harg9 arg10 harg10 hc0 hc1 x0 x1 x2 x3 x4 x5 xs0 xs1)

theorem readS0_C {sig' : RefSig} {κ' : Kind} {sp' : Space} (v : View sig' κ' sp' S1024x128 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 hc0 hc1 x0 x1 x2 x3 x4 x5 xs0 xs1).2.1) = k1_pay3 x0 xs0 x2 :=
  (View.read_writes_eq_canon v f _ (coverS0_C c i arg2 harg2 arg3 harg3 arg4 harg4 arg5 harg5 arg6 harg6 arg7 harg7 arg8 harg8 arg9 harg9 arg10 harg10 hc0 hc1 x0 x1 x2 x3 x4 x5 xs0 xs1)).trans (canonS0_C c i arg2 harg2 arg3 harg3 arg4 harg4 arg5 harg5 arg6 harg6 arg7 harg7 arg8 harg8 arg9 harg9 arg10 harg10 hc0 hc1 x0 x1 x2 x3 x4 x5 xs0 xs1)

theorem readS1_C {sig' : RefSig} {κ' : Kind} {sp' : Space} (v : View sig' κ' sp' S1024x1 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 hc0 hc1 x0 x1 x2 x3 x4 x5 xs0 xs1).2.2.1) = k1_pay4 x0 xs1 :=
  (View.read_writes_eq_canon v f _ (coverS1_C c i arg2 harg2 arg3 harg3 arg4 harg4 arg5 harg5 arg6 harg6 arg7 harg7 arg8 harg8 arg9 harg9 arg10 harg10 hc0 hc1 x0 x1 x2 x3 x4 x5 xs0 xs1)).trans (canonS1_C c i arg2 harg2 arg3 harg3 arg4 harg4 arg5 harg5 arg6 harg6 arg7 harg7 arg8 harg8 arg9 harg9 arg10 harg10 hc0 hc1 x0 x1 x2 x3 x4 x5 xs0 xs1)

end

end Cert.KernelIdeal.Body1

end
-- ==== Proof.IdealBody1SoundC.lean ====
/-
  Region 1's body obligation at a point with k = 7. The invariant hands the two accumulators at what the point before
  left; they go back with this point's product and row sums added, and the output window's buffer — handed over at
  whatever it held — goes back at the encoding of those sums, the own-feature block and the resident operands, which
  is the block the bookkeeping names for this point. The input windows' buffers pass through at their blocks.
-/
import proofs.«128407_j39814346834350_1_alg».proof.Proof.IdealBody1Pre
import proofs.«128407_j39814346834350_1_alg».proof.Proof.IdealBody1PiecesC

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_C (c : Dev nD) (t : Fin cfg1.N) (h1 : t.val % 8 = 7) :
    bodyPre V c t ⊢ wp frame (wpE (defs₀ (F := F)) Variants.none c none) Set.univ (bodyAt1 t) (fun _ => bodyPost V c t) := by
  have h0 : ¬t.val % 8 = 0 := by omega
  have hz : t.val ≠ 0 := fun e => h0 (by rw [e])
  have hlt : t.val - 1 < cfg1.N := Nat.lt_of_le_of_lt (Nat.sub_le _ _) t.isLt
  have hc0 : ¬cond0 (grid1.coords t) := fun h => h0 ((hcond0 t).mp h)
  have hc1 : cond1 (grid1.coords t) := (hcond1 t).mpr h1
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6_live V c t hc1]
  unfold outAt
  rw [accAt_next V c t h0]
  (try dsimp only)
  rw [PhiS_castSucc V c t, PhiS_pos V c _ _ hz]
  iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_C c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, ⟨%es0, HS0⟩, ⟨%es1, HS1⟩⟩
  isplitl [HS0 HS1 Hoth Hg]
  · isplitl [HS0 HS1 Hoth]
    · isplitl [HS0]
      · unfold owns; iexists _; isplitr
        swap; · iexact HS0
        ipureintro; exact readS0_C c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _
      isplitl [HS1]
      · unfold owns; iexists _; isplitr
        swap; · iexact HS1
        ipureintro; exact readS1_C c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _
      iexact Hoth
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact read6_C c (grid1.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 (iblk V c 0 t) (iblk V c 1 t) (iblk V c 2 t) (iblk V c 3 t) (iblk V c 4 t) (iblk V c 5 t) (accAt V c (t.val - 1) hlt).1 (accAt V c (t.val - 1) hlt).2 _ _

end Cert.KernelIdeal.Body1

end
-- ==== Proof.IdealBody1.lean ====
/-
  Region 1's body obligation, and the invariant's two ends. A point t = 8·i + k is in exactly one of three control
  cases — k = 0, 0 < k < 7, k = 7 — decided by t mod 8; each case's run of the body meets what the bookkeeping of
  the region says the point leaves. What the launch hands the region is the invariant before the first point; after
  the last point the invariant gives it back, forgetting what the two accumulators hold.
-/
import proofs.«128407_j39814346834350_1_alg».proof.Proof.IdealBody1SoundA
import proofs.«128407_j39814346834350_1_alg».proof.Proof.IdealBody1SoundB
import proofs.«128407_j39814346834350_1_alg».proof.Proof.IdealBody1SoundC

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body at any point: by the case of the point. -/
theorem sound_body (c : Dev nD) (t : Fin cfg1.N) :
    bodyPre V c t ⊢ wp frame (wpE (defs₀ (F := F)) Variants.none c none) Set.univ (bodyAt1 t) (fun _ => bodyPost V c t) := by
  by_cases h0 : t.val % 8 = 0
  · exact sound_A V c t h0
  · by_cases h1 : t.val % 8 = 7
    · exact sound_C V c t h1
    · exact sound_B V c t h0 h1

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA (U := UR sig nD τ) spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the region's own back: the accumulators' named contents are forgotten. -/
theorem Phi_out (c : Dev nD) (t : Fin (cfg1.N + 1)) (ht : t.val ≠ 0) : (dat V c).Φ t ⊢ (Pipeline.ΦA (U := UR sig nD τ) spec1 c : sProp 𝕄) := by
  rw [show (dat V c).Φ t = PhiS V c t.val (Nat.le_of_lt_succ t.isLt) from rfl, PhiS_pos V c _ _ ht, PhiA_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last point. -/
theorem hout (c : Dev nD) : (dat V c).Φ (Fin.last cfg1.N) ⊢ (Pipeline.ΦA (U := UR sig nD τ) spec1 c : sProp 𝕄) :=
  Phi_out V c _ (by rw [Fin.val_last]; have : cfg1.N = 128 := N_1; omega)

end Cert.KernelIdeal.Body1

end
-- ==== Proof.IdealLaunch1.lean ====
/-
  Region 1 (the second pallas_call) as an item of the program, for any float instance `F`.

  The region is entered from the thread state "every unscoped buffer at `Gen.V3 m (outs m)` (what the second host stretch leaves), the generator register at some state, nothing
  owed" and left at the same with the output array `main_v9` at `X4`. At entry the unscoped buffers split into the windows'
  arrays (the shared array's buffer as its two halves) and the buffers no window reads; the generator register goes
  into the pipeline's invariant with the scoped buffers the call does not stage. At exit the input arrays are as entered
  (no write-back touches an input window's array), the output array is at what the write-backs leave, and the pieces are put
  back together.
-/
import proofs.«128407_j39814346834350_1_alg».proof.Proof.IdealLaunchShare
import proofs.«128407_j39814346834350_1_alg».proof.Proof.IdealBody1

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each window's array holds what the valuation after the region gives its buffer: an input array what
    it held at entry (which the valuation keeps), the output array `X4`. -/
theorem hF1 (c : Dev nD) : ∀ w : Fin cfg1.W, (pdats m 1 c).arrAt w cfg1.N = W4 m c (Proc.devRef .tc (Pipeline.arrRef spec1 w))
  | 0 => ((Body1.dat (E1 m) c).arrAt_in 0 rfl _).trans ((Body1.A_eq (E1 m) c 0).trans (Function.update_of_ne (StableHlo.devRef_ne_of_ne (by decide)) _ _).symm)
  | 1 => ((Body1.dat (E1 m) c).arrAt_in 1 rfl _).trans ((Body1.A_eq (E1 m) c 1).trans (Function.update_of_ne (StableHlo.devRef_ne_of_ne (by decide)) _ _).symm)
  | 2 => ((Body1.dat (E1 m) c).arrAt_in 2 rfl _).trans ((Body1.A_eq (E1 m) c 2).trans (Function.update_of_ne (StableHlo.devRef_ne_of_ne (by decide)) _ _).symm)
  | 3 => ((Body1.dat (E1 m) c).arrAt_in 3 rfl _).trans ((Body1.A_eq (E1 m) c 3).trans (Function.update_of_ne (StableHlo.devRef_ne_of_ne (by decide)) _ _).symm)
  | 4 => ((Body1.dat (E1 m) c).arrAt_in 4 rfl _).trans ((Body1.A_eq (E1 m) c 4).trans (Function.update_of_ne (StableHlo.devRef_ne_of_ne (by decide)) _ _).symm)
  | 5 => ((Body1.dat (E1 m) c).arrAt_in 5 rfl _).trans ((Body1.A_eq (E1 m) c 5).trans (Function.update_of_ne (StableHlo.devRef_ne_of_ne (by decide)) _ _).symm)
  | 6 => (X4_def m c).symm.trans (Function.update_self (Proc.devRef .tc main_v9 : DevRef τ sig) (X4 m c) (W3 m c)).symm
  | ⟨_ + 7, h⟩ => absurd h (Nat.not_lt.2 (Nat.le_add_left _ _))

/-- Off the windows' arrays the valuation after the region is the one before it. -/
theorem hrest1 (c : Dev nD) : ∀ b, b ∉ Finset.univ.image (Pipeline.arrRef spec1) → W4 m c (Proc.devRef .tc b) = E1 m c b :=
  fun b hb => Function.update_of_ne (StableHlo.devRef_ne_of_ne fun e : b = main_v9 => hb (by rw [e]; exact Finset.mem_image.mpr ⟨6, Finset.mem_univ _, rfl⟩)) _ _

set_option backward.isDefEq.respectTransparency.types false in
/-- REGION 1 over the thread state. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Body1.body_obligation (E1 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (StableHlo.held (c : Thread nD τ) (Pipeline.ucRefs τ sig) (Gen.V3 m (outs m) c) : sProp 𝕄)
        ⊢ iprop((pdats m 1 c).arrays ((pdats m 1 c).arrAt · 0) ∗ Pipeline.unscopedRest spec1 c (E1 m c)) := by
      rw [V3_eq]
      exact Entails.of_eq (held_eq1 c (pdats m 1 c) rfl _ (E1 m c) ((pdats m 1 c).arrAt · 0) (fun w => Body1.A_eq (E1 m) c w) (fun _ _ => rfl))
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Body1.hin (E1 m) c)
    unfold Pipeline.ΦA
    iintro ⟨Hp, -, Hr⟩
    isplitl [Hr]; · iexact Hr
    iexact Hp
  hout c := by
    rw [Pipeline.ownSems0_none]
    refine (Body1.hout (E1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E1 m c))
        ⊢ (StableHlo.held (c : Thread nD τ) (Pipeline.ucRefs τ sig) (Gen.V4 m (outs m) c) : sProp 𝕄) := by
      rw [V4_eq]
      exact Entails.of_eq (held_eq1 c (pdats m 1 c) rfl _ (E1 m c) ((pdats m 1 c).arrAt · cfg1.N) (hF1 m c) (hrest1 m c)).symm
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Launch

end
-- ==== Proof.IdealLaunch.lean ====
/-
  The run of the program from the launch to the return, for any float instance `F`.

  The program is five items: a host stretch, region 0, a host stretch, region 1, a host stretch. Between two items every core
  holds each unscoped buffer whole at the valuation the items so far leave (`Gen.V0` … `Gen.V5` at the regions' output
  contents `outs m`), its generator register at some state, and owes nothing. Hence every weakly fair execution from memory
  `m` with zero counters terminates, each argument array ends as launched (`frame`), and the result buffer `main_v37` ends at
  what the last valuation gives it (`run_value`): the last host stretch's fold over the contents region 1 leaves.
-/
import proofs.«128407_j39814346834350_1_alg».proof.Proof.IdealLaunch0
import proofs.«128407_j39814346834350_1_alg».proof.Proof.IdealLaunch1

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost state is the pipelines' element and nothing else. -/
theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides beside the buffers ends owing nothing. -/
theorem hR (c : Dev nD) : R (F := F) c ⊢ (iprop(∃ W, owes (c : Thread nD τ) (0 : CellTallies nD τ sig Unit) W) : sProp 𝕄) := by
  iintro ⟨-, H⟩; iexact H

set_option backward.isDefEq.respectTransparency.types false in
/-- THE RUN, WITH THE RESULT: every weakly fair execution of the program from memory `m` with zero counters terminates, and every
    final memory holds the result buffer `main_v37` at the last valuation's contents and each argument as launched. -/
theorem run_value : θ_run defs (onTc (τ := τ) (main (F := F))) ⟨m, fun _ => 0, ρ⟩ (fun r => ∀ c : Dev nD,
      r.2.mem ((c.tc : Thread nD τ).loc main_v37) = Gen.V5 m (outs m) c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) Gen.adm (pdats m) () cellOf_inj (emb₁ : Emb (UR sig nD τ) 𝕄) defs₀ 𝒱₀ L lv m ρ main
    (Gen.segs m (outs m) 𝒱₀ L lv (fun _ c => R c) () (pdats m) (reg0 m) (reg1 m))
    (fun c Q => by
      rewrite [main_chain c, Pipeline.Seg.run_eq_chain,
        show (Gen.segs m (outs m) 𝒱₀ L lv (fun _ c => R c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (fun _ => 0) (fun _ _ => rfl) (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V5 m (outs m) c))
    (hch := fun c => ⟨.rfl, .rfl, .rfl, .rfl, .rfl, sep_mono .rfl (hR c)⟩)
    (hinit := ?_) (QY := fun c s => s.mem ((c.tc : Thread nD τ).loc main_v37) = Gen.V5 m (outs m) c (Proc.devRef .tc main_v37)
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: each core's unscoped buffers are held at the launch valuation, its generator register and its dues ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v37) (Finset.mem_filter.mpr ⟨StableHlo.devRef_mem_tcRefs main_v37, by decide⟩),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        (h (Proc.devRef .tc main_arg6) (Finset.mem_filter.mpr ⟨StableHlo.devRef_mem_tcRefs main_arg6, by decide⟩)).trans (V5_main_arg6 m (outs m) c),
        (h (Proc.devRef .tc main_arg7) (Finset.mem_filter.mpr ⟨StableHlo.devRef_mem_tcRefs main_arg7, by decide⟩)).trans (V5_main_arg7 m (outs m) c),
        (h (Proc.devRef .tc main_arg8) (Finset.mem_filter.mpr ⟨StableHlo.devRef_mem_tcRefs main_arg8, by decide⟩)).trans (V5_main_arg8 m (outs m) c),
        (h (Proc.devRef .tc main_arg9) (Finset.mem_filter.mpr ⟨StableHlo.devRef_mem_tcRefs main_arg9, by decide⟩)).trans (V5_main_arg9 m (outs m) c),
        (h (Proc.devRef .tc main_arg10) (Finset.mem_filter.mpr ⟨StableHlo.devRef_mem_tcRefs main_arg10, by decide⟩)).trans (V5_main_arg10 m (outs m) c)⟩
    · iexact HSI

/-- THE FRAME: every weakly fair execution of the program from memory `m` with zero counters terminates, and every final memory
    holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_value m ρ)

end Cert.KernelIdeal.Launch

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.Spec.lean ====
/-
  The mathematics both programs compute, as plain functions on the extended reals.

  A graph of N nodes is given by its adjacency matrix `a` (any extended reals, not only 0/1). One aggregation-and-encoding
  layer takes node features `x : N × d` and produces `N × E` features:

    deg n        = Σ_j a(n,j)                                   the row sum of the adjacency
    neigh n f    = (Σ_j a(n,j) · x(j,f)) / deg n                the degree-normalised sum of the neighbours' features
    lin n e      = Σ_f x(n,f) · ws(f,e) + Σ_f neigh(n,f) · wn(f,e) + b(e)
                                                                one affine map applied to the pair [own features, neighbour mean],
                                                                its weight split into the rows `ws` that meet the own features and
                                                                the rows `wn` that meet the neighbour mean
    act n e      = max (lin n e) 0
    enc n e      = act n e / max (√(Σ_e' act(n,e')²)) ε          each row scaled to unit Euclidean length (ε guards a zero row)

  Row `n` of `enc` depends on row `n` of the adjacency and of `x`, and on all of `x` through `neigh`. Two layers are
  stacked, the second reading the first's output as its features; only the rows a batch of node numbers selects are used
  afterwards (`pick`: a node number is read as a signed word, a negative one counted from the end, the result clamped
  into range, which is what array indexing by an integer array does).

  Division, square root and the literal words are the ideal instance's (`Ideal.div`, `Ideal.sqrt`, `Ideal.ofBits`): the same
  functions on both sides, never opened here.
-/
import Idealize.ShloMosaic.PureOps.Ideal

noncomputable section

open scoped BigOperators

namespace Cert.Spec

open Idealize.ShloMosaic

/-- The guard of the row normalisation: the f32 word both programs print for 1e-12. -/
def eps : EReal := Ideal.ofBits .f32 0x2B8CBCCC#32

/-- The zero the rectifier compares with: the f32 zero word, as printed. -/
def zeroW : EReal := Ideal.ofBits .f32 0x00000000#32

variable {N d E : ℕ}

/-- Row sums of the adjacency. -/
def deg (a : Fin N → Fin N → EReal) (n : Fin N) : EReal := ∑ j, a n j

/-- The neighbours' features summed with the adjacency's weights, divided by the row's degree. -/
def neigh (a : Fin N → Fin N → EReal) (x : Fin N → Fin d → EReal) (n : Fin N) (f : Fin d) : EReal :=
  Ideal.div (∑ j, a n j * x j f) (deg a n)

/-- The affine map on [own features, neighbour mean], the weight given as its two halves. -/
def lin (a : Fin N → Fin N → EReal) (x : Fin N → Fin d → EReal) (ws wn : Fin d → Fin E → EReal) (b : Fin E → EReal)
    (n : Fin N) (e : Fin E) : EReal :=
  (∑ f, x n f * ws f e) + (∑ f, neigh a x n f * wn f e) + b e

/-- The rectified affine map. -/
def act (a : Fin N → Fin N → EReal) (x : Fin N → Fin d → EReal) (ws wn : Fin d → Fin E → EReal) (b : Fin E → EReal)
    (n : Fin N) (e : Fin E) : EReal :=
  max (lin a x ws wn b n e) zeroW

/-- The Euclidean length of a rectified row, guarded below by `eps`. -/
def rowNorm (a : Fin N → Fin N → EReal) (x : Fin N → Fin d → EReal) (ws wn : Fin d → Fin E → EReal) (b : Fin E → EReal)
    (n : Fin N) : EReal :=
  max (Ideal.sqrt (∑ e, act a x ws wn b n e * act a x ws wn b n e)) eps

/-- One layer: the rectified affine map with every row scaled to unit length. -/
def enc (a : Fin N → Fin N → EReal) (x : Fin N → Fin d → EReal) (ws wn : Fin d → Fin E → EReal) (b : Fin E → EReal)
    (n : Fin N) (e : Fin E) : EReal :=
  Ideal.div (act a x ws wn b n e) (rowNorm a x ws wn b n)

/-- A node number as array indexing reads it: a negative word counts from the end (`+ 16384`), and the result, read signed,
    is clamped into `[0, 16383]`. -/
def pick (w : BitVec 32) : Fin 16384 :=
  ⟨min (Scalar.select (Scalar.cmpi .slt w 0#32) (w + 16384#32) w).toInt.toNat (16384 - 1), by omega⟩

/-- Two layers on a graph of 16384 nodes with 500 input features and 128 hidden ones, read at the rows a batch selects:
    entry `(r, e)` is the second layer's output at node `pick (nodes r)`. -/
def twoLayer (nodes : Fin 4096 → BitVec 32) (a : Fin 16384 → Fin 16384 → EReal) (x : Fin 16384 → Fin 500 → EReal)
    (w1s w1n : Fin 500 → Fin 128 → EReal) (b1 : Fin 128 → EReal)
    (w2s w2n : Fin 128 → Fin 128 → EReal) (b2 : Fin 128 → EReal) (r : Fin 4096) (e : Fin 128) : EReal :=
  enc a (enc a x w1s w1n b1) w2s w2n b2 (pick (nodes r)) e

end Cert.Spec

end
-- ==== Proof.SpecRow.lean ====
/-
  One row of an aggregation-and-encoding layer, from the row's own data.

  Row `n` of `Spec.enc` needs only: the row's own features `xs`, the row's neighbour sum `s f = Σ_j a(n,j)·x(j,f)` and the
  row's degree `g`. `rowEnc` is the layer's formula on those three; `enc_eq_rowEnc` says `enc` is `rowEnc` of them.
  The kernel computes exactly this per row once its two running sums are complete.

  The second fact here is how the running sums become the full sums: a sum over 16384 columns is the sum over 8 column
  blocks of the sums over the 2048 columns of each block, and adding the blocks one after the other from zero, in block
  order, is that sum (addition on the extended reals is commutative and associative; nothing has to be finite).
-/
import proofs.«128407_j39814346834350_1_alg».proof.Proof.Spec

noncomputable section

open scoped BigOperators

namespace Cert.Spec

open Idealize.ShloMosaic

variable {N d E : ℕ}

/-- The affine map of one row: own features `xs`, neighbour sum `s`, degree `g`. -/
def rowLin (xs s : Fin d → EReal) (g : EReal) (ws wn : Fin d → Fin E → EReal) (b : Fin E → EReal) (e : Fin E) : EReal :=
  (∑ f, xs f * ws f e) + (∑ f, Ideal.div (s f) g * wn f e) + b e

/-- The rectified row. -/
def rowAct (xs s : Fin d → EReal) (g : EReal) (ws wn : Fin d → Fin E → EReal) (b : Fin E → EReal) (e : Fin E) : EReal :=
  max (rowLin xs s g ws wn b e) zeroW

/-- The row scaled to unit length. -/
def rowEnc (xs s : Fin d → EReal) (g : EReal) (ws wn : Fin d → Fin E → EReal) (b : Fin E → EReal) (e : Fin E) : EReal :=
  Ideal.div (rowAct xs s g ws wn b e)
    (max (Ideal.sqrt (∑ e', rowAct xs s g ws wn b e' * rowAct xs s g ws wn b e')) eps)

/-- A layer's row `n` is `rowEnc` of the row's features, its neighbour sum and its degree. -/
theorem enc_eq_rowEnc (a : Fin N → Fin N → EReal) (x : Fin N → Fin d → EReal) (ws wn : Fin d → Fin E → EReal)
    (b : Fin E → EReal) (n : Fin N) (e : Fin E) :
    enc a x ws wn b n e = rowEnc (x n) (fun f => ∑ j, a n j * x j f) (deg a n) ws wn b e := rfl

/-- Column `2048·k + l` of a 16384-column array. -/
def col (k : Fin 8) (l : Fin 2048) : Fin 16384 := ⟨2048 * k.val + l.val, by have := k.isLt; have := l.isLt; omega⟩

/-- The sum over all 16384 columns is the sum over the 8 blocks of the sums within each block. -/
theorem sum_blocks (g : Fin 16384 → EReal) : ∑ j, g j = ∑ k : Fin 8, ∑ l : Fin 2048, g (col k l) := by
  rw [← Fintype.sum_prod_type']
  refine (Fintype.sum_equiv (finProdFinEquiv (m := 8) (n := 2048)) (fun kl => g (col kl.1 kl.2)) g fun kl => ?_).symm
  refine congrArg g (Fin.ext ?_)
  show 2048 * kl.1.val + kl.2.val = kl.2.val + 2048 * kl.1.val
  omega

/-- The blocks' sums added one after the other: after block `k` the running value is the sum of blocks `0 … k`. `B k'` is
    block `k'`'s contribution for `k' < 8` (and anything beyond). -/
def running (B : ℕ → EReal) : ℕ → EReal
  | 0 => 0 + B 0
  | k + 1 => running B k + B (k + 1)

theorem running_eq (B : ℕ → EReal) (k : ℕ) : running B k = ∑ k' ∈ Finset.range (k + 1), B k' := by
  induction k with
  | zero => simp [running]
  | succ k ih => rw [running, ih, Finset.sum_range_succ (n := k + 1)]

/-- After the eighth block the running value is the sum over all 16384 columns. -/
theorem running_seven (g : Fin 16384 → EReal) :
    running (fun k' => if h : k' < 8 then ∑ l : Fin 2048, g (col ⟨k', h⟩ l) else 0) 7 = ∑ j, g j := by
  rw [running_eq, sum_blocks, Finset.sum_range (n := 8) (f := fun k' => if h : k' < 8 then ∑ l : Fin 2048, g (col ⟨k', h⟩ l) else 0)]
  exact Finset.sum_congr rfl fun k _ => by rw [dif_pos k.isLt]

end Cert.Spec

end
-- ==== Proof.PayIdeal0.lean ====
/-
  The body's arithmetic of region 0, read at one entry on the extended reals.

  The five stored values of the body are pure functions of the blocks the body loaded. At the ideal instance a change of
  float format is the identity and a product into a zero accumulator is the plain sum of products, so at one entry:
  the two restart values are 0; the neighbour accumulator's update adds the block product's entry; the degree's update
  adds the block's row sum; and the encoded block is `Spec.rowEnc` of the row's own features, the row of the neighbour
  accumulator and the row's accumulated degree, against the two weight halves and the bias row.
-/
import proofs.«128407_j39814346834350_1_alg».proof.Proof.Gen.KernelIdeal.Skeleton
import proofs.«128407_j39814346834350_1_alg».proof.Proof.LibPlainDot
import proofs.«128407_j39814346834350_1_alg».proof.Proof.LibColumn
import proofs.«128407_j39814346834350_1_alg».proof.Proof.SpecRow
import Idealize.ShloMosaic.Lib.ValueLayout
import Idealize.ShloMosaic.Lib.Pipeline.Value

noncomputable section

open scoped BigOperators

namespace Cert.KernelIdeal.Pay0

open Cert.KernelIdeal Cert.KernelIdeal.Gen Cert.KernelIdeal.Facts₀
open Idealize.ShloMosaic Idealize.ShloMosaic.ValueIdx

/-- The restart value of the neighbour accumulator is zero everywhere. -/
theorem pay1_apply (p : Fin 1024) (f : Fin 500) : k0_pay1 (F := Ideal) (ix2 p f) = 0 := by
  unfold k0_pay1
  rw [shapeCast_self]
  exact Ideal.ofBits_zero_f32

/-- The restart value of the degree accumulator is zero everywhere. -/
theorem pay2_apply (p : Fin 1024) (u : Fin 1) : k0_pay2 (F := Ideal) (ix2 p u) = 0 := by
  unfold k0_pay2
  rw [shapeCast_self]
  exact Ideal.ofBits_zero_f32

/-- The neighbour accumulator's update: the old entry plus the entry of the block product. -/
theorem pay3_apply (v3 : Vec Ideal S1024x2048 .f32) (v4 : Vec Ideal S1024x500 .f32) (v6 : Vec Ideal S2048x500 .f32)
    (p : Fin 1024) (f : Fin 500) :
    k0_pay3 v3 v4 v6 (ix2 p f) = v4 (ix2 p f) + ∑ l : Fin 2048, v3 (ix2 p l) * v6 (ix2 l f) := by
  unfold k0_pay3
  rw [shapeCast_self]
  show v4 (ix2 p f) + _ = _
  refine congrArg (v4 (ix2 p f) + ·) ?_
  exact Cert.LibPlainDot.matmul_zero_apply (M := 1024) (K := 2048) (N := 500) none _ _ p f

/-- The degree accumulator's update: the old entry plus the block's row sum. -/
theorem pay4_apply (v3 : Vec Ideal S1024x2048 .f32) (v13 : Vec Ideal S1024x1 .f32) (p : Fin 1024) (u : Fin 1) :
    k0_pay4 v3 v13 (ix2 p u) = v13 (ix2 p u) + ∑ l : Fin 2048, v3 (ix2 p l) := by
  unfold k0_pay4
  rw [shapeCast_self]
  show v13 (ix2 p u) + _ = _
  refine congrArg (v13 (ix2 p u) + ·) ?_
  refine (Cert.LibColumn.shapeCast_a_a1_apply (a := 1024) _ _ p u).trans ?_
  exact Cert.LibColumn.rowSum_apply (a := 1024) (b := 2048) v3 _ _ _ p

end Cert.KernelIdeal.Pay0

end
-- ==== Proof.PayIdeal0b.lean ====
/-
  The encoded block of region 0 at one entry: `Spec.rowEnc` of the row's data.

  The last stored value divides the neighbour accumulator's row by the row's degree, applies the two weight halves to the
  row's own features and to that quotient, adds the bias row, rectifies, and divides the row by its Euclidean length
  guarded below by the 1e-12 word. Read at entry (p, e) this is `Spec.rowEnc` of: the own-feature row p, the accumulator
  row p, the degree entry (p, 0), the two weight halves and the bias row.
-/
import proofs.«128407_j39814346834350_1_alg».proof.Proof.Gen.KernelIdeal.Skeleton
import proofs.«128407_j39814346834350_1_alg».proof.Proof.LibPlainDot
import proofs.«128407_j39814346834350_1_alg».proof.Proof.LibColumn
import proofs.«128407_j39814346834350_1_alg».proof.Proof.SpecRow
import Idealize.ShloMosaic.Lib.ValueLayout
import Idealize.ShloMosaic.Lib.Pipeline.Value

noncomputable section

open scoped BigOperators

namespace Cert.KernelIdeal.Pay0

open Cert.KernelIdeal Cert.KernelIdeal.Facts₀
open Cert.KernelIdeal.Gen (k0_pay1 k0_pay2 k0_pay3 k0_pay4 k0_pay5)
open Idealize.ShloMosaic Idealize.ShloMosaic.ValueIdx

/-- The rectified affine block as the body computes it: (own features · first weight half) + ((accumulator / degree) ·
    second weight half) + bias row, then the maximum with zero. -/
def actV (v23 : Vec Ideal S1024x500 .f32) (v24 : Vec Ideal S1024x1 .f32) (v27 : Vec Ideal S1024x500 .f32)
    (v29 v34 : Vec Ideal S500x128 .f32) (v39 : Vec Ideal S1x128 .f32) : FVec Ideal S1024x128 .f32 :=
  maximumf
    (addf
      (addf
        (matmul dot_S1024x500_S500x128_S1024x128_1_0_0_1_n_n none (truncf .bf16 v27 bitsLt_bf16_f32)
          (truncf .bf16 (shapeCast S500x128 v29 shapeCasts_S500x128_S500x128) bitsLt_bf16_f32) (constant S1024x128 .f32 0x00000000#32))
        (matmul dot_S1024x500_S500x128_S1024x128_1_0_0_1_n_n none
          (truncf .bf16 (divf v23 (broadcastTo S1024x500 v24 broadcasts_S1024x1_S1024x500)) bitsLt_bf16_f32)
          (truncf .bf16 (shapeCast S500x128 v34 shapeCasts_S500x128_S500x128) bitsLt_bf16_f32) (constant S1024x128 .f32 0x00000000#32)))
      (broadcastTo S1024x128 (shapeCast S1x128 v39 shapeCasts_S1x128_S1x128) broadcasts_S1x128_S1024x128))
    (broadcast S1024x128 (Scalar.ofBits .f32 0x00000000#32))

/-- The stored block is the rectified block divided, row by row, by the row's guarded length. -/
theorem pay5_eq (v23 : Vec Ideal S1024x500 .f32) (v24 : Vec Ideal S1024x1 .f32) (v27 : Vec Ideal S1024x500 .f32)
    (v29 v34 : Vec Ideal S500x128 .f32) (v39 : Vec Ideal S1x128 .f32) :
    k0_pay5 v23 v24 v27 v29 v34 v39
      = divf (actV v23 v24 v27 v29 v34 v39)
          (broadcastTo S1024x128
            (maximumf
              (sqrt (shapeCast S1024x1
                (multiReduction .add [1] S1024 (mulf (actV v23 v24 v27 v29 v34 v39) (actV v23 v24 v27 v29 v34 v39)) 0x00000000#32
                  reduces_S1024x128_S1024 (.inl rfl) rfl) shapeCasts_S1024_S1024x1))
              (broadcast S1024x1 (Scalar.ofBits .f32 0x2B8CBCCC#32)))
            broadcasts_S1024x1_S1024x128) := rfl

/-- The rectified block at entry (p, e). -/
theorem actV_apply (v23 : Vec Ideal S1024x500 .f32) (v24 : Vec Ideal S1024x1 .f32) (v27 : Vec Ideal S1024x500 .f32)
    (v29 v34 : Vec Ideal S500x128 .f32) (v39 : Vec Ideal S1x128 .f32) (p : Fin 1024) (e : Fin 128) :
    actV v23 v24 v27 v29 v34 v39 (ix2 p e)
      = Cert.Spec.rowAct (fun f => v27 (ix2 p f)) (fun f => v23 (ix2 p f)) (v24 (ix2 p (0 : Fin 1)))
          (fun f e => v29 (ix2 f e)) (fun f e => v34 (ix2 f e)) (fun e => v39 (ix2 (0 : Fin 1) e)) e := by
  unfold actV Cert.Spec.rowAct Cert.Spec.rowLin
  refine congrArg₂ max ?_ rfl
  refine congrArg₂ (· + ·) (congrArg₂ (· + ·) ?_ ?_) ?_
  · refine (Cert.LibPlainDot.matmul_zero_apply (M := 1024) (K := 500) (N := 128) none _ _ p e).trans ?_
    refine Finset.sum_congr rfl fun f _ => ?_
    rw [shapeCast_self]; rfl
  · refine (Cert.LibPlainDot.matmul_zero_apply (M := 1024) (K := 500) (N := 128) none _ _ p e).trans ?_
    refine Finset.sum_congr rfl fun f _ => ?_
    rw [shapeCast_self]
    exact congrArg (fun z => Ideal.div (v23 (ix2 p f)) z * v34 (ix2 f e))
      (Cert.LibColumn.broadcastTo_a1_ab_apply (a := 1024) (b := 500) v24 _ p f)
  · refine (broadcastTo_1b_ab_apply (a := 1024) (b := 128) _ _ p e).trans ?_
    rw [shapeCast_self]

/-- The stored block at entry (p, e) is `Spec.rowEnc` of row p's data. -/
theorem pay5_apply (v23 : Vec Ideal S1024x500 .f32) (v24 : Vec Ideal S1024x1 .f32) (v27 : Vec Ideal S1024x500 .f32)
    (v29 v34 : Vec Ideal S500x128 .f32) (v39 : Vec Ideal S1x128 .f32) (p : Fin 1024) (e : Fin 128) :
    k0_pay5 v23 v24 v27 v29 v34 v39 (ix2 p e)
      = Cert.Spec.rowEnc (fun f => v27 (ix2 p f)) (fun f => v23 (ix2 p f)) (v24 (ix2 p (0 : Fin 1)))
          (fun f e => v29 (ix2 f e)) (fun f e => v34 (ix2 f e)) (fun e => v39 (ix2 (0 : Fin 1) e)) e := by
  rw [pay5_eq]
  unfold Cert.Spec.rowEnc
  show Ideal.div (actV v23 v24 v27 v29 v34 v39 (ix2 p e)) _ = _
  rw [actV_apply]
  refine congrArg (Ideal.div _) ?_
  refine (Cert.LibColumn.broadcastTo_a1_ab_apply (a := 1024) (b := 128) _ _ p e).trans ?_
  show max (Ideal.sqrt _) _ = max (Ideal.sqrt _) Cert.Spec.eps
  refine congrArg₂ max (congrArg Ideal.sqrt ?_) rfl
  refine (Cert.LibColumn.shapeCast_a_a1_apply (a := 1024) _ _ p 0).trans ?_
  refine (Cert.LibColumn.rowSum_apply (a := 1024) (b := 128) _ _ _ _ p).trans ?_
  refine Finset.sum_congr rfl fun e' _ => ?_
  show actV v23 v24 v27 v29 v34 v39 (ix2 p e') * actV v23 v24 v27 v29 v34 v39 (ix2 p e') = _
  rw [actV_apply]

end Cert.KernelIdeal.Pay0

end
-- ==== Proof.IdealValue0.lean ====
/-
  What region 0 leaves in its output array, at the ideal instance: one layer of the encoder.

  The region reads five arrays as it finds them: the adjacency `adj`, the node features `feat` (through two windows: the
  row block of the own features and the row block of the neighbours' features), the two weight halves `wS`, `wN` and the
  bias row. At grid point t = 8·i + k the adjacency window holds rows 1024·i … and columns 2048·k …, the neighbour window
  the feature rows 2048·k …. By induction on the point, after point t the neighbour accumulator's entry (p, f) is the
  running sum over the column blocks 0 … k of Σ_l adj(1024·i + p, 2048·k' + l) · feat(2048·k' + l, f), started from zero at
  k = 0, and the degree accumulator's entry is the same running sum of the adjacency entries alone. At k = 7 the running
  sums are the full sums over all 16384 columns, so the block stored there is `Spec.enc` at rows 1024·i …; that block is
  written back to rows 1024·i … of the output, and the sixteen written blocks tile it. So the output array ends holding
  `Spec.enc adj feat wS wN bias` at every entry.
-/
import proofs.«128407_j39814346834350_1_alg».proof.Proof.IdealBody0Defs
import proofs.«128407_j39814346834350_1_alg».proof.Proof.PayIdeal0
import proofs.«128407_j39814346834350_1_alg».proof.Proof.PayIdeal0b
import proofs.«128407_j39814346834350_1_alg».proof.Proof.SpecRow
import Idealize.ShloMosaic.Lib.Pipeline.Value
import Idealize.ShloMosaic.Lib.ValueIdx

set_option maxRecDepth 16384

noncomputable section

open scoped BigOperators

namespace Cert.KernelIdeal.Value0

open Cert.KernelIdeal Cert.KernelIdeal.Body0
open Cert.KernelIdeal.Gen (N_0 flush0_6 k0_pay1 k0_pay2 k0_pay3 k0_pay4 k0_pay5)
open Idealize.ShloMosaic Idealize.ShloMosaic.TcCoe Idealize.ShloMosaic.ValueIdx Idealize.SL.Sem
open Idealize.ShloMosaic.Pipeline (Dat)
open Cert.Spec (col running)

variable (V : (c : Dev nD) → (b : Ref sig .tc) → Buf (Elt Ideal) ((c : Thread nD τ).loc b)) (c : Dev nD)

/-! ## The arrays the region reads, as plain functions -/

/-- The adjacency. -/
def adj (n j : Fin 16384) : EReal := V c main_arg1 (ix2 n j)
/-- The node features. -/
def feat (n : Fin 16384) (f : Fin 500) : EReal := V c main_arg2 (ix2 n f)
/-- The weight half that meets a node's own features. -/
def wS (f : Fin 500) (e : Fin 128) : EReal := V c main_v1 (ix2 f e)
/-- The weight half that meets the neighbour mean. -/
def wN (f : Fin 500) (e : Fin 128) : EReal := V c main_v2 (ix2 f e)
/-- The bias row. -/
def bias (e : Fin 128) : EReal := V c main_v3 (ix2 (0 : Fin 1) e)

/-- The layer's output as contents of the output array. -/
def G : S16384x128.Idx → EReal := fun i =>
  Cert.Spec.enc (adj V c) (feat V c) (wS V c) (wN V c) (bias V c) ⟨(i 0).val, idx2_lt0 i⟩ ⟨(i 1).val, idx2_lt1 i⟩

/-! ## Where each window's block sits at a point: decided over the 128 points -/

theorem idx_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx_1 : ∀ t : Fin cfg0.N, win0_1.index t 0 = t.val / 8 ∧ win0_1.index t 1 = 0 :=
  (by decide +kernel : ∀ t : Fin grid0.N, win0_1.index t 0 = t.val / 8 ∧ win0_1.index t 1 = 0)
theorem idx_2 : ∀ t : Fin cfg0.N, win0_2.index t 0 = t.val % 8 ∧ win0_2.index t 1 = 0 :=
  (by decide +kernel : ∀ t : Fin grid0.N, win0_2.index t 0 = t.val % 8 ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = t.val / 8 ∧ win0_6.index t 1 = 0 :=
  (by decide +kernel : ∀ t : Fin grid0.N, win0_6.index t 0 = t.val / 8 ∧ win0_6.index t 1 = 0)

/-! ## The windows' blocks read at an entry -/

/-- The adjacency block at point t: entry (p, l) is adj at row 1024·(t/8) + p, column 2048·(t%8) + l. -/
theorem iblk0_apply (t : Fin cfg0.N) (p : Fin 1024) (l : Fin 2048) (n j : Fin 16384)
    (hn : n.val = 1024 * (t.val / 8) + p.val) (hj : j.val = 2048 * (t.val % 8) + l.val) :
    iblk V c 0 t (ix2 p l) = adj V c n j := by
  unfold iblk adj
  rw [View.read_apply]
  show V c main_arg1 _ = V c main_arg1 _
  refine congrArg (V c main_arg1) (funext fun a => Fin.ext ?_)
  match a with
  | ⟨0, _⟩ => show win0_0.index t 0 * 1024 + 1 * p.val = n.val; rw [(idx_0 t).1, hn]; omega
  | ⟨1, _⟩ => show win0_0.index t 1 * 2048 + 1 * l.val = j.val; rw [(idx_0 t).2, hj]; omega

/-- The own-feature block at point t: entry (p, f) is feat at row 1024·(t/8) + p. -/
theorem iblk1_apply (t : Fin cfg0.N) (p : Fin 1024) (f : Fin 500) (n : Fin 16384)
    (hn : n.val = 1024 * (t.val / 8) + p.val) :
    iblk V c 1 t (ix2 p f) = feat V c n f := by
  unfold iblk feat
  rw [View.read_apply]
  show V c main_arg2 _ = V c main_arg2 _
  refine congrArg (V c main_arg2) (funext fun a => Fin.ext ?_)
  match a with
  | ⟨0, _⟩ => show win0_1.index t 0 * 1024 + 1 * p.val = n.val; rw [(idx_1 t).1, hn]; omega
  | ⟨1, _⟩ => show win0_1.index t 1 * 500 + 1 * f.val = f.val; rw [(idx_1 t).2]; omega

/-- The neighbour-feature block at point t: entry (l, f) is feat at row 2048·(t%8) + l. -/
theorem iblk2_apply (t : Fin cfg0.N) (l : Fin 2048) (f : Fin 500) (j : Fin 16384)
    (hj : j.val = 2048 * (t.val % 8) + l.val) :
    iblk V c 2 t (ix2 l f) = feat V c j f := by
  unfold iblk feat
  rw [View.read_apply]
  show V c main_arg2 _ = V c main_arg2 _
  refine congrArg (V c main_arg2) (funext fun a => Fin.ext ?_)
  match a with
  | ⟨0, _⟩ => show win0_2.index t 0 * 2048 + 1 * l.val = j.val; rw [(idx_2 t).1, hj]; omega
  | ⟨1, _⟩ => show win0_2.index t 1 * 500 + 1 * f.val = f.val; rw [(idx_2 t).2]; omega

/-- The three resident operands are their whole arrays at every point. -/
theorem iblk3_apply (t : Fin cfg0.N) (f : Fin 500) (e : Fin 128) : iblk V c 3 t (ix2 f e) = wS V c f e := by
  unfold iblk wS
  rw [View.read_apply]
  show V c main_v1 _ = V c main_v1 _
  refine congrArg (V c main_v1) (funext fun a => Fin.ext ?_)
  match a with
  | ⟨0, _⟩ => show win0_3.index t 0 * 500 + 1 * f.val = f.val; rw [(idx_3 t).1]; omega
  | ⟨1, _⟩ => show win0_3.index t 1 * 128 + 1 * e.val = e.val; rw [(idx_3 t).2]; omega
theorem iblk4_apply (t : Fin cfg0.N) (f : Fin 500) (e : Fin 128) : iblk V c 4 t (ix2 f e) = wN V c f e := by
  unfold iblk wN
  rw [View.read_apply]
  show V c main_v2 _ = V c main_v2 _
  refine congrArg (V c main_v2) (funext fun a => Fin.ext ?_)
  match a with
  | ⟨0, _⟩ => show win0_4.index t 0 * 500 + 1 * f.val = f.val; rw [(idx_4 t).1]; omega
  | ⟨1, _⟩ => show win0_4.index t 1 * 128 + 1 * e.val = e.val; rw [(idx_4 t).2]; omega
theorem iblk5_apply (t : Fin cfg0.N) (e : Fin 128) : iblk V c 5 t (ix2 (0 : Fin 1) e) = bias V c e := by
  unfold iblk bias
  rw [View.read_apply]
  show V c main_v3 _ = V c main_v3 _
  refine congrArg (V c main_v3) (funext fun a => Fin.ext ?_)
  match a with
  | ⟨0, _⟩ => show win0_5.index t 0 * 1 + 1 * 0 = 0; rw [(idx_5 t).1]
  | ⟨1, _⟩ => show win0_5.index t 1 * 128 + 1 * e.val = e.val; rw [(idx_5 t).2]; omega

/-! ## The two running sums -/

/-- Row 1024·(t/8) + p of the 16384 rows. -/
def rowOf (t : ℕ) (ht : t < 128) (p : Fin 1024) : Fin 16384 := ⟨1024 * (t / 8) + p.val, by have := p.isLt; omega⟩

/-- Column block k''s contribution to the neighbour sum of row n, feature f (zero beyond the eight blocks). -/
def nbBlock (n : Fin 16384) (f : Fin 500) (k' : ℕ) : EReal :=
  if h : k' < 8 then ∑ l : Fin 2048, adj V c n (col ⟨k', h⟩ l) * feat V c (col ⟨k', h⟩ l) f else 0
/-- Column block k''s contribution to the degree of row n. -/
def degBlock (n : Fin 16384) (k' : ℕ) : EReal :=
  if h : k' < 8 then ∑ l : Fin 2048, adj V c n (col ⟨k', h⟩ l) else 0

/-- One point's two updates from zero: the block's own contribution. -/
theorem first_step (t : Fin cfg0.N) (h0 : t.val % 8 = 0) (p : Fin 1024) :
    (∀ f : Fin 500, k0_pay3 (iblk V c 0 t) (k0_pay1 (F := Ideal)) (iblk V c 2 t) (ix2 p f)
        = running (nbBlock V c (rowOf t.val (lt_of_lt_of_eq t.isLt (show cfg0.N = 128 from N_0)) p) f) (t.val % 8))
    ∧ (∀ u : Fin 1, k0_pay4 (iblk V c 0 t) (k0_pay2 (F := Ideal)) (ix2 p u)
        = running (degBlock V c (rowOf t.val (lt_of_lt_of_eq t.isLt (show cfg0.N = 128 from N_0)) p)) (t.val % 8)) := by
  have hk : (⟨t.val % 8, by omega⟩ : Fin 8) = ⟨0, by omega⟩ := Fin.ext h0
  refine ⟨fun f => ?_, fun u => ?_⟩
  · rw [Cert.KernelIdeal.Pay0.pay3_apply, Cert.KernelIdeal.Pay0.pay1_apply, h0]
    show _ = 0 + nbBlock V c _ f 0
    refine congrArg (0 + ·) ?_
    unfold nbBlock
    rw [dif_pos (by omega : 0 < 8)]
    refine Finset.sum_congr rfl fun l _ => ?_
    rw [iblk0_apply V c t p l (rowOf t.val _ p) (col ⟨0, by omega⟩ l) rfl (by show 2048 * 0 + l.val = _; rw [h0]),
      iblk2_apply V c t l f (col ⟨0, by omega⟩ l) (by show 2048 * 0 + l.val = _; rw [h0])]
  · rw [Cert.KernelIdeal.Pay0.pay4_apply, Cert.KernelIdeal.Pay0.pay2_apply, h0]
    show _ = 0 + degBlock V c _ 0
    refine congrArg (0 + ·) ?_
    unfold degBlock
    rw [dif_pos (by omega : 0 < 8)]
    refine Finset.sum_congr rfl fun l _ => ?_
    exact iblk0_apply V c t p l (rowOf t.val _ p) (col ⟨0, by omega⟩ l) rfl (by show 2048 * 0 + l.val = _; rw [h0])

/-- THE INVARIANT: after point n the two accumulators hold, row by row, the running sums over the column blocks
    0 … n % 8 of row 1024·(n/8) + p. -/
theorem acc_inv : ∀ (n : ℕ) (hn : n < cfg0.N) (p : Fin 1024),
    (∀ f : Fin 500, (accAt V c n hn).1 (ix2 p f)
        = running (nbBlock V c (rowOf n (lt_of_lt_of_eq hn (show cfg0.N = 128 from N_0)) p) f) (n % 8))
    ∧ (∀ u : Fin 1, (accAt V c n hn).2 (ix2 p u)
        = running (degBlock V c (rowOf n (lt_of_lt_of_eq hn (show cfg0.N = 128 from N_0)) p)) (n % 8))
  | 0, hn, p => first_step V c ⟨0, hn⟩ rfl p
  | n + 1, hn, p => by
    have hN : n + 1 < 128 := lt_of_lt_of_eq hn (show cfg0.N = 128 from N_0)
    by_cases h0 : (n + 1) % 8 = 0
    · have e : accAt V c (n + 1) hn = (k0_pay3 (iblk V c 0 ⟨n + 1, hn⟩) (k0_pay1 (F := Ideal)) (iblk V c 2 ⟨n + 1, hn⟩),
          k0_pay4 (iblk V c 0 ⟨n + 1, hn⟩) (k0_pay2 (F := Ideal))) := by
        show (if (n + 1) % 8 = 0 then _ else _) = _
        rw [if_pos h0]
      rw [e]
      exact first_step V c ⟨n + 1, hn⟩ h0 p
    · have e : accAt V c (n + 1) hn = (k0_pay3 (iblk V c 0 ⟨n + 1, hn⟩) (accAt V c n (Nat.lt_of_succ_lt hn)).1 (iblk V c 2 ⟨n + 1, hn⟩),
          k0_pay4 (iblk V c 0 ⟨n + 1, hn⟩) (accAt V c n (Nat.lt_of_succ_lt hn)).2) := by
        show (if (n + 1) % 8 = 0 then _ else _) = _
        rw [if_neg h0]
      have ih := acc_inv n (Nat.lt_of_succ_lt hn) p
      have hdiv : (n + 1) / 8 = n / 8 := by omega
      have hmod : (n + 1) % 8 = n % 8 + 1 := by omega
      have hrow : rowOf (n + 1) hN p = rowOf n (by omega) p := Fin.ext (by show 1024 * ((n + 1) / 8) + p.val = 1024 * (n / 8) + p.val; rw [hdiv])
      have hlt : n % 8 + 1 < 8 := by omega
      rw [e]
      refine ⟨fun f => ?_, fun u => ?_⟩
      · dsimp only
        rw [Cert.KernelIdeal.Pay0.pay3_apply, ih.1 f, hmod, hrow]
        show _ = running (nbBlock V c _ f) (n % 8) + nbBlock V c _ f (n % 8 + 1)
        refine congrArg (running (nbBlock V c (rowOf n _ p) f) (n % 8) + ·) ?_
        unfold nbBlock
        rw [dif_pos hlt]
        refine Finset.sum_congr rfl fun l _ => ?_
        rw [iblk0_apply V c ⟨n + 1, hn⟩ p l (rowOf n (by omega) p) (col ⟨n % 8 + 1, hlt⟩ l)
            (by show 1024 * (n / 8) + p.val = 1024 * ((n + 1) / 8) + p.val; rw [hdiv])
            (by show 2048 * (n % 8 + 1) + l.val = 2048 * ((n + 1) % 8) + l.val; rw [hmod]),
          iblk2_apply V c ⟨n + 1, hn⟩ l f (col ⟨n % 8 + 1, hlt⟩ l)
            (by show 2048 * (n % 8 + 1) + l.val = 2048 * ((n + 1) % 8) + l.val; rw [hmod])]
      · dsimp only
        rw [Cert.KernelIdeal.Pay0.pay4_apply, ih.2 u, hmod, hrow]
        show _ = running (degBlock V c _) (n % 8) + degBlock V c _ (n % 8 + 1)
        refine congrArg (running (degBlock V c (rowOf n _ p)) (n % 8) + ·) ?_
        unfold degBlock
        rw [dif_pos hlt]
        refine Finset.sum_congr rfl fun l _ => ?_
        exact iblk0_apply V c ⟨n + 1, hn⟩ p l (rowOf n (by omega) p) (col ⟨n % 8 + 1, hlt⟩ l)
            (by show 1024 * (n / 8) + p.val = 1024 * ((n + 1) / 8) + p.val; rw [hdiv])
            (by show 2048 * (n % 8 + 1) + l.val = 2048 * ((n + 1) % 8) + l.val; rw [hmod])

/-! ## The stored block is the layer at its rows -/

/-- At a point with k = 7 the stored block's entry (p, e) is the layer's output at row 1024·(t/8) + p. -/
theorem outAt_apply (t : Fin cfg0.N) (h7 : t.val % 8 = 7) (p : Fin 1024) (e : Fin 128) :
    outAt V c t (ix2 p e)
      = Cert.Spec.enc (adj V c) (feat V c) (wS V c) (wN V c) (bias V c)
          (rowOf t.val (lt_of_lt_of_eq t.isLt (show cfg0.N = 128 from N_0)) p) e := by
  have hN : t.val < 128 := lt_of_lt_of_eq t.isLt (show cfg0.N = 128 from N_0)
  unfold outAt
  rw [Cert.KernelIdeal.Pay0.pay5_apply, Cert.Spec.enc_eq_rowEnc]
  have hi := acc_inv V c t.val t.isLt p
  have h1 : (fun f => iblk V c 1 t (ix2 p f)) = feat V c (rowOf t.val hN p) :=
    funext fun f => iblk1_apply V c t p f (rowOf t.val hN p) rfl
  have h2 : (fun f => (accAt V c t.val t.isLt).1 (ix2 p f)) = fun f => ∑ j, adj V c (rowOf t.val hN p) j * feat V c j f :=
    funext fun f => by
      rw [hi.1 f, h7]
      exact Cert.Spec.running_seven (fun j => adj V c (rowOf t.val hN p) j * feat V c j f)
  have h3 : (accAt V c t.val t.isLt).2 (ix2 p (0 : Fin 1)) = Cert.Spec.deg (adj V c) (rowOf t.val hN p) := by
    rw [hi.2 0, h7]
    exact Cert.Spec.running_seven (fun j => adj V c (rowOf t.val hN p) j)
  have h4 : (fun f e => iblk V c 3 t (ix2 f e)) = wS V c := funext fun f => funext fun e => iblk3_apply V c t f e
  have h5 : (fun f e => iblk V c 4 t (ix2 f e)) = wN V c := funext fun f => funext fun e => iblk4_apply V c t f e
  have h6 : (fun e => iblk V c 5 t (ix2 (0 : Fin 1) e)) = bias V c := funext fun e => iblk5_apply V c t e
  rw [h1, h2, h3, h4, h5, h6]

/-! ## From the written blocks to the array -/

/-- What a point with k = 7 writes back is the layer's output read through the point's block of the output array. -/
theorem flushed_eq (t : Fin cfg0.N) (hf : (cfg0.win 6).flush t = true) :
    (dat V c).flushed 6 t = ((cfg0.win 6).blk t).view.read (Elt Ideal) (G V c) := by
  have h7 : t.val % 8 = 7 := (flush0_6 t).mp hf
  have hN : t.val < 128 := lt_of_lt_of_eq t.isLt (show cfg0.N = 128 from N_0)
  show (cfg0.win 6).cut (grid0.coords t) ((dat V c).after 6 t) = _
  rw [after_6]
  funext y
  rw [View.read_apply]
  have hy0 : (y 0).val < 1024 := (y 0).isLt
  have hy1 : (y 1).val < 128 := (y 1).isLt
  have hx : (cfg0.win 6).xinj (grid0.coords t) y = ix2 (⟨(y 0).val, hy0⟩ : Fin 1024) (⟨(y 1).val, hy1⟩ : Fin 128) :=
    funext fun a => Fin.ext (by match a with | ⟨0, _⟩ => rfl | ⟨1, _⟩ => rfl)
  show outAt V c t ((cfg0.win 6).xinj (grid0.coords t) y) = G V c _
  rw [hx, outAt_apply V c t h7]
  unfold G
  refine congrArg₂ (Cert.Spec.enc (adj V c) (feat V c) (wS V c) (wN V c) (bias V c)) (Fin.ext ?_) (Fin.ext ?_)
  · show 1024 * (t.val / 8) + (y 0).val = win0_6.index t 0 * 1024 + 1 * (y 0).val
    rw [(idx_6 t).1]; omega
  · show (y 1).val = win0_6.index t 1 * 128 + 1 * (y 1).val
    rw [(idx_6 t).2]; omega

/-- THE RESULT: the output array ends holding the layer's output. -/
theorem final : (dat V c).arrAt 6 cfg0.N = G V c :=
  (dat V c).arrAt_eq_of_cover 6 (G V c) (flushed_eq V c) fun i => by
    have h0 : (i 0 : Nat) < 16384 := (i 0).isLt
    have h1 : (i 1 : Nat) < 128 := (i 1).isLt
    have hN : cfg0.N = 128 := N_0
    let t₀ : Fin cfg0.N := ⟨8 * ((i 0 : Nat) / 1024) + 7, by rw [hN]; omega⟩
    refine ⟨t₀, (flush0_6 t₀).mpr (by show (8 * ((i 0 : Nat) / 1024) + 7) % 8 = 7; omega), ?_⟩
    show i ∈ ((View.whole main_v4).slice (win0_6.rect t₀)).set
    rw [View.set_slice_whole, Rect.mem_set_unit]
    intro a
    match a with
    | ⟨0, _⟩ =>
      show win0_6.index t₀ 0 * 1024 ≤ (i 0 : Nat) ∧ (i 0 : Nat) < win0_6.index t₀ 0 * 1024 + 1024
      rw [(idx_6 t₀).1]
      show (8 * ((i 0 : Nat) / 1024) + 7) / 8 * 1024 ≤ (i 0 : Nat) ∧ (i 0 : Nat) < (8 * ((i 0 : Nat) / 1024) + 7) / 8 * 1024 + 1024
      omega
    | ⟨1, _⟩ =>
      show win0_6.index t₀ 1 * 128 ≤ (i 1 : Nat) ∧ (i 1 : Nat) < win0_6.index t₀ 1 * 128 + 128
      rw [(idx_6 t₀).2]
      omega

/-- The same, entry by entry. -/
theorem final_apply (n : Fin 16384) (e : Fin 128) :
    (dat V c).arrAt 6 cfg0.N (ix2 n e) = Cert.Spec.enc (adj V c) (feat V c) (wS V c) (wN V c) (bias V c) n e := by
  rw [final]; rfl

end Cert.KernelIdeal.Value0

end
-- ==== Proof.PayIdeal1.lean ====
/-
  The body's arithmetic of region 1, read at one entry on the extended reals.

  The five stored values of the body are pure functions of the blocks the body loaded. At the ideal instance a change of
  float format is the identity and a product into a zero accumulator is the plain sum of products, so at one entry:
  the two restart values are 0; the neighbour accumulator's update adds the block product's entry; the degree's update
  adds the block's row sum; and the encoded block is `Spec.rowEnc` of the row's own features, the row of the neighbour
  accumulator and the row's accumulated degree, against the two weight halves and the bias row.
-/
import proofs.«128407_j39814346834350_1_alg».proof.Proof.Gen.KernelIdeal.Skeleton
import proofs.«128407_j39814346834350_1_alg».proof.Proof.LibPlainDot
import proofs.«128407_j39814346834350_1_alg».proof.Proof.LibColumn
import proofs.«128407_j39814346834350_1_alg».proof.Proof.SpecRow
import Idealize.ShloMosaic.Lib.ValueLayout
import Idealize.ShloMosaic.Lib.Pipeline.Value

noncomputable section

open scoped BigOperators

namespace Cert.KernelIdeal.Pay1

open Cert.KernelIdeal Cert.KernelIdeal.Gen Cert.KernelIdeal.Facts₀
open Idealize.ShloMosaic Idealize.ShloMosaic.ValueIdx

/-- The restart value of the neighbour accumulator is zero everywhere. -/
theorem pay1_apply (p : Fin 1024) (f : Fin 128) : k1_pay1 (F := Ideal) (ix2 p f) = 0 := by
  unfold k1_pay1
  rw [shapeCast_self]
  exact Ideal.ofBits_zero_f32

/-- The restart value of the degree accumulator is zero everywhere. -/
theorem pay2_apply (p : Fin 1024) (u : Fin 1) : k1_pay2 (F := Ideal) (ix2 p u) = 0 := by
  unfold k1_pay2
  rw [shapeCast_self]
  exact Ideal.ofBits_zero_f32

/-- The neighbour accumulator's update: the old entry plus the entry of the block product. -/
theorem pay3_apply (v3 : Vec Ideal S1024x2048 .f32) (v4 : Vec Ideal S1024x128 .f32) (v6 : Vec Ideal S2048x128 .f32)
    (p : Fin 1024) (f : Fin 128) :
    k1_pay3 v3 v4 v6 (ix2 p f) = v4 (ix2 p f) + ∑ l : Fin 2048, v3 (ix2 p l) * v6 (ix2 l f) := by
  unfold k1_pay3
  rw [shapeCast_self]
  show v4 (ix2 p f) + _ = _
  refine congrArg (v4 (ix2 p f) + ·) ?_
  refine (Cert.LibPlainDot.matmul_zero_apply (M := 1024) (K := 2048) (N := 128) none _ _ p f).trans ?_
  refine Finset.sum_congr rfl fun l _ => ?_
  rw [shapeCast_self]; rfl

/-- The degree accumulator's update: the old entry plus the block's row sum. -/
theorem pay4_apply (v3 : Vec Ideal S1024x2048 .f32) (v13 : Vec Ideal S1024x1 .f32) (p : Fin 1024) (u : Fin 1) :
    k1_pay4 v3 v13 (ix2 p u) = v13 (ix2 p u) + ∑ l : Fin 2048, v3 (ix2 p l) := by
  unfold k1_pay4
  rw [shapeCast_self]
  show v13 (ix2 p u) + _ = _
  refine congrArg (v13 (ix2 p u) + ·) ?_
  refine (Cert.LibColumn.shapeCast_a_a1_apply (a := 1024) _ _ p u).trans ?_
  exact Cert.LibColumn.rowSum_apply (a := 1024) (b := 2048) v3 _ _ _ p

end Cert.KernelIdeal.Pay1

end
-- ==== Proof.PayIdeal1b.lean ====
/-
  The encoded block of region 1 at one entry: `Spec.rowEnc` of the row's data.

  The last stored value divides the neighbour accumulator's row by the row's degree, applies the two weight halves to the
  row's own features and to that quotient, adds the bias row, rectifies, and divides the row by its Euclidean length
  guarded below by the 1e-12 word. Read at entry (p, e) this is `Spec.rowEnc` of: the own-feature row p, the accumulator
  row p, the degree entry (p, 0), the two weight halves and the bias row.
-/
import proofs.«128407_j39814346834350_1_alg».proof.Proof.Gen.KernelIdeal.Skeleton
import proofs.«128407_j39814346834350_1_alg».proof.Proof.LibPlainDot
import proofs.«128407_j39814346834350_1_alg».proof.Proof.LibColumn
import proofs.«128407_j39814346834350_1_alg».proof.Proof.SpecRow
import Idealize.ShloMosaic.Lib.ValueLayout
import Idealize.ShloMosaic.Lib.Pipeline.Value

noncomputable section

open scoped BigOperators

namespace Cert.KernelIdeal.Pay1

open Cert.KernelIdeal Cert.KernelIdeal.Facts₀
open Cert.KernelIdeal.Gen (k1_pay1 k1_pay2 k1_pay3 k1_pay4 k1_pay5)
open Idealize.ShloMosaic Idealize.ShloMosaic.ValueIdx

/-- The rectified affine block as the body computes it: (own features · first weight half) + ((accumulator / degree) ·
    second weight half) + bias row, then the maximum with zero. -/
def actV (v23 : Vec Ideal S1024x128 .f32) (v24 : Vec Ideal S1024x1 .f32) (v27 : Vec Ideal S1024x128 .f32)
    (v29 v34 : Vec Ideal S128x128 .f32) (v39 : Vec Ideal S1x128 .f32) : FVec Ideal S1024x128 .f32 :=
  maximumf
    (addf
      (addf
        (matmul dot_S1024x128_S128x128_S1024x128_1_0_0_1_n_n none (truncf .bf16 (shapeCast S1024x128 v27 shapeCasts_S1024x128_S1024x128) bitsLt_bf16_f32)
          (truncf .bf16 (shapeCast S128x128 v29 shapeCasts_S128x128_S128x128) bitsLt_bf16_f32) (constant S1024x128 .f32 0x00000000#32))
        (matmul dot_S1024x128_S128x128_S1024x128_1_0_0_1_n_n none
          (truncf .bf16 (divf v23 (broadcastTo S1024x128 v24 broadcasts_S1024x1_S1024x128)) bitsLt_bf16_f32)
          (truncf .bf16 (shapeCast S128x128 v34 shapeCasts_S128x128_S128x128) bitsLt_bf16_f32) (constant S1024x128 .f32 0x00000000#32)))
      (broadcastTo S1024x128 (shapeCast S1x128 v39 shapeCasts_S1x128_S1x128) broadcasts_S1x128_S1024x128))
    (broadcast S1024x128 (Scalar.ofBits .f32 0x00000000#32))

/-- The stored block is the rectified block divided, row by row, by the row's guarded length. -/
theorem pay5_eq (v23 : Vec Ideal S1024x128 .f32) (v24 : Vec Ideal S1024x1 .f32) (v27 : Vec Ideal S1024x128 .f32)
    (v29 v34 : Vec Ideal S128x128 .f32) (v39 : Vec Ideal S1x128 .f32) :
    k1_pay5 v23 v24 v27 v29 v34 v39
      = divf (actV v23 v24 v27 v29 v34 v39)
          (broadcastTo S1024x128
            (maximumf
              (sqrt (shapeCast S1024x1
                (multiReduction .add [1] S1024 (mulf (actV v23 v24 v27 v29 v34 v39) (actV v23 v24 v27 v29 v34 v39)) 0x00000000#32
                  reduces_S1024x128_S1024 (.inl rfl) rfl) shapeCasts_S1024_S1024x1))
              (broadcast S1024x1 (Scalar.ofBits .f32 0x2B8CBCCC#32)))
            broadcasts_S1024x1_S1024x128) := rfl

/-- The rectified block at entry (p, e). -/
theorem actV_apply (v23 : Vec Ideal S1024x128 .f32) (v24 : Vec Ideal S1024x1 .f32) (v27 : Vec Ideal S1024x128 .f32)
    (v29 v34 : Vec Ideal S128x128 .f32) (v39 : Vec Ideal S1x128 .f32) (p : Fin 1024) (e : Fin 128) :
    actV v23 v24 v27 v29 v34 v39 (ix2 p e)
      = Cert.Spec.rowAct (fun f => v27 (ix2 p f)) (fun f => v23 (ix2 p f)) (v24 (ix2 p (0 : Fin 1)))
          (fun f e => v29 (ix2 f e)) (fun f e => v34 (ix2 f e)) (fun e => v39 (ix2 (0 : Fin 1) e)) e := by
  unfold actV Cert.Spec.rowAct Cert.Spec.rowLin
  refine congrArg₂ max ?_ rfl
  refine congrArg₂ (· + ·) (congrArg₂ (· + ·) ?_ ?_) ?_
  · refine (Cert.LibPlainDot.matmul_zero_apply (M := 1024) (K := 128) (N := 128) none _ _ p e).trans ?_
    refine Finset.sum_congr rfl fun f _ => ?_
    rw [shapeCast_self, shapeCast_self]; rfl
  · refine (Cert.LibPlainDot.matmul_zero_apply (M := 1024) (K := 128) (N := 128) none _ _ p e).trans ?_
    refine Finset.sum_congr rfl fun f _ => ?_
    rw [shapeCast_self]
    exact congrArg (fun z => Ideal.div (v23 (ix2 p f)) z * v34 (ix2 f e))
      (Cert.LibColumn.broadcastTo_a1_ab_apply (a := 1024) (b := 128) v24 _ p f)
  · refine (broadcastTo_1b_ab_apply (a := 1024) (b := 128) _ _ p e).trans ?_
    rw [shapeCast_self]

/-- The stored block at entry (p, e) is `Spec.rowEnc` of row p's data. -/
theorem pay5_apply (v23 : Vec Ideal S1024x128 .f32) (v24 : Vec Ideal S1024x1 .f32) (v27 : Vec Ideal S1024x128 .f32)
    (v29 v34 : Vec Ideal S128x128 .f32) (v39 : Vec Ideal S1x128 .f32) (p : Fin 1024) (e : Fin 128) :
    k1_pay5 v23 v24 v27 v29 v34 v39 (ix2 p e)
      = Cert.Spec.rowEnc (fun f => v27 (ix2 p f)) (fun f => v23 (ix2 p f)) (v24 (ix2 p (0 : Fin 1)))
          (fun f e => v29 (ix2 f e)) (fun f e => v34 (ix2 f e)) (fun e => v39 (ix2 (0 : Fin 1) e)) e := by
  rw [pay5_eq]
  unfold Cert.Spec.rowEnc
  show Ideal.div (actV v23 v24 v27 v29 v34 v39 (ix2 p e)) _ = _
  rw [actV_apply]
  refine congrArg (Ideal.div _) ?_
  refine (Cert.LibColumn.broadcastTo_a1_ab_apply (a := 1024) (b := 128) _ _ p e).trans ?_
  show max (Ideal.sqrt _) _ = max (Ideal.sqrt _) Cert.Spec.eps
  refine congrArg₂ max (congrArg Ideal.sqrt ?_) rfl
  refine (Cert.LibColumn.shapeCast_a_a1_apply (a := 1024) _ _ p 0).trans ?_
  refine (Cert.LibColumn.rowSum_apply (a := 1024) (b := 128) _ _ _ _ p).trans ?_
  refine Finset.sum_congr rfl fun e' _ => ?_
  show actV v23 v24 v27 v29 v34 v39 (ix2 p e') * actV v23 v24 v27 v29 v34 v39 (ix2 p e') = _
  rw [actV_apply]

end Cert.KernelIdeal.Pay1

end
-- ==== Proof.IdealValue1.lean ====
/-
  What region 1 leaves in its output array, at the ideal instance: one layer of the encoder.

  The region reads five arrays as it finds them: the adjacency `adj`, the node features `feat` (through two windows: the
  row block of the own features and the row block of the neighbours' features), the two weight halves `wS`, `wN` and the
  bias row. At grid point t = 8·i + k the adjacency window holds rows 1024·i … and columns 2048·k …, the neighbour window
  the feature rows 2048·k …. By induction on the point, after point t the neighbour accumulator's entry (p, f) is the
  running sum over the column blocks 0 … k of Σ_l adj(1024·i + p, 2048·k' + l) · feat(2048·k' + l, f), started from zero at
  k = 0, and the degree accumulator's entry is the same running sum of the adjacency entries alone. At k = 7 the running
  sums are the full sums over all 16384 columns, so the block stored there is `Spec.enc` at rows 1024·i …; that block is
  written back to rows 1024·i … of the output, and the sixteen written blocks tile it. So the output array ends holding
  `Spec.enc adj feat wS wN bias` at every entry.
-/
import proofs.«128407_j39814346834350_1_alg».proof.Proof.IdealBody1Defs
import proofs.«128407_j39814346834350_1_alg».proof.Proof.PayIdeal1
import proofs.«128407_j39814346834350_1_alg».proof.Proof.PayIdeal1b
import proofs.«128407_j39814346834350_1_alg».proof.Proof.SpecRow
import Idealize.ShloMosaic.Lib.Pipeline.Value
import Idealize.ShloMosaic.Lib.ValueIdx

set_option maxRecDepth 16384

noncomputable section

open scoped BigOperators

namespace Cert.KernelIdeal.Value1

open Cert.KernelIdeal Cert.KernelIdeal.Body1
open Cert.KernelIdeal.Gen (N_1 flush1_6 k1_pay1 k1_pay2 k1_pay3 k1_pay4 k1_pay5)
open Idealize.ShloMosaic Idealize.ShloMosaic.TcCoe Idealize.ShloMosaic.ValueIdx Idealize.SL.Sem
open Idealize.ShloMosaic.Pipeline (Dat)
open Cert.Spec (col running)

variable (V : (c : Dev nD) → (b : Ref sig .tc) → Buf (Elt Ideal) ((c : Thread nD τ).loc b)) (c : Dev nD)

/-! ## The arrays the region reads, as plain functions -/

/-- The adjacency. -/
def adj (n j : Fin 16384) : EReal := V c main_arg1 (ix2 n j)
/-- The node features. -/
def feat (n : Fin 16384) (f : Fin 128) : EReal := V c main_v4 (ix2 n f)
/-- The weight half that meets a node's own features. -/
def wS (f : Fin 128) (e : Fin 128) : EReal := V c main_v6 (ix2 f e)
/-- The weight half that meets the neighbour mean. -/
def wN (f : Fin 128) (e : Fin 128) : EReal := V c main_v7 (ix2 f e)
/-- The bias row. -/
def bias (e : Fin 128) : EReal := V c main_v8 (ix2 (0 : Fin 1) e)

/-- The layer's output as contents of the output array. -/
def G : S16384x128.Idx → EReal := fun i =>
  Cert.Spec.enc (adj V c) (feat V c) (wS V c) (wN V c) (bias V c) ⟨(i 0).val, idx2_lt0 i⟩ ⟨(i 1).val, idx2_lt1 i⟩

/-! ## Where each window's block sits at a point: decided over the 128 points -/

theorem idx_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem idx_1 : ∀ t : Fin cfg1.N, win1_1.index t 0 = t.val / 8 ∧ win1_1.index t 1 = 0 :=
  (by decide +kernel : ∀ t : Fin grid1.N, win1_1.index t 0 = t.val / 8 ∧ win1_1.index t 1 = 0)
theorem idx_2 : ∀ t : Fin cfg1.N, win1_2.index t 0 = t.val % 8 ∧ win1_2.index t 1 = 0 :=
  (by decide +kernel : ∀ t : Fin grid1.N, win1_2.index t 0 = t.val % 8 ∧ win1_2.index t 1 = 0)
theorem idx_3 : ∀ t : Fin cfg1.N, win1_3.index t 0 = 0 ∧ win1_3.index t 1 = 0 :=
  (by decide +kernel : ∀ t : Fin grid1.N, win1_3.index t 0 = 0 ∧ win1_3.index t 1 = 0)
theorem idx_4 : ∀ t : Fin cfg1.N, win1_4.index t 0 = 0 ∧ win1_4.index t 1 = 0 :=
  (by decide +kernel : ∀ t : Fin grid1.N, win1_4.index t 0 = 0 ∧ win1_4.index t 1 = 0)
theorem idx_5 : ∀ t : Fin cfg1.N, win1_5.index t 0 = 0 ∧ win1_5.index t 1 = 0 :=
  (by decide +kernel : ∀ t : Fin grid1.N, win1_5.index t 0 = 0 ∧ win1_5.index t 1 = 0)
theorem idx_6 : ∀ t : Fin cfg1.N, win1_6.index t 0 = t.val / 8 ∧ win1_6.index t 1 = 0 :=
  (by decide +kernel : ∀ t : Fin grid1.N, win1_6.index t 0 = t.val / 8 ∧ win1_6.index t 1 = 0)

/-! ## The windows' blocks read at an entry -/

/-- The adjacency block at point t: entry (p, l) is adj at row 1024·(t/8) + p, column 2048·(t%8) + l. -/
theorem iblk0_apply (t : Fin cfg1.N) (p : Fin 1024) (l : Fin 2048) (n j : Fin 16384)
    (hn : n.val = 1024 * (t.val / 8) + p.val) (hj : j.val = 2048 * (t.val % 8) + l.val) :
    iblk V c 0 t (ix2 p l) = adj V c n j := by
  unfold iblk adj
  rw [View.read_apply]
  show V c main_arg1 _ = V c main_arg1 _
  refine congrArg (V c main_arg1) (funext fun a => Fin.ext ?_)
  match a with
  | ⟨0, _⟩ => show win1_0.index t 0 * 1024 + 1 * p.val = n.val; rw [(idx_0 t).1, hn]; omega
  | ⟨1, _⟩ => show win1_0.index t 1 * 2048 + 1 * l.val = j.val; rw [(idx_0 t).2, hj]; omega

/-- The own-feature block at point t: entry (p, f) is feat at row 1024·(t/8) + p. -/
theorem iblk1_apply (t : Fin cfg1.N) (p : Fin 1024) (f : Fin 128) (n : Fin 16384)
    (hn : n.val = 1024 * (t.val / 8) + p.val) :
    iblk V c 1 t (ix2 p f) = feat V c n f := by
  unfold iblk feat
  rw [View.read_apply]
  show V c main_v4 _ = V c main_v4 _
  refine congrArg (V c main_v4) (funext fun a => Fin.ext ?_)
  match a with
  | ⟨0, _⟩ => show win1_1.index t 0 * 1024 + 1 * p.val = n.val; rw [(idx_1 t).1, hn]; omega
  | ⟨1, _⟩ => show win1_1.index t 1 * 128 + 1 * f.val = f.val; rw [(idx_1 t).2]; omega

/-- The neighbour-feature block at point t: entry (l, f) is feat at row 2048·(t%8) + l. -/
theorem iblk2_apply (t : Fin cfg1.N) (l : Fin 2048) (f : Fin 128) (j : Fin 16384)
    (hj : j.val = 2048 * (t.val % 8) + l.val) :
    iblk V c 2 t (ix2 l f) = feat V c j f := by
  unfold iblk feat
  rw [View.read_apply]
  show V c main_v4 _ = V c main_v4 _
  refine congrArg (V c main_v4) (funext fun a => Fin.ext ?_)
  match a with
  | ⟨0, _⟩ => show win1_2.index t 0 * 2048 + 1 * l.val = j.val; rw [(idx_2 t).1, hj]; omega
  | ⟨1, _⟩ => show win1_2.index t 1 * 128 + 1 * f.val = f.val; rw [(idx_2 t).2]; omega

/-- The three resident operands are their whole arrays at every point. -/
theorem iblk3_apply (t : Fin cfg1.N) (f : Fin 128) (e : Fin 128) : iblk V c 3 t (ix2 f e) = wS V c f e := by
  unfold iblk wS
  rw [View.read_apply]
  show V c main_v6 _ = V c main_v6 _
  refine congrArg (V c main_v6) (funext fun a => Fin.ext ?_)
  match a with
  | ⟨0, _⟩ => show win1_3.index t 0 * 128 + 1 * f.val = f.val; rw [(idx_3 t).1]; omega
  | ⟨1, _⟩ => show win1_3.index t 1 * 128 + 1 * e.val = e.val; rw [(idx_3 t).2]; omega
theorem iblk4_apply (t : Fin cfg1.N) (f : Fin 128) (e : Fin 128) : iblk V c 4 t (ix2 f e) = wN V c f e := by
  unfold iblk wN
  rw [View.read_apply]
  show V c main_v7 _ = V c main_v7 _
  refine congrArg (V c main_v7) (funext fun a => Fin.ext ?_)
  match a with
  | ⟨0, _⟩ => show win1_4.index t 0 * 128 + 1 * f.val = f.val; rw [(idx_4 t).1]; omega
  | ⟨1, _⟩ => show win1_4.index t 1 * 128 + 1 * e.val = e.val; rw [(idx_4 t).2]; omega
theorem iblk5_apply (t : Fin cfg1.N) (e : Fin 128) : iblk V c 5 t (ix2 (0 : Fin 1) e) = bias V c e := by
  unfold iblk bias
  rw [View.read_apply]
  show V c main_v8 _ = V c main_v8 _
  refine congrArg (V c main_v8) (funext fun a => Fin.ext ?_)
  match a with
  | ⟨0, _⟩ => show win1_5.index t 0 * 1 + 1 * 0 = 0; rw [(idx_5 t).1]
  | ⟨1, _⟩ => show win1_5.index t 1 * 128 + 1 * e.val = e.val; rw [(idx_5 t).2]; omega

/-! ## The two running sums -/

/-- Row 1024·(t/8) + p of the 16384 rows. -/
def rowOf (t : ℕ) (ht : t < 128) (p : Fin 1024) : Fin 16384 := ⟨1024 * (t / 8) + p.val, by have := p.isLt; omega⟩

/-- Column block k''s contribution to the neighbour sum of row n, feature f (zero beyond the eight blocks). -/
def nbBlock (n : Fin 16384) (f : Fin 128) (k' : ℕ) : EReal :=
  if h : k' < 8 then ∑ l : Fin 2048, adj V c n (col ⟨k', h⟩ l) * feat V c (col ⟨k', h⟩ l) f else 0
/-- Column block k''s contribution to the degree of row n. -/
def degBlock (n : Fin 16384) (k' : ℕ) : EReal :=
  if h : k' < 8 then ∑ l : Fin 2048, adj V c n (col ⟨k', h⟩ l) else 0

/-- One point's two updates from zero: the block's own contribution. -/
theorem first_step (t : Fin cfg1.N) (h0 : t.val % 8 = 0) (p : Fin 1024) :
    (∀ f : Fin 128, k1_pay3 (iblk V c 0 t) (k1_pay1 (F := Ideal)) (iblk V c 2 t) (ix2 p f)
        = running (nbBlock V c (rowOf t.val (lt_of_lt_of_eq t.isLt (show cfg1.N = 128 from N_1)) p) f) (t.val % 8))
    ∧ (∀ u : Fin 1, k1_pay4 (iblk V c 0 t) (k1_pay2 (F := Ideal)) (ix2 p u)
        = running (degBlock V c (rowOf t.val (lt_of_lt_of_eq t.isLt (show cfg1.N = 128 from N_1)) p)) (t.val % 8)) := by
  have hk : (⟨t.val % 8, by omega⟩ : Fin 8) = ⟨0, by omega⟩ := Fin.ext h0
  refine ⟨fun f => ?_, fun u => ?_⟩
  · rw [Cert.KernelIdeal.Pay1.pay3_apply, Cert.KernelIdeal.Pay1.pay1_apply, h0]
    show _ = 0 + nbBlock V c _ f 0
    refine congrArg (0 + ·) ?_
    unfold nbBlock
    rw [dif_pos (by omega : 0 < 8)]
    refine Finset.sum_congr rfl fun l _ => ?_
    rw [iblk0_apply V c t p l (rowOf t.val _ p) (col ⟨0, by omega⟩ l) rfl (by show 2048 * 0 + l.val = _; rw [h0]),
      iblk2_apply V c t l f (col ⟨0, by omega⟩ l) (by show 2048 * 0 + l.val = _; rw [h0])]
  · rw [Cert.KernelIdeal.Pay1.pay4_apply, Cert.KernelIdeal.Pay1.pay2_apply, h0]
    show _ = 0 + degBlock V c _ 0
    refine congrArg (0 + ·) ?_
    unfold degBlock
    rw [dif_pos (by omega : 0 < 8)]
    refine Finset.sum_congr rfl fun l _ => ?_
    exact iblk0_apply V c t p l (rowOf t.val _ p) (col ⟨0, by omega⟩ l) rfl (by show 2048 * 0 + l.val = _; rw [h0])

/-- THE INVARIANT: after point n the two accumulators hold, row by row, the running sums over the column blocks
    0 … n % 8 of row 1024·(n/8) + p. -/
theorem acc_inv : ∀ (n : ℕ) (hn : n < cfg1.N) (p : Fin 1024),
    (∀ f : Fin 128, (accAt V c n hn).1 (ix2 p f)
        = running (nbBlock V c (rowOf n (lt_of_lt_of_eq hn (show cfg1.N = 128 from N_1)) p) f) (n % 8))
    ∧ (∀ u : Fin 1, (accAt V c n hn).2 (ix2 p u)
        = running (degBlock V c (rowOf n (lt_of_lt_of_eq hn (show cfg1.N = 128 from N_1)) p)) (n % 8))
  | 0, hn, p => first_step V c ⟨0, hn⟩ rfl p
  | n + 1, hn, p => by
    have hN : n + 1 < 128 := lt_of_lt_of_eq hn (show cfg1.N = 128 from N_1)
    by_cases h0 : (n + 1) % 8 = 0
    · have e : accAt V c (n + 1) hn = (k1_pay3 (iblk V c 0 ⟨n + 1, hn⟩) (k1_pay1 (F := Ideal)) (iblk V c 2 ⟨n + 1, hn⟩),
          k1_pay4 (iblk V c 0 ⟨n + 1, hn⟩) (k1_pay2 (F := Ideal))) := by
        show (if (n + 1) % 8 = 0 then _ else _) = _
        rw [if_pos h0]
      rw [e]
      exact first_step V c ⟨n + 1, hn⟩ h0 p
    · have e : accAt V c (n + 1) hn = (k1_pay3 (iblk V c 0 ⟨n + 1, hn⟩) (accAt V c n (Nat.lt_of_succ_lt hn)).1 (iblk V c 2 ⟨n + 1, hn⟩),
          k1_pay4 (iblk V c 0 ⟨n + 1, hn⟩) (accAt V c n (Nat.lt_of_succ_lt hn)).2) := by
        show (if (n + 1) % 8 = 0 then _ else _) = _
        rw [if_neg h0]
      have ih := acc_inv n (Nat.lt_of_succ_lt hn) p
      have hdiv : (n + 1) / 8 = n / 8 := by omega
      have hmod : (n + 1) % 8 = n % 8 + 1 := by omega
      have hrow : rowOf (n + 1) hN p = rowOf n (by omega) p := Fin.ext (by show 1024 * ((n + 1) / 8) + p.val = 1024 * (n / 8) + p.val; rw [hdiv])
      have hlt : n % 8 + 1 < 8 := by omega
      rw [e]
      refine ⟨fun f => ?_, fun u => ?_⟩
      · dsimp only
        rw [Cert.KernelIdeal.Pay1.pay3_apply, ih.1 f, hmod, hrow]
        show _ = running (nbBlock V c _ f) (n % 8) + nbBlock V c _ f (n % 8 + 1)
        refine congrArg (running (nbBlock V c (rowOf n _ p) f) (n % 8) + ·) ?_
        unfold nbBlock
        rw [dif_pos hlt]
        refine Finset.sum_congr rfl fun l _ => ?_
        rw [iblk0_apply V c ⟨n + 1, hn⟩ p l (rowOf n (by omega) p) (col ⟨n % 8 + 1, hlt⟩ l)
            (by show 1024 * (n / 8) + p.val = 1024 * ((n + 1) / 8) + p.val; rw [hdiv])
            (by show 2048 * (n % 8 + 1) + l.val = 2048 * ((n + 1) % 8) + l.val; rw [hmod]),
          iblk2_apply V c ⟨n + 1, hn⟩ l f (col ⟨n % 8 + 1, hlt⟩ l)
            (by show 2048 * (n % 8 + 1) + l.val = 2048 * ((n + 1) % 8) + l.val; rw [hmod])]
      · dsimp only
        rw [Cert.KernelIdeal.Pay1.pay4_apply, ih.2 u, hmod, hrow]
        show _ = running (degBlock V c _) (n % 8) + degBlock V c _ (n % 8 + 1)
        refine congrArg (running (degBlock V c (rowOf n _ p)) (n % 8) + ·) ?_
        unfold degBlock
        rw [dif_pos hlt]
        refine Finset.sum_congr rfl fun l _ => ?_
        exact iblk0_apply V c ⟨n + 1, hn⟩ p l (rowOf n (by omega) p) (col ⟨n % 8 + 1, hlt⟩ l)
            (by show 1024 * (n / 8) + p.val = 1024 * ((n + 1) / 8) + p.val; rw [hdiv])
            (by show 2048 * (n % 8 + 1) + l.val = 2048 * ((n + 1) % 8) + l.val; rw [hmod])

/-! ## The stored block is the layer at its rows -/

/-- At a point with k = 7 the stored block's entry (p, e) is the layer's output at row 1024·(t/8) + p. -/
theorem outAt_apply (t : Fin cfg1.N) (h7 : t.val % 8 = 7) (p : Fin 1024) (e : Fin 128) :
    outAt V c t (ix2 p e)
      = Cert.Spec.enc (adj V c) (feat V c) (wS V c) (wN V c) (bias V c)
          (rowOf t.val (lt_of_lt_of_eq t.isLt (show cfg1.N = 128 from N_1)) p) e := by
  have hN : t.val < 128 := lt_of_lt_of_eq t.isLt (show cfg1.N = 128 from N_1)
  unfold outAt
  rw [Cert.KernelIdeal.Pay1.pay5_apply, Cert.Spec.enc_eq_rowEnc]
  have hi := acc_inv V c t.val t.isLt p
  have h1 : (fun f => iblk V c 1 t (ix2 p f)) = feat V c (rowOf t.val hN p) :=
    funext fun f => iblk1_apply V c t p f (rowOf t.val hN p) rfl
  have h2 : (fun f => (accAt V c t.val t.isLt).1 (ix2 p f)) = fun f => ∑ j, adj V c (rowOf t.val hN p) j * feat V c j f :=
    funext fun f => by
      rw [hi.1 f, h7]
      exact Cert.Spec.running_seven (fun j => adj V c (rowOf t.val hN p) j * feat V c j f)
  have h3 : (accAt V c t.val t.isLt).2 (ix2 p (0 : Fin 1)) = Cert.Spec.deg (adj V c) (rowOf t.val hN p) := by
    rw [hi.2 0, h7]
    exact Cert.Spec.running_seven (fun j => adj V c (rowOf t.val hN p) j)
  have h4 : (fun f e => iblk V c 3 t (ix2 f e)) = wS V c := funext fun f => funext fun e => iblk3_apply V c t f e
  have h5 : (fun f e => iblk V c 4 t (ix2 f e)) = wN V c := funext fun f => funext fun e => iblk4_apply V c t f e
  have h6 : (fun e => iblk V c 5 t (ix2 (0 : Fin 1) e)) = bias V c := funext fun e => iblk5_apply V c t e
  rw [h1, h2, h3, h4, h5, h6]

/-! ## From the written blocks to the array -/

/-- What a point with k = 7 writes back is the layer's output read through the point's block of the output array. -/
theorem flushed_eq (t : Fin cfg1.N) (hf : (cfg1.win 6).flush t = true) :
    (dat V c).flushed 6 t = ((cfg1.win 6).blk t).view.read (Elt Ideal) (G V c) := by
  have h7 : t.val % 8 = 7 := (flush1_6 t).mp hf
  have hN : t.val < 128 := lt_of_lt_of_eq t.isLt (show cfg1.N = 128 from N_1)
  show (cfg1.win 6).cut (grid1.coords t) ((dat V c).after 6 t) = _
  rw [after_6]
  funext y
  rw [View.read_apply]
  have hy0 : (y 0).val < 1024 := (y 0).isLt
  have hy1 : (y 1).val < 128 := (y 1).isLt
  have hx : (cfg1.win 6).xinj (grid1.coords t) y = ix2 (⟨(y 0).val, hy0⟩ : Fin 1024) (⟨(y 1).val, hy1⟩ : Fin 128) :=
    funext fun a => Fin.ext (by match a with | ⟨0, _⟩ => rfl | ⟨1, _⟩ => rfl)
  show outAt V c t ((cfg1.win 6).xinj (grid1.coords t) y) = G V c _
  rw [hx, outAt_apply V c t h7]
  unfold G
  refine congrArg₂ (Cert.Spec.enc (adj V c) (feat V c) (wS V c) (wN V c) (bias V c)) (Fin.ext ?_) (Fin.ext ?_)
  · show 1024 * (t.val / 8) + (y 0).val = win1_6.index t 0 * 1024 + 1 * (y 0).val
    rw [(idx_6 t).1]; omega
  · show (y 1).val = win1_6.index t 1 * 128 + 1 * (y 1).val
    rw [(idx_6 t).2]; omega

/-- THE RESULT: the output array ends holding the layer's output. -/
theorem final : (dat V c).arrAt 6 cfg1.N = G V c :=
  (dat V c).arrAt_eq_of_cover 6 (G V c) (flushed_eq V c) fun i => by
    have h0 : (i 0 : Nat) < 16384 := (i 0).isLt
    have h1 : (i 1 : Nat) < 128 := (i 1).isLt
    have hN : cfg1.N = 128 := N_1
    let t₀ : Fin cfg1.N := ⟨8 * ((i 0 : Nat) / 1024) + 7, by rw [hN]; omega⟩
    refine ⟨t₀, (flush1_6 t₀).mpr (by show (8 * ((i 0 : Nat) / 1024) + 7) % 8 = 7; omega), ?_⟩
    show i ∈ ((View.whole main_v9).slice (win1_6.rect t₀)).set
    rw [View.set_slice_whole, Rect.mem_set_unit]
    intro a
    match a with
    | ⟨0, _⟩ =>
      show win1_6.index t₀ 0 * 1024 ≤ (i 0 : Nat) ∧ (i 0 : Nat) < win1_6.index t₀ 0 * 1024 + 1024
      rw [(idx_6 t₀).1]
      show (8 * ((i 0 : Nat) / 1024) + 7) / 8 * 1024 ≤ (i 0 : Nat) ∧ (i 0 : Nat) < (8 * ((i 0 : Nat) / 1024) + 7) / 8 * 1024 + 1024
      omega
    | ⟨1, _⟩ =>
      show win1_6.index t₀ 1 * 128 ≤ (i 1 : Nat) ∧ (i 1 : Nat) < win1_6.index t₀ 1 * 128 + 128
      rw [(idx_6 t₀).2]
      omega

/-- The same, entry by entry. -/
theorem final_apply (n : Fin 16384) (e : Fin 128) :
    (dat V c).arrAt 6 cfg1.N (ix2 n e) = Cert.Spec.enc (adj V c) (feat V c) (wS V c) (wN V c) (bias V c) n e := by
  rw [final]; rfl

end Cert.KernelIdeal.Value1

end
-- ==== Proof.Tail.lean ====
/-
  The classifier head and the row softmax that both programs apply, on the host, to the selected rows of the second
  layer's output `h` (4096 × 128):

      z₁ = h · Wl1ᵀ + bl1          (4096 × 128)
      z₂ = z₁ · Wl2ᵀ + bl2         (4096 × 10)
      out(r, c) = exp (z₂(r,c) − max_c' z₂(r,c')) / Σ_c' exp (z₂(r,c') − max_c'' z₂(r,c''))

  written as the composition of the host operations exactly as printed (the row maximum is a fold from −∞ followed by a
  second maximum with −∞, as the softmax lowers). The two programs agree on `h`; this chain is then the same function
  on both sides and is never opened.
-/
import proofs.«128407_j39814346834350_1_alg».proof.Proof.Gen.KernelIdeal

noncomputable section

namespace Cert.Tail

open Cert.KernelIdeal Cert.KernelIdeal.Facts₀ Idealize.ShloMosaic

variable {F : FTy → Type} [FloatOps F]

/-- The head and the softmax of the selected rows `h`, from the two head weights and biases. -/
def tail (h : (⟨S4096x128, .f32⟩ : BufTy).Contents (Elt F)) (x7 : (⟨S128x128, .f32⟩ : BufTy).Contents (Elt F))
    (x8 : (⟨S128, .f32⟩ : BufTy).Contents (Elt F)) (x9 : (⟨S10x128, .f32⟩ : BufTy).Contents (Elt F))
    (x10 : (⟨S10, .f32⟩ : BufTy).Contents (Elt F)) : (⟨S4096x10, .f32⟩ : BufTy).Contents (Elt F) :=
  let v17 : (⟨S128x128, .f32⟩ : BufTy).Contents (Elt F) := transpose S128x128 [1, 0] x7 transposes_S128x128_S128x128_1_0
  let v18 : (⟨S4096x128, .f32⟩ : BufTy).Contents (Elt F) := Host.dotGeneral dot_S4096x128_S128x128_S4096x128_1_0_0_1_n_n none h v17
  let v19 : (⟨S1x128, .f32⟩ : BufTy).Contents (Elt F) := broadcastInDim S1x128 ![1] bcast_S128_S1x128_1 x8
  let v20 : (⟨S4096x128, .f32⟩ : BufTy).Contents (Elt F) := broadcastInDim S4096x128 ![0, 1] bcast_S1x128_S4096x128_0_1 v19
  let v21 : (⟨S4096x128, .f32⟩ : BufTy).Contents (Elt F) := addf v18 v20
  let v22 : (⟨S128x10, .f32⟩ : BufTy).Contents (Elt F) := transpose S128x10 [1, 0] x9 transposes_S10x128_S128x10_1_0
  let v23 : (⟨S4096x10, .f32⟩ : BufTy).Contents (Elt F) := Host.dotGeneral dot_S4096x128_S128x10_S4096x10_1_0_0_1_n_n none v21 v22
  let v24 : (⟨S1x10, .f32⟩ : BufTy).Contents (Elt F) := broadcastInDim S1x10 ![1] bcast_S10_S1x10_1 x10
  let v25 : (⟨S4096x10, .f32⟩ : BufTy).Contents (Elt F) := broadcastInDim S4096x10 ![0, 1] bcast_S1x10_S4096x10_0_1 v24
  let v26 : (⟨S4096x10, .f32⟩ : BufTy).Contents (Elt F) := addf v23 v25
  let cst : (⟨S_, .f32⟩ : BufTy).Contents (Elt F) := constant S_ .f32 0xFF800000#32
  let v27 : (⟨S4096, .f32⟩ : BufTy).Contents (Elt F) := Host.reduce FloatOps.maximumf v26 cst reducesTo_S4096x10_S4096_d1 h_S_
  let v28 : (⟨S4096, .f32⟩ : BufTy).Contents (Elt F) := broadcastInDim S4096 ![] bcast_S_S4096 cst
  let v29 : (⟨S4096, .f32⟩ : BufTy).Contents (Elt F) := maximumf v28 v27
  let v30 : (⟨S4096x1, .f32⟩ : BufTy).Contents (Elt F) := broadcastInDim S4096x1 ![0] bcast_S4096_S4096x1_0 v29
  let v31 : (⟨S4096x10, .f32⟩ : BufTy).Contents (Elt F) := broadcastInDim S4096x10 ![0, 1] bcast_S4096x1_S4096x10_0_1 v30
  let v32 : (⟨S4096x10, .f32⟩ : BufTy).Contents (Elt F) := subf v26 v31
  let v33 : (⟨S4096x10, .f32⟩ : BufTy).Contents (Elt F) := Host.exp v32
  let cst2 : (⟨S_, .f32⟩ : BufTy).Contents (Elt F) := constant S_ .f32 0x00000000#32
  let v34 : (⟨S4096, .f32⟩ : BufTy).Contents (Elt F) := Host.reduceAdd v33 cst2 reducesTo_S4096x10_S4096_d1 h_S_
  let v35 : (⟨S4096x1, .f32⟩ : BufTy).Contents (Elt F) := broadcastInDim S4096x1 ![0] bcast_S4096_S4096x1_0 v34
  let v36 : (⟨S4096x10, .f32⟩ : BufTy).Contents (Elt F) := broadcastInDim S4096x10 ![0, 1] bcast_S4096x1_S4096x10_0_1 v35
  Host.divf v33 v36

end Cert.Tail

end
-- ==== Proof.RefLib.lean ====
/-
  Two shape operations of the reference read at an index, at literal rank 2.

  * A row gather: operand `[N, M]`, start indices `[R, 1]`, result `[R, M]`, with the dimension numbers array
    indexing `x[idx]` by an integer vector lowers to (offset axis 1, collapsed axis 0, start index map `[0]`, index
    vector axis 1, slices `[1, M]`). Result element `(r, c)` is the operand at row `idx[r, 0]`, read signed and clamped
    into `[0, N - 1]`, column `c`.
  * A two-piece concatenation along axis 1, `[R, A]` and `[R, B]` into `[R, T]`: column `j` below `A` reads the first
    piece at `j`, column `A + k` the second at `k`.
-/
import Idealize.ShloMosaic.Lib.Pipeline.Value
import Idealize.ShloMosaic.Lib.ValueIdx
import Idealize.ShloMosaic.PureOps.Ideal.Laws

noncomputable section

open scoped BigOperators

namespace Cert.RefLib

open Idealize.ShloMosaic Idealize.ShloMosaic.ValueIdx

variable {α : Type}

/-- The row gather's dimension numbers. -/
abbrev rowDims (N M R : Nat)
    (wf : GatherDims.WF ⟨2, ![N, M]⟩ ⟨2, ![R, 1]⟩ ⟨2, ![R, M]⟩ [1] [0] [] [0] [] 1 ![1, M]) :
    GatherDims ⟨2, ![N, M]⟩ ⟨2, ![R, 1]⟩ ⟨2, ![R, M]⟩ where
  offsetDims := [1]
  collapsedSliceDims := [0]
  operandBatchingDims := []
  startIndicesBatchingDims := []
  startIndexMap := [0]
  indexVectorDim := 1
  sliceSizes := ![1, M]
  wf := wf

/-- The row gather read at `(r, c)`: the operand at the clamped start row, column `c`. -/
theorem gather_row_apply {N M R w : Nat} (hN : 0 < N)
    (wf : GatherDims.WF ⟨2, ![N, M]⟩ ⟨2, ![R, 1]⟩ ⟨2, ![R, M]⟩ [1] [0] [] [0] [] 1 ![1, M])
    (x : (⟨2, ![N, M]⟩ : Shape).Idx → α) (idx : IVec ⟨2, ![R, 1]⟩ w) (r : Fin R) (c : Fin M) :
    Host.gather (rowDims N M R wf) x idx (ix2 r c)
      = x (ix2 ⟨min (idx (ix2 r (0 : Fin 1))).toInt.toNat (N - 1), by omega⟩ c) := by
  unfold Host.gather
  refine congrArg x (funext fun a => Fin.ext ?_)
  show (rowDims N M R wf).start (ix2 r c) idx a + (rowDims N M R wf).batchCoord (ix2 r c) a
      + (rowDims N M R wf).offCoord (ix2 r c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims N M R wf).startIndexMap from List.mem_singleton.mpr rfl)]
    have hsi : (rowDims N M R wf).siIdx (ix2 r c) ⟨List.idxOf (⟨0, by decide⟩ : Fin 2) (rowDims N M R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    unfold GatherDims.start
    have h10 : ¬ (⟨1, by decide⟩ : Fin 2) ∈ ([0] : List (Fin 2)) := by decide
    rw [dif_neg (show ¬ (⟨1, by decide⟩ : Fin 2) ∈ (rowDims N M R wf).startIndexMap from h10)]
    unfold GatherDims.offCoord
    rw [dif_pos ((GatherDims.mem_sKept (rowDims N M R wf) ⟨1, Nat.one_lt_two⟩).mpr ⟨h10, List.not_mem_nil⟩)]
    simp only [Nat.zero_add]
    rfl

/-- A two-piece concatenation along axis 1 at a column below the first extent reads the first piece there. -/
theorem concat2_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (k : Fin A) (j : Fin T)
    (hj : j.val = k.val) :
    concatenate ⟨2, ![R, T]⟩ 1 [⟨⟨2, ![R, A]⟩, x₁⟩, ⟨⟨2, ![R, B]⟩, x₂⟩] h (ix2 r j) = x₁ (ix2 r k) :=
  concatenate_pair_apply_left 1 x₁ x₂ h (ix2 r j) rfl (ix2 r k) (fun b => match b with
    | ⟨0, _⟩ => rfl
    | ⟨1, _⟩ => hj.symm)

/-- A two-piece concatenation along axis 1 at column `A + k` reads the second piece at column `k`. -/
theorem concat2_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (k : Fin B) (j : Fin T)
    (hj : j.val = A + k.val) :
    concatenate ⟨2, ![R, T]⟩ 1 [⟨⟨2, ![R, A]⟩, x₁⟩, ⟨⟨2, ![R, B]⟩, x₂⟩] h (ix2 r j) = x₂ (ix2 r k) :=
  concatenate_pair_apply_right 1 x₁ x₂ h (ix2 r j) rfl rfl (ix2 r k) (fun b => match b with
    | ⟨0, _⟩ => fun _ => rfl
    | ⟨1, _⟩ => fun hb => absurd rfl hb)
    (by show k.val + A = j.val; omega)

end Cert.RefLib

end
-- ==== Proof.IdealHost.lean ====
/-
  The host operations of the kernel's program around its two regions, read at the ideal instance.

  Before region 0 the first layer's weight [128, 1000] is transposed and cut into its two halves of 500 rows, and the bias
  vector is made a row; before region 1 the same is done with the second layer's weight [128, 256] and bias. So entry
  (f, e) of the half a region reads as "own" weight is W(e, f), entry (f, e) of the "neighbour" half is W(e, 500 + f)
  (or 128 + f), and the bias row's entry (0, e) is b(e).
  After region 1 the rows of its output that the batch `nodes` selects are gathered — row r of the result is row
  `Spec.pick (nodes r)` of the output: a node number below zero has 16384 added, and the gather clamps what it reads into
  range — and the classifier head and the softmax (`Tail.tail`) are applied to the gathered rows.
-/
import proofs.«128407_j39814346834350_1_alg».proof.Proof.Gen.KernelIdeal.Launch
import proofs.«128407_j39814346834350_1_alg».proof.Proof.Tail
import proofs.«128407_j39814346834350_1_alg».proof.Proof.Spec
import proofs.«128407_j39814346834350_1_alg».proof.Proof.RefLib
import Idealize.ShloMosaic.Lib.StableHlo.Run
import Idealize.ShloMosaic.Lib.ValueLayout
import Idealize.ShloMosaic.Lib.Pipeline.Value

noncomputable section

namespace Cert.KernelIdeal.HostVal

open Cert.KernelIdeal Cert.KernelIdeal.Facts₀
open Idealize.ShloMosaic Idealize.ShloMosaic.TcCoe Idealize.ShloMosaic.ValueIdx Idealize.ShloMosaic.StableHlo

variable (W : Valuation τ sig (Elt Ideal))

/-! ## Before region 0 -/

theorem ops0_v1 : (after (Gen.hostOps0 (F := Ideal)) W (Proc.devRef .tc main_v1) : S500x128.Idx → EReal)
    = extractStridedSlice S500x128 ![0, 0] (transpose S1000x128 [1, 0] (W (Proc.devRef .tc main_arg3)) transposes_S128x1000_S1000x128_1_0) slices_S1000x128_S500x128_0_0 := by
  after_results
  try rfl

theorem ops0_v2 : (after (Gen.hostOps0 (F := Ideal)) W (Proc.devRef .tc main_v2) : S500x128.Idx → EReal)
    = extractStridedSlice S500x128 ![500, 0] (transpose S1000x128 [1, 0] (W (Proc.devRef .tc main_arg3)) transposes_S128x1000_S1000x128_1_0) slices_S1000x128_S500x128_500_0 := by
  after_results
  try rfl

theorem ops0_v3 : (after (Gen.hostOps0 (F := Ideal)) W (Proc.devRef .tc main_v3) : S1x128.Idx → EReal)
    = shapeCast S1x128 (W (Proc.devRef .tc main_arg4)) shapeCasts_S128_S1x128 := by
  after_results
  try rfl

/-- The "own" half of the first weight: entry (f, e) is W1(e, f). -/
theorem ops0_v1_apply (f : Fin 500) (e : Fin 128) :
    (after (Gen.hostOps0 (F := Ideal)) W (Proc.devRef .tc main_v1) : S500x128.Idx → EReal) (ix2 f e)
      = (W (Proc.devRef .tc main_arg3) : S128x1000.Idx → EReal) (ix2 e (⟨f.val, by have := f.isLt; omega⟩ : Fin 1000)) := by
  rw [ops0_v1]
  refine (slice2_axis0_apply (n0 := 1000) (n1 := 128) (m := 500) 0 _ _ f e ⟨f.val, by have := f.isLt; omega⟩ (by simp)).trans ?_
  exact transpose_ix2_apply (a := 128) (b := 1000) _ _ _ _

/-- The "neighbour" half of the first weight: entry (f, e) is W1(e, 500 + f). -/
theorem ops0_v2_apply (f : Fin 500) (e : Fin 128) :
    (after (Gen.hostOps0 (F := Ideal)) W (Proc.devRef .tc main_v2) : S500x128.Idx → EReal) (ix2 f e)
      = (W (Proc.devRef .tc main_arg3) : S128x1000.Idx → EReal) (ix2 e (⟨500 + f.val, by have := f.isLt; omega⟩ : Fin 1000)) := by
  rw [ops0_v2]
  refine (slice2_axis0_apply (n0 := 1000) (n1 := 128) (m := 500) 500 _ _ f e ⟨500 + f.val, by have := f.isLt; omega⟩ rfl).trans ?_
  exact transpose_ix2_apply (a := 128) (b := 1000) _ _ _ _

/-- The first bias as a row: entry (0, e) is b1(e). -/
theorem ops0_v3_apply (e : Fin 128) :
    (after (Gen.hostOps0 (F := Ideal)) W (Proc.devRef .tc main_v3) : S1x128.Idx → EReal) (ix2 (0 : Fin 1) e)
      = (W (Proc.devRef .tc main_arg4) : S128.Idx → EReal) (ix1 e) := by
  rw [ops0_v3]
  exact shapeCast_a_1a_apply (a := 128) _ _ 0 e

/-! ## Before region 1 -/

theorem ops1_v6 : (after (Gen.hostOps1 (F := Ideal)) W (Proc.devRef .tc main_v6) : S128x128.Idx → EReal)
    = extractStridedSlice S128x128 ![0, 0] (transpose S256x128 [1, 0] (W (Proc.devRef .tc main_arg5)) transposes_S128x256_S256x128_1_0) slices_S256x128_S128x128_0_0 := by
  after_results
  try rfl

theorem ops1_v7 : (after (Gen.hostOps1 (F := Ideal)) W (Proc.devRef .tc main_v7) : S128x128.Idx → EReal)
    = extractStridedSlice S128x128 ![128, 0] (transpose S256x128 [1, 0] (W (Proc.devRef .tc main_arg5)) transposes_S128x256_S256x128_1_0) slices_S256x128_S128x128_128_0 := by
  after_results
  try rfl

theorem ops1_v8 : (after (Gen.hostOps1 (F := Ideal)) W (Proc.devRef .tc main_v8) : S1x128.Idx → EReal)
    = shapeCast S1x128 (W (Proc.devRef .tc main_arg6)) shapeCasts_S128_S1x128 := by
  after_results
  try rfl

theorem ops1_v6_apply (f : Fin 128) (e : Fin 128) :
    (after (Gen.hostOps1 (F := Ideal)) W (Proc.devRef .tc main_v6) : S128x128.Idx → EReal) (ix2 f e)
      = (W (Proc.devRef .tc main_arg5) : S128x256.Idx → EReal) (ix2 e (⟨f.val, by have := f.isLt; omega⟩ : Fin 256)) := by
  rw [ops1_v6]
  refine (slice2_axis0_apply (n0 := 256) (n1 := 128) (m := 128) 0 _ _ f e ⟨f.val, by have := f.isLt; omega⟩ (by simp)).trans ?_
  exact transpose_ix2_apply (a := 128) (b := 256) _ _ _ _

theorem ops1_v7_apply (f : Fin 128) (e : Fin 128) :
    (after (Gen.hostOps1 (F := Ideal)) W (Proc.devRef .tc main_v7) : S128x128.Idx → EReal) (ix2 f e)
      = (W (Proc.devRef .tc main_arg5) : S128x256.Idx → EReal) (ix2 e (⟨128 + f.val, by have := f.isLt; omega⟩ : Fin 256)) := by
  rw [ops1_v7]
  refine (slice2_axis0_apply (n0 := 256) (n1 := 128) (m := 128) 128 _ _ f e ⟨128 + f.val, by have := f.isLt; omega⟩ rfl).trans ?_
  exact transpose_ix2_apply (a := 128) (b := 256) _ _ _ _

theorem ops1_v8_apply (e : Fin 128) :
    (after (Gen.hostOps1 (F := Ideal)) W (Proc.devRef .tc main_v8) : S1x128.Idx → EReal) (ix2 (0 : Fin 1) e)
      = (W (Proc.devRef .tc main_arg6) : S128.Idx → EReal) (ix1 e) := by
  rw [ops1_v8]
  exact shapeCast_a_1a_apply (a := 128) _ _ 0 e

/-! ## After region 1 -/

/-- The start indices of the gather: the node numbers, a negative one counted from the end, as a column. -/
def idxArr (nodes : S4096.Idx → BitVec 32) : IVec S4096x1 32 :=
  broadcastInDim S4096x1 ![0] bcast_S4096_S4096x1_0
    (select (cmpi .slt nodes (broadcastInDim S4096 ![] bcast_S_S4096 (constantI S_ 32 0#32)))
      (addi nodes (broadcastInDim S4096 ![] bcast_S_S4096 (constantI S_ 32 16384#32))) nodes)

/-- The selected rows of region 1's output. -/
def picked (h2 : S16384x128.Idx → EReal) (nodes : S4096.Idx → BitVec 32) : S4096x128.Idx → EReal :=
  Host.gather gather_S16384x128_S4096x1_S4096x128_1_0_n_n_0_1_1128 h2 (idxArr nodes)

/-- The result buffer after the last host stretch: the head and softmax of the selected rows. -/
theorem ops2_v37 : (after (Gen.hostOps2 (F := Ideal)) W (Proc.devRef .tc main_v37) : S4096x10.Idx → EReal)
    = Cert.Tail.tail (F := Ideal) (picked (W (Proc.devRef .tc main_v9)) (W (Proc.devRef .tc main_arg0)))
        (W (Proc.devRef .tc main_arg7)) (W (Proc.devRef .tc main_arg8)) (W (Proc.devRef .tc main_arg9)) (W (Proc.devRef .tc main_arg10)) := by
  after_results_simp
  rfl

/-- The start index of row r: the node number, a negative one counted from the end. -/
theorem idxArr_apply (nodes : S4096.Idx → BitVec 32) (r : Fin 4096) :
    idxArr nodes (ix2 r (0 : Fin 1))
      = Scalar.select (Scalar.cmpi .slt (nodes (ix1 r)) 0#32) (nodes (ix1 r) + 16384#32) (nodes (ix1 r)) := by
  unfold idxArr
  refine (broadcastInDim_apply ![0] bcast_S4096_S4096x1_0 _ (ix2 r (0 : Fin 1)) (ix1 r) fun a => ?_).trans ?_
  · match a with
    | ⟨0, _⟩ => rfl
  · show Scalar.select (IntOp.cmpi .slt (nodes (ix1 r)) (broadcastInDim S4096 ![] bcast_S_S4096 (constantI S_ 32 0#32) (ix1 r)))
        (IntOp.addi (nodes (ix1 r)) (broadcastInDim S4096 ![] bcast_S_S4096 (constantI S_ 32 16384#32) (ix1 r))) (nodes (ix1 r)) = _
    rw [broadcastInDim_apply ![] bcast_S_S4096 (constantI S_ 32 0#32) (ix1 r) ix0 (fun a => a.elim0),
      broadcastInDim_apply ![] bcast_S_S4096 (constantI S_ 32 16384#32) (ix1 r) ix0 (fun a => a.elim0)]
    rfl

/-- Row r of the selected rows is row `pick (nodes r)` of the output. -/
theorem picked_apply (h2 : S16384x128.Idx → EReal) (nodes : S4096.Idx → BitVec 32) (r : Fin 4096) (e : Fin 128) :
    picked h2 nodes (ix2 r e) = h2 (ix2 (Cert.Spec.pick (nodes (ix1 r))) e) := by
  unfold picked
  refine (Cert.RefLib.gather_row_apply (N := 16384) (M := 128) (R := 4096) (by omega) _ h2 (idxArr nodes) r e).trans ?_
  refine congrArg h2 (congrArg (fun n => ix2 n e) (Fin.ext ?_))
  show min (idxArr nodes (ix2 r (0 : Fin 1))).toInt.toNat (16384 - 1) = _
  rw [idxArr_apply]
  rfl

end Cert.KernelIdeal.HostVal

end
-- ==== Proof.IdealKernelValue.lean ====
/-
  The value of the kernel's program at the ideal instance: its result buffer holds the classifier head and softmax of the
  two-layer encoder read at the selected rows.

  The two regions' outputs are layers of the encoder (`Value0.final`, `Value1.final`) of the arrays each region finds. Those
  arrays are read back to the program's arguments here: region 0 finds the adjacency and the features as launched, and the
  halves of the first weight and the first bias as the host stretch before it made them; region 1 finds the adjacency as
  launched, region 0's output as its features, and the halves of the second weight and the second bias. No host stretch
  writes an argument. After region 1 the batch's rows of its output are gathered and the head is applied.
-/
import proofs.«128407_j39814346834350_1_alg».proof.Proof.IdealLaunchDefs
import proofs.«128407_j39814346834350_1_alg».proof.Proof.IdealValue0
import proofs.«128407_j39814346834350_1_alg».proof.Proof.IdealValue1
import proofs.«128407_j39814346834350_1_alg».proof.Proof.IdealHost

set_option maxRecDepth 16384

noncomputable section

namespace Cert.KernelIdeal.KV

open Cert.KernelIdeal Cert.KernelIdeal.Launch
open Idealize.ShloMosaic Idealize.ShloMosaic.TcCoe Idealize.ShloMosaic.ValueIdx Idealize.SL.Sem

variable (m : (ℓ : Loc nD τ sig) → Buf (Elt Ideal) ℓ) (c : Dev nD)

/-! ## The arguments as plain functions -/

/-- The batch of node numbers. -/
def nodes (r : Fin 4096) : BitVec 32 := (m ((c.tc : Thread nD τ).loc main_arg0) : S4096.Idx → BitVec 32) (ix1 r)
/-- The adjacency. -/
def A (n j : Fin 16384) : EReal := (m ((c.tc : Thread nD τ).loc main_arg1) : S16384x16384.Idx → EReal) (ix2 n j)
/-- The node features. -/
def X (n : Fin 16384) (f : Fin 500) : EReal := (m ((c.tc : Thread nD τ).loc main_arg2) : S16384x500.Idx → EReal) (ix2 n f)
/-- The first weight's columns 0 … 499, transposed: the half that meets a node's own features. -/
def W1s (f : Fin 500) (e : Fin 128) : EReal :=
  (m ((c.tc : Thread nD τ).loc main_arg3) : S128x1000.Idx → EReal) (ix2 e (⟨f.val, by have := f.isLt; omega⟩ : Fin 1000))
/-- The first weight's columns 500 … 999, transposed: the half that meets the neighbour mean. -/
def W1n (f : Fin 500) (e : Fin 128) : EReal :=
  (m ((c.tc : Thread nD τ).loc main_arg3) : S128x1000.Idx → EReal) (ix2 e (⟨500 + f.val, by have := f.isLt; omega⟩ : Fin 1000))
/-- The first bias. -/
def B1 (e : Fin 128) : EReal := (m ((c.tc : Thread nD τ).loc main_arg4) : S128.Idx → EReal) (ix1 e)
/-- The second weight's two halves and the second bias, likewise. -/
def W2s (f : Fin 128) (e : Fin 128) : EReal :=
  (m ((c.tc : Thread nD τ).loc main_arg5) : S128x256.Idx → EReal) (ix2 e (⟨f.val, by have := f.isLt; omega⟩ : Fin 256))
def W2n (f : Fin 128) (e : Fin 128) : EReal :=
  (m ((c.tc : Thread nD τ).loc main_arg5) : S128x256.Idx → EReal) (ix2 e (⟨128 + f.val, by have := f.isLt; omega⟩ : Fin 256))
def B2 (e : Fin 128) : EReal := (m ((c.tc : Thread nD τ).loc main_arg6) : S128.Idx → EReal) (ix1 e)

/-! ## What the regions find -/

/-- A reference the first host stretch does not write holds its launch contents when region 0 is entered. -/
theorem E0_of (r : Ref sig .tc) (h : r ∉ Gen.hostOps0_W) : E0 m c r = m ((c.tc : Thread nD τ).loc r) :=
  (Gen.V1_of m c r h).trans rfl

/-- A reference neither host stretch writes, other than region 0's output, holds its launch contents when region 1 is
    entered. -/
theorem E1_of (r : Ref sig .tc) (h1 : r ∉ Gen.hostOps1_W) (h2 : r ≠ main_v4) (h0 : r ∉ Gen.hostOps0_W) :
    E1 m c r = m ((c.tc : Thread nD τ).loc r) :=
  (StableHlo.after_of_writes_sub Gen.hostOps1 _ Gen.hostOps1_writes h1).trans
    ((Function.update_of_ne (StableHlo.devRef_ne_of_ne h2) _ _).trans (E0_of m c r h0))

/-- Region 1 finds region 0's output array at what region 0 left there. -/
theorem E1_v4 : E1 m c main_v4 = X2 m c :=
  (StableHlo.after_of_writes_sub Gen.hostOps1 _ Gen.hostOps1_writes (by decide)).trans (Function.update_self _ _ _)

theorem adj0 : Value0.adj (E0 m) c = A m c :=
  funext fun n => funext fun j => congrFun (E0_of m c main_arg1 (by decide)) (ix2 n j)
theorem feat0 : Value0.feat (E0 m) c = X m c :=
  funext fun n => funext fun f => congrFun (E0_of m c main_arg2 (by decide)) (ix2 n f)
theorem wS0 : Value0.wS (E0 m) c = W1s m c :=
  funext fun f => funext fun e => HostVal.ops0_v1_apply (Gen.V0 m c) f e
theorem wN0 : Value0.wN (E0 m) c = W1n m c :=
  funext fun f => funext fun e => HostVal.ops0_v2_apply (Gen.V0 m c) f e
theorem bias0 : Value0.bias (E0 m) c = B1 m c :=
  funext fun e => HostVal.ops0_v3_apply (Gen.V0 m c) e

/-- Region 0's output: the first layer. -/
theorem X2_apply (n : Fin 16384) (e : Fin 128) :
    (X2 m c : S16384x128.Idx → EReal) (ix2 n e) = Cert.Spec.enc (A m c) (X m c) (W1s m c) (W1n m c) (B1 m c) n e := by
  rw [X2_def, Value0.final_apply (E0 m) c n e, adj0, feat0, wS0, wN0, bias0]

theorem adj1 : Value1.adj (E1 m) c = A m c :=
  funext fun n => funext fun j => congrFun (E1_of m c main_arg1 (by decide) (by decide) (by decide)) (ix2 n j)
theorem feat1 : Value1.feat (E1 m) c = Cert.Spec.enc (A m c) (X m c) (W1s m c) (W1n m c) (B1 m c) :=
  funext fun n => funext fun f => (congrFun (E1_v4 m c) (ix2 n f)).trans (X2_apply m c n f)
theorem wS1 : Value1.wS (E1 m) c = W2s m c :=
  funext fun f => funext fun e => (HostVal.ops1_v6_apply (W2 m c) f e).trans
    (congrFun ((Function.update_of_ne (StableHlo.devRef_ne_of_ne (by decide : main_arg5 ≠ main_v4)) _ _).trans (E0_of m c main_arg5 (by decide))) _)
theorem wN1 : Value1.wN (E1 m) c = W2n m c :=
  funext fun f => funext fun e => (HostVal.ops1_v7_apply (W2 m c) f e).trans
    (congrFun ((Function.update_of_ne (StableHlo.devRef_ne_of_ne (by decide : main_arg5 ≠ main_v4)) _ _).trans (E0_of m c main_arg5 (by decide))) _)
theorem bias1 : Value1.bias (E1 m) c = B2 m c :=
  funext fun e => (HostVal.ops1_v8_apply (W2 m c) e).trans
    (congrFun ((Function.update_of_ne (StableHlo.devRef_ne_of_ne (by decide : main_arg6 ≠ main_v4)) _ _).trans (E0_of m c main_arg6 (by decide))) _)

/-- Region 1's output: the second layer over the first. -/
theorem X4_apply (n : Fin 16384) (e : Fin 128) :
    (X4 m c : S16384x128.Idx → EReal) (ix2 n e)
      = Cert.Spec.enc (A m c) (Cert.Spec.enc (A m c) (X m c) (W1s m c) (W1n m c) (B1 m c)) (W2s m c) (W2n m c) (B2 m c) n e := by
  rw [X4_def, Value1.final_apply (E1 m) c n e, adj1, feat1, wS1, wN1, bias1]

/-! ## The result -/

/-- The selected rows of the second layer, as contents of a [4096, 128] array. -/
def sel : S4096x128.Idx → EReal := fun i =>
  Cert.Spec.twoLayer (nodes m c) (A m c) (X m c) (W1s m c) (W1n m c) (B1 m c) (W2s m c) (W2n m c) (B2 m c)
    ⟨(i 0).val, idx2_lt0 i⟩ ⟨(i 1).val, idx2_lt1 i⟩

/-- A reference no item of the program writes holds its launch contents before the last host stretch. -/
theorem V4_of_arg (r : Ref sig .tc) (h4 : r ∉ ([main_v9] : List (Ref sig .tc))) (h3 : r ∉ Gen.hostOps1_W)
    (h2 : r ∉ ([main_v4] : List (Ref sig .tc))) (h1 : r ∉ Gen.hostOps0_W) :
    Gen.V4 m (outs m) c r = m ((c.tc : Thread nD τ).loc r) :=
  (Gen.V4_of m (outs m) c r h4).trans <| (Gen.V3_of m (outs m) c r h3).trans <| (Gen.V2_of m (outs m) c r h2).trans <|
    (Gen.V1_of m c r h1).trans rfl

theorem V4_v9 : Gen.V4 m (outs m) c main_v9 = X4 m c :=
  (Function.update_self _ _ _).trans (outs_v9 m c)

/-- The gathered rows of region 1's output are the selected rows of the second layer. -/
theorem picked_eq : HostVal.picked (X4 m c) (m ((c.tc : Thread nD τ).loc main_arg0)) = sel m c := by
  funext i
  obtain ⟨r, e, rfl⟩ : ∃ (r : Fin 4096) (e : Fin 128), i = ix2 r e := ⟨i 0, i 1, eq_ix2 i⟩
  rw [HostVal.picked_apply, X4_apply]
  rfl

/-- THE RESULT: after the last host stretch the result buffer holds the head and softmax of the selected rows. -/
theorem result_eq :
    (Gen.V5 m (outs m) c (Proc.devRef .tc main_v37) : S4096x10.Idx → EReal)
      = Cert.Tail.tail (F := Ideal) (sel m c) (m ((c.tc : Thread nD τ).loc main_arg7)) (m ((c.tc : Thread nD τ).loc main_arg8))
          (m ((c.tc : Thread nD τ).loc main_arg9)) (m ((c.tc : Thread nD τ).loc main_arg10)) := by
  show StableHlo.after Gen.hostOps2 (Gen.V4 m (outs m) c) (Proc.devRef .tc main_v37) = _
  refine (HostVal.ops2_v37 (Gen.V4 m (outs m) c)).trans ?_
  rw [V4_v9 m c, V4_of_arg m c main_arg0 (by decide) (by decide) (by decide) (by decide),
    V4_of_arg m c main_arg7 (by decide) (by decide) (by decide) (by decide),
    V4_of_arg m c main_arg8 (by decide) (by decide) (by decide) (by decide),
    V4_of_arg m c main_arg9 (by decide) (by decide) (by decide) (by decide),
    V4_of_arg m c main_arg10 (by decide) (by decide) (by decide) (by decide), picked_eq]

end Cert.KernelIdeal.KV

end
-- ==== Proof.RefTail.lean ====
/-
  The reference's classifier head and softmax are the shared chain.

  After the second layer's output the reference applies two affine maps and a row softmax, operation by operation the
  same host operations as the other program's; the two programs' shape records are different constants with the same
  contents. So the reference's result is that chain, as one function, applied to the second layer's output and the
  four head arrays; the second layer's output is carried as a variable and never opened here.
-/
import proofs.«128407_j39814346834350_1_alg».proof.Proof.RefReadP
import proofs.«128407_j39814346834350_1_alg».proof.Proof.Tail

noncomputable section

namespace Cert.RefTail

open Cert.ReferenceIdeal Cert.ReferenceIdeal.Gen Cert.ReferenceIdeal.ReadP Idealize.ShloMosaic Idealize.ShloMosaic.TcCoe Idealize.SL.Sem

/-- The reference's last array is the shared chain applied to its second layer's output. -/
theorem v73_eq_tail (x0 : (⟨S4096, .i32⟩ : BufTy).Contents (Elt Ideal)) (x1 : (⟨S16384x16384, .f32⟩ : BufTy).Contents (Elt Ideal))
    (x2 : (⟨S16384x500, .f32⟩ : BufTy).Contents (Elt Ideal)) (x3 : (⟨S128x1000, .f32⟩ : BufTy).Contents (Elt Ideal)) (x4 : (⟨S128, .f32⟩ : BufTy).Contents (Elt Ideal))
    (x5 : (⟨S128x256, .f32⟩ : BufTy).Contents (Elt Ideal)) (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S10x128, .f32⟩ : BufTy).Contents (Elt Ideal)) (x10 : (⟨S10, .f32⟩ : BufTy).Contents (Elt Ideal)) :
    Cert.ReferenceIdeal.ReadP.val_main_v73 (F := Ideal) x0 x1 x2 x3 x4 x5 x6 x7 x8 x9 x10
      = Cert.Tail.tail (F := Ideal) (Cert.ReferenceIdeal.ReadP.val_main_v52 (F := Ideal) x0 x1 x2 x3 x4 x5 x6) x7 x8 x9 x10 := by
  unfold val_main_v73 val_main_v72 val_main_v71 val_main_v70 val_main_cst_9 val_main_v69 val_main_v68 val_main_v67
    val_main_v66 val_main_v65 val_main_v64 val_main_cst_8 val_main_v63 val_main_cst_7 val_main_v62 val_main_v61
    val_main_v60 val_main_v59 val_main_v58 val_main_v57 val_main_v56 val_main_v55 val_main_v54 val_main_v53
  generalize val_main_v52 (F := Ideal) x0 x1 x2 x3 x4 x5 x6 = h
  unfold Cert.Tail.tail
  rfl

/-- The run's result, from the launch contents of the arguments. -/
theorem res_eq_tail (m : (ℓ : Loc nD τ sig) → Buf (Elt Ideal) ℓ) (c : Dev nD) :
    Cert.ReferenceIdeal.ValueP.res_main_v73 m c
      = Cert.Tail.tail (F := Ideal)
          (Cert.ReferenceIdeal.ReadP.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
          (m ((c.tc : Thread nD τ).loc main_arg7)) (m ((c.tc : Thread nD τ).loc main_arg8)) (m ((c.tc : Thread nD τ).loc main_arg9)) (m ((c.tc : Thread nD τ).loc main_arg10)) :=
  (val_main_v73_eq (F := Ideal) m c).trans (v73_eq_tail _ _ _ _ _ _ _ _ _ _ _)

end Cert.RefTail

end
-- ==== Proof.RefLayer1.lean ====
/-
  The reference's first layer read at an index.

  With the adjacency `a (n, j)`, the features `x (n, f)`, the weight's two halves and the bias read off the argument
  arrays by coordinates, every intermediate array of the reference's first layer is, element by element, the
  specification's function of the same name: the row sums are `Spec.deg`, the normalised neighbour sums `Spec.neigh`,
  the product of the concatenation `[x, neigh]` with the transposed weight is the sum over the first 500 columns plus
  the sum over the last 500 (`Fin.sum_univ_add`), so with the bias `Spec.lin`; the maximum with the zero word is
  `Spec.act`; the square root of the row's sum of squares, guarded by the 1e-12 word, is `Spec.rowNorm`; the quotient is
  `Spec.enc`. Sums are taken in the extended reals, an additive commutative monoid, so nothing needs to be finite.
-/
import proofs.«128407_j39814346834350_1_alg».proof.Proof.RefReadP
import proofs.«128407_j39814346834350_1_alg».proof.Proof.RefLib
import proofs.«128407_j39814346834350_1_alg».proof.Proof.Spec

noncomputable section

open scoped BigOperators

namespace Cert.RefLayers

open Cert.ReferenceIdeal Cert.ReferenceIdeal.Gen Cert.ReferenceIdeal.ReadP Idealize.ShloMosaic Idealize.ShloMosaic.ValueIdx

/-- The adjacency by coordinates. -/
abbrev adjOf (x1 : (⟨S16384x16384, .f32⟩ : BufTy).Contents (Elt Ideal)) : Fin 16384 → Fin 16384 → EReal := fun n j => x1 (ix2 n j)
/-- The input features by coordinates. -/
abbrev featOf (x2 : (⟨S16384x500, .f32⟩ : BufTy).Contents (Elt Ideal)) : Fin 16384 → Fin 500 → EReal := fun n f => x2 (ix2 n f)
/-- The first layer's weight rows that meet a node's own features (columns 0 … 499 of the `[128, 1000]` array). -/
abbrev w1sOf (x3 : (⟨S128x1000, .f32⟩ : BufTy).Contents (Elt Ideal)) : Fin 500 → Fin 128 → EReal := fun f e => x3 (ix2 e (Fin.castAdd 500 f))
/-- The first layer's weight rows that meet the neighbour mean (columns 500 … 999). -/
abbrev w1nOf (x3 : (⟨S128x1000, .f32⟩ : BufTy).Contents (Elt Ideal)) : Fin 500 → Fin 128 → EReal := fun f e => x3 (ix2 e (Fin.natAdd 500 f))
/-- A bias by coordinates. -/
abbrev biasOf (x4 : (⟨S128, .f32⟩ : BufTy).Contents (Elt Ideal)) : Fin 128 → EReal := fun e => x4 (ix1 e)

/-! The generated index functions at an index given by its coordinates. -/

theorem i_v0 (n : Fin 16384) (k : Fin 16384) : idx_main_v0 (ix1 n) k = ix2 n k := funext fun a => match a with | ⟨0, _⟩ => rfl | ⟨1, _⟩ => rfl
theorem i_v1 (n : Fin 16384) (z : Fin 1) : idx_main_v1 (ix2 n z) = ix1 n := funext fun a => match a with | ⟨0, _⟩ => rfl
theorem li_v2 (n : Fin 16384) (f : Fin 500) (k : Fin 16384) : lidx_main_v2 (ix2 n f) k = ix2 n k := funext fun a => match a with | ⟨0, _⟩ => rfl | ⟨1, _⟩ => rfl
theorem ri_v2 (n : Fin 16384) (f : Fin 500) (k : Fin 16384) : ridx_main_v2 (ix2 n f) k = ix2 k f := funext fun a => match a with | ⟨0, _⟩ => rfl | ⟨1, _⟩ => rfl
theorem i_v3 (n : Fin 16384) (f : Fin 500) : idx_main_v3 (ix2 n f) = ix2 n (⟨0, Nat.one_pos⟩ : Fin 1) := funext fun a => match a with | ⟨0, _⟩ => rfl | ⟨1, _⟩ => rfl
theorem i_v6 (k : Fin 1000) (e : Fin 128) : idx_main_v6 (ix2 k e) = ix2 e k := funext fun a => match a with | ⟨0, _⟩ => rfl | ⟨1, _⟩ => rfl
theorem li_v7 (n : Fin 16384) (e : Fin 128) (k : Fin 1000) : lidx_main_v7 (ix2 n e) k = ix2 n k := funext fun a => match a with | ⟨0, _⟩ => rfl | ⟨1, _⟩ => rfl
theorem ri_v7 (n : Fin 16384) (e : Fin 128) (k : Fin 1000) : ridx_main_v7 (ix2 n e) k = ix2 k e := funext fun a => match a with | ⟨0, _⟩ => rfl | ⟨1, _⟩ => rfl
theorem i_v9 (n : Fin 16384) (e : Fin 128) : idx_main_v9 (ix2 n e) = ix2 (⟨0, Nat.one_pos⟩ : Fin 1) e := funext fun a => match a with | ⟨0, _⟩ => rfl | ⟨1, _⟩ => rfl
theorem i_v8 (z : Fin 1) (e : Fin 128) : idx_main_v8 (ix2 z e) = ix1 e := funext fun a => match a with | ⟨0, _⟩ => rfl
theorem i_c1v1 (n : Fin 16384) (k : Fin 128) : idx_main_call1_v1 (ix1 n) k = ix2 n k := funext fun a => match a with | ⟨0, _⟩ => rfl | ⟨1, _⟩ => rfl
theorem i_c1v2 (n : Fin 16384) (z : Fin 1) : idx_main_call1_v2 (ix2 n z) = ix1 n := funext fun a => match a with | ⟨0, _⟩ => rfl
theorem i_v15 (n : Fin 16384) (e : Fin 128) : idx_main_v15 (ix2 n e) = ix2 n (⟨0, Nat.one_pos⟩ : Fin 1) := funext fun a => match a with | ⟨0, _⟩ => rfl | ⟨1, _⟩ => rfl

section
variable (x1 : (⟨S16384x16384, .f32⟩ : BufTy).Contents (Elt Ideal)) (x2 : (⟨S16384x500, .f32⟩ : BufTy).Contents (Elt Ideal)) (x3 : (⟨S128x1000, .f32⟩ : BufTy).Contents (Elt Ideal)) (x4 : (⟨S128, .f32⟩ : BufTy).Contents (Elt Ideal))

/-- The row sums are the degrees. -/
theorem v0_at (n : Fin 16384) : val_main_v0 (F := Ideal) x1 (ix1 n) = Spec.deg (adjOf x1) n := by
  refine (val_main_v0_apply x1 (ix1 n)).trans ?_
  rw [val_main_cst_apply]
  show Ideal.ofBits .f32 0x00000000#32 + _ = ∑ j, x1 (ix2 n j)
  rw [Ideal.ofBits_zero_f32, zero_add]
  exact Finset.sum_congr rfl fun k _ => congrArg x1 (i_v0 n k)

theorem v1_at (n : Fin 16384) (z : Fin 1) : val_main_v1 (F := Ideal) x1 (ix2 n z) = Spec.deg (adjOf x1) n :=
  (val_main_v1_apply x1 (ix2 n z)).trans ((congrArg (val_main_v0 (F := Ideal) x1) (i_v1 n z)).trans (v0_at x1 n))

theorem v2_at (n : Fin 16384) (f : Fin 500) :
    val_main_v2 (F := Ideal) x1 x2 (ix2 n f) = ∑ j, adjOf x1 n j * featOf x2 j f :=
  (val_main_v2_apply x1 x2 (ix2 n f)).trans (Finset.sum_congr rfl fun k _ => congrArg₂ (· * ·)
    (congrArg x1 (li_v2 n f k)) (congrArg x2 (ri_v2 n f k)))

theorem v3_at (n : Fin 16384) (f : Fin 500) : val_main_v3 (F := Ideal) x1 (ix2 n f) = Spec.deg (adjOf x1) n :=
  (val_main_v3_apply x1 (ix2 n f)).trans ((congrArg (val_main_v1 (F := Ideal) x1) (i_v3 n f)).trans (v1_at x1 n _))

/-- The neighbour sums divided by the degree. -/
theorem v4_at (n : Fin 16384) (f : Fin 500) :
    val_main_v4 (F := Ideal) x1 x2 (ix2 n f) = Spec.neigh (adjOf x1) (featOf x2) n f := by
  refine (val_main_v4_apply x1 x2 (ix2 n f)).trans ?_
  rw [v2_at, v3_at]
  rfl

/-- The concatenation `[x, neigh]` at a column of its first half … -/
theorem v5_at_left (n : Fin 16384) (f : Fin 500) :
    val_main_v5 (F := Ideal) x1 x2 (ix2 n (Fin.castAdd 500 f)) = featOf x2 n f := by
  unfold val_main_v5
  exact RefLib.concat2_left x2 (val_main_v4 (F := Ideal) x1 x2) _ n f (Fin.castAdd 500 f) rfl

/-- … and of its second half. -/
theorem v5_at_right (n : Fin 16384) (f : Fin 500) :
    val_main_v5 (F := Ideal) x1 x2 (ix2 n (Fin.natAdd 500 f)) = Spec.neigh (adjOf x1) (featOf x2) n f := by
  unfold val_main_v5
  exact (RefLib.concat2_right x2 (val_main_v4 (F := Ideal) x1 x2) _ n f (Fin.natAdd 500 f) rfl).trans (v4_at x1 x2 n f)

theorem v6_at (k : Fin 1000) (e : Fin 128) : val_main_v6 (F := Ideal) x3 (ix2 k e) = x3 (ix2 e k) :=
  (val_main_v6_apply x3 (ix2 k e)).trans (congrArg x3 (i_v6 k e))

theorem v7_term (n : Fin 16384) (e : Fin 128) (k : Fin 1000) :
    (val_main_v5 (F := Ideal) x1 x2) (lidx_main_v7 (ix2 n e) k) * (val_main_v6 (F := Ideal) x3) (ridx_main_v7 (ix2 n e) k)
      = val_main_v5 (F := Ideal) x1 x2 (ix2 n k) * x3 (ix2 e k) :=
  congrArg₂ (· * ·) (congrArg (val_main_v5 (F := Ideal) x1 x2) (li_v7 n e k))
    ((congrArg (val_main_v6 (F := Ideal) x3) (ri_v7 n e k)).trans (v6_at x3 k e))

/-- The product with the transposed weight: the own-feature half plus the neighbour half. -/
theorem v7_at (n : Fin 16384) (e : Fin 128) :
    val_main_v7 (F := Ideal) x1 x2 x3 (ix2 n e)
      = (∑ f, featOf x2 n f * w1sOf x3 f e) + ∑ f, Spec.neigh (adjOf x1) (featOf x2) n f * w1nOf x3 f e := by
  refine (val_main_v7_apply x1 x2 x3 (ix2 n e)).trans ?_
  refine (Finset.sum_congr rfl fun k _ => v7_term x1 x2 x3 n e k).trans ?_
  refine (Fin.sum_univ_add (a := 500) (b := 500) _).trans ?_
  refine congrArg₂ (· + ·) (Finset.sum_congr rfl fun f _ => ?_) (Finset.sum_congr rfl fun f _ => ?_)
  · exact congrArg (· * x3 (ix2 e (Fin.castAdd 500 f))) (v5_at_left x1 x2 n f)
  · exact congrArg (· * x3 (ix2 e (Fin.natAdd 500 f))) (v5_at_right x1 x2 n f)

theorem v9_at (n : Fin 16384) (e : Fin 128) : val_main_v9 (F := Ideal) x4 (ix2 n e) = biasOf x4 e :=
  (val_main_v9_apply x4 (ix2 n e)).trans ((congrArg (val_main_v8 (F := Ideal) x4) (i_v9 n e)).trans
    ((val_main_v8_apply x4 _).trans (congrArg x4 (i_v8 _ e))))

/-- The affine map. -/
theorem v10_at (n : Fin 16384) (e : Fin 128) :
    val_main_v10 (F := Ideal) x1 x2 x3 x4 (ix2 n e) = Spec.lin (adjOf x1) (featOf x2) (w1sOf x3) (w1nOf x3) (biasOf x4) n e := by
  refine (val_main_v10_apply x1 x2 x3 x4 (ix2 n e)).trans ?_
  rw [v7_at, v9_at]
  rfl

/-- The rectified affine map. -/
theorem v11_at (n : Fin 16384) (e : Fin 128) :
    val_main_v11 (F := Ideal) x1 x2 x3 x4 (ix2 n e) = Spec.act (adjOf x1) (featOf x2) (w1sOf x3) (w1nOf x3) (biasOf x4) n e := by
  refine (val_main_v11_apply x1 x2 x3 x4 (ix2 n e)).trans ?_
  rw [v10_at, val_main_call0_v0_apply, val_main_call0_cst_apply]
  rfl

/-- The row's sum of squares. -/
theorem call1_v1_at (n : Fin 16384) :
    val_main_call1_v1 (F := Ideal) x1 x2 x3 x4 (ix1 n) = ∑ e, Spec.act (adjOf x1) (featOf x2) (w1sOf x3) (w1nOf x3) (biasOf x4) n e * Spec.act (adjOf x1) (featOf x2) (w1sOf x3) (w1nOf x3) (biasOf x4) n e := by
  refine (val_main_call1_v1_apply x1 x2 x3 x4 (ix1 n)).trans ?_
  rw [val_main_call1_cst_apply]
  show Ideal.ofBits .f32 0x00000000#32 + _ = _
  rw [Ideal.ofBits_zero_f32, zero_add]
  refine Finset.sum_congr rfl fun k _ => ?_
  refine (congrArg (val_main_call1_v0 (F := Ideal) x1 x2 x3 x4) (i_c1v1 n k)).trans ?_
  rw [val_main_call1_v0_apply, v11_at]
  rfl

/-- The guarded Euclidean length of a row. -/
theorem v14_at (n : Fin 16384) (z : Fin 1) :
    val_main_v14 (F := Ideal) x1 x2 x3 x4 (ix2 n z) = Spec.rowNorm (adjOf x1) (featOf x2) (w1sOf x3) (w1nOf x3) (biasOf x4) n := by
  refine (val_main_v14_apply x1 x2 x3 x4 (ix2 n z)).trans ?_
  rw [val_main_v12_apply, val_main_call1_v2_apply, val_main_v13_apply, val_main_cst_0_apply,
    congrArg (val_main_call1_v1 (F := Ideal) x1 x2 x3 x4) (i_c1v2 n z), call1_v1_at]
  rfl

theorem v15_at (n : Fin 16384) (e : Fin 128) :
    val_main_v15 (F := Ideal) x1 x2 x3 x4 (ix2 n e) = Spec.rowNorm (adjOf x1) (featOf x2) (w1sOf x3) (w1nOf x3) (biasOf x4) n :=
  (val_main_v15_apply x1 x2 x3 x4 (ix2 n e)).trans
    ((congrArg (val_main_v14 (F := Ideal) x1 x2 x3 x4) (i_v15 n e)).trans (v14_at x1 x2 x3 x4 n _))

/-- The first layer's output. -/
theorem v16_at (n : Fin 16384) (e : Fin 128) :
    val_main_v16 (F := Ideal) x1 x2 x3 x4 (ix2 n e) = Spec.enc (adjOf x1) (featOf x2) (w1sOf x3) (w1nOf x3) (biasOf x4) n e := by
  refine (val_main_v16_apply x1 x2 x3 x4 (ix2 n e)).trans ?_
  rw [v11_at, v15_at]
  rfl

end

end Cert.RefLayers

end
-- ==== Proof.RefLayer2.lean ====
/-
  The reference's second layer read at an index.

  The second layer works on the rows a batch of node numbers selects. An integer array indexes rows as the
  specification's `pick` does: a negative number counts from the end, and the row gather clamps the result into range. So
  the gathered adjacency rows, the gathered degrees and the gathered rows of the first layer's output `h` are the
  adjacency, the degree and `h` at node `pick (nodes r)`. Since one layer's output at node `n` is a function of row
  `n` of the adjacency and of `h` (and of all of `h` through the neighbour sum), every intermediate array of the second
  layer is, element by element, the specification's function of the same name at node `pick (nodes r)`; no exchange of
  a gather with a product is needed.
-/
import proofs.«128407_j39814346834350_1_alg».proof.Proof.RefLayer1

noncomputable section

open scoped BigOperators

namespace Cert.RefLayers

open Cert.ReferenceIdeal Cert.ReferenceIdeal.Gen Cert.ReferenceIdeal.ReadP Idealize.ShloMosaic Idealize.ShloMosaic.ValueIdx

/-- The second layer's weight rows that meet a node's own hidden features (columns 0 … 127 of the `[128, 256]` array). -/
abbrev w2sOf (x5 : (⟨S128x256, .f32⟩ : BufTy).Contents (Elt Ideal)) : Fin 128 → Fin 128 → EReal := fun f e => x5 (ix2 e (Fin.castAdd 128 f))
/-- The second layer's weight rows that meet the neighbour mean (columns 128 … 255). -/
abbrev w2nOf (x5 : (⟨S128x256, .f32⟩ : BufTy).Contents (Elt Ideal)) : Fin 128 → Fin 128 → EReal := fun f e => x5 (ix2 e (Fin.natAdd 128 f))
/-- The first layer's output, the second layer's features. -/
abbrev hid (x1 : (⟨S16384x16384, .f32⟩ : BufTy).Contents (Elt Ideal)) (x2 : (⟨S16384x500, .f32⟩ : BufTy).Contents (Elt Ideal)) (x3 : (⟨S128x1000, .f32⟩ : BufTy).Contents (Elt Ideal)) (x4 : (⟨S128, .f32⟩ : BufTy).Contents (Elt Ideal)) :
    Fin 16384 → Fin 128 → EReal := Spec.enc (adjOf x1) (featOf x2) (w1sOf x3) (w1nOf x3) (biasOf x4)

/-! The generated index functions at an index given by its coordinates. -/

theorem i_v22 (r : Fin 4096) (z : Fin 1) : idx_main_v22 (ix2 r z) = ix1 r := funext fun a => match a with | ⟨0, _⟩ => rfl
theorem i_v30 (r : Fin 4096) (z : Fin 1) : idx_main_v30 (ix2 r z) = ix1 r := funext fun a => match a with | ⟨0, _⟩ => rfl
theorem i_v39 (r : Fin 4096) (z : Fin 1) : idx_main_v39 (ix2 r z) = ix1 r := funext fun a => match a with | ⟨0, _⟩ => rfl
theorem li_v24 (r : Fin 4096) (e : Fin 128) (k : Fin 16384) : lidx_main_v24 (ix2 r e) k = ix2 r k := funext fun a => match a with | ⟨0, _⟩ => rfl | ⟨1, _⟩ => rfl
theorem ri_v24 (r : Fin 4096) (e : Fin 128) (k : Fin 16384) : ridx_main_v24 (ix2 r e) k = ix2 k e := funext fun a => match a with | ⟨0, _⟩ => rfl | ⟨1, _⟩ => rfl
theorem i_v32 (r : Fin 4096) (e : Fin 128) : idx_main_v32 (ix2 r e) = ix2 r (⟨0, Nat.one_pos⟩ : Fin 1) := funext fun a => match a with | ⟨0, _⟩ => rfl | ⟨1, _⟩ => rfl
theorem i_v42 (k : Fin 256) (e : Fin 128) : idx_main_v42 (ix2 k e) = ix2 e k := funext fun a => match a with | ⟨0, _⟩ => rfl | ⟨1, _⟩ => rfl
theorem li_v43 (r : Fin 4096) (e : Fin 128) (k : Fin 256) : lidx_main_v43 (ix2 r e) k = ix2 r k := funext fun a => match a with | ⟨0, _⟩ => rfl | ⟨1, _⟩ => rfl
theorem ri_v43 (r : Fin 4096) (e : Fin 128) (k : Fin 256) : ridx_main_v43 (ix2 r e) k = ix2 k e := funext fun a => match a with | ⟨0, _⟩ => rfl | ⟨1, _⟩ => rfl
theorem i_v45 (r : Fin 4096) (e : Fin 128) : idx_main_v45 (ix2 r e) = ix2 (⟨0, Nat.one_pos⟩ : Fin 1) e := funext fun a => match a with | ⟨0, _⟩ => rfl | ⟨1, _⟩ => rfl
theorem i_v44 (z : Fin 1) (e : Fin 128) : idx_main_v44 (ix2 z e) = ix1 e := funext fun a => match a with | ⟨0, _⟩ => rfl
theorem i_c3v1 (r : Fin 4096) (k : Fin 128) : idx_main_call3_v1 (ix1 r) k = ix2 r k := funext fun a => match a with | ⟨0, _⟩ => rfl | ⟨1, _⟩ => rfl
theorem i_c3v2 (r : Fin 4096) (z : Fin 1) : idx_main_call3_v2 (ix2 r z) = ix1 r := funext fun a => match a with | ⟨0, _⟩ => rfl
theorem i_v51 (r : Fin 4096) (e : Fin 128) : idx_main_v51 (ix2 r e) = ix2 r (⟨0, Nat.one_pos⟩ : Fin 1) := funext fun a => match a with | ⟨0, _⟩ => rfl | ⟨1, _⟩ => rfl

section
variable (x0 : (⟨S4096, .i32⟩ : BufTy).Contents (Elt Ideal)) (x1 : (⟨S16384x16384, .f32⟩ : BufTy).Contents (Elt Ideal)) (x2 : (⟨S16384x500, .f32⟩ : BufTy).Contents (Elt Ideal)) (x3 : (⟨S128x1000, .f32⟩ : BufTy).Contents (Elt Ideal))
  (x4 : (⟨S128, .f32⟩ : BufTy).Contents (Elt Ideal)) (x5 : (⟨S128x256, .f32⟩ : BufTy).Contents (Elt Ideal)) (x6 : (⟨S128, .f32⟩ : BufTy).Contents (Elt Ideal))

/-! The three copies of the index array: `select (nodes < 0) (nodes + 16384) nodes` as a column. -/

theorem v22_at (r : Fin 4096) (z : Fin 1) :
    val_main_v22 (F := Ideal) x0 (ix2 r z)
      = Scalar.select (Scalar.cmpi .slt (x0 (ix1 r)) 0#32) (x0 (ix1 r) + 16384#32) (x0 (ix1 r)) := by
  refine (val_main_v22_apply x0 (ix2 r z)).trans ?_
  refine (congrArg (val_main_v21 (F := Ideal) x0) (i_v22 r z)).trans ?_
  rw [val_main_v21_apply, val_main_v18_apply, val_main_v20_apply, val_main_v17_apply, val_main_v19_apply,
    val_main_c_apply, val_main_c_1_apply]
  rfl

theorem v22_pick (r : Fin 4096) (z : Fin 1)
    (h : min (val_main_v22 (F := Ideal) x0 (ix2 r z)).toInt.toNat (16384 - 1) < 16384) :
    (⟨min (val_main_v22 (F := Ideal) x0 (ix2 r z)).toInt.toNat (16384 - 1), h⟩ : Fin 16384) = Spec.pick (x0 (ix1 r)) :=
  Fin.ext (by
    show min (val_main_v22 (F := Ideal) x0 (ix2 r z)).toInt.toNat (16384 - 1) = (Spec.pick (x0 (ix1 r))).val
    rw [v22_at]; rfl)

theorem v30_at (r : Fin 4096) (z : Fin 1) :
    val_main_v30 (F := Ideal) x0 (ix2 r z)
      = Scalar.select (Scalar.cmpi .slt (x0 (ix1 r)) 0#32) (x0 (ix1 r) + 16384#32) (x0 (ix1 r)) := by
  refine (val_main_v30_apply x0 (ix2 r z)).trans ?_
  refine (congrArg (val_main_v29 (F := Ideal) x0) (i_v30 r z)).trans ?_
  rw [val_main_v29_apply, val_main_v26_apply, val_main_v28_apply, val_main_v25_apply, val_main_v27_apply,
    val_main_c_2_apply, val_main_c_3_apply]
  rfl

theorem v30_pick (r : Fin 4096) (z : Fin 1)
    (h : min (val_main_v30 (F := Ideal) x0 (ix2 r z)).toInt.toNat (16384 - 1) < 16384) :
    (⟨min (val_main_v30 (F := Ideal) x0 (ix2 r z)).toInt.toNat (16384 - 1), h⟩ : Fin 16384) = Spec.pick (x0 (ix1 r)) :=
  Fin.ext (by
    show min (val_main_v30 (F := Ideal) x0 (ix2 r z)).toInt.toNat (16384 - 1) = (Spec.pick (x0 (ix1 r))).val
    rw [v30_at]; rfl)

theorem v39_at (r : Fin 4096) (z : Fin 1) :
    val_main_v39 (F := Ideal) x0 (ix2 r z)
      = Scalar.select (Scalar.cmpi .slt (x0 (ix1 r)) 0#32) (x0 (ix1 r) + 16384#32) (x0 (ix1 r)) := by
  refine (val_main_v39_apply x0 (ix2 r z)).trans ?_
  refine (congrArg (val_main_v38 (F := Ideal) x0) (i_v39 r z)).trans ?_
  rw [val_main_v38_apply, val_main_v35_apply, val_main_v37_apply, val_main_v34_apply, val_main_v36_apply,
    val_main_c_4_apply, val_main_c_5_apply]
  rfl

theorem v39_pick (r : Fin 4096) (z : Fin 1)
    (h : min (val_main_v39 (F := Ideal) x0 (ix2 r z)).toInt.toNat (16384 - 1) < 16384) :
    (⟨min (val_main_v39 (F := Ideal) x0 (ix2 r z)).toInt.toNat (16384 - 1), h⟩ : Fin 16384) = Spec.pick (x0 (ix1 r)) :=
  Fin.ext (by
    show min (val_main_v39 (F := Ideal) x0 (ix2 r z)).toInt.toNat (16384 - 1) = (Spec.pick (x0 (ix1 r))).val
    rw [v39_at]; rfl)

/-- The gathered adjacency rows. -/
theorem v23_at (r : Fin 4096) (j : Fin 16384) :
    val_main_v23 (F := Ideal) x0 x1 (ix2 r j) = adjOf x1 (Spec.pick (x0 (ix1 r))) j := by
  unfold val_main_v23
  refine (RefLib.gather_row_apply (N := 16384) (M := 16384) (R := 4096) (by decide)
    gather_S16384x16384_S4096x1_S4096x16384_1_0_n_n_0_1_116384_wf x1 (val_main_v22 (F := Ideal) x0) r j).trans ?_
  exact congrArg (fun p => x1 (ix2 p j)) (v22_pick x0 r 0 _)

/-- The gathered degrees. -/
theorem v31_at (r : Fin 4096) (z : Fin 1) :
    val_main_v31 (F := Ideal) x0 x1 (ix2 r z) = Spec.deg (adjOf x1) (Spec.pick (x0 (ix1 r))) := by
  unfold val_main_v31
  refine (RefLib.gather_row_apply (N := 16384) (M := 1) (R := 4096) (by decide)
    gather_S16384x1_S4096x1_S4096x1_1_0_n_n_0_1_11_wf (val_main_v1 (F := Ideal) x1) (val_main_v30 (F := Ideal) x0) r z).trans ?_
  exact (congrArg (fun p => val_main_v1 (F := Ideal) x1 (ix2 p z)) (v30_pick x0 r 0 _)).trans (v1_at x1 _ z)

/-- The gathered rows of the first layer's output. -/
theorem v40_at (r : Fin 4096) (k : Fin 128) :
    val_main_v40 (F := Ideal) x0 x1 x2 x3 x4 (ix2 r k) = hid x1 x2 x3 x4 (Spec.pick (x0 (ix1 r))) k := by
  unfold val_main_v40
  refine (RefLib.gather_row_apply (N := 16384) (M := 128) (R := 4096) (by decide)
    gather_S16384x128_S4096x1_S4096x128_1_0_n_n_0_1_1128_wf (val_main_v16 (F := Ideal) x1 x2 x3 x4)
    (val_main_v39 (F := Ideal) x0) r k).trans ?_
  exact (congrArg (fun p => val_main_v16 (F := Ideal) x1 x2 x3 x4 (ix2 p k)) (v39_pick x0 r 0 _)).trans
    (v16_at x1 x2 x3 x4 _ k)

theorem v24_at (r : Fin 4096) (e : Fin 128) :
    val_main_v24 (F := Ideal) x0 x1 x2 x3 x4 (ix2 r e) = ∑ j, adjOf x1 (Spec.pick (x0 (ix1 r))) j * hid x1 x2 x3 x4 j e :=
  (val_main_v24_apply x0 x1 x2 x3 x4 (ix2 r e)).trans (Finset.sum_congr rfl fun k _ => congrArg₂ (· * ·)
    ((congrArg (val_main_v23 (F := Ideal) x0 x1) (li_v24 r e k)).trans (v23_at x0 x1 r k))
    ((congrArg (val_main_v16 (F := Ideal) x1 x2 x3 x4) (ri_v24 r e k)).trans (v16_at x1 x2 x3 x4 k e)))

theorem v32_at (r : Fin 4096) (e : Fin 128) :
    val_main_v32 (F := Ideal) x0 x1 (ix2 r e) = Spec.deg (adjOf x1) (Spec.pick (x0 (ix1 r))) :=
  (val_main_v32_apply x0 x1 (ix2 r e)).trans
    ((congrArg (val_main_v31 (F := Ideal) x0 x1) (i_v32 r e)).trans (v31_at x0 x1 r _))

/-- The selected nodes' neighbour sums of hidden features, divided by their degrees. -/
theorem v33_at (r : Fin 4096) (e : Fin 128) :
    val_main_v33 (F := Ideal) x0 x1 x2 x3 x4 (ix2 r e) = Spec.neigh (adjOf x1) (hid x1 x2 x3 x4) (Spec.pick (x0 (ix1 r))) e := by
  refine (val_main_v33_apply x0 x1 x2 x3 x4 (ix2 r e)).trans ?_
  rw [v24_at, v32_at]
  rfl

theorem v41_at_left (r : Fin 4096) (f : Fin 128) :
    val_main_v41 (F := Ideal) x0 x1 x2 x3 x4 (ix2 r (Fin.castAdd 128 f)) = hid x1 x2 x3 x4 (Spec.pick (x0 (ix1 r))) f := by
  unfold val_main_v41
  exact (RefLib.concat2_left (val_main_v40 (F := Ideal) x0 x1 x2 x3 x4) (val_main_v33 (F := Ideal) x0 x1 x2 x3 x4) _ r f
    (Fin.castAdd 128 f) rfl).trans (v40_at x0 x1 x2 x3 x4 r f)

theorem v41_at_right (r : Fin 4096) (f : Fin 128) :
    val_main_v41 (F := Ideal) x0 x1 x2 x3 x4 (ix2 r (Fin.natAdd 128 f)) = Spec.neigh (adjOf x1) (hid x1 x2 x3 x4) (Spec.pick (x0 (ix1 r))) f := by
  unfold val_main_v41
  exact (RefLib.concat2_right (val_main_v40 (F := Ideal) x0 x1 x2 x3 x4) (val_main_v33 (F := Ideal) x0 x1 x2 x3 x4) _ r f
    (Fin.natAdd 128 f) rfl).trans (v33_at x0 x1 x2 x3 x4 r f)

theorem v42_at (k : Fin 256) (e : Fin 128) : val_main_v42 (F := Ideal) x5 (ix2 k e) = x5 (ix2 e k) :=
  (val_main_v42_apply x5 (ix2 k e)).trans (congrArg x5 (i_v42 k e))

theorem v43_term (r : Fin 4096) (e : Fin 128) (k : Fin 256) :
    (val_main_v41 (F := Ideal) x0 x1 x2 x3 x4) (lidx_main_v43 (ix2 r e) k) * (val_main_v42 (F := Ideal) x5) (ridx_main_v43 (ix2 r e) k)
      = val_main_v41 (F := Ideal) x0 x1 x2 x3 x4 (ix2 r k) * x5 (ix2 e k) :=
  congrArg₂ (· * ·) (congrArg (val_main_v41 (F := Ideal) x0 x1 x2 x3 x4) (li_v43 r e k))
    ((congrArg (val_main_v42 (F := Ideal) x5) (ri_v43 r e k)).trans (v42_at x5 k e))

theorem v43_at (r : Fin 4096) (e : Fin 128) :
    val_main_v43 (F := Ideal) x0 x1 x2 x3 x4 x5 (ix2 r e)
      = (∑ f, hid x1 x2 x3 x4 (Spec.pick (x0 (ix1 r))) f * w2sOf x5 f e)
        + ∑ f, Spec.neigh (adjOf x1) (hid x1 x2 x3 x4) (Spec.pick (x0 (ix1 r))) f * w2nOf x5 f e := by
  refine (val_main_v43_apply x0 x1 x2 x3 x4 x5 (ix2 r e)).trans ?_
  refine (Finset.sum_congr rfl fun k _ => v43_term x0 x1 x2 x3 x4 x5 r e k).trans ?_
  refine (Fin.sum_univ_add (a := 128) (b := 128) _).trans ?_
  refine congrArg₂ (· + ·) (Finset.sum_congr rfl fun f _ => ?_) (Finset.sum_congr rfl fun f _ => ?_)
  · exact congrArg (· * x5 (ix2 e (Fin.castAdd 128 f))) (v41_at_left x0 x1 x2 x3 x4 r f)
  · exact congrArg (· * x5 (ix2 e (Fin.natAdd 128 f))) (v41_at_right x0 x1 x2 x3 x4 r f)

theorem v45_at (r : Fin 4096) (e : Fin 128) : val_main_v45 (F := Ideal) x6 (ix2 r e) = biasOf x6 e :=
  (val_main_v45_apply x6 (ix2 r e)).trans ((congrArg (val_main_v44 (F := Ideal) x6) (i_v45 r e)).trans
    ((val_main_v44_apply x6 _).trans (congrArg x6 (i_v44 _ e))))

theorem v46_at (r : Fin 4096) (e : Fin 128) :
    val_main_v46 (F := Ideal) x0 x1 x2 x3 x4 x5 x6 (ix2 r e) = Spec.lin (adjOf x1) (hid x1 x2 x3 x4) (w2sOf x5) (w2nOf x5) (biasOf x6) (Spec.pick (x0 (ix1 r))) e := by
  refine (val_main_v46_apply x0 x1 x2 x3 x4 x5 x6 (ix2 r e)).trans ?_
  rw [v43_at, v45_at]
  rfl

theorem v47_at (r : Fin 4096) (e : Fin 128) :
    val_main_v47 (F := Ideal) x0 x1 x2 x3 x4 x5 x6 (ix2 r e) = Spec.act (adjOf x1) (hid x1 x2 x3 x4) (w2sOf x5) (w2nOf x5) (biasOf x6) (Spec.pick (x0 (ix1 r))) e := by
  refine (val_main_v47_apply x0 x1 x2 x3 x4 x5 x6 (ix2 r e)).trans ?_
  rw [v46_at, val_main_call2_v0_apply, val_main_call2_cst_apply]
  rfl

theorem call3_v1_at (r : Fin 4096) :
    val_main_call3_v1 (F := Ideal) x0 x1 x2 x3 x4 x5 x6 (ix1 r) = ∑ e, Spec.act (adjOf x1) (hid x1 x2 x3 x4) (w2sOf x5) (w2nOf x5) (biasOf x6) (Spec.pick (x0 (ix1 r))) e * Spec.act (adjOf x1) (hid x1 x2 x3 x4) (w2sOf x5) (w2nOf x5) (biasOf x6) (Spec.pick (x0 (ix1 r))) e := by
  refine (val_main_call3_v1_apply x0 x1 x2 x3 x4 x5 x6 (ix1 r)).trans ?_
  rw [val_main_call3_cst_apply]
  show Ideal.ofBits .f32 0x00000000#32 + _ = _
  rw [Ideal.ofBits_zero_f32, zero_add]
  refine Finset.sum_congr rfl fun k _ => ?_
  refine (congrArg (val_main_call3_v0 (F := Ideal) x0 x1 x2 x3 x4 x5 x6) (i_c3v1 r k)).trans ?_
  rw [val_main_call3_v0_apply, v47_at]
  rfl

theorem v50_at (r : Fin 4096) (z : Fin 1) :
    val_main_v50 (F := Ideal) x0 x1 x2 x3 x4 x5 x6 (ix2 r z) = Spec.rowNorm (adjOf x1) (hid x1 x2 x3 x4) (w2sOf x5) (w2nOf x5) (biasOf x6) (Spec.pick (x0 (ix1 r))) := by
  refine (val_main_v50_apply x0 x1 x2 x3 x4 x5 x6 (ix2 r z)).trans ?_
  rw [val_main_v48_apply, val_main_call3_v2_apply, val_main_v49_apply, val_main_cst_6_apply,
    congrArg (val_main_call3_v1 (F := Ideal) x0 x1 x2 x3 x4 x5 x6) (i_c3v2 r z), call3_v1_at]
  rfl

theorem v51_at (r : Fin 4096) (e : Fin 128) :
    val_main_v51 (F := Ideal) x0 x1 x2 x3 x4 x5 x6 (ix2 r e) = Spec.rowNorm (adjOf x1) (hid x1 x2 x3 x4) (w2sOf x5) (w2nOf x5) (biasOf x6) (Spec.pick (x0 (ix1 r))) :=
  (val_main_v51_apply x0 x1 x2 x3 x4 x5 x6 (ix2 r e)).trans
    ((congrArg (val_main_v50 (F := Ideal) x0 x1 x2 x3 x4 x5 x6) (i_v51 r e)).trans (v50_at x0 x1 x2 x3 x4 x5 x6 r _))

/-- The second layer's output at the selected rows. -/
theorem v52_at (r : Fin 4096) (e : Fin 128) :
    val_main_v52 (F := Ideal) x0 x1 x2 x3 x4 x5 x6 (ix2 r e) = Spec.enc (adjOf x1) (hid x1 x2 x3 x4) (w2sOf x5) (w2nOf x5) (biasOf x6) (Spec.pick (x0 (ix1 r))) e := by
  refine (val_main_v52_apply x0 x1 x2 x3 x4 x5 x6 (ix2 r e)).trans ?_
  rw [v47_at, v51_at]
  rfl

end

end Cert.RefLayers

end
-- ==== Proof.RefLayers.lean ====
/-
  The reference's two encoder layers are the specification.

  Entry `(r, e)` of the array the reference's classifier head starts from is `Spec.twoLayer` of the argument arrays read
  by coordinates: the second layer's output at node `pick (nodes r)`, its features the first layer's output at every
  node.
-/
import proofs.«128407_j39814346834350_1_alg».proof.Proof.RefLayer2

noncomputable section

namespace Cert.RefLayers

open Cert.ReferenceIdeal Cert.ReferenceIdeal.Gen Cert.ReferenceIdeal.ReadP Idealize.ShloMosaic Idealize.ShloMosaic.ValueIdx

theorem v52_eq (x0 : (⟨S4096, .i32⟩ : BufTy).Contents (Elt Ideal)) (x1 : (⟨S16384x16384, .f32⟩ : BufTy).Contents (Elt Ideal)) (x2 : (⟨S16384x500, .f32⟩ : BufTy).Contents (Elt Ideal))
    (x3 : (⟨S128x1000, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal))
    (r : Fin 4096) (e : Fin 128) :
    Cert.ReferenceIdeal.ReadP.val_main_v52 (F := Ideal) x0 x1 x2 x3 x4 x5 x6 (ValueIdx.ix2 r e)
      = Cert.Spec.twoLayer (fun r => x0 (ValueIdx.ix1 r)) (fun n j => x1 (ValueIdx.ix2 n j)) (fun n f => x2 (ValueIdx.ix2 n f))
          (fun f e => x3 (ValueIdx.ix2 e (Fin.castAdd 500 f))) (fun f e => x3 (ValueIdx.ix2 e (Fin.natAdd 500 f)))
          (fun e => x4 (ValueIdx.ix1 e))
          (fun f e => x5 (ValueIdx.ix2 e (Fin.castAdd 128 f))) (fun f e => x5 (ValueIdx.ix2 e (Fin.natAdd 128 f)))
          (fun e => x6 (ValueIdx.ix1 e)) r e :=
  v52_at x0 x1 x2 x3 x4 x5 x6 r e

end Cert.RefLayers

end
-- ==== Proof.Bridge.lean ====
/-
  The two programs' second-layer rows are one array.

  The reference's [4096, 128] array before its classifier head, read at (r, e), is the two-layer encoder at the row the
  batch selects (the reference side's layer-by-layer reading); the kernel's gathered rows are the same function of the
  same arguments. The two readings name the weight halves differently — columns f and 500 + f of the [128, 1000] weight as
  `Fin.castAdd 500 f`, `Fin.natAdd 500 f` on one side and as the numbers themselves on the other — which are the same
  indices.
-/
import proofs.«128407_j39814346834350_1_alg».proof.Proof.RefLayers
import proofs.«128407_j39814346834350_1_alg».proof.Proof.IdealKernelValue

noncomputable section

namespace Cert.Bridge

open Idealize.ShloMosaic Idealize.ShloMosaic.TcCoe Idealize.ShloMosaic.ValueIdx Idealize.SL.Sem

/-- The reference's second-layer rows, of the kernel program's argument arrays, are the kernel's selected rows. -/
theorem v52_sel (m : (ℓ : Loc Cert.KernelIdeal.nD Cert.KernelIdeal.τ Cert.KernelIdeal.sig) → Buf (Elt Ideal) ℓ) (c : Dev Cert.KernelIdeal.nD) :
    Cert.ReferenceIdeal.ReadP.val_main_v52 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.KV.sel m c := by
  funext i
  obtain ⟨r, e, rfl⟩ : ∃ (r : Fin 4096) (e : Fin 128), i = ix2 r e := ⟨i 0, i 1, eq_ix2 i⟩
  rw [Cert.RefLayers.v52_eq]
  rfl

end Cert.Bridge

end
-- ==== Proof.lean ====
/-
  A two-layer graph encoder with a classifier head: the Pallas kernel against its jnp reference.

  Both programs take a batch of 4096 node numbers, a 16384 × 16384 adjacency, 16384 × 500 node features, two layer weights
  with biases and two head weights with biases. One layer divides the adjacency-weighted sum of the neighbours' features
  by the row's degree, applies an affine map to [own features, neighbour mean], rectifies, and scales each row to unit
  Euclidean length (`Spec.enc`); two layers are stacked, the batch's rows are selected, and a two-step linear head with
  a row softmax follows (`Tail.tail`).

  The kernel computes each layer for ALL nodes in one pallas_call on a 16 × 8 grid, accumulating the neighbour sum and the
  degree over eight column blocks of the adjacency in two scratch buffers and encoding a row block when its eighth column
  block has been added; it selects the batch's rows after the second layer. The reference selects the batch's rows of the
  adjacency, the degree and the first layer BEFORE the second layer. On the extended reals the two agree because: a sum
  over 16384 columns is the sum of its eight blocks added in order from zero (addition is commutative and associative;
  nothing needs to be finite, so the precondition is never opened); the affine map on a concatenation is the sum of the
  two halves' maps; a row of a layer depends only on that row of the adjacency and of the features (and on all the
  features through the neighbour sum), so selecting rows before or after the layer gives the same rows; and both index
  with the same rule (a negative node number counts from the end, the result is clamped into range).

  The claims: the three programs run to the end without a fault and leave their arguments unchanged (the two kernel
  programs by the launch of their two regions over the per-point obligations of the kernel body; the reference by its
  run); the ideal pass rewrote nothing; and the idealized kernel and the idealized reference end with equal results.
-/
import proofs.«128407_j39814346834350_1_alg».proof.Defs
import proofs.«128407_j39814346834350_1_alg».proof.Proof.Gen.Kernel
import proofs.«128407_j39814346834350_1_alg».proof.Proof.Gen.KernelIdeal
import proofs.«128407_j39814346834350_1_alg».proof.Proof.Gen.ReferenceIdeal
import proofs.«128407_j39814346834350_1_alg».proof.Proof.Gen.Pre_finite_inputs
import proofs.«128407_j39814346834350_1_alg».proof.Proof.KernelLaunch
import proofs.«128407_j39814346834350_1_alg».proof.Proof.IdealLaunch
import proofs.«128407_j39814346834350_1_alg».proof.Proof.IdealKernelValue
import proofs.«128407_j39814346834350_1_alg».proof.Proof.RefTail
import proofs.«128407_j39814346834350_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Launch.frame m ρ

/-- So does its idealization. -/
theorem frame_ki : Cert.frame_KernelIdeal := fun m ρ _ => Cert.KernelIdeal.Launch.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- At the ideal instance, from memories that agree on the arguments, both programs end with the head and softmax of the
    same selected rows of the two-layer encoder. -/
theorem algebraic : Cert.algebraic_KernelIdeal_ReferenceIdeal := by
  intro m ρ m' ρ' _ hagree
  refine ⟨fun c => Cert.KernelIdeal.Gen.V5 m (Cert.KernelIdeal.Launch.outs m) c (Proc.devRef .tc Cert.KernelIdeal.main_v37),
    Cert.KernelIdeal.Launch.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.RefTail.res_eq_tail m' c, h0, h1, h2, h3, h4, h5, h6, h7, h8, h9, h10, Cert.Bridge.v52_sel m c]
  exact (Cert.KernelIdeal.KV.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
